-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x2048 : Shape := ⟨3, ![2, 8192, 2048]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel

variable [Facts]

def fn {F : FTy → Type} [FloatOps F] (main_arg0 : FVec F S2x8192x2048 .f32) (main_arg1 : FVec F S2x8192x2048 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S2x8192x2048 .f32 := Host.absf main_arg1
  let main_cst_0 : FVec F S_ .f32 := constant S_ .f32 0x7F800000#32
  let main_v5 : FVec F S2x8192x2048 .f32 := broadcastInDim S2x8192x2048 ![] bcast_S_S2x8192x2048 main_cst_0
  let main_v6 : IVec S2x8192x2048 1 := cmpf .olt main_v4 main_v5
  let main_c_1 : IVec S_ 1 := constantI S_ 1 1#1
  let main_v7 : IVec S_ 1 := (fun x v => Host.reduce IntOp.andi x v reducesTo_S2x8192x2048_S_d0_1_2 h_S_) main_v6 main_c_1
  let main_v8 : IVec S_ 1 := andi main_v3 main_v7
  main_v8
-- ==== Kernel.lean ====
abbrev S2x8192x2048 : Shape := ⟨3, ![2, 8192, 2048]⟩
abbrev S16384x2048 : Shape := ⟨2, ![16384, 2048]⟩
abbrev S256 : Shape := ⟨1, ![256]⟩
abbrev S8x2048 : Shape := ⟨2, ![8, 2048]⟩
abbrev S16 : Shape := ⟨1, ![16]⟩
abbrev S_ : Shape := ⟨0, ![]⟩
abbrev S1x2048 : Shape := ⟨2, ![1, 2048]⟩
abbrev S2048 : Shape := ⟨1, ![2048]⟩
abbrev S1 : Shape := ⟨1, ![1]⟩
abbrev S512x2048 : Shape := ⟨2, ![512, 2048]⟩
abbrev S1x512x2048 : Shape := ⟨3, ![1, 512, 2048]⟩
abbrev S1x1x1 : Shape := ⟨3, ![1, 1, 1]⟩

abbrev nBuf : Table → Nat
  | .hbm => 17
  | .local .tc .vmem => 4
  | .local .tc .smem => 2
  | .local .scVector .vmem => 6
  | _ => 0

abbrev bufTy : (tb : Table) → Fin (nBuf tb) → BufTy
  | .hbm, ⟨0, _⟩ => ⟨S2x8192x2048, .f32⟩
  | .hbm, ⟨1, _⟩ => ⟨S2x8192x2048, .f32⟩
  | .hbm, ⟨2, _⟩ => ⟨S16384x2048, .f32⟩
  | .hbm, ⟨3, _⟩ => ⟨S16384x2048, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local .tc .vmem, ⟨0, _⟩ => ⟨S512x2048, .f32⟩
  | .local .tc .vmem, ⟨1, _⟩ => ⟨S512x2048, .f32⟩
  | .local .tc .vmem, ⟨2, _⟩ => ⟨S512x2048, .f32⟩
  | .local .tc .vmem, ⟨3, _⟩ => ⟨S512x2048, .f32⟩
  | .local .tc .smem, ⟨0, _⟩ => ⟨S1, .f32⟩
  | .local .tc .smem, ⟨1, _⟩ => ⟨S1, .f32⟩
  | .local .scVector .vmem, ⟨0, _⟩ => ⟨S8x2048, .f32⟩
  | .local .scVector .vmem, ⟨1, _⟩ => ⟨S8x2048, .f32⟩
  | .local .scVector .vmem, ⟨2, _⟩ => ⟨S8x2048, .f32⟩
  | .local .scVector .vmem, ⟨3, _⟩ => ⟨S8x2048, .f32⟩
  | .local .scVector .vmem, ⟨4, _⟩ => ⟨S16, .f32⟩
  | .local .scVector .vmem, ⟨5, _⟩ => ⟨S16, .f32⟩
  | _, _ => ⟨S2x8192x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v0_scv : Ref sig .scVector := ⟨.hbm, 2, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.smem, 0, rfl⟩
abbrev cc1_stg3_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v3 : BitVec 32 := Scalar.addi v2 c0_i32
  let c0_i32_0 : BitVec 32 := 0#32
  ![v3.toNat, 0]
@[reducible] def k0_t1_loop : Scf.Loop 32 :=
  let c0_i32_4 : BitVec 32 := 0#32
  let c8_i32 : BitVec 32 := 8#32
  let v9 : BitVec 32 := Scalar.addi c0_i32_4 c8_i32
  let c1_i32_5 : BitVec 32 := 1#32
  ⟨c0_i32_4, v9, c1_i32_5⟩
def k0_off2 (i : grid0.Coords) (k0_t1 : Fin k0_t1_loop.trips) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32 : BitVec 32 := 2#32
  let c0_i32_4 : BitVec 32 := 0#32
  let c1_i32_5 : BitVec 32 := 1#32
  let arg16 : BitVec 32 := Scf.iv c0_i32_4 c1_i32_5 k0_t1
  let v21 : BitVec 32 := Scalar.muli c2_i32 arg16
  let c1_i32_9 : BitVec 32 := 1#32
  let v22 : BitVec 32 := Scalar.addi v21 c1_i32_9
  let c8_i32_10 : BitVec 32 := 8#32
  let v23 : BitVec 32 := Scalar.muli v22 c8_i32_10
  let v24 : BitVec 32 := Scalar.addi v2 v23
  let c0_i32_11 : BitVec 32 := 0#32
  ![v24.toNat, 0]
@[reducible] def k0_t2_loop : Scf.Loop 32 :=
  let c0_i32_25 : BitVec 32 := 0#32
  let c16_i32_26 : BitVec 32 := 16#32
  let v33 : BitVec 32 := Scalar.addi c0_i32_25 c16_i32_26
  let c1_i32_27 : BitVec 32 := 1#32
  ⟨c0_i32_25, v33, c1_i32_27⟩
def k0_off3 (k0_t2 : Fin k0_t2_loop.trips) (c0_i32_126 : BitVec 32) : Fin 1 → Nat :=
  let c0_i32_25 : BitVec 32 := 0#32
  let c1_i32_27 : BitVec 32 := 1#32
  let arg21 : BitVec 32 := Scf.iv c0_i32_25 c1_i32_27 k0_t2
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t3_loop : Scf.Loop 32 :=
  let c0_i32_31 : BitVec 32 := 0#32
  let c16_i32_32 : BitVec 32 := 16#32
  let v35 : BitVec 32 := Scalar.addi c0_i32_31 c16_i32_32
  let c1_i32_33 : BitVec 32 := 1#32
  ⟨c0_i32_31, v35, c1_i32_33⟩
def k0_off4 (k0_t3 : Fin k0_t3_loop.trips) (c0_i32_126 : BitVec 32) : Fin 1 → Nat :=
  let c0_i32_31 : BitVec 32 := 0#32
  let c1_i32_33 : BitVec 32 := 1#32
  let arg21 : BitVec 32 := Scf.iv c0_i32_31 c1_i32_33 k0_t3
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t4_loop : Scf.Loop 32 :=
  let c0_i32_37 : BitVec 32 := 0#32
  let c16_i32_38 : BitVec 32 := 16#32
  let v37 : BitVec 32 := Scalar.addi c0_i32_37 c16_i32_38
  let c1_i32_39 : BitVec 32 := 1#32
  ⟨c0_i32_37, v37, c1_i32_39⟩
def k0_off5 (k0_t4 : Fin k0_t4_loop.trips) (c0_i32_126 : BitVec 32) : Fin 1 → Nat :=
  let c0_i32_37 : BitVec 32 := 0#32
  let c1_i32_39 : BitVec 32 := 1#32
  let arg21 : BitVec 32 := Scf.iv c0_i32_37 c1_i32_39 k0_t4
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t5_loop : Scf.Loop 32 :=
  let c0_i32_42 : BitVec 32 := 0#32
  let c16_i32_43 : BitVec 32 := 16#32
  let v39 : BitVec 32 := Scalar.addi c0_i32_42 c16_i32_43
  let c1_i32_44 : BitVec 32 := 1#32
  ⟨c0_i32_42, v39, c1_i32_44⟩
def k0_off6 (k0_t5 : Fin k0_t5_loop.trips) (c0_i32_126 : BitVec 32) : Fin 1 → Nat :=
  let c0_i32_42 : BitVec 32 := 0#32
  let c1_i32_44 : BitVec 32 := 1#32
  let arg21 : BitVec 32 := Scf.iv c0_i32_42 c1_i32_44 k0_t5
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t6_loop : Scf.Loop 32 :=
  let c0_i32_47 : BitVec 32 := 0#32
  let c16_i32_48 : BitVec 32 := 16#32
  let v41 : BitVec 32 := Scalar.addi c0_i32_47 c16_i32_48
  let c1_i32_49 : BitVec 32 := 1#32
  ⟨c0_i32_47, v41, c1_i32_49⟩
def k0_off7 (k0_t6 : Fin k0_t6_loop.trips) (c0_i32_126 : BitVec 32) : Fin 1 → Nat :=
  let c0_i32_47 : BitVec 32 := 0#32
  let c1_i32_49 : BitVec 32 := 1#32
  let arg21 : BitVec 32 := Scf.iv c0_i32_47 c1_i32_49 k0_t6
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t7_loop : Scf.Loop 32 :=
  let c0_i32_52 : BitVec 32 := 0#32
  let c16_i32_53 : BitVec 32 := 16#32
  let v43 : BitVec 32 := Scalar.addi c0_i32_52 c16_i32_53
  let c1_i32_54 : BitVec 32 := 1#32
  ⟨c0_i32_52, v43, c1_i32_54⟩
def k0_off8 (k0_t7 : Fin k0_t7_loop.trips) (c0_i32_126 : BitVec 32) : Fin 1 → Nat :=
  let c0_i32_52 : BitVec 32 := 0#32
  let c1_i32_54 : BitVec 32 := 1#32
  let arg21 : BitVec 32 := Scf.iv c0_i32_52 c1_i32_54 k0_t7
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t8_loop : Scf.Loop 32 :=
  let c0_i32_57 : BitVec 32 := 0#32
  let c16_i32_58 : BitVec 32 := 16#32
  let v45 : BitVec 32 := Scalar.addi c0_i32_57 c16_i32_58
  let c1_i32_59 : BitVec 32 := 1#32
  ⟨c0_i32_57, v45, c1_i32_59⟩
def k0_off9 (k0_t8 : Fin k0_t8_loop.trips) (c0_i32_126 : BitVec 32) : Fin 1 → Nat :=
  let c0_i32_57 : BitVec 32 := 0#32
  let c1_i32_59 : BitVec 32 := 1#32
  let arg21 : BitVec 32 := Scf.iv c0_i32_57 c1_i32_59 k0_t8
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t9_loop : Scf.Loop 32 :=
  let c0_i32_62 : BitVec 32 := 0#32
  let c16_i32_63 : BitVec 32 := 16#32
  let v47 : BitVec 32 := Scalar.addi c0_i32_62 c16_i32_63
  let c1_i32_64 : BitVec 32 := 1#32
  ⟨c0_i32_62, v47, c1_i32_64⟩
def k0_off10 (k0_t9 : Fin k0_t9_loop.trips) (c0_i32_126 : BitVec 32) : Fin 1 → Nat :=
  let c0_i32_62 : BitVec 32 := 0#32
  let c1_i32_64 : BitVec 32 := 1#32
  let arg21 : BitVec 32 := Scf.iv c0_i32_62 c1_i32_64 k0_t9
  let c128_i32_125 : BitVec 32 := 128#32
  let v73 : BitVec 32 := Scalar.muli arg21 c128_i32_125
  let v74 : BitVec 32 := Scalar.addi v73 c0_i32_126
  let v77 : Index := Scalar.indexCast v74
  ![v77.toNat]
def k0_cond1 (k0_t1 : Fin k0_t1_loop.trips) : BitVec 1 :=
  let c0_i32_4 : BitVec 32 := 0#32
  let c1_i32_5 : BitVec 32 := 1#32
  let arg16 : BitVec 32 := Scf.iv c0_i32_4 c1_i32_5 k0_t1
  let c1_i32_66 : BitVec 32 := 1#32
  let v49 : BitVec 32 := Scalar.addi arg16 c1_i32_66
  let c8_i32_67 : BitVec 32 := 8#32
  let v50 : BitVec 1 := Scalar.cmpi .slt v49 c8_i32_67
  let v51 : BitVec 32 := Scalar.extui v50
  let c0_i32_68 : BitVec 32 := 0#32
  let v52 : BitVec 1 := Scalar.cmpi .ne v51 c0_i32_68
  v52

def k0_off11 (i : grid0.Coords) (k0_t1 : Fin k0_t1_loop.trips) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_125 : BitVec 32 := 2#32
  let c0_i32_4 : BitVec 32 := 0#32
  let c1_i32_5 : BitVec 32 := 1#32
  let arg16 : BitVec 32 := Scf.iv c0_i32_4 c1_i32_5 k0_t1
  let v73 : BitVec 32 := Scalar.muli c2_i32_125 arg16
  let c2_i32_126 : BitVec 32 := 2#32
  let v74 : BitVec 32 := Scalar.addi v73 c2_i32_126
  let c8_i32_127 : BitVec 32 := 8#32
  let v75 : BitVec 32 := Scalar.muli v74 c8_i32_127
  let v76 : BitVec 32 := Scalar.addi v2 v75
  let c0_i32_128 : BitVec 32 := 0#32
  ![v76.toNat, 0]
@[reducible] def k0_t10_loop : Scf.Loop 32 :=
  let c0_i32_79 : BitVec 32 := 0#32
  let c16_i32_80 : BitVec 32 := 16#32
  let v57 : BitVec 32 := Scalar.addi c0_i32_79 c16_i32_80
  let c1_i32_81 : BitVec 32 := 1#32
  ⟨c0_i32_79, v57, c1_i32_81⟩
def k0_off12 (k0_t10 : Fin k0_t10_loop.trips) (c0_i32_126 : BitVec 32) : Fin 1 → Nat :=
  let c0_i32_79 : BitVec 32 := 0#32
  let c1_i32_81 : BitVec 32 := 1#32
  let arg21 : BitVec 32 := Scf.iv c0_i32_79 c1_i32_81 k0_t10
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t11_loop : Scf.Loop 32 :=
  let c0_i32_85 : BitVec 32 := 0#32
  let c16_i32_86 : BitVec 32 := 16#32
  let v59 : BitVec 32 := Scalar.addi c0_i32_85 c16_i32_86
  let c1_i32_87 : BitVec 32 := 1#32
  ⟨c0_i32_85, v59, c1_i32_87⟩
def k0_off13 (k0_t11 : Fin k0_t11_loop.trips) (c0_i32_126 : BitVec 32) : Fin 1 → Nat :=
  let c0_i32_85 : BitVec 32 := 0#32
  let c1_i32_87 : BitVec 32 := 1#32
  let arg21 : BitVec 32 := Scf.iv c0_i32_85 c1_i32_87 k0_t11
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t12_loop : Scf.Loop 32 :=
  let c0_i32_91 : BitVec 32 := 0#32
  let c16_i32_92 : BitVec 32 := 16#32
  let v61 : BitVec 32 := Scalar.addi c0_i32_91 c16_i32_92
  let c1_i32_93 : BitVec 32 := 1#32
  ⟨c0_i32_91, v61, c1_i32_93⟩
def k0_off14 (k0_t12 : Fin k0_t12_loop.trips) (c0_i32_126 : BitVec 32) : Fin 1 → Nat :=
  let c0_i32_91 : BitVec 32 := 0#32
  let c1_i32_93 : BitVec 32 := 1#32
  let arg21 : BitVec 32 := Scf.iv c0_i32_91 c1_i32_93 k0_t12
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t13_loop : Scf.Loop 32 :=
  let c0_i32_97 : BitVec 32 := 0#32
  let c16_i32_98 : BitVec 32 := 16#32
  let v63 : BitVec 32 := Scalar.addi c0_i32_97 c16_i32_98
  let c1_i32_99 : BitVec 32 := 1#32
  ⟨c0_i32_97, v63, c1_i32_99⟩
def k0_off15 (k0_t13 : Fin k0_t13_loop.trips) (c0_i32_126 : BitVec 32) : Fin 1 → Nat :=
  let c0_i32_97 : BitVec 32 := 0#32
  let c1_i32_99 : BitVec 32 := 1#32
  let arg21 : BitVec 32 := Scf.iv c0_i32_97 c1_i32_99 k0_t13
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t14_loop : Scf.Loop 32 :=
  let c0_i32_103 : BitVec 32 := 0#32
  let c16_i32_104 : BitVec 32 := 16#32
  let v65 : BitVec 32 := Scalar.addi c0_i32_103 c16_i32_104
  let c1_i32_105 : BitVec 32 := 1#32
  ⟨c0_i32_103, v65, c1_i32_105⟩
def k0_off16 (k0_t14 : Fin k0_t14_loop.trips) (c0_i32_126 : BitVec 32) : Fin 1 → Nat :=
  let c0_i32_103 : BitVec 32 := 0#32
  let c1_i32_105 : BitVec 32 := 1#32
  let arg21 : BitVec 32 := Scf.iv c0_i32_103 c1_i32_105 k0_t14
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t15_loop : Scf.Loop 32 :=
  let c0_i32_109 : BitVec 32 := 0#32
  let c16_i32_110 : BitVec 32 := 16#32
  let v67 : BitVec 32 := Scalar.addi c0_i32_109 c16_i32_110
  let c1_i32_111 : BitVec 32 := 1#32
  ⟨c0_i32_109, v67, c1_i32_111⟩
def k0_off17 (k0_t15 : Fin k0_t15_loop.trips) (c0_i32_126 : BitVec 32) : Fin 1 → Nat :=
  let c0_i32_109 : BitVec 32 := 0#32
  let c1_i32_111 : BitVec 32 := 1#32
  let arg21 : BitVec 32 := Scf.iv c0_i32_109 c1_i32_111 k0_t15
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t16_loop : Scf.Loop 32 :=
  let c0_i32_115 : BitVec 32 := 0#32
  let c16_i32_116 : BitVec 32 := 16#32
  let v69 : BitVec 32 := Scalar.addi c0_i32_115 c16_i32_116
  let c1_i32_117 : BitVec 32 := 1#32
  ⟨c0_i32_115, v69, c1_i32_117⟩
def k0_off18 (k0_t16 : Fin k0_t16_loop.trips) (c0_i32_126 : BitVec 32) : Fin 1 → Nat :=
  let c0_i32_115 : BitVec 32 := 0#32
  let c1_i32_117 : BitVec 32 := 1#32
  let arg21 : BitVec 32 := Scf.iv c0_i32_115 c1_i32_117 k0_t16
  let c128_i32_125 : BitVec 32 := 128#32
  let v73 : BitVec 32 := Scalar.muli arg21 c128_i32_125
  let v74 : BitVec 32 := Scalar.addi v73 c0_i32_126
  let v77 : Index := Scalar.indexCast v74
  ![v77.toNat]
@[reducible] def k0_t17_loop : Scf.Loop 32 :=
  let c0_i32_121 : BitVec 32 := 0#32
  let c16_i32_122 : BitVec 32 := 16#32
  let v71 : BitVec 32 := Scalar.addi c0_i32_121 c16_i32_122
  let c1_i32_123 : BitVec 32 := 1#32
  ⟨c0_i32_121, v71, c1_i32_123⟩
def k0_off19 (k0_t17 : Fin k0_t17_loop.trips) (c0_i32_126 : BitVec 32) : Fin 1 → Nat :=
  let c0_i32_121 : BitVec 32 := 0#32
  let c1_i32_123 : BitVec 32 := 1#32
  let arg21 : BitVec 32 := Scf.iv c0_i32_121 c1_i32_123 k0_t17
  let c128_i32_125 : BitVec 32 := 128#32
  let v73 : BitVec 32 := Scalar.muli arg21 c128_i32_125
  let v74 : BitVec 32 := Scalar.addi v73 c0_i32_126
  let v77 : Index := Scalar.indexCast v74
  ![v77.toNat]
def k0_off20 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c16_i32 : BitVec 32 := 16#32
  let v19 : BitVec 32 := Scalar.muli v1 c16_i32
  ![v19.toNat]
abbrev grid1 : Pipeline.Grid := ⟨1, ![28], ![false]⟩

def cc1_transform_0 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S2x8192x2048_S16384x2048 : S2x8192x2048.ShapeCasts S16384x2048
  inb_S16384x2048_S8x2048_0_0 : ∀ a, (![0, 0] : Fin 2 → Nat) a + S8x2048.size a ≤ S16384x2048.size a
  inb_S8x2048_S1x2048_0_0 : ∀ a, (![0, 0] : Fin 2 → Nat) a + S1x2048.size a ≤ S8x2048.size a
  squeezes_S1x2048_S2048 : S1x2048.Squeezes S2048
  h_S16 : 0 < S16.numel
  shapeCasts_S16_S16 : S16.ShapeCasts S16
  inb_S8x2048_S1x2048_1_0 : ∀ a, (![1, 0] : Fin 2 → Nat) a + S1x2048.size a ≤ S8x2048.size a
  inb_S8x2048_S1x2048_2_0 : ∀ a, (![2, 0] : Fin 2 → Nat) a + S1x2048.size a ≤ S8x2048.size a
  inb_S8x2048_S1x2048_3_0 : ∀ a, (![3, 0] : Fin 2 → Nat) a + S1x2048.size a ≤ S8x2048.size a
  inb_S8x2048_S1x2048_4_0 : ∀ a, (![4, 0] : Fin 2 → Nat) a + S1x2048.size a ≤ S8x2048.size a
  inb_S8x2048_S1x2048_5_0 : ∀ a, (![5, 0] : Fin 2 → Nat) a + S1x2048.size a ≤ S8x2048.size a
  inb_S8x2048_S1x2048_6_0 : ∀ a, (![6, 0] : Fin 2 → Nat) a + S1x2048.size a ≤ S8x2048.size a
  inb_S8x2048_S1x2048_7_0 : ∀ a, (![7, 0] : Fin 2 → Nat) a + S1x2048.size a ≤ S8x2048.size a
  inb_S16_S16_0 : ∀ a, (![0] : Fin 1 → Nat) a + S16.size a ≤ S16.size a
  reducesTo_S256_S_d0 : S256.ReducesTo [0] S_
  h_S_ : 0 < S_.numel
  inb_S1_S1_0 : ∀ a, (![0] : Fin 1 → Nat) a + S1.size a ≤ S1.size a
  numel1_S1 : S1.numel = 1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S512x2048_S1x512x2048 : S512x2048.ShapeCasts S1x512x2048
  reduces_S1x512x2048_S1 : S1x512x2048.Reduces [1, 2] S1
  shapeCasts_S1_S1x1x1 : S1.ShapeCasts S1x1x1
  inpos_S1x1x1_p0_0_0 : ∀ a, (![0, 0, 0] : Fin 3 → Nat) a < S1x1x1.size a
  shapeCasts_S1_S_ : S1.ShapeCasts S_
  hcc0_scratch6 : 0 + S_.numel ≤ 12
  hcc0_scratch7 : 1 + S_.numel ≤ 12
  hcc0_scratch8 : 2 + S_.numel ≤ 12
  hcc0_scratch9 : 3 + S_.numel ≤ 12
  hcc0_scoped0 : 4 + S_.numel ≤ 12
  hcc0_scoped1 : 5 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x2048.size a ≤ S16384x2048.size a
  k0_t1_ok : k0_t1_loop.OK
  k0_off2_inb : ∀ (i : grid0.Coords) (k0_t1 : Fin k0_t1_loop.trips), ∀ a, (k0_off2 i k0_t1) a + S8x2048.size a ≤ S16384x2048.size a
  k0_t2_ok : k0_t2_loop.OK
  k0_off3_inb : ∀ k0_t2 : Fin k0_t2_loop.trips, ∀ (r : Fin 8), ∀ a, (k0_off3 k0_t2 (BitVec.ofNat 32 (16 * r.val))) a + S16.size a ≤ S2048.size a
  k0_t3_ok : k0_t3_loop.OK
  k0_off4_inb : ∀ k0_t3 : Fin k0_t3_loop.trips, ∀ (r : Fin 8), ∀ a, (k0_off4 k0_t3 (BitVec.ofNat 32 (16 * r.val))) a + S16.size a ≤ S2048.size a
  k0_t4_ok : k0_t4_loop.OK
  k0_off5_inb : ∀ k0_t4 : Fin k0_t4_loop.trips, ∀ (r : Fin 8), ∀ a, (k0_off5 k0_t4 (BitVec.ofNat 32 (16 * r.val))) a + S16.size a ≤ S2048.size a
  k0_t5_ok : k0_t5_loop.OK
  k0_off6_inb : ∀ k0_t5 : Fin k0_t5_loop.trips, ∀ (r : Fin 8), ∀ a, (k0_off6 k0_t5 (BitVec.ofNat 32 (16 * r.val))) a + S16.size a ≤ S2048.size a
  k0_t6_ok : k0_t6_loop.OK
  k0_off7_inb : ∀ k0_t6 : Fin k0_t6_loop.trips, ∀ (r : Fin 8), ∀ a, (k0_off7 k0_t6 (BitVec.ofNat 32 (16 * r.val))) a + S16.size a ≤ S2048.size a
  k0_t7_ok : k0_t7_loop.OK
  k0_off8_inb : ∀ k0_t7 : Fin k0_t7_loop.trips, ∀ (r : Fin 8), ∀ a, (k0_off8 k0_t7 (BitVec.ofNat 32 (16 * r.val))) a + S16.size a ≤ S2048.size a
  k0_t8_ok : k0_t8_loop.OK
  k0_off9_inb : ∀ k0_t8 : Fin k0_t8_loop.trips, ∀ (r : Fin 8), ∀ a, (k0_off9 k0_t8 (BitVec.ofNat 32 (16 * r.val))) a + S16.size a ≤ S2048.size a
  k0_t9_ok : k0_t9_loop.OK
  k0_off10_inb : ∀ k0_t9 : Fin k0_t9_loop.trips, ∀ (r : Fin 8), ∀ a, (k0_off10 k0_t9 (BitVec.ofNat 32 (16 * r.val))) a + S16.size a ≤ S2048.size a
  k0_off11_inb : ∀ (i : grid0.Coords) (k0_t1 : Fin k0_t1_loop.trips), ∀ (k0_h1 : k0_cond1 k0_t1 = 1#1), ∀ a, (k0_off11 i k0_t1) a + S8x2048.size a ≤ S16384x2048.size a
  k0_t10_ok : k0_t10_loop.OK
  k0_off12_inb : ∀ k0_t10 : Fin k0_t10_loop.trips, ∀ (r : Fin 8), ∀ a, (k0_off12 k0_t10 (BitVec.ofNat 32 (16 * r.val))) a + S16.size a ≤ S2048.size a
  k0_t11_ok : k0_t11_loop.OK
  k0_off13_inb : ∀ k0_t11 : Fin k0_t11_loop.trips, ∀ (r : Fin 8), ∀ a, (k0_off13 k0_t11 (BitVec.ofNat 32 (16 * r.val))) a + S16.size a ≤ S2048.size a
  k0_t12_ok : k0_t12_loop.OK
  k0_off14_inb : ∀ k0_t12 : Fin k0_t12_loop.trips, ∀ (r : Fin 8), ∀ a, (k0_off14 k0_t12 (BitVec.ofNat 32 (16 * r.val))) a + S16.size a ≤ S2048.size a
  k0_t13_ok : k0_t13_loop.OK
  k0_off15_inb : ∀ k0_t13 : Fin k0_t13_loop.trips, ∀ (r : Fin 8), ∀ a, (k0_off15 k0_t13 (BitVec.ofNat 32 (16 * r.val))) a + S16.size a ≤ S2048.size a
  k0_t14_ok : k0_t14_loop.OK
  k0_off16_inb : ∀ k0_t14 : Fin k0_t14_loop.trips, ∀ (r : Fin 8), ∀ a, (k0_off16 k0_t14 (BitVec.ofNat 32 (16 * r.val))) a + S16.size a ≤ S2048.size a
  k0_t15_ok : k0_t15_loop.OK
  k0_off17_inb : ∀ k0_t15 : Fin k0_t15_loop.trips, ∀ (r : Fin 8), ∀ a, (k0_off17 k0_t15 (BitVec.ofNat 32 (16 * r.val))) a + S16.size a ≤ S2048.size a
  k0_t16_ok : k0_t16_loop.OK
  k0_off18_inb : ∀ k0_t16 : Fin k0_t16_loop.trips, ∀ (r : Fin 8), ∀ a, (k0_off18 k0_t16 (BitVec.ofNat 32 (16 * r.val))) a + S16.size a ≤ S2048.size a
  k0_t17_ok : k0_t17_loop.OK
  k0_off19_inb : ∀ k0_t17 : Fin k0_t17_loop.trips, ∀ (r : Fin 8), ∀ a, (k0_off19 k0_t17 (BitVec.ofNat 32 (16 * r.val))) a + S16.size a ≤ S2048.size a
  k0_off20_inb : ∀ i : grid0.Coords, ∀ a, (k0_off20 i) a + S16.size a ≤ S256.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S16384x2048.size a
  hwx1_1 : ∀ i : grid1.Coords, EltTy.bits .f32 = 32 ∨ (Rect.block (s := S16384x2048) S512x2048.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1.size a ≤ S1.size a
  hwx1_3 : ∀ i : grid1.Coords, EltTy.bits .f32 = 32 ∨ (Rect.block (s := S1) S1.size (cc1_transform_3 i) (hinb1_3 i)).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scoped0 : DmaSems sig S_ := SemArray.consecutive 4 S_ hcc0_scoped0
abbrev cc0_scoped1 : DmaSems sig S_ := SemArray.consecutive 5 S_ hcc0_scoped1

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S1.size cc1_transform_2 reads1_2 true false 1 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S1.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x8192x2048 : Shape := ⟨3, ![2, 8192, 2048]⟩
abbrev S2x16777216 : Shape := ⟨2, ![2, 16777216]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x16777216, .f32⟩
  | .hbm, ⟨3, _⟩ => ⟨S2x16777216, .f32⟩
  | .hbm, ⟨4, _⟩ => ⟨S2x16777216, .i1⟩
  | .hbm, ⟨5, _⟩ => ⟨S_, .f32⟩
  | .hbm, ⟨6, _⟩ => ⟨S_, .f32⟩
  | .hbm, ⟨7, _⟩ => ⟨S2x16777216, .f32⟩
  | .hbm, ⟨8, _⟩ => ⟨S2x16777216, .f32⟩
  | .hbm, ⟨9, _⟩ => ⟨S_, .f32⟩
  | .hbm, ⟨10, _⟩ => ⟨S_, .f32⟩
  | .hbm, ⟨11, _⟩ => ⟨S2x16777216, .f32⟩
  | .hbm, ⟨12, _⟩ => ⟨S2x16777216, .f32⟩
  | .hbm, ⟨13, _⟩ => ⟨S2x16777216, .f32⟩
  | .hbm, ⟨14, _⟩ => ⟨S2x16777216, .f32⟩
  | .hbm, ⟨15, _⟩ => ⟨S2x16777216, .i1⟩
  | .hbm, ⟨16, _⟩ => ⟨S2x16777216, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x16777216, .f32⟩
  | .hbm, ⟨23, _⟩ => ⟨S2x16777216, .f32⟩
  | .hbm, ⟨24, _⟩ => ⟨S_, .f32⟩
  | .hbm, ⟨25, _⟩ => ⟨S_, .f32⟩
  | .hbm, ⟨26, _⟩ => ⟨S_, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_cst_0 : Ref sig .tc := ⟨.hbm, 9, rfl⟩
abbrev main_call1_v0 : Ref sig .tc := ⟨.hbm, 10, rfl⟩
abbrev main_call1_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_call2_v0 : Ref sig .tc := ⟨.hbm, 21, rfl⟩
abbrev main_call2_v1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  shapeCasts_S2x8192x2048_S2x16777216 : S2x8192x2048.ShapeCasts S2x16777216
  bcast_S_S2x16777216 : S_.BroadcastsInDim S2x16777216 (![] : Fin 0 → Fin S2x16777216.rank)
  natLt_1_32 : 1 < 32
  reducesTo_S2x16777216_S_d0_1 : S2x16777216.ReducesTo [0, 1] S_
  h_S_ : 0 < S_.numel

variable [Facts₀]

class Facts : Prop extends Facts₀ where

variable [Facts]
-- ==== Proof.KIBase.lean ====
/-
  The idealized kernel's program as the SparseCore launch theorem sees it: one vector-subcore call over
  sixteen tiles of SparseCore 0, one TensorCore pipeline after it, and the resource algebra the proofs share —
  the handshakes' rounds, the pipeline's rounds, and the exclusive counters of the tiles' own local copies.
-/
import proofs.«210622_g27255862460721_cont_9to1_1214_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«210622_g27255862460721_cont_9to1_1214_20_alg».proof.Proof.Gen.KernelIdeal
import proofs.«210622_g27255862460721_cont_9to1_1214_20_alg».proof.Proof.Gen.KernelIdeal.Skeleton
import proofs.«210622_g27255862460721_cont_9to1_1214_20_alg».proof.Proof.Gen.KernelIdeal.Launch
import proofs.«210622_g27255862460721_cont_9to1_1214_20_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The handshakes' rounds: the left factor. -/
abbrev EH : Emb UH (MT nD τ sig (HIx 1) (Elt F) ℕ UU ℕ) := embL

/-- The pipeline's rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.KI

end
-- ==== Proof.TileSpec.lean ====
/-
  One tile's arithmetic as a function of the arrays it reads, for any float values.

  A tile keeps four accumulators of 16 lanes: two partial sums of squared differences (a0, a1) and two partial counts
  (c0, c1). One step takes a 16-lane piece of a row of x and the same piece of t, forms the squared difference d², and
  adds "d² where d² equals itself, else 0" to a sum accumulator and "1 where d² equals itself, else 0" to a count
  accumulator. A trip of the inner loop takes eight consecutive pieces of one row: pieces 0, 2, 4, 6 go to (a0, c0) and
  pieces 1, 3, 5, 7 to (a1, c1). A row of 2048 columns is 16 trips; a chunk is 8 rows in order; a tile is 16 chunks of
  consecutive rows, starting from zero accumulators. The tile's results are a0 + a1 and c0 + c1.
-/
import proofs.«210622_g27255862460721_cont_9to1_1214_20_alg».proof.Proof.Gen.KernelIdeal.Skeleton
import Idealize.ShloMosaic.Lib.ValueIdx

noncomputable section

namespace Cert.Proof.TileSpec

open Idealize.ShloMosaic Idealize.ShloMosaic.ValueIdx Cert.KernelIdeal Cert.KernelIdeal.Gen

variable {F : FTy → Type} [FloatOps F]

/-! ## One step -/

/-- The squared difference of two 16-lane pieces. -/
def sqv (xv tv : Vec F S16 .f32) : FVec F S16 .f32 :=
  mulf (subf (shapeCast S16 xv shapeCasts_S16_S16) (shapeCast S16 tv shapeCasts_S16_S16))
    (subf (shapeCast S16 xv shapeCasts_S16_S16) (shapeCast S16 tv shapeCasts_S16_S16))

/-- A sum accumulator after one step: it gains d² in the lanes where d² equals itself, and 0 elsewhere. -/
def accStep (a : FVec F S16 .f32) (xv tv : Vec F S16 .f32) : FVec F S16 .f32 :=
  addf a (select (cmpf .oeq (sqv xv tv) (sqv xv tv)) (sqv xv tv) (broadcast S16 (Scalar.ofBits .f32 0x00000000#32)))

/-- A count accumulator after one step: it gains 1 in the lanes where d² equals itself, and 0 elsewhere. -/
def cntStep (c : FVec F S16 .f32) (xv tv : Vec F S16 .f32) : FVec F S16 .f32 :=
  addf c (select (cmpf .oeq (sqv xv tv) (sqv xv tv)) (broadcast S16 (Scalar.ofBits .f32 0x3F800000#32))
    (broadcast S16 (Scalar.ofBits .f32 0x00000000#32)))

/-! ## One trip: eight steps -/

variable (F) in
/-- The four accumulators, in the loops' carried order: (a0, a1, c0, c1). -/
abbrev Acc4 : Type := FVec F S16 .f32 × FVec F S16 .f32 × FVec F S16 .f32 × FVec F S16 .f32

/-- One trip over eight pieces: pieces 0, 2, 4, 6 into (a0, c0), pieces 1, 3, 5, 7 into (a1, c1). -/
def trip8 (a : Acc4 F) (xs ts : Fin 8 → Vec F S16 .f32) : Acc4 F :=
  (accStep (accStep (accStep (accStep a.1 (xs 0) (ts 0)) (xs 2) (ts 2)) (xs 4) (ts 4)) (xs 6) (ts 6),
   accStep (accStep (accStep (accStep a.2.1 (xs 1) (ts 1)) (xs 3) (ts 3)) (xs 5) (ts 5)) (xs 7) (ts 7),
   cntStep (cntStep (cntStep (cntStep a.2.2.1 (xs 0) (ts 0)) (xs 2) (ts 2)) (xs 4) (ts 4)) (xs 6) (ts 6),
   cntStep (cntStep (cntStep (cntStep a.2.2.2 (xs 1) (ts 1)) (xs 3) (ts 3)) (xs 5) (ts 5)) (xs 7) (ts 7))

/-- The accumulators before the first chunk: zero in every lane. -/
def init4 : Acc4 F := (k0_pay1, k0_pay1, k0_pay1, k0_pay1)

/-- The tile's sum result: a0 + a1. -/
def outS (a : Acc4 F) : FVec F S16 .f32 := k0_pay10 a.1 a.2.1

/-- The tile's count result: c0 + c1. -/
def outC (a : Acc4 F) : FVec F S16 .f32 := k0_pay11 a.2.2.1 a.2.2.2

/-! ## The kernel's own step terms are these -/

example (a : FVec F S16 .f32) (x t : Vec F S16 .f32) : k0_pay12 x t = sqv x t := rfl
example (a : FVec F S16 .f32) (x t : Vec F S16 .f32) : k0_pay14 a x t = accStep a x t := rfl
example (c : FVec F S16 .f32) (x t : Vec F S16 .f32) : k0_pay15 c x t = cntStep c x t := rfl
example (a : FVec F S16 .f32) (x t : Vec F S16 .f32) : k0_pay18 a x t = accStep a x t := rfl
example (c : FVec F S16 .f32) (x t : Vec F S16 .f32) : k0_pay19 c x t = cntStep c x t := rfl
example (a : FVec F S16 .f32) (x t : Vec F S16 .f32) : k0_pay22 a x t = accStep a x t := rfl
example (a : FVec F S16 .f32) (x t : Vec F S16 .f32) : k0_pay26 a x t = accStep a x t := rfl
example (a : FVec F S16 .f32) (x t : Vec F S16 .f32) : k0_pay31 a (k0_pay28 x) t = accStep a x t := rfl
example (c : FVec F S16 .f32) (x t : Vec F S16 .f32) : k0_pay32 c (k0_pay28 x) t = cntStep c x t := rfl
example (a : FVec F S16 .f32) (x t : Vec F S16 .f32) : k0_pay35 a x t = accStep a x t := rfl
example (a : FVec F S16 .f32) (x t : Vec F S16 .f32) : k0_pay430 a (k0_pay37 x t) = accStep a x t := rfl
example (c : FVec F S16 .f32) (x t : Vec F S16 .f32) : k0_pay431 c (k0_pay37 x t) = cntStep c x t := rfl
example (a : FVec F S16 .f32) (x t : Vec F S16 .f32) : k0_pay434 a x t = accStep a x t := rfl
example (c : FVec F S16 .f32) (x t : Vec F S16 .f32) : k0_pay435 c x t = cntStep c x t := rfl

/-- The first inner loop's trip, written with the kernel's own terms over its sixteen loaded pieces and four carried
    accumulators, is `trip8`. -/
theorem trip_t2 (a0 a1 c0 c1 : FVec F S16 .f32) (x0 t0 x1 t1 x2 t2 x3 t3 x4 t4 x5 t5 x6 t6 x7 t7 : Vec F S16 .f32) :
    ((k0_pay430 (k0_pay31 (k0_pay22 (k0_pay14 a0 x0 t0) x2 t2) (k0_pay28 x4) t4) (k0_pay37 x6 t6),
      k0_pay434 (k0_pay35 (k0_pay26 (k0_pay18 a1 x1 t1) x3 t3) x5 t5) x7 t7,
      k0_pay431 (k0_pay32 (k0_pay23 (k0_pay15 c0 x0 t0) x2 t2) (k0_pay28 x4) t4) (k0_pay37 x6 t6),
      k0_pay435 (k0_pay36 (k0_pay27 (k0_pay19 c1 x1 t1) x3 t3) x5 t5) x7 t7) : Acc4 F)
      = trip8 (a0, a1, c0, c1) ![x0, x1, x2, x3, x4, x5, x6, x7] ![t0, t1, t2, t3, t4, t5, t6, t7] := rfl

/-! ## Rows, chunks, the tile -/

/-- A lane index is below 16. -/
theorem lane_lt (y : S16.Idx) : (y 0).val < 16 := (y 0).isLt

/-- Piece `n` of row `r` of an [8, 2048] chunk: columns 16 n … 16 n + 15 (reduced mod 2048 so that the piece is defined
    for every `n`; for n < 128 nothing is reduced). -/
def ld (g : S8x2048.Idx → F .f32) (r : Fin 8) (n : ℕ) : Vec F S16 .f32 :=
  fun y => g (ix2 r ⟨(16 * n + (y 0).val) % 2048, Nat.mod_lt _ (by norm_num)⟩)

/-- For n < 128 the piece is columns 16 n + lane. -/
theorem ld_apply (g : S8x2048.Idx → F .f32) (r : Fin 8) (n : ℕ) (hn : n < 128) (y : S16.Idx) :
    ld g r n y = g (ix2 r ⟨16 * n + (y 0).val, by have := lane_lt y; omega⟩) := by
  have := lane_lt y
  unfold ld
  congr 2
  exact Fin.ext (Nat.mod_eq_of_lt (by show 16 * n + (y 0).val < 2048; omega))

/-- The accumulators after `j` trips along row `r` of a chunk of x and of t. -/
def rowFold (g gt : S8x2048.Idx → F .f32) (r : Fin 8) : ℕ → Acc4 F → Acc4 F
  | 0, a => a
  | j + 1, a => trip8 (rowFold g gt r j a) (fun u => ld g r (8 * j + u.val)) (fun u => ld gt r (8 * j + u.val))

/-- The accumulators after a whole chunk: its rows 0 … 7 in order, 16 trips each. -/
def chunkFold (g gt : S8x2048.Idx → F .f32) (a : Acc4 F) : Acc4 F :=
  rowFold g gt 7 16 (rowFold g gt 6 16 (rowFold g gt 5 16 (rowFold g gt 4 16
    (rowFold g gt 3 16 (rowFold g gt 2 16 (rowFold g gt 1 16 (rowFold g gt 0 16 a)))))))

/-- Rows b … b + 7 of a [16384, 2048] array as an [8, 2048] chunk (the row reduced mod 16384 so that the chunk is
    defined for every `b`; for b + 8 ≤ 16384 nothing is reduced). -/
def rowsOf (X : S16384x2048.Idx → F .f32) (b : ℕ) : S8x2048.Idx → F .f32 :=
  fun y => X (ix2 ⟨(b + (y 0).val) % 16384, Nat.mod_lt _ (by norm_num)⟩ ⟨(y 1).val, idx2_lt1 y⟩)

/-- For b + 8 ≤ 16384 the chunk's row r is row b + r. -/
theorem rowsOf_apply (X : S16384x2048.Idx → F .f32) (b : ℕ) (hb : b + 8 ≤ 16384) (r : Fin 8) (c : Fin 2048) :
    rowsOf X b (ix2 r c) = X (ix2 ⟨b + r.val, by omega⟩ c) := by
  unfold rowsOf
  congr 2
  exact Fin.ext (Nat.mod_eq_of_lt (by show b + r.val < 16384; omega))

/-- The accumulators after `n` chunks of the tile whose first row is `base`. -/
def tileFold (X T : S16384x2048.Idx → F .f32) (base : ℕ) : ℕ → Acc4 F
  | 0 => init4
  | n + 1 => chunkFold (rowsOf X (base + 8 * n)) (rowsOf T (base + 8 * n)) (tileFold X T base n)

end Cert.Proof.TileSpec

end
-- ==== Proof.TileOut.lean ====
/-
  What the sixteen vector subcores leave in the two [256] result arrays: tile w = i / 16 writes lane i % 16 of its
  two accumulated sums (the squared differences, the counts) over its 128 rows.
-/
import proofs.«210622_g27255862460721_cont_9to1_1214_20_alg».proof.Proof.TileSpec

noncomputable section

namespace Cert.Proof.TileSpec

open Idealize.ShloMosaic Idealize.ShloMosaic.ValueIdx Cert.KernelIdeal Cert.KernelIdeal.Gen

variable {F : FTy → Type} [FloatOps F]

theorem lane256_lt (i : S256.Idx) : (i 0).val % 16 < 16 := Nat.mod_lt _ (by norm_num)

/-- The sums of squared differences, lane by lane, tile by tile. -/
def scS (X T : S16384x2048.Idx → F .f32) : S256.Idx → F .f32 :=
  fun i => outS (tileFold X T (128 * ((i 0).val / 16)) 16) (ix1 ⟨(i 0).val % 16, lane256_lt i⟩)

/-- The counts, lane by lane, tile by tile. -/
def scC (X T : S16384x2048.Idx → F .f32) : S256.Idx → F .f32 :=
  fun i => outC (tileFold X T (128 * ((i 0).val / 16)) 16) (ix1 ⟨(i 0).val % 16, lane256_lt i⟩)

end Cert.Proof.TileSpec

end
-- ==== Proof.KIPay.lean ====
/-
  What the one SparseCore call carries: the two [16384,2048] arrays whole to the SparseCore and a read token of each to every tile,
  the two [256] result arrays whole and each tile's sixteen lanes of them, back at what the tiles accumulated.
-/
import proofs.«210622_g27255862460721_cont_9to1_1214_20_alg».proof.Proof.KIBase
import proofs.«210622_g27255862460721_cont_9to1_1214_20_alg».proof.Proof.TileOut

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.TileSpec (scS scC)

variable {F : FTy → Type} [FloatOps F]

local notation "𝕄" => MT nD τ sig (HIx 1) (Elt F) ℕ UU ℕ

abbrev xLoc (d : Dev nD) : Loc nD τ sig := (SparseCore.T d).loc main_v0
abbrev tLoc (d : Dev nD) : Loc nD τ sig := (SparseCore.T d).loc main_v1
abbrev sLoc (d : Dev nD) : Loc nD τ sig := (SparseCore.T d).loc main_v2_0
abbrev cLoc (d : Dev nD) : Loc nD τ sig := (SparseCore.T d).loc main_v2_1

/-- The two whole [16384,2048] arrays as a function of the device: the contents the call finds them at. -/
abbrev Arr2 (F : FTy → Type) : Type := S16384x2048.Idx → F .f32

theorem hdiv16 : 16 ∣ S256.size 0 := ⟨16, rfl⟩
/-- Tile i's sixteen lanes of a [256] array. -/
abbrev lanes (i : Fin 16) : Rect S256 := Rect.part (s := S256) (a₀ := 0) hdiv16 i
abbrev laneSet (i : Fin 16) : Finset S256.Idx := ((Memref.whole main_v2_0_scv : Memref sig .scVector .hbm S256 .f32).view.slice (lanes i)).set

variable (X Y : Dev nD → Arr2 F)

/-- What the call hands the SparseCore: the two big arrays whole at their contents, the two result arrays whole at anything. -/
def stF (d : Dev nD) : sProp 𝕄 :=
  iprop((xLoc d ↦{fullShare} X d) ∗ (tLoc d ↦{fullShare} Y d) ∗ (∃ f, sLoc d ↦{fullShare} f) ∗ (∃ f, cLoc d ↦{fullShare} f))
/-- What comes back: the big arrays unchanged, the result arrays at what the sixteen tiles accumulated. -/
def dnF (d : Dev nD) : sProp 𝕄 :=
  iprop((xLoc d ↦{fullShare} X d) ∗ (tLoc d ↦{fullShare} Y d) ∗ (sLoc d ↦{fullShare} scS (X d) (Y d)) ∗ (cLoc d ↦{fullShare} scC (X d) (Y d)))
/-- A tile's share: a read token of each big array, its sixteen lanes of each result array at anything. -/
def goF (d : Dev nD) (i : Fin 16) : sProp 𝕄 :=
  iprop((xLoc d ↦{Transfers.shareTok fullShare 16 i} X d) ∗ (tLoc d ↦{Transfers.shareTok fullShare 16 i} Y d)
    ∗ (∃ f, sLoc d ↦[laneSet i]{fullShare} f) ∗ (∃ f, cLoc d ↦[laneSet i]{fullShare} f))
/-- What a tile hands back: its tokens, its lanes at its accumulated sums. -/
def tdF (d : Dev nD) (i : Fin 16) : sProp 𝕄 :=
  iprop((xLoc d ↦{Transfers.shareTok fullShare 16 i} X d) ∗ (tLoc d ↦{Transfers.shareTok fullShare 16 i} Y d)
    ∗ (sLoc d ↦[laneSet i]{fullShare} scS (X d) (Y d)) ∗ (cLoc d ↦[laneSet i]{fullShare} scC (X d) (Y d)))

def P : (K (F := F)).Pay (nD := nD) (Val := Elt F) (Name := ℕ) (U := UU) where
  st := fun _ d _ => stF X Y d
  dn := fun _ d _ => dnF X Y d
  go := fun q d _ i => match q with | 0 => goF X Y d (Fin.cast nSub_zero i)
  td := fun q d _ i => match q with | 0 => tdF X Y d (Fin.cast nSub_zero i)
  x := fun _ _ => iprop(emp)

instance P_storable : (P (F := F) X Y).IsStorable where
  st _ d _ := by unfold P stF; infer_instance
  dn _ d _ := by unfold P dnF; infer_instance
  go q d _ i := match q with | 0 => by unfold P goF; infer_instance
  td q d _ i := match q with | 0 => by unfold P tdF; infer_instance

/-- What the pipeline's region needs of the launch: its staging cells' ghost state. -/
abbrev G (d : Dev nD) : sProp 𝕄 := iprop(Pipeline.cellsGhost cfgs EP 0 d ∗ Pipeline.toksInit cfgs EP 0 d)

end Cert.Proof.KI

end
-- ==== Proof.TcRegionData.lean ====
/-
  The TensorCore accumulation region of the idealized kernel: twenty-eight grid points, each adding one block's
  masked squared differences (and its count of unmasked elements) into two scalar accumulators carried from
  point to point in the staging cells of the two results, written back once after the last point.
  This module fixes the data of the region: the blocks each point reads, the running sum and count after each
  point, and the pipeline's proof data built from them.
-/
import proofs.«210622_g27255862460721_cont_9to1_1214_20_alg».proof.Proof.KIBase
import Idealize.ShloMosaic.Lib.Pipeline.FrameBody
import Idealize.ShloMosaic.Lib.Pipeline.Regions

noncomputable section

namespace Cert.Proof.TcRegion

open Cert.KernelIdeal Cert.KernelIdeal.Gen Cert.Proof.KI

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The pipeline has no prefetched table: its one admissible table is the empty one. -/
abbrev adm : (p : Fin 1) → (pcfgs (F := F) p).Adm := fun p => (cfgs p).toPCfg_adm

/-- The TensorCore of device `d`. -/
abbrev tc (d : Dev nD) : Thread nD τ := SparseCore.T d

/-- Contents of a whole `[16384, 2048]` array, of a `[512, 2048]` block, of a one-word result. -/
abbrev Arr (F : FTy → Type) : Type := S16384x2048.Idx → Elt F .f32
abbrev Blk (F : FTy → Type) : Type := S512x2048.Idx → Elt F .f32
abbrev Wd (F : FTy → Type) : Type := S1.Idx → Elt F .f32

/-! ## The blocks the points read -/

/-- The block of the first operand's array (held at `X`) that point `t` reads: rows `[512 (t + 4), 512 (t + 5))`. -/
def blkX (X : Arr F) (t : Fin cfg1.N) : Blk F := ((cfg1.win 0).blk t).view.read (Elt F) X
/-- The block of the second operand's array (held at `Y`) that point `t` reads: the same rows. -/
def blkY (Y : Arr F) (t : Fin cfg1.N) : Blk F := ((cfg1.win 1).blk t).view.read (Elt F) Y

/-! ## The running sum and count -/

/-- The running sum after the first `n` points: from zero, each point adds its block's masked squared differences
    (the body's payload for the word it stores, which loads the second operand's block first). -/
def sumUpTo (X Y : Arr F) : ℕ → Elt F .f32
  | 0 => Scalar.ofBits .f32 0x00000000#32
  | n + 1 => if h : n < cfg1.N then k1_pay3 (blkY Y ⟨n, h⟩) (blkX X ⟨n, h⟩) (sumUpTo X Y n) else sumUpTo X Y n

/-- The running count after the first `n` points. -/
def cntUpTo (Y : Arr F) : ℕ → Elt F .f32
  | 0 => Scalar.ofBits .f32 0x00000000#32
  | n + 1 => if h : n < cfg1.N then k1_pay4 (blkY Y ⟨n, h⟩) (cntUpTo Y n) else cntUpTo Y n

/-- What the region leaves in the first result: the sum over all twenty-eight points. -/
def tcSum (X Y : Arr F) : Elt F .f32 := sumUpTo X Y cfg1.N
/-- What the region leaves in the second result: the count over all twenty-eight points. -/
def tcCnt (Y : Arr F) : Elt F .f32 := cntUpTo Y cfg1.N

theorem sumUpTo_succ (X Y : Arr F) (t : Fin cfg1.N) :
    sumUpTo X Y (t.val + 1) = k1_pay3 (blkY Y t) (blkX X t) (sumUpTo X Y t.val) := by
  show (if h : t.val < cfg1.N then _ else _) = _
  rw [dif_pos t.isLt]
theorem cntUpTo_succ (Y : Arr F) (t : Fin cfg1.N) :
    cntUpTo Y (t.val + 1) = k1_pay4 (blkY Y t) (cntUpTo Y t.val) := by
  show (if h : t.val < cfg1.N then _ else _) = _
  rw [dif_pos t.isLt]

/-! ## The pipeline's proof data -/

section Data

variable (d : Dev nD) (X Y : Arr F) (S₀ C₀ : Wd F) (B : Set (SemLoc sig × HIx 1))

/-- The proof data of the region on device `d`: the operands' arrays at `X` and `Y`, the results' at anything;
    after the body at point `t` each operand's staging buffer at the block it was handed and the results' staging
    words at the running sum and count; no invariant of its own; nothing owed, the recorded waits within `B`. -/
def dat : Dat τ (Elt F) (HIx 1) ℕ UU ℕ cfg1 d where
  A w := match w with
    | ⟨0, _⟩ => X
    | ⟨1, _⟩ => Y
    | ⟨2, _⟩ => S₀
    | ⟨3, _⟩ => C₀
  after w t := match w with
    | ⟨0, _⟩ => blkX X t
    | ⟨1, _⟩ => blkY Y t
    | ⟨2, _⟩ => fun _ => sumUpTo X Y (t.val + 1)
    | ⟨3, _⟩ => fun _ => cntUpTo Y (t.val + 1)
  Φ _ := iprop(emp)
  q _ := fullShare
  owed _ := 0
  recorded _ := B

def pdats : (p : Fin 1) → (c : Dev nD) → Dat τ (Elt F) (HIx 1) ℕ UU ℕ (Pipeline.pin (pcfgs (F := F)) adm p) c :=
  fun _ c => dat c X Y S₀ C₀ B

theorem A_0 : (dat d X Y S₀ C₀ B).A 0 = X := by dsimp only [dat]
theorem A_1 : (dat d X Y S₀ C₀ B).A 1 = Y := by dsimp only [dat]
theorem A_2 : (dat d X Y S₀ C₀ B).A 2 = S₀ := by dsimp only [dat]
theorem A_3 : (dat d X Y S₀ C₀ B).A 3 = C₀ := by dsimp only [dat]
theorem after_0 (t : Fin cfg1.N) : (dat d X Y S₀ C₀ B).after 0 t = blkX X t := by dsimp only [dat]
theorem after_1 (t : Fin cfg1.N) : (dat d X Y S₀ C₀ B).after 1 t = blkY Y t := by dsimp only [dat]
theorem after_2 (t : Fin cfg1.N) : (dat d X Y S₀ C₀ B).after 2 t = fun _ => sumUpTo X Y (t.val + 1) := by dsimp only [dat]
theorem after_3 (t : Fin cfg1.N) : (dat d X Y S₀ C₀ B).after 3 t = fun _ => cntUpTo Y (t.val + 1) := by dsimp only [dat]

/-- Each operand's current staging buffer holds its block at every point: it is fetched at every point, whole. -/
theorem before_0 (t : Fin cfg1.N) (e) : (dat d X Y S₀ C₀ B).before 0 t e = blkX X t := by
  rw [Dat.before_fetched _ 0 t (fetch1_0 t) e]
  unfold Dat.fetched Dat.blockOf blkX; rw [A_0]; rfl
theorem before_1 (t : Fin cfg1.N) (e) : (dat d X Y S₀ C₀ B).before 1 t e = blkY Y t := by
  rw [Dat.before_fetched _ 1 t (fetch1_1 t) e]
  unfold Dat.fetched Dat.blockOf blkY; rw [A_1]; rfl

/-- After the first point each result's staging word holds what the body left at the point before: the word is not
    written back between (only after the last point), the window is live and whole. -/
theorem before_2 (t : Fin cfg1.N) (ht : t.val ≠ 0) (e) : (dat d X Y S₀ C₀ B).before 2 t e = fun _ => sumUpTo X Y t.val := by
  have hN : t.val < 28 := t.isLt
  rw [Dat.before_out_kept _ 2 rfl t ht (Bool.eq_false_iff.mpr fun h => by have := (flush1_2 _).mp h; dsimp only at this; omega)
    (fun _ => rfl) (fun _ _ => rfl), after_2]
  funext _; dsimp only; rw [Nat.sub_add_cancel (Nat.pos_of_ne_zero ht)]
theorem before_3 (t : Fin cfg1.N) (ht : t.val ≠ 0) (e) : (dat d X Y S₀ C₀ B).before 3 t e = fun _ => cntUpTo Y t.val := by
  have hN : t.val < 28 := t.isLt
  rw [Dat.before_out_kept _ 3 rfl t ht (Bool.eq_false_iff.mpr fun h => by have := (flush1_3 _).mp h; dsimp only at this; omega)
    (fun _ => rfl) (fun _ _ => rfl), after_3]
  funext _; dsimp only; rw [Nat.sub_add_cancel (Nat.pos_of_ne_zero ht)]

end Data

end Cert.Proof.TcRegion

end
-- ==== Proof.TcRegionBody.lean ====
/-
  The TensorCore accumulation region: the kernel body at one symbolic grid point, in each of its two cases — the
  first point, where it zeroes the two staging words before accumulating, and every later point, where it adds to
  what the point before left — run over whole staging memrefs held at named contents.
-/
import proofs.«210622_g27255862460721_cont_9to1_1214_20_alg».proof.Proof.TcRegionData
import Idealize.ShloMosaic.Lib.Tactic
import Idealize.ShloMosaic.Lib.Pipeline.Value

noncomputable section

namespace Cert.Proof.TcRegion

open Cert.KernelIdeal Cert.KernelIdeal.Gen Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## Whole-shape loads and stores -/

theorem zeros1 : (![0] : Fin 1 → ℕ) = fun _ => 0 := by funext a; fin_cases a; rfl
theorem zeros2 : (![0, 0] : Fin 2 → ℕ) = fun _ => 0 := by funext a; fin_cases a <;> rfl

/-- A store through the whole-shape rectangle at zero offsets, last, leaves its payload. -/
theorem read_writes_unit_zero {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb (v := v) (f := f) (Rect.whole S) w L y
  rw [Rect.emb_whole_apply] at e
  exact e

/-- A load through the whole-shape rectangle at zero offsets of a whole memref held at `X` reads `X`. -/
theorem readAt_unit_zero {κ : Kind} {sp : Space} {S : Shape} {e : EltTy} {m : Memref sig κ sp S e} (hm : m.IsWhole) (X : S.Idx → Elt F e)
    {off : Fin S.rank → ℕ} (h : off = fun _ => 0) (inb : ∀ a, off a + S.size a ≤ S.size a) :
    View.readAt (Elt F) m.view (Rect.unit off S.size inb).toLoadRect (hm.unread X) = X := by
  rw [View.readAt_eq_ld, hm.read_unread]
  exact View.ld_unit_zero h inb X

/-- The condition of the body's one conditional, from the grid coordinates: the point is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

set_option maxHeartbeats 1000000 in
/-- The body at a later point (the conditional not taken): from the operands' staging buffers at their blocks and the
    results' staging words at the running sum `s` and count `c`, it leaves the operands' as they were and the words at
    the sum and count with this point's block added. -/
theorem run_B (d : Dev nD) (i : grid1.Coords) (arg1 : Memref sig .tc .vmem S512x2048 .f32) (harg1 : arg1.IsWhole) (arg2 : Memref sig .tc .vmem S512x2048 .f32) (harg2 : arg2.IsWhole)
    (arg3 : Memref sig .tc .smem S1 .f32) (harg3 : arg3.IsWhole) (arg4 : Memref sig .tc .smem S1 .f32) (harg4 : arg4.IsWhole) (hc : ¬cond1_0 i)
    (x y : Blk F) (s c : Elt F .f32) (E : Set ℕ) (K : PUnit → sProp 𝕄) :
    iprop(owns (tc d) arg1 fullShare x ∗ owns (tc d) arg2 fullShare y ∗ owns (tc d) arg3 fullShare (fun _ => s) ∗ owns (tc d) arg4 fullShare (fun _ => c)
        ∗ (iprop(owns (tc d) arg1 fullShare x ∗ owns (tc d) arg2 fullShare y ∗ owns (tc d) arg3 fullShare (fun _ => k1_pay3 y x s)
            ∗ owns (tc d) arg4 fullShare (fun _ => k1_pay4 y c)) -∗ K ⟨⟩))
      ⊢ wp frame (wpE (defs₀ (F := F)) Variants.none (tc d) none) E (cc1__tc_body i arg1 harg1 arg2 harg2 arg3 harg3 arg4 harg4) K := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_writes_unit_zero _ _ zeros1, readAt_unit_zero harg1 x zeros2, readAt_unit_zero harg2 y zeros2]
    sl_unfold_run_names
    rw [readAt_unit_zero harg3 (fun _ => s) zeros1]
    rfl
  · iexists _; isplitr
    swap; · iexact H4
    ipureintro
    rw [read_writes_unit_zero _ _ zeros1, readAt_unit_zero harg2 y zeros2]
    sl_unfold_run_names
    rw [readAt_unit_zero harg4 (fun _ => c) zeros1]
    rfl

set_option maxHeartbeats 1000000 in
/-- The body at the first point (the conditional taken): it zeroes both staging words, whatever they held, and then
    adds the first block: the words end at the sum and count of that block from zero. -/
theorem run_A (d : Dev nD) (i : grid1.Coords) (arg1 : Memref sig .tc .vmem S512x2048 .f32) (harg1 : arg1.IsWhole) (arg2 : Memref sig .tc .vmem S512x2048 .f32) (harg2 : arg2.IsWhole)
    (arg3 : Memref sig .tc .smem S1 .f32) (harg3 : arg3.IsWhole) (arg4 : Memref sig .tc .smem S1 .f32) (harg4 : arg4.IsWhole) (hc : cond1_0 i)
    (x y : Blk F) (s₀ c₀ : Wd F) (E : Set ℕ) (K : PUnit → sProp 𝕄) :
    iprop(owns (tc d) arg1 fullShare x ∗ owns (tc d) arg2 fullShare y ∗ owns (tc d) arg3 fullShare s₀ ∗ owns (tc d) arg4 fullShare c₀
        ∗ (iprop(owns (tc d) arg1 fullShare x ∗ owns (tc d) arg2 fullShare y
            ∗ owns (tc d) arg3 fullShare (fun _ => k1_pay3 y x (Scalar.ofBits .f32 0x00000000#32))
            ∗ owns (tc d) arg4 fullShare (fun _ => k1_pay4 y (Scalar.ofBits .f32 0x00000000#32))) -∗ K ⟨⟩))
      ⊢ wp frame (wpE (defs₀ (F := F)) Variants.none (tc d) none) E (cc1__tc_body i arg1 harg1 arg2 harg2 arg3 harg3 arg4 harg4) K := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_writes_unit_zero _ _ zeros1, readAt_unit_zero harg1 x zeros2, readAt_unit_zero harg2 y zeros2]
    sl_unfold_run_names
    rfl
  · iexists _; isplitr
    swap; · iexact H4
    ipureintro
    rw [read_writes_unit_zero _ _ zeros1, readAt_unit_zero harg2 y zeros2]
    sl_unfold_run_names
    rfl

end Cert.Proof.TcRegion

end
-- ==== Proof.TcRegion.lean ====
/-
  The TensorCore accumulation region, run: the body obligation at every grid point from the two cases of the body,
  what the two results' arrays hold after the one write-back, the region as the pipeline rule's record, and its
  run on the TensorCore inside the program over the extended body table — from the region boundary, the two operands'
  arrays, the two results' arrays and the pipeline's launch ghost state to the boundary again, the operands unchanged,
  the results at the sum and the count over the twenty-eight blocks.
-/
import proofs.«210622_g27255862460721_cont_9to1_1214_20_alg».proof.Proof.TcRegionBody

noncomputable section

namespace Cert.Proof.TcRegion

open Cert.KernelIdeal Cert.KernelIdeal.Gen Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What the results' arrays end holding -/

section Final
variable (d : Dev nD) (X Y : Arr F) (S₀ C₀ : Wd F) (B : Set (SemLoc sig × HIx 1))

abbrev t27 : Fin cfg1.N := ⟨27, by decide⟩

theorem arrAt_0 : (dat d X Y S₀ C₀ B).arrAt 0 cfg1.N = X := ((dat d X Y S₀ C₀ B).arrAt_in 0 rfl _).trans (A_0 d X Y S₀ C₀ B)
theorem arrAt_1 : (dat d X Y S₀ C₀ B).arrAt 1 cfg1.N = Y := ((dat d X Y S₀ C₀ B).arrAt_in 1 rfl _).trans (A_1 d X Y S₀ C₀ B)

theorem flushed_2 (t : Fin cfg1.N) (hf : (cfg1.win 2).flush t = true) :
    (dat d X Y S₀ C₀ B).flushed 2 t = ((cfg1.win 2).blk t).view.read (Elt F) (fun _ => tcSum X Y) := by
  have hN : t.val < 28 := t.isLt
  have h27 : t.val = 27 := by have := (flush1_2 t).mp hf; omega
  show (cfg1.win 2).cut (grid1.coords t) ((dat d X Y S₀ C₀ B).after 2 t) = _
  rw [after_2]
  funext j
  show sumUpTo X Y (t.val + 1) = tcSum X Y
  rw [h27]; rfl

/-- The one write-back, after the last point, writes the whole one-word array: it ends holding the sum. -/
theorem arrAt_2 : (dat d X Y S₀ C₀ B).arrAt 2 cfg1.N = fun _ => tcSum X Y :=
  (dat d X Y S₀ C₀ B).arrAt_eq_of_cover 2 (fun _ => tcSum X Y) (flushed_2 d X Y S₀ C₀ B) fun i =>
    ⟨t27, (flush1_2 t27).mpr rfl, by
      show i ∈ ((View.whole main_v5_0).slice (win1_2.rect t27)).set
      rw [View.set_slice_whole, Rect.mem_set_unit]
      intro a
      have h0 : (i 0 : Nat) < 1 := (i 0).isLt
      match a with
      | ⟨0, _⟩ =>
        show win1_2.index t27 0 * win1_2.size 0 ≤ (i 0 : Nat) ∧ (i 0 : Nat) < win1_2.index t27 0 * win1_2.size 0 + win1_2.xsize (grid1.coords t27) 0
        rw [show win1_2.index t27 0 * win1_2.size 0 = 0 from by decide +kernel, show win1_2.xsize (grid1.coords t27) 0 = 1 from by decide +kernel]; omega⟩
end Final

section Final3
variable (d : Dev nD) (X Y : Arr F) (S₀ C₀ : Wd F) (B : Set (SemLoc sig × HIx 1))

theorem flushed_3 (t : Fin cfg1.N) (hf : (cfg1.win 3).flush t = true) :
    (dat d X Y S₀ C₀ B).flushed 3 t = ((cfg1.win 3).blk t).view.read (Elt F) (fun _ => tcCnt Y) := by
  have hN : t.val < 28 := t.isLt
  have h27 : t.val = 27 := by have := (flush1_3 t).mp hf; omega
  show (cfg1.win 3).cut (grid1.coords t) ((dat d X Y S₀ C₀ B).after 3 t) = _
  rw [after_3]
  funext j
  show cntUpTo Y (t.val + 1) = tcCnt Y
  rw [h27]; rfl

/-- Likewise the count. -/
theorem arrAt_3 : (dat d X Y S₀ C₀ B).arrAt 3 cfg1.N = fun _ => tcCnt Y :=
  (dat d X Y S₀ C₀ B).arrAt_eq_of_cover 3 (fun _ => tcCnt Y) (flushed_3 d X Y S₀ C₀ B) fun i =>
    ⟨t27, (flush1_3 t27).mpr rfl, by
      show i ∈ ((View.whole main_v5_1).slice (win1_3.rect t27)).set
      rw [View.set_slice_whole, Rect.mem_set_unit]
      intro a
      have h0 : (i 0 : Nat) < 1 := (i 0).isLt
      match a with
      | ⟨0, _⟩ =>
        show win1_3.index t27 0 * win1_3.size 0 ≤ (i 0 : Nat) ∧ (i 0 : Nat) < win1_3.index t27 0 * win1_3.size 0 + win1_3.xsize (grid1.coords t27) 0
        rw [show win1_3.index t27 0 * win1_3.size 0 = 0 from by decide +kernel, show win1_3.xsize (grid1.coords t27) 0 = 1 from by decide +kernel]; omega⟩
end Final3

/-! ## The body obligation -/

section Obligation

variable (c : Dev nD) (X Y : Arr F) (S₀ C₀ : Wd F) (B : Set (SemLoc sig × HIx 1))

set_option maxHeartbeats 800000 in
/-- The body at any point: the operands' memrefs hold their blocks; at the first point the results' words hold
    anything and the body zeroes them; at a later point they hold what the point before left, and the body adds
    to it; the core owes nothing throughout. -/
theorem sound_body (t : Fin cfg1.N) :
    iprop((dat c X Y S₀ C₀ B).Φ t.castSucc ∗ (dat c X Y S₀ C₀ B).owesAt (none : HIx 1) t.castSucc
        ∗ (∃ e, owns (tc c) (st1_0 t) fullShare ((dat c X Y S₀ C₀ B).before 0 t e))
        ∗ (∃ e, owns (tc c) (st1_1 t) fullShare ((dat c X Y S₀ C₀ B).before 1 t e))
        ∗ (∃ e, owns (tc c) (st1_2 t) fullShare ((dat c X Y S₀ C₀ B).before 2 t e))
        ∗ (∃ e, owns (tc c) (st1_3 t) fullShare ((dat c X Y S₀ C₀ B).before 3 t e)))
      ⊢ wp frame (wpE (defs₀ (F := F)) Variants.none (tc c) none) Set.univ (bodyAt1 t) (fun _ =>
          iprop((dat c X Y S₀ C₀ B).Φ t.succ ∗ (dat c X Y S₀ C₀ B).owesAt (none : HIx 1) t.succ
            ∗ owns (tc c) (st1_0 t) fullShare ((dat c X Y S₀ C₀ B).after 0 t)
            ∗ owns (tc c) (st1_1 t) fullShare ((dat c X Y S₀ C₀ B).after 1 t)
            ∗ owns (tc c) (st1_2 t) fullShare ((dat c X Y S₀ C₀ B).after 2 t)
            ∗ owns (tc c) (st1_3 t) fullShare ((dat c X Y S₀ C₀ B).after 3 t))) := by
  unfold bodyAt1
  simp only [before_0, before_1]
  rw [show (dat c X Y S₀ C₀ B).Φ t.succ = (dat c X Y S₀ C₀ B).Φ t.castSucc from rfl,
    show (dat c X Y S₀ C₀ B).owesAt (none : HIx 1) t.succ = (dat c X Y S₀ C₀ B).owesAt (none : HIx 1) t.castSucc from rfl,
    after_0, after_1, after_2, after_3, sumUpTo_succ, cntUpTo_succ]
  by_cases h0 : t.val = 0
  · rw [h0]
    iintro ⟨HΦ, Ho, ⟨%e0, H0⟩, ⟨%e1, H1⟩, ⟨%e2, H2⟩, ⟨%e3, H3⟩⟩
    iapply (run_A c (grid1.coords t) _ _ _ _ _ _ _ _ ((hcond1_0 t).mpr h0) (blkX X t) (blkY Y t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before_2 c X Y S₀ C₀ B t h0, before_3 c X Y S₀ C₀ B t h0]
    iintro ⟨HΦ, Ho, ⟨%e0, H0⟩, ⟨%e1, H1⟩, ⟨%e2, H2⟩, ⟨%e3, H3⟩⟩
    iapply (run_B c (grid1.coords t) _ _ _ _ _ _ _ _ (fun h => h0 ((hcond1_0 t).mp h)) (blkX X t) (blkY Y t) (sumUpTo X Y t.val) (cntUpTo Y t.val) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline rule's body obligation, at every point. -/
theorem body_obligation : BodyObligation (dat (F := F) c X Y S₀ C₀ B) (defs₀ (F := F)) Variants.none (none : HIx 1) Set.univ := fun t => by
  rw [bigSep_W1, bigSep_W1]
  exact sound_body c X Y S₀ C₀ B t

end Obligation

/-! ## The region -/

section Region

variable (X Y : Arr F) (S₀ C₀ : Wd F) (B : Set (SemLoc sig × HIx 1))
  (L : GSem nD τ sig → Finset (HIx 1)) (lv : GSem nD τ sig → HIx 1 → ℕ)

/-- A TensorCore array of device `c` held whole at `f`. -/
abbrev pl (c : Dev nD) (b : Ref sig .tc) (f : b.ty.Contents (Elt F)) : sProp 𝕄 := ((tc c).loc b) ↦{fullShare} f

/-- The region's arrays at contents `Fa` are the two operands and the two results held whole. -/
theorem arrays_eq (c : Dev nD) (Fa) :
    ((pdats X Y S₀ C₀ B 0 c).arrays Fa : sProp 𝕄)
      = iprop(pl c main_v0 (Fa 0) ∗ pl c main_v1 (Fa 1) ∗ pl c main_v5_0 (Fa 2) ∗ pl c main_v5_1 (Fa 3)) := by
  rw [Pipeline.arrays_eq (Pipeline.pin (pcfgs (F := F)) adm) (pdats X Y S₀ C₀ B) 0 c launch1.arr_whole
    ((pdats X Y S₀ C₀ B 0 c).share_full fun _ => rfl) Fa, bigSep_W1]

/-- What the region is entered from: the four arrays whole — the operands at `X` and `Y`, the results at anything —
    and the core owing nothing, its recorded waits within `B`. -/
def regPre (c : Dev nD) : sProp 𝕄 :=
  iprop(pl c main_v0 X ∗ pl c main_v1 Y ∗ pl c main_v5_0 S₀ ∗ pl c main_v5_1 C₀
    ∗ Pipeline.owesWithin c (0 : CellTallies nD τ sig (HIx 1)) B)

/-- What it leaves: the operands as they were, the results at the sum and the count over the twenty-eight blocks, the
    core owing nothing, its recorded waits within `B` and the pipeline's own. -/
def regPost (c : Dev nD) : sProp 𝕄 :=
  iprop(pl c main_v0 X ∗ pl c main_v1 Y ∗ pl c main_v5_0 (fun _ => tcSum X Y) ∗ pl c main_v5_1 (fun _ => tcCnt Y)
    ∗ Pipeline.owesWithin c (0 : CellTallies nD τ sig (HIx 1)) (B ∪ cfg1.waitPairs (none : HIx 1)))

/-- THE REGION as the pipeline rule's record: the four arrays into the pipeline, nothing else; no semaphore of the kernel's
    own; the body obligation above; nothing owed, so no wait evidence is needed. -/
def reg : Pipeline.RegionSeg (pcfgs (F := F)) adm (pdats X Y S₀ C₀ B) (none : HIx 1) defs₀ 𝒱₀ L lv 0 where
  win := launch1.win.to₀
  block_pos := launch1.block_pos
  stage_whole := launch1.stage_whole
  K := PEmpty
  osem k := k.elim
  ho := Pipeline.OwnSemFacts.none _
  hbody c := (body_obligation c X Y S₀ C₀ B).loose
  hwaits c := Pipeline.hwaits_of_owed_zero (pcfgs (F := F)) adm (pdats X Y S₀ C₀ B) (none : HIx 1) L lv 0 (fun _ _ => rfl) c
  pre := regPre X Y S₀ C₀ B
  post := regPost X Y B
  X _ := iprop(emp)
  Y _ := iprop(emp)
  Z _ := iprop(emp)
  hentry c := by
    rw [Pipeline.ownSems0_none, arrays_eq]
    unfold regPre
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun p hp => Or.inl (hW hp)
      iexact HO
    isplitr <;> iempintro
  hin c := by iintro -; iempintro
  hout c := by
    rw [Pipeline.ownSems0_none, scopedRest1_eq]
    iintro -; isplitr; · iempintro
    isplitr <;> iempintro
  hexit c := by
    rw [arrays_eq]
    unfold regPost
    rw [show (pdats X Y S₀ C₀ B 0 c).arrAt 0 (Pipeline.pin (pcfgs (F := F)) adm 0).N = X from arrAt_0 c X Y S₀ C₀ B,
      show (pdats X Y S₀ C₀ B 0 c).arrAt 1 (Pipeline.pin (pcfgs (F := F)) adm 0).N = Y from arrAt_1 c X Y S₀ C₀ B,
      show (pdats X Y S₀ C₀ B 0 c).arrAt 2 (Pipeline.pin (pcfgs (F := F)) adm 0).N = (fun _ => tcSum X Y) from arrAt_2 c X Y S₀ C₀ B,
      show (pdats X Y S₀ C₀ B 0 c).arrAt 3 (Pipeline.pin (pcfgs (F := F)) adm 0).N = (fun _ => tcCnt Y) from arrAt_3 c X Y S₀ C₀ B]
    iintro ⟨⟨H0, H1, H2, H3⟩, HO, -, -⟩
    imodintro
    isplitl [H0]; · iexact H0
    isplitl [H1]; · iexact H1
    isplitl [H2]; · iexact H2
    isplitl [H3]; · iexact H3
    iexact HO

set_option backward.isDefEq.respectTransparency.types false in
/-- THE REGION'S RUN on the TensorCore of `d`, inside the program over the extended body table: from the level facts,
    the region boundary, the four arrays, the core owing nothing and the pipeline's launch ghost state, the call runs
    to the boundary, the operands unchanged and the results at the sum and count, for any continuation. -/
theorem region_wp (d : Dev nD) {α : Type}
    (k : PUnit → Prog (TpuEff nD τ sig (Elt F) (SparseCore.Sig (ΛP (F := F)) 1) .tc) α) (Q : α → sProp 𝕄) :
    iprop(levAts L lv ∗ boundary (tc d) ∗ regPre X Y S₀ C₀ B d
        ∗ Pipeline.cellsGhost cfgs EP 0 d ∗ Pipeline.toksInit cfgs EP 0 d
        ∗ (iprop(boundary (tc d) ∗ regPost X Y B d) -∗ wp frame (wpE ((K (F := F)).defs D) 𝒱 (tc d) none) Set.univ (k ⟨⟩) Q))
      ⊢ wp frame (wpE ((K (F := F)).defs D) 𝒱 (tc d) none) Set.univ
          (Prog.lift (.customCall (SparseCore.inner (Pipeline.entry 0)) ()) >>= k) Q := by
  rw [wp_bind]
  refine .trans ?_ ((K (F := F)).wp_liftProg D 𝒱 (tc d) Set.univ none
    (.op (.customCall (Pipeline.entry 0) ()) .ret) fun a => wp frame (wpE ((K (F := F)).defs D) 𝒱 (tc d) none) Set.univ (k a) Q)
  refine .trans ?_ (Pipeline.RegionSeg.wp (pcfgs (F := F)) adm (pdats X Y S₀ C₀ B) (none : HIx 1) cellOf_inj EP defs₀ 𝒱₀ L lv
    (reg X Y S₀ C₀ B L lv) d none (fun _ h => by cases h) .ret _)
  rw [show (reg X Y S₀ C₀ B L lv).pre d = regPre X Y S₀ C₀ B d from rfl, show (reg X Y S₀ C₀ B L lv).post d = regPost X Y B d from rfl]
  iintro ⟨Hlev, Hb, Hpre, Hg, Ht, Hk⟩
  isplitl [Hk]
  · iintro H
    rw [wp_ret]
    imodintro
    iapply Hk
    iexact H
  isplitl [Hb]; · iexact Hb
  isplitl [Hpre]; · iexact Hpre
  isplitl [Hlev]; · iexact Hlev
  isplitl [Hg]; · iexact Hg
  iexact Ht

end Region

end Cert.Proof.TcRegion

end
-- ==== Proof.KIMain.lean ====
/-
  The idealized kernel's @main on the TensorCore of one device: two reshapes, the SparseCore call, the two sums of
  what the call left, the TensorCore accumulation region, and the five operations that combine the four scalars
  into the result — run from what the launch deals the TensorCore to the result array at a pure term of the two
  reshaped arguments, the arguments unchanged.
-/
import proofs.«210622_g27255862460721_cont_9to1_1214_20_alg».proof.Proof.KIPay
import proofs.«210622_g27255862460721_cont_9to1_1214_20_alg».proof.Proof.TcRegion
import Idealize.ShloMosaic.Lib.Pipeline.Frame

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq)
open Cert.Proof.TileSpec (scS scC)
open Cert.Proof.TcRegion (tcSum tcCnt region_wp regPre regPost)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's host operations -/

abbrev opR0 : HloOp τ sig (Elt F) := StableHlo.reshape main_arg0 main_v0 rfl shapeCasts_S2x8192x2048_S16384x2048
abbrev opR1 : HloOp τ sig (Elt F) := StableHlo.reshape main_arg1 main_v1 rfl shapeCasts_S2x8192x2048_S16384x2048
abbrev opC0 : HloOp τ sig (Elt F) := StableHlo.nullary main_cst (constant S_ .f32 0x00000000#32)
abbrev opS : HloOp τ sig (Elt F) := StableHlo.binary main_v2_0 main_cst main_v3
  ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F))
abbrev opC1 : HloOp τ sig (Elt F) := StableHlo.nullary main_cst_0 (constant S_ .f32 0x00000000#32)
abbrev opC : HloOp τ sig (Elt F) := StableHlo.binary main_v2_1 main_cst_0 main_v4
  ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F))
abbrev opV6 : HloOp τ sig (Elt F) := StableHlo.reshape main_v5_0 main_v6 rfl shapeCasts_S1_S_
abbrev opV7 : HloOp τ sig (Elt F) := StableHlo.reshape main_v5_1 main_v7 rfl shapeCasts_S1_S_
abbrev opV8 : HloOp τ sig (Elt F) := StableHlo.binary main_v3 main_v6 main_v8
  (addf : (⟨S_, .f32⟩ : BufTy).Contents (Elt F) → (⟨S_, .f32⟩ : BufTy).Contents (Elt F) → (⟨S_, .f32⟩ : BufTy).Contents (Elt F))
abbrev opV9 : HloOp τ sig (Elt F) := StableHlo.binary main_v4 main_v7 main_v9
  (addf : (⟨S_, .f32⟩ : BufTy).Contents (Elt F) → (⟨S_, .f32⟩ : BufTy).Contents (Elt F) → (⟨S_, .f32⟩ : BufTy).Contents (Elt F))
abbrev opV10 : HloOp τ sig (Elt F) := StableHlo.binary main_v8 main_v9 main_v10
  (Host.divf : (⟨S_, .f32⟩ : BufTy).Contents (Elt F) → (⟨S_, .f32⟩ : BufTy).Contents (Elt F) → (⟨S_, .f32⟩ : BufTy).Contents (Elt F))

/-- The three host stretches: before the SparseCore call, between the two calls, after the region. -/
def ops1 : List (HloOp τ sig (Elt F)) := [opR0, opR1]
def ops2 : List (HloOp τ sig (Elt F)) := [opC0, opS, opC1, opC]
def ops3 : List (HloOp τ sig (Elt F)) := [opV6, opV7, opV8, opV9, opV10]

/-- @main is the three stretches around the two calls. -/
theorem main_eq (d : Dev nD) : main (F := F) d
    = (seq ops1 >>= fun _ => (K (F := F)).run d 0 >>= fun _ => seq ops2 >>= fun _ =>
        Prog.lift (.customCall (SparseCore.inner (Pipeline.entry 0)) ()) >>= fun _ => seq ops3 >>= fun _ => pure ⟨⟩) := rfl

/-- Every unscoped TensorCore buffer, the set the host operations run within. -/
abbrev SU : Finset (DevRef τ sig) := Pipeline.ucRefs τ sig

theorem ops1_sub : ∀ op ∈ (ops1 : List (HloOp τ sig (Elt F))), op.bufs ⊆ SU := by
  intro op h; simp only [ops1, List.mem_cons, List.mem_nil_iff, or_false] at h
  rcases h with rfl | rfl <;> exact Pipeline.sub_ucRefs _ (by simp)
theorem ops1_fresh : ∀ op ∈ (ops1 : List (HloOp τ sig (Elt F))), op.fresh = ∅ := by
  intro op h; simp only [ops1, List.mem_cons, List.mem_nil_iff, or_false] at h
  rcases h with rfl | rfl <;> rfl

/-- The launch valuation. -/
def V0 (d : Dev nD) : Valuation τ sig (Elt F) := fun b => m (d, b)

theorem unscoped_held (d : Dev nD) :
    (unscopedBufs d (fun b => m ((SparseCore.T d).loc b)) : sProp 𝕄) = held (T d) SU (V0 m d) :=
  Pipeline.unscopedBufs_held d (V0 m d)

/-- After the two reshapes. -/
def V1 (d : Dev nD) : Valuation τ sig (Elt F) := after ops1 (V0 m d)

/-- The two reshaped arguments: what the SparseCore call and the region read. -/
def X0 (d : Dev nD) : Arr2 F := V1 m d (Proc.devRef .tc main_v0)
def Y0 (d : Dev nD) : Arr2 F := V1 m d (Proc.devRef .tc main_v1)

theorem X0_eq (d : Dev nD) : X0 m d = shapeCast S16384x2048 (m ((SparseCore.T d).loc main_arg0)) shapeCasts_S2x8192x2048_S16384x2048 := by
  unfold X0 V1 ops1
  after_results
  rfl
theorem Y0_eq (d : Dev nD) : Y0 m d = shapeCast S16384x2048 (m ((SparseCore.T d).loc main_arg1)) shapeCasts_S2x8192x2048_S16384x2048 := by
  unfold Y0 V1 ops1
  after_results
  rfl

/-! ## The valuations, stage by stage -/

abbrev a0' : DevRef τ sig := Proc.devRef .tc main_arg0
abbrev a1' : DevRef τ sig := Proc.devRef .tc main_arg1
abbrev v0' : DevRef τ sig := Proc.devRef .tc main_v0
abbrev v1' : DevRef τ sig := Proc.devRef .tc main_v1
abbrev s' : DevRef τ sig := Proc.devRef .tc main_v2_0
abbrev c' : DevRef τ sig := Proc.devRef .tc main_v2_1
abbrev o0' : DevRef τ sig := Proc.devRef .tc main_v5_0
abbrev o1' : DevRef τ sig := Proc.devRef .tc main_v5_1
abbrev r' : DevRef τ sig := Proc.devRef .tc main_v10

/-- After the SparseCore call: the two result arrays at what the tiles accumulated. -/
def V2 (d : Dev nD) : Valuation τ sig (Elt F) :=
  Function.update (Function.update (V1 m d) s' (scS (X0 m d) (Y0 m d))) c' (scC (X0 m d) (Y0 m d))
/-- After the two sums. -/
def V3 (d : Dev nD) : Valuation τ sig (Elt F) := after ops2 (V2 m d)
/-- After the region: its two results at the sum and the count. -/
def V4 (d : Dev nD) : Valuation τ sig (Elt F) :=
  Function.update (Function.update (V3 m d) o0' (fun _ => tcSum (X0 m d) (Y0 m d))) o1' (fun _ => tcCnt (Y0 m d))
/-- At the end. -/
def V5 (d : Dev nD) : Valuation τ sig (Elt F) := after ops3 (V4 m d)

/-- The result, as a pure term of the two reshaped arguments. -/
def kres (X Y : Arr2 F) : S_.Idx → F .f32 :=
  Host.divf
    (addf (Host.reduceAdd (scS X Y) (constant S_ .f32 0x00000000#32) reducesTo_S256_S_d0 h_S_)
      (shapeCast S_ (fun _ : S1.Idx => tcSum X Y) shapeCasts_S1_S_))
    (addf (Host.reduceAdd (scC X Y) (constant S_ .f32 0x00000000#32) reducesTo_S256_S_d0 h_S_)
      (shapeCast S_ (fun _ : S1.Idx => tcCnt Y) shapeCasts_S1_S_))

theorem V2_v0 (d : Dev nD) : V2 m d v0' = X0 m d :=
  (Function.update_of_ne (show v0' ≠ c' by decide) _ _).trans (Function.update_of_ne (show v0' ≠ s' by decide) _ _)
theorem V2_v1 (d : Dev nD) : V2 m d v1' = Y0 m d :=
  (Function.update_of_ne (show v1' ≠ c' by decide) _ _).trans (Function.update_of_ne (show v1' ≠ s' by decide) _ _)
theorem V2_s (d : Dev nD) : V2 m d s' = scS (X0 m d) (Y0 m d) :=
  (Function.update_of_ne (show s' ≠ c' by decide) _ _).trans (Function.update_self _ _ _)
theorem V2_c (d : Dev nD) : V2 m d c' = scC (X0 m d) (Y0 m d) := Function.update_self _ _ _
theorem V2_of_ne (d : Dev nD) (b : DevRef τ sig) (hs : b ≠ s') (hc : b ≠ c') : V2 m d b = V1 m d b :=
  (Function.update_of_ne hc _ _).trans (Function.update_of_ne hs _ _)

theorem V3_v0 (d : Dev nD) : V3 m d v0' = X0 m d := by
  unfold V3 ops2; after_results; exact V2_v0 m d
theorem V3_v1 (d : Dev nD) : V3 m d v1' = Y0 m d := by
  unfold V3 ops2; after_results; exact V2_v1 m d
theorem V3_v3 (d : Dev nD) : V3 m d (Proc.devRef .tc main_v3)
    = Host.reduceAdd (scS (X0 m d) (Y0 m d)) (constant S_ .f32 0x00000000#32) reducesTo_S256_S_d0 h_S_ := by
  unfold V3 ops2; after_results; rw [V2_s]
theorem V3_v4 (d : Dev nD) : V3 m d (Proc.devRef .tc main_v4)
    = Host.reduceAdd (scC (X0 m d) (Y0 m d)) (constant S_ .f32 0x00000000#32) reducesTo_S256_S_d0 h_S_ := by
  unfold V3 ops2; after_results; rw [V2_c]
theorem V3_a0 (d : Dev nD) : V3 m d a0' = m (d, a0') := by
  unfold V3 ops2; after_results; rw [V2_of_ne m d a0' (by decide) (by decide)]; unfold V1 ops1; after_results; rfl
theorem V3_a1 (d : Dev nD) : V3 m d a1' = m (d, a1') := by
  unfold V3 ops2; after_results; rw [V2_of_ne m d a1' (by decide) (by decide)]; unfold V1 ops1; after_results; rfl

theorem V4_of_ne (d : Dev nD) (b : DevRef τ sig) (h0 : b ≠ o0') (h1 : b ≠ o1') : V4 m d b = V3 m d b :=
  (Function.update_of_ne h1 _ _).trans (Function.update_of_ne h0 _ _)
theorem V4_o0 (d : Dev nD) : V4 m d o0' = fun _ => tcSum (X0 m d) (Y0 m d) :=
  (Function.update_of_ne (show o0' ≠ o1' by decide) _ _).trans (Function.update_self _ _ _)
theorem V4_o1 (d : Dev nD) : V4 m d o1' = fun _ => tcCnt (Y0 m d) := Function.update_self _ _ _

theorem V5_r (d : Dev nD) : V5 m d r' = kres (X0 m d) (Y0 m d) := by
  unfold V5 ops3; after_results
  rw [V4_of_ne m d _ (by decide) (by decide), V4_of_ne m d (Proc.devRef .tc main_v4) (by decide) (by decide), V4_o0, V4_o1, V3_v3, V3_v4]
  rfl
theorem V5_a0 (d : Dev nD) : V5 m d a0' = m (d, a0') := by
  unfold V5 ops3; after_results; rw [V4_of_ne m d a0' (by decide) (by decide)]; exact V3_a0 m d
theorem V5_a1 (d : Dev nD) : V5 m d a1' = m (d, a1') := by
  unfold V5 ops3; after_results; rw [V4_of_ne m d a1' (by decide) (by decide)]; exact V3_a1 m d

theorem ops2_sub : ∀ op ∈ (ops2 : List (HloOp τ sig (Elt F))), op.bufs ⊆ SU := by
  intro op h; simp only [ops2, List.mem_cons, List.mem_nil_iff, or_false] at h
  rcases h with rfl | rfl | rfl | rfl <;> exact Pipeline.sub_ucRefs _ (by simp)
theorem ops2_fresh : ∀ op ∈ (ops2 : List (HloOp τ sig (Elt F))), op.fresh = ∅ := by
  intro op h; simp only [ops2, List.mem_cons, List.mem_nil_iff, or_false] at h
  rcases h with rfl | rfl | rfl | rfl <;> rfl
theorem ops3_sub : ∀ op ∈ (ops3 : List (HloOp τ sig (Elt F))), op.bufs ⊆ SU := by
  intro op h; simp only [ops3, List.mem_cons, List.mem_nil_iff, or_false] at h
  rcases h with rfl | rfl | rfl | rfl | rfl <;> exact Pipeline.sub_ucRefs _ (by simp)
theorem ops3_fresh : ∀ op ∈ (ops3 : List (HloOp τ sig (Elt F))), op.fresh = ∅ := by
  intro op h; simp only [ops3, List.mem_cons, List.mem_nil_iff, or_false] at h
  rcases h with rfl | rfl | rfl | rfl | rfl <;> rfl

/-! ## The arrays the two calls take, and the three the claim reads -/

/-- The SparseCore call's four arrays, the region's four, the claim's three. -/
abbrev S4 : Finset (DevRef τ sig) := {v0', v1', s', c'}
abbrev R4 : Finset (DevRef τ sig) := {v0', v1', o0', o1'}
abbrev F3 : Finset (DevRef τ sig) := {a0', a1', r'}

theorem S4_sub : S4 ⊆ SU := by decide
theorem R4_sub : R4 ⊆ SU := by decide
theorem F3_sub : F3 ⊆ SU := by decide

omit [FloatOps F] in
theorem held_S4 (d : Dev nD) (W : Valuation τ sig (Elt F)) :
    (held (T d) S4 W : sProp 𝕄) = iprop((xLoc d ↦{fullShare} W v0') ∗ (tLoc d ↦{fullShare} W v1') ∗ (sLoc d ↦{fullShare} W s') ∗ (cLoc d ↦{fullShare} W c')) := by
  unfold held S4
  rw [SparseCore.bigSep_insert' (by decide), SparseCore.bigSep_insert' (by decide), SparseCore.bigSep_insert' (by decide), bigSep_singleton]
omit [FloatOps F] in
theorem held_R4 (d : Dev nD) (W : Valuation τ sig (Elt F)) :
    (held (T d) R4 W : sProp 𝕄) = iprop((xLoc d ↦{fullShare} W v0') ∗ (tLoc d ↦{fullShare} W v1')
      ∗ ((SparseCore.T d).loc main_v5_0 ↦{fullShare} W o0') ∗ ((SparseCore.T d).loc main_v5_1 ↦{fullShare} W o1')) := by
  unfold held R4
  rw [SparseCore.bigSep_insert' (by decide), SparseCore.bigSep_insert' (by decide), SparseCore.bigSep_insert' (by decide), bigSep_singleton]
omit [FloatOps F] in
theorem held_F3 (d : Dev nD) (W : Valuation τ sig (Elt F)) :
    (held (T d) F3 W : sProp 𝕄) = iprop(((SparseCore.T d).loc main_arg0 ↦{fullShare} W a0') ∗ ((SparseCore.T d).loc main_arg1 ↦{fullShare} W a1')
      ∗ ((SparseCore.T d).loc main_v10 ↦{fullShare} W r')) := by
  unfold held F3
  rw [SparseCore.bigSep_insert' (by decide), SparseCore.bigSep_insert' (by decide), bigSep_singleton]

/-- The call's operands and results, for its one SparseCore. -/
theorem st0_eq (d : Dev nD) (X Y : Dev nD → Arr2 F) :
    (bigSep Finset.univ fun c : Fin ((K (F := F)).nCore 0) => (P X Y).st 0 d c) = stF X Y d := by
  show (bigSep (Finset.univ : Finset (Fin 1)) fun _ => stF X Y d) = _
  rw [show (Finset.univ : Finset (Fin 1)) = {0} by decide, bigSep_singleton]
theorem dn0_eq (d : Dev nD) (X Y : Dev nD → Arr2 F) :
    (bigSep Finset.univ fun c : Fin ((K (F := F)).nCore 0) => (P X Y).dn 0 d c) = dnF X Y d := by
  show (bigSep (Finset.univ : Finset (Fin 1)) fun _ => dnF X Y d) = _
  rw [show (Finset.univ : Finset (Fin 1)) = {0} by decide, bigSep_singleton]

/-- What @main leaves the claim: the two arguments at their launch contents, the result at the pure term. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_v10 ↦{fullShare} kres (X0 m d) (Y0 m d)))

/-- The recorded waits the TensorCore may hold after the call: at levels of the first call. -/
def B8 (d : Dev nD) : Set (SemLoc sig × HIx 1) := {p | (K (F := F)).lev (SparseCore.T d, p.1) p.2 ≤ 8}

/-! ## The held set, split at each call's arrays -/

open Idealize.ShloMosaic.TcCoe in
theorem e1 (d : Dev nD) : (held (d.tc : Thread nD τ) SU (after ops1 (V0 m d)) : sProp 𝕄)
    = iprop(((xLoc d ↦{fullShare} X0 m d) ∗ (tLoc d ↦{fullShare} Y0 m d) ∗ (sLoc d ↦{fullShare} V1 m d s') ∗ (cLoc d ↦{fullShare} V1 m d c'))
        ∗ held (T d) (SU \ S4) (V1 m d)) :=
  (held_sub_split (T d) S4_sub (V1 m d)).trans (by rw [held_S4]; rfl)

open Idealize.ShloMosaic.TcCoe in
theorem e2 (d : Dev nD) : (held (d.tc : Thread nD τ) SU (V2 m d) : sProp 𝕄)
    = iprop(((xLoc d ↦{fullShare} X0 m d) ∗ (tLoc d ↦{fullShare} Y0 m d) ∗ (sLoc d ↦{fullShare} scS (X0 m d) (Y0 m d)) ∗ (cLoc d ↦{fullShare} scC (X0 m d) (Y0 m d)))
        ∗ held (T d) (SU \ S4) (V1 m d)) :=
  (held_sub_split (T d) S4_sub (V2 m d)).trans (by
    rw [held_S4, V2_v0, V2_v1, V2_s, V2_c, held_congr (T d) (S := SU \ S4) (V := V2 m d) (V' := V1 m d) fun b hb => by
      have hb' := (Finset.mem_sdiff.mp hb).2
      exact V2_of_ne m d b (fun h => hb' (by rw [h]; decide)) (fun h => hb' (by rw [h]; decide))])

open Idealize.ShloMosaic.TcCoe in
theorem e3 (d : Dev nD) : (held (d.tc : Thread nD τ) SU (after ops2 (V2 m d)) : sProp 𝕄)
    = iprop(((xLoc d ↦{fullShare} X0 m d) ∗ (tLoc d ↦{fullShare} Y0 m d)
          ∗ ((SparseCore.T d).loc main_v5_0 ↦{fullShare} V3 m d o0') ∗ ((SparseCore.T d).loc main_v5_1 ↦{fullShare} V3 m d o1'))
        ∗ held (T d) (SU \ R4) (V3 m d)) :=
  (held_sub_split (T d) R4_sub (V3 m d)).trans (by rw [held_R4, V3_v0, V3_v1])

open Idealize.ShloMosaic.TcCoe in
theorem e4 (d : Dev nD) : (held (d.tc : Thread nD τ) SU (V4 m d) : sProp 𝕄)
    = iprop(((xLoc d ↦{fullShare} X0 m d) ∗ (tLoc d ↦{fullShare} Y0 m d)
          ∗ ((SparseCore.T d).loc main_v5_0 ↦{fullShare} fun _ => tcSum (X0 m d) (Y0 m d))
          ∗ ((SparseCore.T d).loc main_v5_1 ↦{fullShare} fun _ => tcCnt (Y0 m d)))
        ∗ held (T d) (SU \ R4) (V3 m d)) :=
  (held_sub_split (T d) R4_sub (V4 m d)).trans (by
    rw [held_R4, V4_of_ne m d v0' (by decide) (by decide), V4_of_ne m d v1' (by decide) (by decide), V3_v0, V3_v1, V4_o0, V4_o1,
      held_congr (T d) (S := SU \ R4) (V := V4 m d) (V' := V3 m d) fun b hb => by
        have hb' := (Finset.mem_sdiff.mp hb).2
        exact V4_of_ne m d b (fun h => hb' (by rw [h]; decide)) (fun h => hb' (by rw [h]; decide))])

open Idealize.ShloMosaic.TcCoe in
theorem e5 (d : Dev nD) : (held (d.tc : Thread nD τ) SU (after ops3 (V4 m d)) : sProp 𝕄)
    = iprop((((SparseCore.T d).loc main_arg0 ↦{fullShare} m ((SparseCore.T d).loc main_arg0))
          ∗ ((SparseCore.T d).loc main_arg1 ↦{fullShare} m ((SparseCore.T d).loc main_arg1))
          ∗ ((SparseCore.T d).loc main_v10 ↦{fullShare} kres (X0 m d) (Y0 m d)))
        ∗ held (T d) (SU \ F3) (V5 m d)) :=
  (held_sub_split (T d) F3_sub (V5 m d)).trans (by rw [held_F3, V5_a0, V5_a1, V5_r])

set_option backward.isDefEq.respectTransparency.types false in
set_option maxHeartbeats 2000000 in
/-- @main on device `d`'s TensorCore: the reshapes, the call (from the two reshaped arrays and the two result arrays,
    back at what the tiles accumulated), the two sums, the region (from the two reshaped arrays again, its results at the
    sum and the count), the five last operations; the arguments kept, the result at the pure term. -/
theorem hmain (κ : GSem nD τ sig → ℕ) (d : Dev nD) :
    iprop((K (F := F)).ctx EH (P (X0 m) (Y0 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, Hg, Ht⟩
  -- the two reshapes
  iapply (wp_seq 𝒱 none Set.univ d SU _ ops1 ops1_sub ops1_fresh (V0 m d)) $$ [Hb Hheld]
  · isplitl [Hb]; · iexact Hb
    iexact Hheld
  rw [e1 m d]
  iintro ⟨Hb, ⟨Hx, Hy, Hs, Hc⟩, Hrest⟩
  -- the call
  rw [wp_bind]
  iapply ((K (F := F)).wp_run (D (F := F)) 𝒱 (EH := EH) (P := P (X0 m) (Y0 m)) κ d 0) $$ [Hst Hx Hy Hs Hc Hb Hrest Hg Ht]
  isplitr; · iexact Hctx
  isplitl [Hst]; · iexact Hst
  isplitl [Hx Hy Hs Hc]
  · rw [st0_eq]; unfold stF
    isplitl [Hx]; · iexact Hx
    isplitl [Hy]; · iexact Hy
    isplitl [Hs]; · iexists _; iexact Hs
    iexists _; iexact Hc
  rw [dn0_eq]; unfold dnF
  iintro ⟨Hst, Hx, Hy, Hs, Hc⟩
  -- the two sums
  iapply (wp_seq 𝒱 none Set.univ d SU _ ops2 ops2_sub ops2_fresh (V2 m d)) $$ [Hb Hx Hy Hs Hc Hrest]
  · isplitl [Hb]; · iexact Hb
    rw [e2 m d]
    isplitr [Hrest]
    · isplitl [Hx]; · iexact Hx
      isplitl [Hy]; · iexact Hy
      isplitl [Hs]; · iexact Hs
      iexact Hc
    iexact Hrest
  rw [e3 m d]
  iintro ⟨Hb, ⟨Hx, Hy, Ho0, Ho1⟩, Hrest⟩
  -- the TensorCore's handshake state after the call: every start it owed is signalled
  have hO1 : (K (F := F)).Otc d (((0 : Fin 1) : ℕ) + 1) = 0 := (K (F := F)).Otc_end d le_rfl
  have hO1' : (K (F := F)).Otc d 1 = 0 := (K (F := F)).Otc_end d le_rfl
  unfold SparseCore.Cfg.tcSt
  rw [hO1, hO1']
  icases Hst with ⟨⟨%W, %hW, HO⟩, Hst'⟩
  -- the region
  iapply (region_wp (X0 m d) (Y0 m d) (V3 m d o0') (V3 m d o1') (B8 (F := F) d) (K (F := F)).L (K (F := F)).lev d _ _) $$ [Hb Hx Hy Ho0 Ho1 HO Hg Ht Hrest Hst']
  isplitr
  · iapply (SparseCore.Cfg.ctx_levAts κ); iexact Hctx
  isplitl [Hb]; · iexact Hb
  isplitl [Hx Hy Ho0 Ho1 HO]
  · unfold regPre Pipeline.owesWithin
    isplitl [Hx]; · iexact Hx
    isplitl [Hy]; · iexact Hy
    isplitl [Ho0]; · iexact Ho0
    isplitl [Ho1]; · iexact Ho1
    iexists W; isplitr; · ipureintro; exact fun p hp => hW p hp
    iexact HO
  isplitl [Hg]; · iexact Hg
  isplitl [Ht]; · iexact Ht
  unfold regPost Pipeline.owesWithin
  iintro ⟨Hb, Hx, Hy, Ho0, Ho1, %W', %hW', HO⟩
  -- the last five operations
  iapply (wp_seq 𝒱 none Set.univ d SU _ ops3 ops3_sub ops3_fresh (V4 m d)) $$ [Hb Hx Hy Ho0 Ho1 Hrest]
  · isplitl [Hb]; · iexact Hb
    rw [e4 m d]
    isplitr [Hrest]
    · isplitl [Hx]; · iexact Hx
      isplitl [Hy]; · iexact Hy
      isplitl [Ho0]; · iexact Ho0
      iexact Ho1
    iexact Hrest
  rw [e5 m d]
  iintro ⟨Hb, ⟨Ha0, Ha1, Hr⟩, -⟩
  rw [wp_pure]; imodintro
  isplitr [Ha0 Ha1 Hr]
  · isplitl [HO]
    · iexists W'; isplitr
      · ipureintro; intro p hp
        rcases hW' (Finset.mem_coe.mpr hp) with h | ⟨w, s, hps⟩
        · exact h
        · rw [hps]; exact Nat.zero_le _
      iexact HO
    iexact Hst'
  unfold FIN
  isplitl [Ha0]; · iexact Ha0
  isplitl [Ha1]; · iexact Ha1
  iexact Hr

/-! ## What the final memory says -/

/-- The claim's reading of a final state on device `d`: the two arguments as launched, the result at the pure term. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v10) = kres (X0 m d) (Y0 m d)

theorem hfin (d : Dev nD) (s' : Phys nD τ sig (Elt F)) : iprop(FIN m d ∗ SI s') ⊢ (⌜fq m d s'⌝ : sProp 𝕄) := by
  unfold FIN
  iintro ⟨⟨Ha0, Ha1, Hr⟩, HSI⟩
  ihave %h0 := (SI_pointsTo_agree (st := s') (ℓ := (SparseCore.T d).loc main_arg0) (I := Finset.univ) (q := fullShare)
    (f := m ((SparseCore.T d).loc main_arg0))) $$ [HSI Ha0]
  · isplitl [HSI] <;> iassumption
  ihave %h1 := (SI_pointsTo_agree (st := s') (ℓ := (SparseCore.T d).loc main_arg1) (I := Finset.univ) (q := fullShare)
    (f := m ((SparseCore.T d).loc main_arg1))) $$ [HSI Ha1]
  · isplitl [HSI] <;> iassumption
  ihave %h2 := (SI_pointsTo_agree (st := s') (ℓ := (SparseCore.T d).loc main_v10) (I := Finset.univ) (q := fullShare)
    (f := kres (X0 m d) (Y0 m d))) $$ [HSI Hr]
  · isplitl [HSI] <;> iassumption
  ipureintro
  exact ⟨funext fun i => h0 i (Finset.mem_univ i), funext fun i => h1 i (Finset.mem_univ i), funext fun i => h2 i (Finset.mem_univ i)⟩

/-! ## The launch element -/

/-- The launch element of the ghost state: the handshake cells' rounds, the pipeline's staging cells' rounds, no counter. -/
def u₀ : UU := (initOf (K (F := F)).hsCells (K (F := F)).hsToks,
  (initOf (Pipeline.cells cfgs cellOf_inj) (Pipeline.launchToks cfgs cellOf_inj), (1 : Counters)))

omit [FloatOps F] in
theorem bigSep_emp' {I : Type} (s : Finset I) : (bigSep s fun _ => iprop(emp)) = (iprop(emp) : sProp 𝕄) := bigSep_emp_const s

/-- The pipeline's component of the launch element funds each device's staging cells' ghost state and duty tokens. -/
theorem fund_pipe : (BI.own ((embR : Emb (UP × Counters) 𝕄)
      (initOf (Pipeline.cells cfgs cellOf_inj) (Pipeline.launchToks cfgs cellOf_inj), (1 : Counters))) : sProp 𝕄)
    ⊢ iprop(|==> ((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))) :=
  (own_pair_emb (embR : Emb (UP × Counters) 𝕄) _ _).trans (sep_elim_left.trans (Pipeline.fund_ghost cfgs (EP (F := F)) cellOf_inj))

/-- From the launch element: the handshakes' rounds for the launch theorem, each device's staging cells' ghost state
    and duty tokens for its region, and nothing for the kernels' own. -/
theorem hu₀ (X Y : Dev nD → Arr2 F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X Y).x q thr) := by
  unfold u₀
  refine (ownU_pair _ _).trans ((sep_mono_right (fund_pipe (F := F))).trans ?_)
  iintro ⟨HH, Hgt⟩
  imod Hgt with ⟨Hg, Ht⟩
  imodintro
  isplitl [HH]; · iexact HH
  isplitl [Hg Ht]
  · unfold G
    rw [bigSep_sep']
    simp only [show (Finset.univ : Finset (Fin 1)) = {0} by decide, bigSep_singleton]
    isplitl [Hg]; · iexact Hg
    iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.KI

end
-- ==== Proof.KISplit.lean ====
/-
  How the SparseCore's operands split among its sixteen tiles and the results gather: a read token of each big array per tile (the
  remainder of the share set aside until they come back), the two [256] arrays by their sixteen lane groups.
-/
import proofs.«210622_g27255862460721_cont_9to1_1214_20_alg».proof.Proof.KIPay

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.TileSpec (scS scC)

variable {F : FTy → Type} [FloatOps F]

local notation "𝕄" => MT nD τ sig (HIx 1) (Elt F) ℕ UU ℕ

omit [FloatOps F] in
theorem laneSet_eq (i : Fin 16) : laneSet i = (lanes i).set := by
  show ((View.whole (main_v2_0_scv : Ref sig .scVector)).slice (lanes i)).set = _
  rw [View.set_slice]; exact Finset.map_refl
omit [FloatOps F] in
theorem lanes_disjoint : ∀ i ∈ (Finset.univ : Finset (Fin 16)), ∀ j ∈ (Finset.univ : Finset (Fin 16)), i ≠ j → Disjoint (laneSet i) (laneSet j) :=
  fun i _ j _ h => by rw [laneSet_eq, laneSet_eq]; exact Rect.part_disjoint hdiv16 h
omit [FloatOps F] in
theorem lanes_cover : (Finset.univ : Finset (Fin 16)).biUnion laneSet = Finset.univ :=
  (Finset.biUnion_congr rfl fun i _ => laneSet_eq i).trans (Rect.biUnion_part hdiv16)

omit [FloatOps F] in
theorem sPts_lanes (d : Dev nD) (f : Buf (Elt F) (sLoc d)) :
    (sLoc d ↦{fullShare} f : sProp 𝕄) = bigSep Finset.univ fun i : Fin 16 => sLoc d ↦[laneSet i]{fullShare} f := by
  rw [← pointsTo_biUnion Finset.univ (ℓ := sLoc d) laneSet lanes_disjoint, lanes_cover]; try rfl
omit [FloatOps F] in
theorem cPts_lanes (d : Dev nD) (f : Buf (Elt F) (cLoc d)) :
    (cLoc d ↦{fullShare} f : sProp 𝕄) = bigSep Finset.univ fun i : Fin 16 => cLoc d ↦[laneSet i]{fullShare} f := by
  rw [← pointsTo_biUnion Finset.univ (ℓ := cLoc d) laneSet lanes_disjoint, lanes_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable (X Y : Dev nD → Arr2 F)

omit [FloatOps F] in
theorem pts_set_ex {ℓ : Loc nD τ sig} {A : Finset (Idx ℓ)} {q : PosShare TreeShare} (f : Buf (Elt F) ℓ) :
    (ℓ ↦[A]{q} f : sProp 𝕄) ⊢ iprop(∃ g, ℓ ↦[A]{q} g) := by
  iintro H; iexists f; iexact H
omit [FloatOps F] in
theorem s_lanes_ex (d : Dev nD) (fs : Buf (Elt F) (sLoc d)) :
    (bigSep Finset.univ fun i : Fin 16 => (sLoc d ↦[laneSet i]{fullShare} fs : sProp 𝕄))
      ⊢ bigSep Finset.univ fun i : Fin 16 => iprop(∃ f, sLoc d ↦[laneSet i]{fullShare} f) :=
  bigSep_mono fun _ _ => pts_set_ex fs
omit [FloatOps F] in
theorem c_lanes_ex (d : Dev nD) (fc : Buf (Elt F) (cLoc d)) :
    (bigSep Finset.univ fun i : Fin 16 => (cLoc d ↦[laneSet i]{fullShare} fc : sProp 𝕄))
      ⊢ bigSep Finset.univ fun i : Fin 16 => iprop(∃ f, cLoc d ↦[laneSet i]{fullShare} f) :=
  bigSep_mono fun _ _ => pts_set_ex fc

/-- The split and the gather, over the sixteen tiles. -/
theorem split_aux (d : Dev nD) (A B : Arr2 F) (sA cA : S256.Idx → F .f32) :
    (iprop((xLoc d ↦{fullShare} A) ∗ (tLoc d ↦{fullShare} B) ∗ (∃ f, sLoc d ↦{fullShare} f) ∗ (∃ f, cLoc d ↦{fullShare} f)) : sProp 𝕄) ⊢ |={Set.univ}=> iprop(
      (bigSep Finset.univ fun i : Fin 16 =>
        iprop((xLoc d ↦{Transfers.shareTok fullShare 16 i} A) ∗ (tLoc d ↦{Transfers.shareTok fullShare 16 i} B)
          ∗ (∃ f, sLoc d ↦[laneSet i]{fullShare} f) ∗ (∃ f, cLoc d ↦[laneSet i]{fullShare} f)))
      ∗ ((bigSep Finset.univ fun i : Fin 16 =>
          iprop((xLoc d ↦{Transfers.shareTok fullShare 16 i} A) ∗ (tLoc d ↦{Transfers.shareTok fullShare 16 i} B)
            ∗ (sLoc d ↦[laneSet i]{fullShare} sA) ∗ (cLoc d ↦[laneSet i]{fullShare} cA)))
          -∗ iprop((xLoc d ↦{fullShare} A) ∗ (tLoc d ↦{fullShare} B) ∗ (sLoc d ↦{fullShare} sA) ∗ (cLoc d ↦{fullShare} cA)))) := by
  rw [bigSep_sep', bigSep_sep', bigSep_sep', bigSep_sep', bigSep_sep', bigSep_sep', sPts_lanes d sA, cPts_lanes d cA]
  iintro ⟨Hx, Hy, ⟨%fs, Hs⟩, ⟨%fc, Hc⟩⟩
  ihave Hx' := (Transfers.pointsTo_toks_split fullShare 16) $$ Hx
  icases Hx' with ⟨Hxr, Hxt⟩
  ihave Hy' := (Transfers.pointsTo_toks_split fullShare 16) $$ Hy
  icases Hy' with ⟨Hyr, Hyt⟩
  ihave Hs' := (Entails.of_eq (sPts_lanes (F := F) d fs)) $$ Hs
  ihave Hc' := (Entails.of_eq (cPts_lanes (F := F) d fc)) $$ Hc
  imodintro
  isplitl [Hxt Hyt Hs' Hc']
  · isplitl [Hxt]; · iexact Hxt
    isplitl [Hyt]; · iexact Hyt
    isplitl [Hs']
    · iapply (s_lanes_ex (F := F) d fs); iexact Hs'
    · iapply (c_lanes_ex (F := F) d fc); iexact Hc'
  iintro ⟨Hxt, Hyt, Hs, Hc⟩
  isplitl [Hxr Hxt]
  · iapply (Transfers.pointsTo_toks_join fullShare 16); isplitl [Hxr] <;> iassumption
  isplitl [Hyr Hyt]
  · iapply (Transfers.pointsTo_toks_join fullShare 16); isplitl [Hyr] <;> iassumption
  isplitl [Hs]; · iexact Hs
  iexact Hc

variable (X Y : Dev nD → Arr2 F)

theorem vecSplit : (K (F := F)).VecSplit' (P X Y) 0 := by
  intro d c
  show stF X Y d ⊢ |={Set.univ}=> iprop((bigSep Finset.univ fun i : Fin ((K (F := F)).nSub 0) => goF X Y d (Fin.cast nSub_zero i))
      ∗ ((bigSep Finset.univ fun i : Fin ((K (F := F)).nSub 0) => tdF X Y d (Fin.cast nSub_zero i)) -∗ dnF X Y d))
  rw [bigSep_tasks (F := F) (goF X Y d), bigSep_tasks (F := F) (tdF X Y d)]
  unfold stF goF tdF dnF
  exact split_aux d (X d) (Y d) (scS (X d) (Y d)) (scC (X d) (Y d))

end Cert.Proof.KI

end
-- ==== Proof.KITileRes.lean ====
/-
  A tile's own scratch: its six buffers and six DMA semaphores among everything scoped to it.
-/
import proofs.«210622_g27255862460721_cont_9to1_1214_20_alg».proof.Proof.KIPay

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

variable (d : Dev nD) (L : grid0.Coords)

abbrev restCells : Finset (GSem nD τ sig) := (((((((ownCells (V d (cV L) (jV L))).erase ((V d (cV L) (jV L)), SemLoc.dma cc0_scratch6.sem)).erase ((V d (cV L) (jV L)), SemLoc.dma cc0_scratch7.sem)).erase ((V d (cV L) (jV L)), SemLoc.dma cc0_scratch8.sem)).erase ((V d (cV L) (jV L)), SemLoc.dma cc0_scratch9.sem)).erase ((V d (cV L) (jV L)), SemLoc.dma cc0_scoped0.sem)).erase ((V d (cV L) (jV L)), SemLoc.dma cc0_scoped1.sem))
abbrev restRefs : Finset (DevRef τ sig) := (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))

theorem ownSems0_V :
    (ownSems0 (V d (cV L) (jV L)) : sProp 𝕄)
      = iprop(semVal ((V d (cV L) (jV L)), SemLoc.dma cc0_scratch6.sem) 0 ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0 ∗ semVal ((V d (cV L) (jV L)), SemLoc.dma cc0_scoped0.sem) 0 ∗ semVal ((V d (cV L) (jV L)), SemLoc.dma cc0_scoped1.sem) 0
          ∗ bigSep (restCells d L) fun g => semVal g 0) := by
  unfold SparseCore.Cfg.ownSems0
  rw [SparseCore.bigSep_erase' ((mem_ownCells (g := (((V d (cV L) (jV L)), SemLoc.dma cc0_scratch6.sem) : GSem nD τ sig))).mpr ⟨rfl, by show (SemLoc.dma cc0_scratch6.sem : SemLoc sig).isScoped .scVector = true; decide⟩),
    SparseCore.bigSep_erase' (Finset.mem_erase.mpr ⟨fun e => absurd (Prod.mk.inj e).2 (show (SemLoc.dma cc0_scratch7.sem : SemLoc sig) ≠ SemLoc.dma cc0_scratch6.sem by decide), (mem_ownCells (g := (((V d (cV L) (jV L)), SemLoc.dma cc0_scratch7.sem) : GSem nD τ sig))).mpr ⟨rfl, by show (SemLoc.dma cc0_scratch7.sem : SemLoc sig).isScoped .scVector = true; decide⟩⟩),
    SparseCore.bigSep_erase' (Finset.mem_erase.mpr ⟨fun e => absurd (Prod.mk.inj e).2 (show (SemLoc.dma cc0_scratch8.sem : SemLoc sig) ≠ SemLoc.dma cc0_scratch7.sem by decide), Finset.mem_erase.mpr ⟨fun e => absurd (Prod.mk.inj e).2 (show (SemLoc.dma cc0_scratch8.sem : SemLoc sig) ≠ SemLoc.dma cc0_scratch6.sem by decide), (mem_ownCells (g := (((V d (cV L) (jV L)), SemLoc.dma cc0_scratch8.sem) : GSem nD τ sig))).mpr ⟨rfl, by show (SemLoc.dma cc0_scratch8.sem : SemLoc sig).isScoped .scVector = true; decide⟩⟩⟩),
    SparseCore.bigSep_erase' (Finset.mem_erase.mpr ⟨fun e => absurd (Prod.mk.inj e).2 (show (SemLoc.dma cc0_scratch9.sem : SemLoc sig) ≠ SemLoc.dma cc0_scratch8.sem by decide), Finset.mem_erase.mpr ⟨fun e => absurd (Prod.mk.inj e).2 (show (SemLoc.dma cc0_scratch9.sem : SemLoc sig) ≠ SemLoc.dma cc0_scratch7.sem by decide), Finset.mem_erase.mpr ⟨fun e => absurd (Prod.mk.inj e).2 (show (SemLoc.dma cc0_scratch9.sem : SemLoc sig) ≠ SemLoc.dma cc0_scratch6.sem by decide), (mem_ownCells (g := (((V d (cV L) (jV L)), SemLoc.dma cc0_scratch9.sem) : GSem nD τ sig))).mpr ⟨rfl, by show (SemLoc.dma cc0_scratch9.sem : SemLoc sig).isScoped .scVector = true; decide⟩⟩⟩⟩),
    SparseCore.bigSep_erase' (Finset.mem_erase.mpr ⟨fun e => absurd (Prod.mk.inj e).2 (show (SemLoc.dma cc0_scoped0.sem : SemLoc sig) ≠ SemLoc.dma cc0_scratch9.sem by decide), Finset.mem_erase.mpr ⟨fun e => absurd (Prod.mk.inj e).2 (show (SemLoc.dma cc0_scoped0.sem : SemLoc sig) ≠ SemLoc.dma cc0_scratch8.sem by decide), Finset.mem_erase.mpr ⟨fun e => absurd (Prod.mk.inj e).2 (show (SemLoc.dma cc0_scoped0.sem : SemLoc sig) ≠ SemLoc.dma cc0_scratch7.sem by decide), Finset.mem_erase.mpr ⟨fun e => absurd (Prod.mk.inj e).2 (show (SemLoc.dma cc0_scoped0.sem : SemLoc sig) ≠ SemLoc.dma cc0_scratch6.sem by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨fun e => absurd (Prod.mk.inj e).2 (show (SemLoc.dma cc0_scoped1.sem : SemLoc sig) ≠ SemLoc.dma cc0_scoped0.sem by decide), Finset.mem_erase.mpr ⟨fun e => absurd (Prod.mk.inj e).2 (show (SemLoc.dma cc0_scoped1.sem : SemLoc sig) ≠ SemLoc.dma cc0_scratch9.sem by decide), Finset.mem_erase.mpr ⟨fun e => absurd (Prod.mk.inj e).2 (show (SemLoc.dma cc0_scoped1.sem : SemLoc sig) ≠ SemLoc.dma cc0_scratch8.sem by decide), Finset.mem_erase.mpr ⟨fun e => absurd (Prod.mk.inj e).2 (show (SemLoc.dma cc0_scoped1.sem : SemLoc sig) ≠ SemLoc.dma cc0_scratch7.sem by decide), Finset.mem_erase.mpr ⟨fun e => absurd (Prod.mk.inj e).2 (show (SemLoc.dma cc0_scoped1.sem : SemLoc sig) ≠ SemLoc.dma cc0_scratch6.sem by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

end Cert.Proof.KI

end
-- ==== Proof.TileTrips.lean ====
/- The sixteen inner loops of a tile all make the same trip.

  A tile's work on a pair of chunks is sixteen row loops (eight rows of the first chunk, eight of the second), each
  written out separately in the kernel's text with its own copies of the step's operations. Every one of them carries
  the four accumulators (a0, a1, c0, c1) through the same eight steps over its eight loaded pieces of x and of t:
  pieces 0, 2, 4, 6 into (a0, c0) and pieces 1, 3, 5, 7 into (a1, c1). Each statement below names one loop's printed
  terms and says they are that one trip; each holds by unfolding the definitions. (The first loop's statement,
  trip_t2, is in the module this one imports.)
-/
import proofs.«210622_g27255862460721_cont_9to1_1214_20_alg».proof.Proof.TileSpec

noncomputable section

namespace Cert.Proof.TileSpec

open Idealize.ShloMosaic Idealize.ShloMosaic.ValueIdx Cert.KernelIdeal Cert.KernelIdeal.Gen

variable {F : FTy → Type} [FloatOps F]

theorem trip_t3 (a0 a1 c0 c1 : FVec F S16 .f32) (x0 t0 x1 t1 x2 t2 x3 t3 x4 t4 x5 t5 x6 t6 x7 t7 : Vec F S16 .f32) :
    ((k0_pay438 (k0_pay57 (k0_pay48 (k0_pay40 a0 x0 t0) x2 t2) (k0_pay54 x4) t4) (k0_pay63 x6 t6),
      k0_pay442 (k0_pay61 (k0_pay52 (k0_pay44 a1 x1 t1) x3 t3) x5 t5) x7 t7,
      k0_pay439 (k0_pay58 (k0_pay49 (k0_pay41 c0 x0 t0) x2 t2) (k0_pay54 x4) t4) (k0_pay63 x6 t6),
      k0_pay443 (k0_pay62 (k0_pay53 (k0_pay45 c1 x1 t1) x3 t3) x5 t5) x7 t7) : Acc4 F)
      = trip8 (a0, a1, c0, c1) ![x0, x1, x2, x3, x4, x5, x6, x7] ![t0, t1, t2, t3, t4, t5, t6, t7] := rfl

theorem trip_t4 (a0 a1 c0 c1 : FVec F S16 .f32) (x0 t0 x1 t1 x2 t2 x3 t3 x4 t4 x5 t5 x6 t6 x7 t7 : Vec F S16 .f32) :
    ((k0_pay446 (k0_pay83 (k0_pay74 (k0_pay66 a0 x0 t0) x2 t2) (k0_pay80 x4) t4) (k0_pay89 x6 t6),
      k0_pay450 (k0_pay87 (k0_pay78 (k0_pay70 a1 x1 t1) x3 t3) x5 t5) x7 t7,
      k0_pay447 (k0_pay84 (k0_pay75 (k0_pay67 c0 x0 t0) x2 t2) (k0_pay80 x4) t4) (k0_pay89 x6 t6),
      k0_pay451 (k0_pay88 (k0_pay79 (k0_pay71 c1 x1 t1) x3 t3) x5 t5) x7 t7) : Acc4 F)
      = trip8 (a0, a1, c0, c1) ![x0, x1, x2, x3, x4, x5, x6, x7] ![t0, t1, t2, t3, t4, t5, t6, t7] := rfl

theorem trip_t5 (a0 a1 c0 c1 : FVec F S16 .f32) (x0 t0 x1 t1 x2 t2 x3 t3 x4 t4 x5 t5 x6 t6 x7 t7 : Vec F S16 .f32) :
    ((k0_pay454 (k0_pay109 (k0_pay100 (k0_pay92 a0 x0 t0) x2 t2) (k0_pay106 x4) t4) (k0_pay115 x6 t6),
      k0_pay458 (k0_pay113 (k0_pay104 (k0_pay96 a1 x1 t1) x3 t3) x5 t5) x7 t7,
      k0_pay455 (k0_pay110 (k0_pay101 (k0_pay93 c0 x0 t0) x2 t2) (k0_pay106 x4) t4) (k0_pay115 x6 t6),
      k0_pay459 (k0_pay114 (k0_pay105 (k0_pay97 c1 x1 t1) x3 t3) x5 t5) x7 t7) : Acc4 F)
      = trip8 (a0, a1, c0, c1) ![x0, x1, x2, x3, x4, x5, x6, x7] ![t0, t1, t2, t3, t4, t5, t6, t7] := rfl

theorem trip_t6 (a0 a1 c0 c1 : FVec F S16 .f32) (x0 t0 x1 t1 x2 t2 x3 t3 x4 t4 x5 t5 x6 t6 x7 t7 : Vec F S16 .f32) :
    ((k0_pay462 (k0_pay135 (k0_pay126 (k0_pay118 a0 x0 t0) x2 t2) (k0_pay132 x4) t4) (k0_pay141 x6 t6),
      k0_pay466 (k0_pay139 (k0_pay130 (k0_pay122 a1 x1 t1) x3 t3) x5 t5) x7 t7,
      k0_pay463 (k0_pay136 (k0_pay127 (k0_pay119 c0 x0 t0) x2 t2) (k0_pay132 x4) t4) (k0_pay141 x6 t6),
      k0_pay467 (k0_pay140 (k0_pay131 (k0_pay123 c1 x1 t1) x3 t3) x5 t5) x7 t7) : Acc4 F)
      = trip8 (a0, a1, c0, c1) ![x0, x1, x2, x3, x4, x5, x6, x7] ![t0, t1, t2, t3, t4, t5, t6, t7] := rfl

theorem trip_t7 (a0 a1 c0 c1 : FVec F S16 .f32) (x0 t0 x1 t1 x2 t2 x3 t3 x4 t4 x5 t5 x6 t6 x7 t7 : Vec F S16 .f32) :
    ((k0_pay470 (k0_pay161 (k0_pay152 (k0_pay144 a0 x0 t0) x2 t2) (k0_pay158 x4) t4) (k0_pay167 x6 t6),
      k0_pay474 (k0_pay165 (k0_pay156 (k0_pay148 a1 x1 t1) x3 t3) x5 t5) x7 t7,
      k0_pay471 (k0_pay162 (k0_pay153 (k0_pay145 c0 x0 t0) x2 t2) (k0_pay158 x4) t4) (k0_pay167 x6 t6),
      k0_pay475 (k0_pay166 (k0_pay157 (k0_pay149 c1 x1 t1) x3 t3) x5 t5) x7 t7) : Acc4 F)
      = trip8 (a0, a1, c0, c1) ![x0, x1, x2, x3, x4, x5, x6, x7] ![t0, t1, t2, t3, t4, t5, t6, t7] := rfl

theorem trip_t8 (a0 a1 c0 c1 : FVec F S16 .f32) (x0 t0 x1 t1 x2 t2 x3 t3 x4 t4 x5 t5 x6 t6 x7 t7 : Vec F S16 .f32) :
    ((k0_pay478 (k0_pay187 (k0_pay178 (k0_pay170 a0 x0 t0) x2 t2) (k0_pay184 x4) t4) (k0_pay193 x6 t6),
      k0_pay482 (k0_pay191 (k0_pay182 (k0_pay174 a1 x1 t1) x3 t3) x5 t5) x7 t7,
      k0_pay479 (k0_pay188 (k0_pay179 (k0_pay171 c0 x0 t0) x2 t2) (k0_pay184 x4) t4) (k0_pay193 x6 t6),
      k0_pay483 (k0_pay192 (k0_pay183 (k0_pay175 c1 x1 t1) x3 t3) x5 t5) x7 t7) : Acc4 F)
      = trip8 (a0, a1, c0, c1) ![x0, x1, x2, x3, x4, x5, x6, x7] ![t0, t1, t2, t3, t4, t5, t6, t7] := rfl

theorem trip_t9 (a0 a1 c0 c1 : FVec F S16 .f32) (x0 t0 x1 t1 x2 t2 x3 t3 x4 t4 x5 t5 x6 t6 x7 t7 : Vec F S16 .f32) :
    ((k0_pay486 (k0_pay213 (k0_pay204 (k0_pay196 a0 x0 t0) x2 t2) (k0_pay210 x4) t4) (k0_pay219 x6 t6),
      k0_pay490 (k0_pay217 (k0_pay208 (k0_pay200 a1 x1 t1) x3 t3) x5 t5) x7 t7,
      k0_pay487 (k0_pay214 (k0_pay205 (k0_pay197 c0 x0 t0) x2 t2) (k0_pay210 x4) t4) (k0_pay219 x6 t6),
      k0_pay491 (k0_pay218 (k0_pay209 (k0_pay201 c1 x1 t1) x3 t3) x5 t5) x7 t7) : Acc4 F)
      = trip8 (a0, a1, c0, c1) ![x0, x1, x2, x3, x4, x5, x6, x7] ![t0, t1, t2, t3, t4, t5, t6, t7] := rfl

theorem trip_t10 (a0 a1 c0 c1 : FVec F S16 .f32) (x0 t0 x1 t1 x2 t2 x3 t3 x4 t4 x5 t5 x6 t6 x7 t7 : Vec F S16 .f32) :
    ((k0_pay494 (k0_pay239 (k0_pay230 (k0_pay222 a0 x0 t0) x2 t2) (k0_pay236 x4) t4) (k0_pay245 x6 t6),
      k0_pay498 (k0_pay243 (k0_pay234 (k0_pay226 a1 x1 t1) x3 t3) x5 t5) x7 t7,
      k0_pay495 (k0_pay240 (k0_pay231 (k0_pay223 c0 x0 t0) x2 t2) (k0_pay236 x4) t4) (k0_pay245 x6 t6),
      k0_pay499 (k0_pay244 (k0_pay235 (k0_pay227 c1 x1 t1) x3 t3) x5 t5) x7 t7) : Acc4 F)
      = trip8 (a0, a1, c0, c1) ![x0, x1, x2, x3, x4, x5, x6, x7] ![t0, t1, t2, t3, t4, t5, t6, t7] := rfl

theorem trip_t11 (a0 a1 c0 c1 : FVec F S16 .f32) (x0 t0 x1 t1 x2 t2 x3 t3 x4 t4 x5 t5 x6 t6 x7 t7 : Vec F S16 .f32) :
    ((k0_pay502 (k0_pay265 (k0_pay256 (k0_pay248 a0 x0 t0) x2 t2) (k0_pay262 x4) t4) (k0_pay271 x6 t6),
      k0_pay506 (k0_pay269 (k0_pay260 (k0_pay252 a1 x1 t1) x3 t3) x5 t5) x7 t7,
      k0_pay503 (k0_pay266 (k0_pay257 (k0_pay249 c0 x0 t0) x2 t2) (k0_pay262 x4) t4) (k0_pay271 x6 t6),
      k0_pay507 (k0_pay270 (k0_pay261 (k0_pay253 c1 x1 t1) x3 t3) x5 t5) x7 t7) : Acc4 F)
      = trip8 (a0, a1, c0, c1) ![x0, x1, x2, x3, x4, x5, x6, x7] ![t0, t1, t2, t3, t4, t5, t6, t7] := rfl

theorem trip_t12 (a0 a1 c0 c1 : FVec F S16 .f32) (x0 t0 x1 t1 x2 t2 x3 t3 x4 t4 x5 t5 x6 t6 x7 t7 : Vec F S16 .f32) :
    ((k0_pay510 (k0_pay291 (k0_pay282 (k0_pay274 a0 x0 t0) x2 t2) (k0_pay288 x4) t4) (k0_pay297 x6 t6),
      k0_pay514 (k0_pay295 (k0_pay286 (k0_pay278 a1 x1 t1) x3 t3) x5 t5) x7 t7,
      k0_pay511 (k0_pay292 (k0_pay283 (k0_pay275 c0 x0 t0) x2 t2) (k0_pay288 x4) t4) (k0_pay297 x6 t6),
      k0_pay515 (k0_pay296 (k0_pay287 (k0_pay279 c1 x1 t1) x3 t3) x5 t5) x7 t7) : Acc4 F)
      = trip8 (a0, a1, c0, c1) ![x0, x1, x2, x3, x4, x5, x6, x7] ![t0, t1, t2, t3, t4, t5, t6, t7] := rfl

theorem trip_t13 (a0 a1 c0 c1 : FVec F S16 .f32) (x0 t0 x1 t1 x2 t2 x3 t3 x4 t4 x5 t5 x6 t6 x7 t7 : Vec F S16 .f32) :
    ((k0_pay518 (k0_pay317 (k0_pay308 (k0_pay300 a0 x0 t0) x2 t2) (k0_pay314 x4) t4) (k0_pay323 x6 t6),
      k0_pay522 (k0_pay321 (k0_pay312 (k0_pay304 a1 x1 t1) x3 t3) x5 t5) x7 t7,
      k0_pay519 (k0_pay318 (k0_pay309 (k0_pay301 c0 x0 t0) x2 t2) (k0_pay314 x4) t4) (k0_pay323 x6 t6),
      k0_pay523 (k0_pay322 (k0_pay313 (k0_pay305 c1 x1 t1) x3 t3) x5 t5) x7 t7) : Acc4 F)
      = trip8 (a0, a1, c0, c1) ![x0, x1, x2, x3, x4, x5, x6, x7] ![t0, t1, t2, t3, t4, t5, t6, t7] := rfl

theorem trip_t14 (a0 a1 c0 c1 : FVec F S16 .f32) (x0 t0 x1 t1 x2 t2 x3 t3 x4 t4 x5 t5 x6 t6 x7 t7 : Vec F S16 .f32) :
    ((k0_pay526 (k0_pay343 (k0_pay334 (k0_pay326 a0 x0 t0) x2 t2) (k0_pay340 x4) t4) (k0_pay349 x6 t6),
      k0_pay530 (k0_pay347 (k0_pay338 (k0_pay330 a1 x1 t1) x3 t3) x5 t5) x7 t7,
      k0_pay527 (k0_pay344 (k0_pay335 (k0_pay327 c0 x0 t0) x2 t2) (k0_pay340 x4) t4) (k0_pay349 x6 t6),
      k0_pay531 (k0_pay348 (k0_pay339 (k0_pay331 c1 x1 t1) x3 t3) x5 t5) x7 t7) : Acc4 F)
      = trip8 (a0, a1, c0, c1) ![x0, x1, x2, x3, x4, x5, x6, x7] ![t0, t1, t2, t3, t4, t5, t6, t7] := rfl

theorem trip_t15 (a0 a1 c0 c1 : FVec F S16 .f32) (x0 t0 x1 t1 x2 t2 x3 t3 x4 t4 x5 t5 x6 t6 x7 t7 : Vec F S16 .f32) :
    ((k0_pay534 (k0_pay369 (k0_pay360 (k0_pay352 a0 x0 t0) x2 t2) (k0_pay366 x4) t4) (k0_pay375 x6 t6),
      k0_pay538 (k0_pay373 (k0_pay364 (k0_pay356 a1 x1 t1) x3 t3) x5 t5) x7 t7,
      k0_pay535 (k0_pay370 (k0_pay361 (k0_pay353 c0 x0 t0) x2 t2) (k0_pay366 x4) t4) (k0_pay375 x6 t6),
      k0_pay539 (k0_pay374 (k0_pay365 (k0_pay357 c1 x1 t1) x3 t3) x5 t5) x7 t7) : Acc4 F)
      = trip8 (a0, a1, c0, c1) ![x0, x1, x2, x3, x4, x5, x6, x7] ![t0, t1, t2, t3, t4, t5, t6, t7] := rfl

theorem trip_t16 (a0 a1 c0 c1 : FVec F S16 .f32) (x0 t0 x1 t1 x2 t2 x3 t3 x4 t4 x5 t5 x6 t6 x7 t7 : Vec F S16 .f32) :
    ((k0_pay542 (k0_pay395 (k0_pay386 (k0_pay378 a0 x0 t0) x2 t2) (k0_pay392 x4) t4) (k0_pay401 x6 t6),
      k0_pay546 (k0_pay399 (k0_pay390 (k0_pay382 a1 x1 t1) x3 t3) x5 t5) x7 t7,
      k0_pay543 (k0_pay396 (k0_pay387 (k0_pay379 c0 x0 t0) x2 t2) (k0_pay392 x4) t4) (k0_pay401 x6 t6),
      k0_pay547 (k0_pay400 (k0_pay391 (k0_pay383 c1 x1 t1) x3 t3) x5 t5) x7 t7) : Acc4 F)
      = trip8 (a0, a1, c0, c1) ![x0, x1, x2, x3, x4, x5, x6, x7] ![t0, t1, t2, t3, t4, t5, t6, t7] := rfl

theorem trip_t17 (a0 a1 c0 c1 : FVec F S16 .f32) (x0 t0 x1 t1 x2 t2 x3 t3 x4 t4 x5 t5 x6 t6 x7 t7 : Vec F S16 .f32) :
    ((k0_pay4 (k0_pay421 (k0_pay412 (k0_pay404 a0 x0 t0) x2 t2) (k0_pay418 x4) t4) (k0_pay427 x6 t6),
      k0_pay8 (k0_pay425 (k0_pay416 (k0_pay408 a1 x1 t1) x3 t3) x5 t5) x7 t7,
      k0_pay5 (k0_pay422 (k0_pay413 (k0_pay405 c0 x0 t0) x2 t2) (k0_pay418 x4) t4) (k0_pay427 x6 t6),
      k0_pay9 (k0_pay426 (k0_pay417 (k0_pay409 c1 x1 t1) x3 t3) x5 t5) x7 t7) : Acc4 F)
      = trip8 (a0, a1, c0, c1) ![x0, x1, x2, x3, x4, x5, x6, x7] ![t0, t1, t2, t3, t4, t5, t6, t7] := rfl

end Cert.Proof.TileSpec

end
-- ==== Proof.TileIndexBase.lean ====
/-
  Index facts about a tile's data movement, as equations between array contents.

  A chunk copy moves rows n … n + 7 of a [16384, 2048] array, all 2048 columns, over a whole [8, 2048] buffer: entry
  (r, c) of the buffer then holds entry (n + r, c) of the array. A row loop reads row r of such a buffer as a [2048]
  array and loads sixteen lanes from column 128 j + 16 u: piece 8 j + u of the row.
-/
import proofs.«210622_g27255862460721_cont_9to1_1214_20_alg».proof.Proof.TileTrips

noncomputable section

namespace Cert.Proof.KI

open Cert.KernelIdeal Cert.KernelIdeal.Gen
open Idealize.ShloMosaic Idealize.ShloMosaic.ValueIdx Idealize.SL.Sem
open Cert.Proof.TileSpec (Acc4 rowFold chunkFold tileFold rowsOf init4 outS outC trip8 ld)

variable {F : FTy → Type} [FloatOps F]

/-! ## A landed chunk -/

/-- The 8-row, full-width rectangle at row n of a [16384, 2048] array reads, at (r, c), the array at (n + r, c). -/
theorem rows_emb (A : S16384x2048.Idx → F .f32) (off : Fin 2 → ℕ)
    (h : ∀ a, off a + S8x2048.size a ≤ S16384x2048.size a) (n : ℕ) (hoff : off = ![n, 0]) (y : S8x2048.Idx) :
    A ((Rect.unit (s := S16384x2048) off S8x2048.size h).emb y) = rowsOf A n y := by
  subst hoff
  have h0 : n + 8 ≤ 16384 := h 0
  have hy := idx2_lt0 y
  unfold rowsOf
  congr 1
  funext a
  match a with
  | ⟨0, _⟩ =>
    refine Fin.ext ?_
    show n + 1 * (y 0).val = (n + (y 0).val) % 16384
    rw [Nat.mod_eq_of_lt (by omega)]
    omega
  | ⟨1, _⟩ =>
    refine Fin.ext ?_
    show 0 + 1 * (y 1).val = (y 1).val
    omega

/-- The slice of the first argument's array at rows n … n + 7 reads as those rows. -/
theorem read_rows_x (A : S16384x2048.Idx → F .f32) (off : Fin 2 → ℕ)
    (h : ∀ a, off a + S8x2048.size a ≤ S16384x2048.size a) (n : ℕ) (hoff : off = ![n, 0]) :
    View.read (Elt F) ((Memref.whole main_v0_scv).slice (Rect.unit (s := S16384x2048) off S8x2048.size h) (fun _ => rfl)).view A
      = rowsOf A n :=
  funext fun y => rows_emb A off h n hoff y

/-- The slice of the second argument's array at rows n … n + 7 reads as those rows. -/
theorem read_rows_t (A : S16384x2048.Idx → F .f32) (off : Fin 2 → ℕ)
    (h : ∀ a, off a + S8x2048.size a ≤ S16384x2048.size a) (n : ℕ) (hoff : off = ![n, 0]) :
    View.read (Elt F) ((Memref.whole main_v1_scv).slice (Rect.unit (s := S16384x2048) off S8x2048.size h) (fun _ => rfl)).view A
      = rowsOf A n :=
  funext fun y => rows_emb A off h n hoff y

/-- Rows n … n + 7 of the first array, landed in the first slot of its pair of buffers. -/
theorem landed_x0 (A : S16384x2048.Idx → F .f32) (gold : S8x2048.Idx → F .f32) (off : Fin 2 → ℕ)
    (h : ∀ a, off a + S8x2048.size a ≤ S16384x2048.size a) (n : ℕ) (hoff : off = ![n, 0]) :
    View.write (Elt F) (Memref.whole cc0_scratch0).view gold
        (ReadAs.same.apply (View.read (Elt F)
          ((Memref.whole main_v0_scv).slice (Rect.unit (s := S16384x2048) off S8x2048.size h) (fun _ => rfl)).view A))
        Finset.univ
      = rowsOf A n := by
  rw [read_rows_x A off h n hoff]
  exact View.write_whole_univ _ _ _

/-- Rows n … n + 7 of the first array, landed in the second slot of its pair of buffers. -/
theorem landed_x1 (A : S16384x2048.Idx → F .f32) (gold : S8x2048.Idx → F .f32) (off : Fin 2 → ℕ)
    (h : ∀ a, off a + S8x2048.size a ≤ S16384x2048.size a) (n : ℕ) (hoff : off = ![n, 0]) :
    View.write (Elt F) (Memref.whole cc0_scratch1).view gold
        (ReadAs.same.apply (View.read (Elt F)
          ((Memref.whole main_v0_scv).slice (Rect.unit (s := S16384x2048) off S8x2048.size h) (fun _ => rfl)).view A))
        Finset.univ
      = rowsOf A n := by
  rw [read_rows_x A off h n hoff]
  exact View.write_whole_univ _ _ _

/-- Rows n … n + 7 of the second array, landed in the first slot of its pair of buffers. -/
theorem landed_t0 (A : S16384x2048.Idx → F .f32) (gold : S8x2048.Idx → F .f32) (off : Fin 2 → ℕ)
    (h : ∀ a, off a + S8x2048.size a ≤ S16384x2048.size a) (n : ℕ) (hoff : off = ![n, 0]) :
    View.write (Elt F) (Memref.whole cc0_scratch2).view gold
        (ReadAs.same.apply (View.read (Elt F)
          ((Memref.whole main_v1_scv).slice (Rect.unit (s := S16384x2048) off S8x2048.size h) (fun _ => rfl)).view A))
        Finset.univ
      = rowsOf A n := by
  rw [read_rows_t A off h n hoff]
  exact View.write_whole_univ _ _ _

/-- Rows n … n + 7 of the second array, landed in the second slot of its pair of buffers. -/
theorem landed_t1 (A : S16384x2048.Idx → F .f32) (gold : S8x2048.Idx → F .f32) (off : Fin 2 → ℕ)
    (h : ∀ a, off a + S8x2048.size a ≤ S16384x2048.size a) (n : ℕ) (hoff : off = ![n, 0]) :
    View.write (Elt F) (Memref.whole cc0_scratch3).view gold
        (ReadAs.same.apply (View.read (Elt F)
          ((Memref.whole main_v1_scv).slice (Rect.unit (s := S16384x2048) off S8x2048.size h) (fun _ => rfl)).view A))
        Finset.univ
      = rowsOf A n := by
  rw [read_rows_t A off h n hoff]
  exact View.write_whole_univ _ _ _

/-! ## A row loop's load: sixteen lanes of one row of a slot buffer -/

/-- Row r of an [8, 2048] buffer, read as a [2048] array, at the sixteen columns from 128 j + 16 u: piece 8 j + u of the
    row. -/
theorem row_piece (g : S8x2048.Idx → F .f32) (r : ℕ) (hr8 : r < 8)
    (hr : ∀ a, (![r, 0] : Fin 2 → ℕ) a + S1x2048.size a ≤ S8x2048.size a) (hq : S2048.numel = S1x2048.numel)
    (off : Fin 1 → ℕ) (h : ∀ a, off a + S16.size a ≤ S2048.size a) (j u : ℕ) (hj : j < 16) (hu : u < 8)
    (hoff : off = ![128 * j + 16 * u]) (y : (Rect.unit (s := S2048) off S16.size h).toLoadRect.shape.Idx) :
    g ((Rect.unit (s := S8x2048) ![r, 0] S1x2048.size hr).emb
        (Shape.reshapeEquiv hq ((Rect.unit (s := S2048) off S16.size h).toLoadRect.idx y)))
      = ld g ⟨r, hr8⟩ (8 * j + u) y := by
  subst hoff
  have hy : (y 0).val < 16 := (y 0).isLt
  have hrm : (Shape.reshapeEquiv hq ((Rect.unit (s := S2048) ![128 * j + 16 * u] S16.size h).toLoadRect.idx y) 0).val * 2048
      + (Shape.reshapeEquiv hq ((Rect.unit (s := S2048) ![128 * j + 16 * u] S16.size h).toLoadRect.idx y) 1).val
      = 128 * j + 16 * u + 1 * (y 0).val := by
    have := Shape.rowMajor_reshapeEquiv hq ((Rect.unit (s := S2048) ![128 * j + 16 * u] S16.size h).toLoadRect.idx y)
    rw [Shape.rowMajor_val_two, Shape.rowMajor_val_one] at this
    exact this
  have hw0 := idx2_lt0 (Shape.reshapeEquiv hq ((Rect.unit (s := S2048) ![128 * j + 16 * u] S16.size h).toLoadRect.idx y))
  unfold ld
  congr 1
  funext a
  match a with
  | ⟨0, _⟩ =>
    refine Fin.ext ?_
    show r + 1 * (Shape.reshapeEquiv hq ((Rect.unit (s := S2048) ![128 * j + 16 * u] S16.size h).toLoadRect.idx y) 0).val = r
    omega
  | ⟨1, _⟩ =>
    refine Fin.ext ?_
    show 0 + 1 * (Shape.reshapeEquiv hq ((Rect.unit (s := S2048) ![128 * j + 16 * u] S16.size h).toLoadRect.idx y) 1).val
      = (16 * (8 * j + u) + (y 0).val) % 2048
    rw [Nat.mod_eq_of_lt (by omega)]
    omega

/-- A 16-lane load from row r of slot buffer 0, at columns 128 j + 16 u …, is piece 8 j + u of that row. -/
theorem load_eq_s0 (g : S8x2048.Idx → F .f32) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch0).slice (Rect.unit (s := S8x2048) ![r, 0] S1x2048.size hr) hst).squeeze S2048 hsq).view
        (Rect.unit (s := S2048) off S16.size h).toLoadRect g
      = ld g ⟨r, hr8⟩ (8 * j + u) :=
  funext fun y => row_piece g r hr8 hr hsq.numel_eq off h j u hj hu hoff y

/-- A 16-lane load from row r of slot buffer 1, at columns 128 j + 16 u …, is piece 8 j + u of that row. -/
theorem load_eq_s1 (g : S8x2048.Idx → F .f32) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch1).slice (Rect.unit (s := S8x2048) ![r, 0] S1x2048.size hr) hst).squeeze S2048 hsq).view
        (Rect.unit (s := S2048) off S16.size h).toLoadRect g
      = ld g ⟨r, hr8⟩ (8 * j + u) :=
  funext fun y => row_piece g r hr8 hr hsq.numel_eq off h j u hj hu hoff y

/-- A 16-lane load from row r of slot buffer 2, at columns 128 j + 16 u …, is piece 8 j + u of that row. -/
theorem load_eq_s2 (g : S8x2048.Idx → F .f32) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch2).slice (Rect.unit (s := S8x2048) ![r, 0] S1x2048.size hr) hst).squeeze S2048 hsq).view
        (Rect.unit (s := S2048) off S16.size h).toLoadRect g
      = ld g ⟨r, hr8⟩ (8 * j + u) :=
  funext fun y => row_piece g r hr8 hr hsq.numel_eq off h j u hj hu hoff y

/-- A 16-lane load from row r of slot buffer 3, at columns 128 j + 16 u …, is piece 8 j + u of that row. -/
theorem load_eq_s3 (g : S8x2048.Idx → F .f32) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch3).slice (Rect.unit (s := S8x2048) ![r, 0] S1x2048.size hr) hst).squeeze S2048 hsq).view
        (Rect.unit (s := S2048) off S16.size h).toLoadRect g
      = ld g ⟨r, hr8⟩ (8 * j + u) :=
  funext fun y => row_piece g r hr8 hr hsq.numel_eq off h j u hj hu hoff y

end Cert.Proof.KI

end
-- ==== Proof.TileIndex.lean ====
/-
  Index facts about a tile's data movement, stated over the contents of the tile's own buffers.

  A landed chunk is eight rows of the array; a row loop's load is a piece of a row. Here each array's contents is typed
  as the contents of a buffer on the tile's thread.
-/
import proofs.«210622_g27255862460721_cont_9to1_1214_20_alg».proof.Proof.KITileRes
import proofs.«210622_g27255862460721_cont_9to1_1214_20_alg».proof.Proof.TileIndexBase

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.TileSpec (Acc4 rowFold chunkFold tileFold rowsOf init4 outS outC trip8 ld scS scC)

variable {F : FTy → Type} [FloatOps F] (d : Dev nD) (L : grid0.Coords)

abbrev thr : Thread nD τ := V d (cV L) (jV L)

/-! ## A landed chunk: the copy written over the whole slot buffer -/

/-- Rows n … n + 7 of the first array, landed in the first slot of its pair of buffers. -/
theorem chunk_eq_x0 (A : Buf (Elt F) ((Memref.whole main_v0_scv).view.loc (thr d L)))
    (gold : Buf (Elt F) ((Memref.whole cc0_scratch0).view.loc (thr d L))) (off : Fin 2 → ℕ)
    (h : ∀ a, off a + S8x2048.size a ≤ S16384x2048.size a) (n : ℕ) (hoff : off = ![n, 0]) :
    View.write (Elt F) (Memref.whole cc0_scratch0).view gold
        (ReadAs.same.apply (View.read (Elt F)
          ((Memref.whole main_v0_scv).slice (Rect.unit (s := S16384x2048) off S8x2048.size h) (fun _ => rfl)).view A))
        Finset.univ
      = rowsOf A n :=
  landed_x0 A gold off h n hoff

/-- Rows n … n + 7 of the first array, landed in the second slot of its pair of buffers. -/
theorem chunk_eq_x1 (A : Buf (Elt F) ((Memref.whole main_v0_scv).view.loc (thr d L)))
    (gold : Buf (Elt F) ((Memref.whole cc0_scratch1).view.loc (thr d L))) (off : Fin 2 → ℕ)
    (h : ∀ a, off a + S8x2048.size a ≤ S16384x2048.size a) (n : ℕ) (hoff : off = ![n, 0]) :
    View.write (Elt F) (Memref.whole cc0_scratch1).view gold
        (ReadAs.same.apply (View.read (Elt F)
          ((Memref.whole main_v0_scv).slice (Rect.unit (s := S16384x2048) off S8x2048.size h) (fun _ => rfl)).view A))
        Finset.univ
      = rowsOf A n :=
  landed_x1 A gold off h n hoff

/-- Rows n … n + 7 of the second array, landed in the first slot of its pair of buffers. -/
theorem chunk_eq_t0 (A : Buf (Elt F) ((Memref.whole main_v1_scv).view.loc (thr d L)))
    (gold : Buf (Elt F) ((Memref.whole cc0_scratch2).view.loc (thr d L))) (off : Fin 2 → ℕ)
    (h : ∀ a, off a + S8x2048.size a ≤ S16384x2048.size a) (n : ℕ) (hoff : off = ![n, 0]) :
    View.write (Elt F) (Memref.whole cc0_scratch2).view gold
        (ReadAs.same.apply (View.read (Elt F)
          ((Memref.whole main_v1_scv).slice (Rect.unit (s := S16384x2048) off S8x2048.size h) (fun _ => rfl)).view A))
        Finset.univ
      = rowsOf A n :=
  landed_t0 A gold off h n hoff

/-- Rows n … n + 7 of the second array, landed in the second slot of its pair of buffers. -/
theorem chunk_eq_t1 (A : Buf (Elt F) ((Memref.whole main_v1_scv).view.loc (thr d L)))
    (gold : Buf (Elt F) ((Memref.whole cc0_scratch3).view.loc (thr d L))) (off : Fin 2 → ℕ)
    (h : ∀ a, off a + S8x2048.size a ≤ S16384x2048.size a) (n : ℕ) (hoff : off = ![n, 0]) :
    View.write (Elt F) (Memref.whole cc0_scratch3).view gold
        (ReadAs.same.apply (View.read (Elt F)
          ((Memref.whole main_v1_scv).slice (Rect.unit (s := S16384x2048) off S8x2048.size h) (fun _ => rfl)).view A))
        Finset.univ
      = rowsOf A n :=
  landed_t1 A gold off h n hoff

/-! ## A row loop's load -/

/-- A 16-lane load from row r of slot buffer 0, at columns 128 j + 16 u …, is piece 8 j + u of that row. -/
theorem load_eq_b0 (g : Buf (Elt F) ((Memref.whole cc0_scratch0).view.loc (thr d L))) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch0).slice (Rect.unit (s := S8x2048) ![r, 0] S1x2048.size hr) hst).squeeze S2048 hsq).view
        (Rect.unit (s := S2048) off S16.size h).toLoadRect g
      = ld g ⟨r, hr8⟩ (8 * j + u) :=
  load_eq_s0 g r hr8 hr hst hsq off h j u hj hu hoff

/-- A 16-lane load from row r of slot buffer 1, at columns 128 j + 16 u …, is piece 8 j + u of that row. -/
theorem load_eq_b1 (g : Buf (Elt F) ((Memref.whole cc0_scratch1).view.loc (thr d L))) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch1).slice (Rect.unit (s := S8x2048) ![r, 0] S1x2048.size hr) hst).squeeze S2048 hsq).view
        (Rect.unit (s := S2048) off S16.size h).toLoadRect g
      = ld g ⟨r, hr8⟩ (8 * j + u) :=
  load_eq_s1 g r hr8 hr hst hsq off h j u hj hu hoff

/-- A 16-lane load from row r of slot buffer 2, at columns 128 j + 16 u …, is piece 8 j + u of that row. -/
theorem load_eq_b2 (g : Buf (Elt F) ((Memref.whole cc0_scratch2).view.loc (thr d L))) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch2).slice (Rect.unit (s := S8x2048) ![r, 0] S1x2048.size hr) hst).squeeze S2048 hsq).view
        (Rect.unit (s := S2048) off S16.size h).toLoadRect g
      = ld g ⟨r, hr8⟩ (8 * j + u) :=
  load_eq_s2 g r hr8 hr hst hsq off h j u hj hu hoff

/-- A 16-lane load from row r of slot buffer 3, at columns 128 j + 16 u …, is piece 8 j + u of that row. -/
theorem load_eq_b3 (g : Buf (Elt F) ((Memref.whole cc0_scratch3).view.loc (thr d L))) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch3).slice (Rect.unit (s := S8x2048) ![r, 0] S1x2048.size hr) hst).squeeze S2048 hsq).view
        (Rect.unit (s := S2048) off S16.size h).toLoadRect g
      = ld g ⟨r, hr8⟩ (8 * j + u) :=
  load_eq_s3 g r hr8 hr hst hsq off h j u hj hu hoff

end Cert.Proof.KI

end
-- ==== Proof.TilePureA.lean ====
/- A row loop's trip over the loads it makes.

  Row loop t of a tile reads row r of one slot buffer of x and of the same slot's buffer of t. In trip j it loads, from each,
  the eight 16-lane pieces at columns 128 j + 16 u (u < 8), that is pieces 8 j + u of the row, and carries the four
  accumulators through the eight steps. Each statement below writes one loop's yield over those sixteen loads and says it
  is the one trip over the row's pieces 8 j … 8 j + 7; it follows from the loop's trip statement and the reading of a load
  as a piece of a row.
-/
import proofs.«210622_g27255862460721_cont_9to1_1214_20_alg».proof.Proof.TileIndexBase
import Mathlib.Tactic.FinCases

noncomputable section

namespace Cert.Proof.KI

open Cert.KernelIdeal Cert.KernelIdeal.Gen
open Idealize.ShloMosaic Idealize.ShloMosaic.ValueIdx Idealize.SL.Sem
open Cert.Proof.TileSpec

variable {F : FTy → Type} [FloatOps F]

/-- Row loop t2: row 0 of slot buffers 0 (x) and 2 (t). -/
theorem trip_pure_t2 (gA gB : S8x2048.Idx → F .f32) (j : Fin k0_t2_loop.trips) (a : Acc4 F) :
    ((k0_pay430 (k0_pay31 (k0_pay22 (k0_pay14 a.1 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gB)) (k0_pay28 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gA)) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gB)) (k0_pay37 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gB)),
      k0_pay434 (k0_pay35 (k0_pay26 (k0_pay18 a.2.1 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gB),
      k0_pay431 (k0_pay32 (k0_pay23 (k0_pay15 a.2.2.1 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gB)) (k0_pay28 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gA)) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gB)) (k0_pay37 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gB)),
      k0_pay435 (k0_pay36 (k0_pay27 (k0_pay19 a.2.2.2 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gB)) : Acc4 F)
      = trip8 a (fun u => ld gA ⟨0, by decide⟩ (8 * j.val + u.val)) (fun u => ld gB ⟨0, by decide⟩ (8 * j.val + u.val)) := by
  have hj : j.val < 16 := Nat.lt_of_lt_of_le j.isLt k0_t2_abs.2.1
  refine (trip_t2 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gA) = ld gA ⟨0, by decide⟩ (8 * j.val + 0)
      exact load_eq_s0 gA 0 (by decide) _ (fun _ => rfl) _ _ _ j.val 0 hj (by decide) (k0_off3_eq j ⟨0, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gA) = ld gA ⟨0, by decide⟩ (8 * j.val + 1)
      exact load_eq_s0 gA 0 (by decide) _ (fun _ => rfl) _ _ _ j.val 1 hj (by decide) (k0_off3_eq j ⟨1, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gA) = ld gA ⟨0, by decide⟩ (8 * j.val + 2)
      exact load_eq_s0 gA 0 (by decide) _ (fun _ => rfl) _ _ _ j.val 2 hj (by decide) (k0_off3_eq j ⟨2, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gA) = ld gA ⟨0, by decide⟩ (8 * j.val + 3)
      exact load_eq_s0 gA 0 (by decide) _ (fun _ => rfl) _ _ _ j.val 3 hj (by decide) (k0_off3_eq j ⟨3, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gA) = ld gA ⟨0, by decide⟩ (8 * j.val + 4)
      exact load_eq_s0 gA 0 (by decide) _ (fun _ => rfl) _ _ _ j.val 4 hj (by decide) (k0_off3_eq j ⟨4, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gA) = ld gA ⟨0, by decide⟩ (8 * j.val + 5)
      exact load_eq_s0 gA 0 (by decide) _ (fun _ => rfl) _ _ _ j.val 5 hj (by decide) (k0_off3_eq j ⟨5, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gA) = ld gA ⟨0, by decide⟩ (8 * j.val + 6)
      exact load_eq_s0 gA 0 (by decide) _ (fun _ => rfl) _ _ _ j.val 6 hj (by decide) (k0_off3_eq j ⟨6, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gA) = ld gA ⟨0, by decide⟩ (8 * j.val + 7)
      exact load_eq_s0 gA 0 (by decide) _ (fun _ => rfl) _ _ _ j.val 7 hj (by decide) (k0_off3_eq j ⟨7, by decide⟩)
  · fin_cases u
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gB) = ld gB ⟨0, by decide⟩ (8 * j.val + 0)
      exact load_eq_s2 gB 0 (by decide) _ (fun _ => rfl) _ _ _ j.val 0 hj (by decide) (k0_off3_eq j ⟨0, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gB) = ld gB ⟨0, by decide⟩ (8 * j.val + 1)
      exact load_eq_s2 gB 0 (by decide) _ (fun _ => rfl) _ _ _ j.val 1 hj (by decide) (k0_off3_eq j ⟨1, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gB) = ld gB ⟨0, by decide⟩ (8 * j.val + 2)
      exact load_eq_s2 gB 0 (by decide) _ (fun _ => rfl) _ _ _ j.val 2 hj (by decide) (k0_off3_eq j ⟨2, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gB) = ld gB ⟨0, by decide⟩ (8 * j.val + 3)
      exact load_eq_s2 gB 0 (by decide) _ (fun _ => rfl) _ _ _ j.val 3 hj (by decide) (k0_off3_eq j ⟨3, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gB) = ld gB ⟨0, by decide⟩ (8 * j.val + 4)
      exact load_eq_s2 gB 0 (by decide) _ (fun _ => rfl) _ _ _ j.val 4 hj (by decide) (k0_off3_eq j ⟨4, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gB) = ld gB ⟨0, by decide⟩ (8 * j.val + 5)
      exact load_eq_s2 gB 0 (by decide) _ (fun _ => rfl) _ _ _ j.val 5 hj (by decide) (k0_off3_eq j ⟨5, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gB) = ld gB ⟨0, by decide⟩ (8 * j.val + 6)
      exact load_eq_s2 gB 0 (by decide) _ (fun _ => rfl) _ _ _ j.val 6 hj (by decide) (k0_off3_eq j ⟨6, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gB) = ld gB ⟨0, by decide⟩ (8 * j.val + 7)
      exact load_eq_s2 gB 0 (by decide) _ (fun _ => rfl) _ _ _ j.val 7 hj (by decide) (k0_off3_eq j ⟨7, by decide⟩)

/-- Row loop t3: row 1 of slot buffers 0 (x) and 2 (t). -/
theorem trip_pure_t3 (gA gB : S8x2048.Idx → F .f32) (j : Fin k0_t3_loop.trips) (a : Acc4 F) :
    ((k0_pay438 (k0_pay57 (k0_pay48 (k0_pay40 a.1 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gB)) (k0_pay54 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gA)) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gB)) (k0_pay63 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gB)),
      k0_pay442 (k0_pay61 (k0_pay52 (k0_pay44 a.2.1 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gB),
      k0_pay439 (k0_pay58 (k0_pay49 (k0_pay41 a.2.2.1 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gB)) (k0_pay54 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gA)) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gB)) (k0_pay63 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gB)),
      k0_pay443 (k0_pay62 (k0_pay53 (k0_pay45 a.2.2.2 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gB)) : Acc4 F)
      = trip8 a (fun u => ld gA ⟨1, by decide⟩ (8 * j.val + u.val)) (fun u => ld gB ⟨1, by decide⟩ (8 * j.val + u.val)) := by
  have hj : j.val < 16 := Nat.lt_of_lt_of_le j.isLt k0_t3_abs.2.1
  refine (trip_t3 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gA) = ld gA ⟨1, by decide⟩ (8 * j.val + 0)
      exact load_eq_s0 gA 1 (by decide) _ (fun _ => rfl) _ _ _ j.val 0 hj (by decide) (k0_off4_eq j ⟨0, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gA) = ld gA ⟨1, by decide⟩ (8 * j.val + 1)
      exact load_eq_s0 gA 1 (by decide) _ (fun _ => rfl) _ _ _ j.val 1 hj (by decide) (k0_off4_eq j ⟨1, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gA) = ld gA ⟨1, by decide⟩ (8 * j.val + 2)
      exact load_eq_s0 gA 1 (by decide) _ (fun _ => rfl) _ _ _ j.val 2 hj (by decide) (k0_off4_eq j ⟨2, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gA) = ld gA ⟨1, by decide⟩ (8 * j.val + 3)
      exact load_eq_s0 gA 1 (by decide) _ (fun _ => rfl) _ _ _ j.val 3 hj (by decide) (k0_off4_eq j ⟨3, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gA) = ld gA ⟨1, by decide⟩ (8 * j.val + 4)
      exact load_eq_s0 gA 1 (by decide) _ (fun _ => rfl) _ _ _ j.val 4 hj (by decide) (k0_off4_eq j ⟨4, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gA) = ld gA ⟨1, by decide⟩ (8 * j.val + 5)
      exact load_eq_s0 gA 1 (by decide) _ (fun _ => rfl) _ _ _ j.val 5 hj (by decide) (k0_off4_eq j ⟨5, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gA) = ld gA ⟨1, by decide⟩ (8 * j.val + 6)
      exact load_eq_s0 gA 1 (by decide) _ (fun _ => rfl) _ _ _ j.val 6 hj (by decide) (k0_off4_eq j ⟨6, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gA) = ld gA ⟨1, by decide⟩ (8 * j.val + 7)
      exact load_eq_s0 gA 1 (by decide) _ (fun _ => rfl) _ _ _ j.val 7 hj (by decide) (k0_off4_eq j ⟨7, by decide⟩)
  · fin_cases u
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gB) = ld gB ⟨1, by decide⟩ (8 * j.val + 0)
      exact load_eq_s2 gB 1 (by decide) _ (fun _ => rfl) _ _ _ j.val 0 hj (by decide) (k0_off4_eq j ⟨0, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gB) = ld gB ⟨1, by decide⟩ (8 * j.val + 1)
      exact load_eq_s2 gB 1 (by decide) _ (fun _ => rfl) _ _ _ j.val 1 hj (by decide) (k0_off4_eq j ⟨1, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gB) = ld gB ⟨1, by decide⟩ (8 * j.val + 2)
      exact load_eq_s2 gB 1 (by decide) _ (fun _ => rfl) _ _ _ j.val 2 hj (by decide) (k0_off4_eq j ⟨2, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gB) = ld gB ⟨1, by decide⟩ (8 * j.val + 3)
      exact load_eq_s2 gB 1 (by decide) _ (fun _ => rfl) _ _ _ j.val 3 hj (by decide) (k0_off4_eq j ⟨3, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gB) = ld gB ⟨1, by decide⟩ (8 * j.val + 4)
      exact load_eq_s2 gB 1 (by decide) _ (fun _ => rfl) _ _ _ j.val 4 hj (by decide) (k0_off4_eq j ⟨4, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gB) = ld gB ⟨1, by decide⟩ (8 * j.val + 5)
      exact load_eq_s2 gB 1 (by decide) _ (fun _ => rfl) _ _ _ j.val 5 hj (by decide) (k0_off4_eq j ⟨5, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gB) = ld gB ⟨1, by decide⟩ (8 * j.val + 6)
      exact load_eq_s2 gB 1 (by decide) _ (fun _ => rfl) _ _ _ j.val 6 hj (by decide) (k0_off4_eq j ⟨6, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gB) = ld gB ⟨1, by decide⟩ (8 * j.val + 7)
      exact load_eq_s2 gB 1 (by decide) _ (fun _ => rfl) _ _ _ j.val 7 hj (by decide) (k0_off4_eq j ⟨7, by decide⟩)

/-- Row loop t4: row 2 of slot buffers 0 (x) and 2 (t). -/
theorem trip_pure_t4 (gA gB : S8x2048.Idx → F .f32) (j : Fin k0_t4_loop.trips) (a : Acc4 F) :
    ((k0_pay446 (k0_pay83 (k0_pay74 (k0_pay66 a.1 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gB)) (k0_pay80 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gA)) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gB)) (k0_pay89 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gB)),
      k0_pay450 (k0_pay87 (k0_pay78 (k0_pay70 a.2.1 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gB),
      k0_pay447 (k0_pay84 (k0_pay75 (k0_pay67 a.2.2.1 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gB)) (k0_pay80 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gA)) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gB)) (k0_pay89 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gB)),
      k0_pay451 (k0_pay88 (k0_pay79 (k0_pay71 a.2.2.2 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gB)) : Acc4 F)
      = trip8 a (fun u => ld gA ⟨2, by decide⟩ (8 * j.val + u.val)) (fun u => ld gB ⟨2, by decide⟩ (8 * j.val + u.val)) := by
  have hj : j.val < 16 := Nat.lt_of_lt_of_le j.isLt k0_t4_abs.2.1
  refine (trip_t4 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gA) = ld gA ⟨2, by decide⟩ (8 * j.val + 0)
      exact load_eq_s0 gA 2 (by decide) _ (fun _ => rfl) _ _ _ j.val 0 hj (by decide) (k0_off5_eq j ⟨0, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gA) = ld gA ⟨2, by decide⟩ (8 * j.val + 1)
      exact load_eq_s0 gA 2 (by decide) _ (fun _ => rfl) _ _ _ j.val 1 hj (by decide) (k0_off5_eq j ⟨1, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gA) = ld gA ⟨2, by decide⟩ (8 * j.val + 2)
      exact load_eq_s0 gA 2 (by decide) _ (fun _ => rfl) _ _ _ j.val 2 hj (by decide) (k0_off5_eq j ⟨2, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gA) = ld gA ⟨2, by decide⟩ (8 * j.val + 3)
      exact load_eq_s0 gA 2 (by decide) _ (fun _ => rfl) _ _ _ j.val 3 hj (by decide) (k0_off5_eq j ⟨3, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gA) = ld gA ⟨2, by decide⟩ (8 * j.val + 4)
      exact load_eq_s0 gA 2 (by decide) _ (fun _ => rfl) _ _ _ j.val 4 hj (by decide) (k0_off5_eq j ⟨4, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gA) = ld gA ⟨2, by decide⟩ (8 * j.val + 5)
      exact load_eq_s0 gA 2 (by decide) _ (fun _ => rfl) _ _ _ j.val 5 hj (by decide) (k0_off5_eq j ⟨5, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gA) = ld gA ⟨2, by decide⟩ (8 * j.val + 6)
      exact load_eq_s0 gA 2 (by decide) _ (fun _ => rfl) _ _ _ j.val 6 hj (by decide) (k0_off5_eq j ⟨6, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gA) = ld gA ⟨2, by decide⟩ (8 * j.val + 7)
      exact load_eq_s0 gA 2 (by decide) _ (fun _ => rfl) _ _ _ j.val 7 hj (by decide) (k0_off5_eq j ⟨7, by decide⟩)
  · fin_cases u
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gB) = ld gB ⟨2, by decide⟩ (8 * j.val + 0)
      exact load_eq_s2 gB 2 (by decide) _ (fun _ => rfl) _ _ _ j.val 0 hj (by decide) (k0_off5_eq j ⟨0, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gB) = ld gB ⟨2, by decide⟩ (8 * j.val + 1)
      exact load_eq_s2 gB 2 (by decide) _ (fun _ => rfl) _ _ _ j.val 1 hj (by decide) (k0_off5_eq j ⟨1, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gB) = ld gB ⟨2, by decide⟩ (8 * j.val + 2)
      exact load_eq_s2 gB 2 (by decide) _ (fun _ => rfl) _ _ _ j.val 2 hj (by decide) (k0_off5_eq j ⟨2, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gB) = ld gB ⟨2, by decide⟩ (8 * j.val + 3)
      exact load_eq_s2 gB 2 (by decide) _ (fun _ => rfl) _ _ _ j.val 3 hj (by decide) (k0_off5_eq j ⟨3, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gB) = ld gB ⟨2, by decide⟩ (8 * j.val + 4)
      exact load_eq_s2 gB 2 (by decide) _ (fun _ => rfl) _ _ _ j.val 4 hj (by decide) (k0_off5_eq j ⟨4, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gB) = ld gB ⟨2, by decide⟩ (8 * j.val + 5)
      exact load_eq_s2 gB 2 (by decide) _ (fun _ => rfl) _ _ _ j.val 5 hj (by decide) (k0_off5_eq j ⟨5, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gB) = ld gB ⟨2, by decide⟩ (8 * j.val + 6)
      exact load_eq_s2 gB 2 (by decide) _ (fun _ => rfl) _ _ _ j.val 6 hj (by decide) (k0_off5_eq j ⟨6, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gB) = ld gB ⟨2, by decide⟩ (8 * j.val + 7)
      exact load_eq_s2 gB 2 (by decide) _ (fun _ => rfl) _ _ _ j.val 7 hj (by decide) (k0_off5_eq j ⟨7, by decide⟩)

/-- Row loop t5: row 3 of slot buffers 0 (x) and 2 (t). -/
theorem trip_pure_t5 (gA gB : S8x2048.Idx → F .f32) (j : Fin k0_t5_loop.trips) (a : Acc4 F) :
    ((k0_pay454 (k0_pay109 (k0_pay100 (k0_pay92 a.1 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gB)) (k0_pay106 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gA)) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gB)) (k0_pay115 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gB)),
      k0_pay458 (k0_pay113 (k0_pay104 (k0_pay96 a.2.1 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gB),
      k0_pay455 (k0_pay110 (k0_pay101 (k0_pay93 a.2.2.1 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gB)) (k0_pay106 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gA)) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gB)) (k0_pay115 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gB)),
      k0_pay459 (k0_pay114 (k0_pay105 (k0_pay97 a.2.2.2 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gB)) : Acc4 F)
      = trip8 a (fun u => ld gA ⟨3, by decide⟩ (8 * j.val + u.val)) (fun u => ld gB ⟨3, by decide⟩ (8 * j.val + u.val)) := by
  have hj : j.val < 16 := Nat.lt_of_lt_of_le j.isLt k0_t5_abs.2.1
  refine (trip_t5 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gA) = ld gA ⟨3, by decide⟩ (8 * j.val + 0)
      exact load_eq_s0 gA 3 (by decide) _ (fun _ => rfl) _ _ _ j.val 0 hj (by decide) (k0_off6_eq j ⟨0, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gA) = ld gA ⟨3, by decide⟩ (8 * j.val + 1)
      exact load_eq_s0 gA 3 (by decide) _ (fun _ => rfl) _ _ _ j.val 1 hj (by decide) (k0_off6_eq j ⟨1, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gA) = ld gA ⟨3, by decide⟩ (8 * j.val + 2)
      exact load_eq_s0 gA 3 (by decide) _ (fun _ => rfl) _ _ _ j.val 2 hj (by decide) (k0_off6_eq j ⟨2, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gA) = ld gA ⟨3, by decide⟩ (8 * j.val + 3)
      exact load_eq_s0 gA 3 (by decide) _ (fun _ => rfl) _ _ _ j.val 3 hj (by decide) (k0_off6_eq j ⟨3, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gA) = ld gA ⟨3, by decide⟩ (8 * j.val + 4)
      exact load_eq_s0 gA 3 (by decide) _ (fun _ => rfl) _ _ _ j.val 4 hj (by decide) (k0_off6_eq j ⟨4, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gA) = ld gA ⟨3, by decide⟩ (8 * j.val + 5)
      exact load_eq_s0 gA 3 (by decide) _ (fun _ => rfl) _ _ _ j.val 5 hj (by decide) (k0_off6_eq j ⟨5, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gA) = ld gA ⟨3, by decide⟩ (8 * j.val + 6)
      exact load_eq_s0 gA 3 (by decide) _ (fun _ => rfl) _ _ _ j.val 6 hj (by decide) (k0_off6_eq j ⟨6, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gA) = ld gA ⟨3, by decide⟩ (8 * j.val + 7)
      exact load_eq_s0 gA 3 (by decide) _ (fun _ => rfl) _ _ _ j.val 7 hj (by decide) (k0_off6_eq j ⟨7, by decide⟩)
  · fin_cases u
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gB) = ld gB ⟨3, by decide⟩ (8 * j.val + 0)
      exact load_eq_s2 gB 3 (by decide) _ (fun _ => rfl) _ _ _ j.val 0 hj (by decide) (k0_off6_eq j ⟨0, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gB) = ld gB ⟨3, by decide⟩ (8 * j.val + 1)
      exact load_eq_s2 gB 3 (by decide) _ (fun _ => rfl) _ _ _ j.val 1 hj (by decide) (k0_off6_eq j ⟨1, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gB) = ld gB ⟨3, by decide⟩ (8 * j.val + 2)
      exact load_eq_s2 gB 3 (by decide) _ (fun _ => rfl) _ _ _ j.val 2 hj (by decide) (k0_off6_eq j ⟨2, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gB) = ld gB ⟨3, by decide⟩ (8 * j.val + 3)
      exact load_eq_s2 gB 3 (by decide) _ (fun _ => rfl) _ _ _ j.val 3 hj (by decide) (k0_off6_eq j ⟨3, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gB) = ld gB ⟨3, by decide⟩ (8 * j.val + 4)
      exact load_eq_s2 gB 3 (by decide) _ (fun _ => rfl) _ _ _ j.val 4 hj (by decide) (k0_off6_eq j ⟨4, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gB) = ld gB ⟨3, by decide⟩ (8 * j.val + 5)
      exact load_eq_s2 gB 3 (by decide) _ (fun _ => rfl) _ _ _ j.val 5 hj (by decide) (k0_off6_eq j ⟨5, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gB) = ld gB ⟨3, by decide⟩ (8 * j.val + 6)
      exact load_eq_s2 gB 3 (by decide) _ (fun _ => rfl) _ _ _ j.val 6 hj (by decide) (k0_off6_eq j ⟨6, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gB) = ld gB ⟨3, by decide⟩ (8 * j.val + 7)
      exact load_eq_s2 gB 3 (by decide) _ (fun _ => rfl) _ _ _ j.val 7 hj (by decide) (k0_off6_eq j ⟨7, by decide⟩)

/-- Row loop t6: row 4 of slot buffers 0 (x) and 2 (t). -/
theorem trip_pure_t6 (gA gB : S8x2048.Idx → F .f32) (j : Fin k0_t6_loop.trips) (a : Acc4 F) :
    ((k0_pay462 (k0_pay135 (k0_pay126 (k0_pay118 a.1 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gB)) (k0_pay132 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gA)) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gB)) (k0_pay141 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gB)),
      k0_pay466 (k0_pay139 (k0_pay130 (k0_pay122 a.2.1 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gB),
      k0_pay463 (k0_pay136 (k0_pay127 (k0_pay119 a.2.2.1 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gB)) (k0_pay132 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gA)) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gB)) (k0_pay141 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gB)),
      k0_pay467 (k0_pay140 (k0_pay131 (k0_pay123 a.2.2.2 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gB)) : Acc4 F)
      = trip8 a (fun u => ld gA ⟨4, by decide⟩ (8 * j.val + u.val)) (fun u => ld gB ⟨4, by decide⟩ (8 * j.val + u.val)) := by
  have hj : j.val < 16 := Nat.lt_of_lt_of_le j.isLt k0_t6_abs.2.1
  refine (trip_t6 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gA) = ld gA ⟨4, by decide⟩ (8 * j.val + 0)
      exact load_eq_s0 gA 4 (by decide) _ (fun _ => rfl) _ _ _ j.val 0 hj (by decide) (k0_off7_eq j ⟨0, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gA) = ld gA ⟨4, by decide⟩ (8 * j.val + 1)
      exact load_eq_s0 gA 4 (by decide) _ (fun _ => rfl) _ _ _ j.val 1 hj (by decide) (k0_off7_eq j ⟨1, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gA) = ld gA ⟨4, by decide⟩ (8 * j.val + 2)
      exact load_eq_s0 gA 4 (by decide) _ (fun _ => rfl) _ _ _ j.val 2 hj (by decide) (k0_off7_eq j ⟨2, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gA) = ld gA ⟨4, by decide⟩ (8 * j.val + 3)
      exact load_eq_s0 gA 4 (by decide) _ (fun _ => rfl) _ _ _ j.val 3 hj (by decide) (k0_off7_eq j ⟨3, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gA) = ld gA ⟨4, by decide⟩ (8 * j.val + 4)
      exact load_eq_s0 gA 4 (by decide) _ (fun _ => rfl) _ _ _ j.val 4 hj (by decide) (k0_off7_eq j ⟨4, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gA) = ld gA ⟨4, by decide⟩ (8 * j.val + 5)
      exact load_eq_s0 gA 4 (by decide) _ (fun _ => rfl) _ _ _ j.val 5 hj (by decide) (k0_off7_eq j ⟨5, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gA) = ld gA ⟨4, by decide⟩ (8 * j.val + 6)
      exact load_eq_s0 gA 4 (by decide) _ (fun _ => rfl) _ _ _ j.val 6 hj (by decide) (k0_off7_eq j ⟨6, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gA) = ld gA ⟨4, by decide⟩ (8 * j.val + 7)
      exact load_eq_s0 gA 4 (by decide) _ (fun _ => rfl) _ _ _ j.val 7 hj (by decide) (k0_off7_eq j ⟨7, by decide⟩)
  · fin_cases u
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gB) = ld gB ⟨4, by decide⟩ (8 * j.val + 0)
      exact load_eq_s2 gB 4 (by decide) _ (fun _ => rfl) _ _ _ j.val 0 hj (by decide) (k0_off7_eq j ⟨0, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gB) = ld gB ⟨4, by decide⟩ (8 * j.val + 1)
      exact load_eq_s2 gB 4 (by decide) _ (fun _ => rfl) _ _ _ j.val 1 hj (by decide) (k0_off7_eq j ⟨1, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gB) = ld gB ⟨4, by decide⟩ (8 * j.val + 2)
      exact load_eq_s2 gB 4 (by decide) _ (fun _ => rfl) _ _ _ j.val 2 hj (by decide) (k0_off7_eq j ⟨2, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gB) = ld gB ⟨4, by decide⟩ (8 * j.val + 3)
      exact load_eq_s2 gB 4 (by decide) _ (fun _ => rfl) _ _ _ j.val 3 hj (by decide) (k0_off7_eq j ⟨3, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gB) = ld gB ⟨4, by decide⟩ (8 * j.val + 4)
      exact load_eq_s2 gB 4 (by decide) _ (fun _ => rfl) _ _ _ j.val 4 hj (by decide) (k0_off7_eq j ⟨4, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gB) = ld gB ⟨4, by decide⟩ (8 * j.val + 5)
      exact load_eq_s2 gB 4 (by decide) _ (fun _ => rfl) _ _ _ j.val 5 hj (by decide) (k0_off7_eq j ⟨5, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gB) = ld gB ⟨4, by decide⟩ (8 * j.val + 6)
      exact load_eq_s2 gB 4 (by decide) _ (fun _ => rfl) _ _ _ j.val 6 hj (by decide) (k0_off7_eq j ⟨6, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gB) = ld gB ⟨4, by decide⟩ (8 * j.val + 7)
      exact load_eq_s2 gB 4 (by decide) _ (fun _ => rfl) _ _ _ j.val 7 hj (by decide) (k0_off7_eq j ⟨7, by decide⟩)

/-- Row loop t7: row 5 of slot buffers 0 (x) and 2 (t). -/
theorem trip_pure_t7 (gA gB : S8x2048.Idx → F .f32) (j : Fin k0_t7_loop.trips) (a : Acc4 F) :
    ((k0_pay470 (k0_pay161 (k0_pay152 (k0_pay144 a.1 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gB)) (k0_pay158 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gA)) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gB)) (k0_pay167 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gB)),
      k0_pay474 (k0_pay165 (k0_pay156 (k0_pay148 a.2.1 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gB),
      k0_pay471 (k0_pay162 (k0_pay153 (k0_pay145 a.2.2.1 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gB)) (k0_pay158 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gA)) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gB)) (k0_pay167 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gB)),
      k0_pay475 (k0_pay166 (k0_pay157 (k0_pay149 a.2.2.2 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gB)) : Acc4 F)
      = trip8 a (fun u => ld gA ⟨5, by decide⟩ (8 * j.val + u.val)) (fun u => ld gB ⟨5, by decide⟩ (8 * j.val + u.val)) := by
  have hj : j.val < 16 := Nat.lt_of_lt_of_le j.isLt k0_t7_abs.2.1
  refine (trip_t7 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gA) = ld gA ⟨5, by decide⟩ (8 * j.val + 0)
      exact load_eq_s0 gA 5 (by decide) _ (fun _ => rfl) _ _ _ j.val 0 hj (by decide) (k0_off8_eq j ⟨0, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gA) = ld gA ⟨5, by decide⟩ (8 * j.val + 1)
      exact load_eq_s0 gA 5 (by decide) _ (fun _ => rfl) _ _ _ j.val 1 hj (by decide) (k0_off8_eq j ⟨1, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gA) = ld gA ⟨5, by decide⟩ (8 * j.val + 2)
      exact load_eq_s0 gA 5 (by decide) _ (fun _ => rfl) _ _ _ j.val 2 hj (by decide) (k0_off8_eq j ⟨2, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gA) = ld gA ⟨5, by decide⟩ (8 * j.val + 3)
      exact load_eq_s0 gA 5 (by decide) _ (fun _ => rfl) _ _ _ j.val 3 hj (by decide) (k0_off8_eq j ⟨3, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gA) = ld gA ⟨5, by decide⟩ (8 * j.val + 4)
      exact load_eq_s0 gA 5 (by decide) _ (fun _ => rfl) _ _ _ j.val 4 hj (by decide) (k0_off8_eq j ⟨4, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gA) = ld gA ⟨5, by decide⟩ (8 * j.val + 5)
      exact load_eq_s0 gA 5 (by decide) _ (fun _ => rfl) _ _ _ j.val 5 hj (by decide) (k0_off8_eq j ⟨5, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gA) = ld gA ⟨5, by decide⟩ (8 * j.val + 6)
      exact load_eq_s0 gA 5 (by decide) _ (fun _ => rfl) _ _ _ j.val 6 hj (by decide) (k0_off8_eq j ⟨6, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gA) = ld gA ⟨5, by decide⟩ (8 * j.val + 7)
      exact load_eq_s0 gA 5 (by decide) _ (fun _ => rfl) _ _ _ j.val 7 hj (by decide) (k0_off8_eq j ⟨7, by decide⟩)
  · fin_cases u
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gB) = ld gB ⟨5, by decide⟩ (8 * j.val + 0)
      exact load_eq_s2 gB 5 (by decide) _ (fun _ => rfl) _ _ _ j.val 0 hj (by decide) (k0_off8_eq j ⟨0, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gB) = ld gB ⟨5, by decide⟩ (8 * j.val + 1)
      exact load_eq_s2 gB 5 (by decide) _ (fun _ => rfl) _ _ _ j.val 1 hj (by decide) (k0_off8_eq j ⟨1, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gB) = ld gB ⟨5, by decide⟩ (8 * j.val + 2)
      exact load_eq_s2 gB 5 (by decide) _ (fun _ => rfl) _ _ _ j.val 2 hj (by decide) (k0_off8_eq j ⟨2, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gB) = ld gB ⟨5, by decide⟩ (8 * j.val + 3)
      exact load_eq_s2 gB 5 (by decide) _ (fun _ => rfl) _ _ _ j.val 3 hj (by decide) (k0_off8_eq j ⟨3, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gB) = ld gB ⟨5, by decide⟩ (8 * j.val + 4)
      exact load_eq_s2 gB 5 (by decide) _ (fun _ => rfl) _ _ _ j.val 4 hj (by decide) (k0_off8_eq j ⟨4, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gB) = ld gB ⟨5, by decide⟩ (8 * j.val + 5)
      exact load_eq_s2 gB 5 (by decide) _ (fun _ => rfl) _ _ _ j.val 5 hj (by decide) (k0_off8_eq j ⟨5, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gB) = ld gB ⟨5, by decide⟩ (8 * j.val + 6)
      exact load_eq_s2 gB 5 (by decide) _ (fun _ => rfl) _ _ _ j.val 6 hj (by decide) (k0_off8_eq j ⟨6, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gB) = ld gB ⟨5, by decide⟩ (8 * j.val + 7)
      exact load_eq_s2 gB 5 (by decide) _ (fun _ => rfl) _ _ _ j.val 7 hj (by decide) (k0_off8_eq j ⟨7, by decide⟩)

/-- Row loop t8: row 6 of slot buffers 0 (x) and 2 (t). -/
theorem trip_pure_t8 (gA gB : S8x2048.Idx → F .f32) (j : Fin k0_t8_loop.trips) (a : Acc4 F) :
    ((k0_pay478 (k0_pay187 (k0_pay178 (k0_pay170 a.1 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gB)) (k0_pay184 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gA)) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gB)) (k0_pay193 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gB)),
      k0_pay482 (k0_pay191 (k0_pay182 (k0_pay174 a.2.1 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gB),
      k0_pay479 (k0_pay188 (k0_pay179 (k0_pay171 a.2.2.1 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gB)) (k0_pay184 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gA)) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gB)) (k0_pay193 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gB)),
      k0_pay483 (k0_pay192 (k0_pay183 (k0_pay175 a.2.2.2 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gB)) : Acc4 F)
      = trip8 a (fun u => ld gA ⟨6, by decide⟩ (8 * j.val + u.val)) (fun u => ld gB ⟨6, by decide⟩ (8 * j.val + u.val)) := by
  have hj : j.val < 16 := Nat.lt_of_lt_of_le j.isLt k0_t8_abs.2.1
  refine (trip_t8 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gA) = ld gA ⟨6, by decide⟩ (8 * j.val + 0)
      exact load_eq_s0 gA 6 (by decide) _ (fun _ => rfl) _ _ _ j.val 0 hj (by decide) (k0_off9_eq j ⟨0, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gA) = ld gA ⟨6, by decide⟩ (8 * j.val + 1)
      exact load_eq_s0 gA 6 (by decide) _ (fun _ => rfl) _ _ _ j.val 1 hj (by decide) (k0_off9_eq j ⟨1, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gA) = ld gA ⟨6, by decide⟩ (8 * j.val + 2)
      exact load_eq_s0 gA 6 (by decide) _ (fun _ => rfl) _ _ _ j.val 2 hj (by decide) (k0_off9_eq j ⟨2, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gA) = ld gA ⟨6, by decide⟩ (8 * j.val + 3)
      exact load_eq_s0 gA 6 (by decide) _ (fun _ => rfl) _ _ _ j.val 3 hj (by decide) (k0_off9_eq j ⟨3, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gA) = ld gA ⟨6, by decide⟩ (8 * j.val + 4)
      exact load_eq_s0 gA 6 (by decide) _ (fun _ => rfl) _ _ _ j.val 4 hj (by decide) (k0_off9_eq j ⟨4, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gA) = ld gA ⟨6, by decide⟩ (8 * j.val + 5)
      exact load_eq_s0 gA 6 (by decide) _ (fun _ => rfl) _ _ _ j.val 5 hj (by decide) (k0_off9_eq j ⟨5, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gA) = ld gA ⟨6, by decide⟩ (8 * j.val + 6)
      exact load_eq_s0 gA 6 (by decide) _ (fun _ => rfl) _ _ _ j.val 6 hj (by decide) (k0_off9_eq j ⟨6, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gA) = ld gA ⟨6, by decide⟩ (8 * j.val + 7)
      exact load_eq_s0 gA 6 (by decide) _ (fun _ => rfl) _ _ _ j.val 7 hj (by decide) (k0_off9_eq j ⟨7, by decide⟩)
  · fin_cases u
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gB) = ld gB ⟨6, by decide⟩ (8 * j.val + 0)
      exact load_eq_s2 gB 6 (by decide) _ (fun _ => rfl) _ _ _ j.val 0 hj (by decide) (k0_off9_eq j ⟨0, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gB) = ld gB ⟨6, by decide⟩ (8 * j.val + 1)
      exact load_eq_s2 gB 6 (by decide) _ (fun _ => rfl) _ _ _ j.val 1 hj (by decide) (k0_off9_eq j ⟨1, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gB) = ld gB ⟨6, by decide⟩ (8 * j.val + 2)
      exact load_eq_s2 gB 6 (by decide) _ (fun _ => rfl) _ _ _ j.val 2 hj (by decide) (k0_off9_eq j ⟨2, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gB) = ld gB ⟨6, by decide⟩ (8 * j.val + 3)
      exact load_eq_s2 gB 6 (by decide) _ (fun _ => rfl) _ _ _ j.val 3 hj (by decide) (k0_off9_eq j ⟨3, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gB) = ld gB ⟨6, by decide⟩ (8 * j.val + 4)
      exact load_eq_s2 gB 6 (by decide) _ (fun _ => rfl) _ _ _ j.val 4 hj (by decide) (k0_off9_eq j ⟨4, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gB) = ld gB ⟨6, by decide⟩ (8 * j.val + 5)
      exact load_eq_s2 gB 6 (by decide) _ (fun _ => rfl) _ _ _ j.val 5 hj (by decide) (k0_off9_eq j ⟨5, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gB) = ld gB ⟨6, by decide⟩ (8 * j.val + 6)
      exact load_eq_s2 gB 6 (by decide) _ (fun _ => rfl) _ _ _ j.val 6 hj (by decide) (k0_off9_eq j ⟨6, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gB) = ld gB ⟨6, by decide⟩ (8 * j.val + 7)
      exact load_eq_s2 gB 6 (by decide) _ (fun _ => rfl) _ _ _ j.val 7 hj (by decide) (k0_off9_eq j ⟨7, by decide⟩)

/-- Row loop t9: row 7 of slot buffers 0 (x) and 2 (t). -/
theorem trip_pure_t9 (gA gB : S8x2048.Idx → F .f32) (j : Fin k0_t9_loop.trips) (a : Acc4 F) :
    ((k0_pay486 (k0_pay213 (k0_pay204 (k0_pay196 a.1 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gB)) (k0_pay210 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gA)) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gB)) (k0_pay219 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gB)),
      k0_pay490 (k0_pay217 (k0_pay208 (k0_pay200 a.2.1 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gB),
      k0_pay487 (k0_pay214 (k0_pay205 (k0_pay197 a.2.2.1 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gB)) (k0_pay210 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gA)) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gB)) (k0_pay219 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gB)),
      k0_pay491 (k0_pay218 (k0_pay209 (k0_pay201 a.2.2.2 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gB)) : Acc4 F)
      = trip8 a (fun u => ld gA ⟨7, by decide⟩ (8 * j.val + u.val)) (fun u => ld gB ⟨7, by decide⟩ (8 * j.val + u.val)) := by
  have hj : j.val < 16 := Nat.lt_of_lt_of_le j.isLt k0_t9_abs.2.1
  refine (trip_t9 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gA) = ld gA ⟨7, by decide⟩ (8 * j.val + 0)
      exact load_eq_s0 gA 7 (by decide) _ (fun _ => rfl) _ _ _ j.val 0 hj (by decide) (k0_off10_eq j ⟨0, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gA) = ld gA ⟨7, by decide⟩ (8 * j.val + 1)
      exact load_eq_s0 gA 7 (by decide) _ (fun _ => rfl) _ _ _ j.val 1 hj (by decide) (k0_off10_eq j ⟨1, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gA) = ld gA ⟨7, by decide⟩ (8 * j.val + 2)
      exact load_eq_s0 gA 7 (by decide) _ (fun _ => rfl) _ _ _ j.val 2 hj (by decide) (k0_off10_eq j ⟨2, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gA) = ld gA ⟨7, by decide⟩ (8 * j.val + 3)
      exact load_eq_s0 gA 7 (by decide) _ (fun _ => rfl) _ _ _ j.val 3 hj (by decide) (k0_off10_eq j ⟨3, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gA) = ld gA ⟨7, by decide⟩ (8 * j.val + 4)
      exact load_eq_s0 gA 7 (by decide) _ (fun _ => rfl) _ _ _ j.val 4 hj (by decide) (k0_off10_eq j ⟨4, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gA) = ld gA ⟨7, by decide⟩ (8 * j.val + 5)
      exact load_eq_s0 gA 7 (by decide) _ (fun _ => rfl) _ _ _ j.val 5 hj (by decide) (k0_off10_eq j ⟨5, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gA) = ld gA ⟨7, by decide⟩ (8 * j.val + 6)
      exact load_eq_s0 gA 7 (by decide) _ (fun _ => rfl) _ _ _ j.val 6 hj (by decide) (k0_off10_eq j ⟨6, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gA) = ld gA ⟨7, by decide⟩ (8 * j.val + 7)
      exact load_eq_s0 gA 7 (by decide) _ (fun _ => rfl) _ _ _ j.val 7 hj (by decide) (k0_off10_eq j ⟨7, by decide⟩)
  · fin_cases u
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gB) = ld gB ⟨7, by decide⟩ (8 * j.val + 0)
      exact load_eq_s2 gB 7 (by decide) _ (fun _ => rfl) _ _ _ j.val 0 hj (by decide) (k0_off10_eq j ⟨0, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gB) = ld gB ⟨7, by decide⟩ (8 * j.val + 1)
      exact load_eq_s2 gB 7 (by decide) _ (fun _ => rfl) _ _ _ j.val 1 hj (by decide) (k0_off10_eq j ⟨1, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gB) = ld gB ⟨7, by decide⟩ (8 * j.val + 2)
      exact load_eq_s2 gB 7 (by decide) _ (fun _ => rfl) _ _ _ j.val 2 hj (by decide) (k0_off10_eq j ⟨2, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gB) = ld gB ⟨7, by decide⟩ (8 * j.val + 3)
      exact load_eq_s2 gB 7 (by decide) _ (fun _ => rfl) _ _ _ j.val 3 hj (by decide) (k0_off10_eq j ⟨3, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gB) = ld gB ⟨7, by decide⟩ (8 * j.val + 4)
      exact load_eq_s2 gB 7 (by decide) _ (fun _ => rfl) _ _ _ j.val 4 hj (by decide) (k0_off10_eq j ⟨4, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gB) = ld gB ⟨7, by decide⟩ (8 * j.val + 5)
      exact load_eq_s2 gB 7 (by decide) _ (fun _ => rfl) _ _ _ j.val 5 hj (by decide) (k0_off10_eq j ⟨5, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gB) = ld gB ⟨7, by decide⟩ (8 * j.val + 6)
      exact load_eq_s2 gB 7 (by decide) _ (fun _ => rfl) _ _ _ j.val 6 hj (by decide) (k0_off10_eq j ⟨6, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gB) = ld gB ⟨7, by decide⟩ (8 * j.val + 7)
      exact load_eq_s2 gB 7 (by decide) _ (fun _ => rfl) _ _ _ j.val 7 hj (by decide) (k0_off10_eq j ⟨7, by decide⟩)

end Cert.Proof.KI

end
-- ==== Proof.TilePureB.lean ====
/- A row loop's trip over the loads it makes.

  Row loop t of a tile reads row r of one slot buffer of x and of the same slot's buffer of t. In trip j it loads, from each,
  the eight 16-lane pieces at columns 128 j + 16 u (u < 8), that is pieces 8 j + u of the row, and carries the four
  accumulators through the eight steps. Each statement below writes one loop's yield over those sixteen loads and says it
  is the one trip over the row's pieces 8 j … 8 j + 7; it follows from the loop's trip statement and the reading of a load
  as a piece of a row.
-/
import proofs.«210622_g27255862460721_cont_9to1_1214_20_alg».proof.Proof.TileIndexBase
import Mathlib.Tactic.FinCases

noncomputable section

namespace Cert.Proof.KI

open Cert.KernelIdeal Cert.KernelIdeal.Gen
open Idealize.ShloMosaic Idealize.ShloMosaic.ValueIdx Idealize.SL.Sem
open Cert.Proof.TileSpec

variable {F : FTy → Type} [FloatOps F]

/-- Row loop t10: row 0 of slot buffers 1 (x) and 3 (t). -/
theorem trip_pure_t10 (gA gB : S8x2048.Idx → F .f32) (j : Fin k0_t10_loop.trips) (a : Acc4 F) :
    ((k0_pay494 (k0_pay239 (k0_pay230 (k0_pay222 a.1 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gB)) (k0_pay236 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gA)) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gB)) (k0_pay245 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gB)),
      k0_pay498 (k0_pay243 (k0_pay234 (k0_pay226 a.2.1 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gB),
      k0_pay495 (k0_pay240 (k0_pay231 (k0_pay223 a.2.2.1 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gB)) (k0_pay236 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gA)) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gB)) (k0_pay245 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gB)),
      k0_pay499 (k0_pay244 (k0_pay235 (k0_pay227 a.2.2.2 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gB)) : Acc4 F)
      = trip8 a (fun u => ld gA ⟨0, by decide⟩ (8 * j.val + u.val)) (fun u => ld gB ⟨0, by decide⟩ (8 * j.val + u.val)) := by
  have hj : j.val < 16 := Nat.lt_of_lt_of_le j.isLt k0_t10_abs.2.1
  refine (trip_t10 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gA) = ld gA ⟨0, by decide⟩ (8 * j.val + 0)
      exact load_eq_s1 gA 0 (by decide) _ (fun _ => rfl) _ _ _ j.val 0 hj (by decide) (k0_off12_eq j ⟨0, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gA) = ld gA ⟨0, by decide⟩ (8 * j.val + 1)
      exact load_eq_s1 gA 0 (by decide) _ (fun _ => rfl) _ _ _ j.val 1 hj (by decide) (k0_off12_eq j ⟨1, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gA) = ld gA ⟨0, by decide⟩ (8 * j.val + 2)
      exact load_eq_s1 gA 0 (by decide) _ (fun _ => rfl) _ _ _ j.val 2 hj (by decide) (k0_off12_eq j ⟨2, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gA) = ld gA ⟨0, by decide⟩ (8 * j.val + 3)
      exact load_eq_s1 gA 0 (by decide) _ (fun _ => rfl) _ _ _ j.val 3 hj (by decide) (k0_off12_eq j ⟨3, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gA) = ld gA ⟨0, by decide⟩ (8 * j.val + 4)
      exact load_eq_s1 gA 0 (by decide) _ (fun _ => rfl) _ _ _ j.val 4 hj (by decide) (k0_off12_eq j ⟨4, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gA) = ld gA ⟨0, by decide⟩ (8 * j.val + 5)
      exact load_eq_s1 gA 0 (by decide) _ (fun _ => rfl) _ _ _ j.val 5 hj (by decide) (k0_off12_eq j ⟨5, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gA) = ld gA ⟨0, by decide⟩ (8 * j.val + 6)
      exact load_eq_s1 gA 0 (by decide) _ (fun _ => rfl) _ _ _ j.val 6 hj (by decide) (k0_off12_eq j ⟨6, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gA) = ld gA ⟨0, by decide⟩ (8 * j.val + 7)
      exact load_eq_s1 gA 0 (by decide) _ (fun _ => rfl) _ _ _ j.val 7 hj (by decide) (k0_off12_eq j ⟨7, by decide⟩)
  · fin_cases u
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gB) = ld gB ⟨0, by decide⟩ (8 * j.val + 0)
      exact load_eq_s3 gB 0 (by decide) _ (fun _ => rfl) _ _ _ j.val 0 hj (by decide) (k0_off12_eq j ⟨0, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gB) = ld gB ⟨0, by decide⟩ (8 * j.val + 1)
      exact load_eq_s3 gB 0 (by decide) _ (fun _ => rfl) _ _ _ j.val 1 hj (by decide) (k0_off12_eq j ⟨1, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gB) = ld gB ⟨0, by decide⟩ (8 * j.val + 2)
      exact load_eq_s3 gB 0 (by decide) _ (fun _ => rfl) _ _ _ j.val 2 hj (by decide) (k0_off12_eq j ⟨2, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gB) = ld gB ⟨0, by decide⟩ (8 * j.val + 3)
      exact load_eq_s3 gB 0 (by decide) _ (fun _ => rfl) _ _ _ j.val 3 hj (by decide) (k0_off12_eq j ⟨3, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gB) = ld gB ⟨0, by decide⟩ (8 * j.val + 4)
      exact load_eq_s3 gB 0 (by decide) _ (fun _ => rfl) _ _ _ j.val 4 hj (by decide) (k0_off12_eq j ⟨4, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gB) = ld gB ⟨0, by decide⟩ (8 * j.val + 5)
      exact load_eq_s3 gB 0 (by decide) _ (fun _ => rfl) _ _ _ j.val 5 hj (by decide) (k0_off12_eq j ⟨5, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gB) = ld gB ⟨0, by decide⟩ (8 * j.val + 6)
      exact load_eq_s3 gB 0 (by decide) _ (fun _ => rfl) _ _ _ j.val 6 hj (by decide) (k0_off12_eq j ⟨6, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gB) = ld gB ⟨0, by decide⟩ (8 * j.val + 7)
      exact load_eq_s3 gB 0 (by decide) _ (fun _ => rfl) _ _ _ j.val 7 hj (by decide) (k0_off12_eq j ⟨7, by decide⟩)

/-- Row loop t11: row 1 of slot buffers 1 (x) and 3 (t). -/
theorem trip_pure_t11 (gA gB : S8x2048.Idx → F .f32) (j : Fin k0_t11_loop.trips) (a : Acc4 F) :
    ((k0_pay502 (k0_pay265 (k0_pay256 (k0_pay248 a.1 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gB)) (k0_pay262 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gA)) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gB)) (k0_pay271 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gB)),
      k0_pay506 (k0_pay269 (k0_pay260 (k0_pay252 a.2.1 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gB),
      k0_pay503 (k0_pay266 (k0_pay257 (k0_pay249 a.2.2.1 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gB)) (k0_pay262 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gA)) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gB)) (k0_pay271 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gB)),
      k0_pay507 (k0_pay270 (k0_pay261 (k0_pay253 a.2.2.2 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gB)) : Acc4 F)
      = trip8 a (fun u => ld gA ⟨1, by decide⟩ (8 * j.val + u.val)) (fun u => ld gB ⟨1, by decide⟩ (8 * j.val + u.val)) := by
  have hj : j.val < 16 := Nat.lt_of_lt_of_le j.isLt k0_t11_abs.2.1
  refine (trip_t11 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gA) = ld gA ⟨1, by decide⟩ (8 * j.val + 0)
      exact load_eq_s1 gA 1 (by decide) _ (fun _ => rfl) _ _ _ j.val 0 hj (by decide) (k0_off13_eq j ⟨0, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gA) = ld gA ⟨1, by decide⟩ (8 * j.val + 1)
      exact load_eq_s1 gA 1 (by decide) _ (fun _ => rfl) _ _ _ j.val 1 hj (by decide) (k0_off13_eq j ⟨1, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gA) = ld gA ⟨1, by decide⟩ (8 * j.val + 2)
      exact load_eq_s1 gA 1 (by decide) _ (fun _ => rfl) _ _ _ j.val 2 hj (by decide) (k0_off13_eq j ⟨2, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gA) = ld gA ⟨1, by decide⟩ (8 * j.val + 3)
      exact load_eq_s1 gA 1 (by decide) _ (fun _ => rfl) _ _ _ j.val 3 hj (by decide) (k0_off13_eq j ⟨3, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gA) = ld gA ⟨1, by decide⟩ (8 * j.val + 4)
      exact load_eq_s1 gA 1 (by decide) _ (fun _ => rfl) _ _ _ j.val 4 hj (by decide) (k0_off13_eq j ⟨4, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gA) = ld gA ⟨1, by decide⟩ (8 * j.val + 5)
      exact load_eq_s1 gA 1 (by decide) _ (fun _ => rfl) _ _ _ j.val 5 hj (by decide) (k0_off13_eq j ⟨5, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gA) = ld gA ⟨1, by decide⟩ (8 * j.val + 6)
      exact load_eq_s1 gA 1 (by decide) _ (fun _ => rfl) _ _ _ j.val 6 hj (by decide) (k0_off13_eq j ⟨6, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gA) = ld gA ⟨1, by decide⟩ (8 * j.val + 7)
      exact load_eq_s1 gA 1 (by decide) _ (fun _ => rfl) _ _ _ j.val 7 hj (by decide) (k0_off13_eq j ⟨7, by decide⟩)
  · fin_cases u
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gB) = ld gB ⟨1, by decide⟩ (8 * j.val + 0)
      exact load_eq_s3 gB 1 (by decide) _ (fun _ => rfl) _ _ _ j.val 0 hj (by decide) (k0_off13_eq j ⟨0, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gB) = ld gB ⟨1, by decide⟩ (8 * j.val + 1)
      exact load_eq_s3 gB 1 (by decide) _ (fun _ => rfl) _ _ _ j.val 1 hj (by decide) (k0_off13_eq j ⟨1, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gB) = ld gB ⟨1, by decide⟩ (8 * j.val + 2)
      exact load_eq_s3 gB 1 (by decide) _ (fun _ => rfl) _ _ _ j.val 2 hj (by decide) (k0_off13_eq j ⟨2, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gB) = ld gB ⟨1, by decide⟩ (8 * j.val + 3)
      exact load_eq_s3 gB 1 (by decide) _ (fun _ => rfl) _ _ _ j.val 3 hj (by decide) (k0_off13_eq j ⟨3, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gB) = ld gB ⟨1, by decide⟩ (8 * j.val + 4)
      exact load_eq_s3 gB 1 (by decide) _ (fun _ => rfl) _ _ _ j.val 4 hj (by decide) (k0_off13_eq j ⟨4, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gB) = ld gB ⟨1, by decide⟩ (8 * j.val + 5)
      exact load_eq_s3 gB 1 (by decide) _ (fun _ => rfl) _ _ _ j.val 5 hj (by decide) (k0_off13_eq j ⟨5, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gB) = ld gB ⟨1, by decide⟩ (8 * j.val + 6)
      exact load_eq_s3 gB 1 (by decide) _ (fun _ => rfl) _ _ _ j.val 6 hj (by decide) (k0_off13_eq j ⟨6, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gB) = ld gB ⟨1, by decide⟩ (8 * j.val + 7)
      exact load_eq_s3 gB 1 (by decide) _ (fun _ => rfl) _ _ _ j.val 7 hj (by decide) (k0_off13_eq j ⟨7, by decide⟩)

/-- Row loop t12: row 2 of slot buffers 1 (x) and 3 (t). -/
theorem trip_pure_t12 (gA gB : S8x2048.Idx → F .f32) (j : Fin k0_t12_loop.trips) (a : Acc4 F) :
    ((k0_pay510 (k0_pay291 (k0_pay282 (k0_pay274 a.1 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gB)) (k0_pay288 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gA)) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gB)) (k0_pay297 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gB)),
      k0_pay514 (k0_pay295 (k0_pay286 (k0_pay278 a.2.1 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gB),
      k0_pay511 (k0_pay292 (k0_pay283 (k0_pay275 a.2.2.1 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gB)) (k0_pay288 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gA)) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gB)) (k0_pay297 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gB)),
      k0_pay515 (k0_pay296 (k0_pay287 (k0_pay279 a.2.2.2 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gB)) : Acc4 F)
      = trip8 a (fun u => ld gA ⟨2, by decide⟩ (8 * j.val + u.val)) (fun u => ld gB ⟨2, by decide⟩ (8 * j.val + u.val)) := by
  have hj : j.val < 16 := Nat.lt_of_lt_of_le j.isLt k0_t12_abs.2.1
  refine (trip_t12 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gA) = ld gA ⟨2, by decide⟩ (8 * j.val + 0)
      exact load_eq_s1 gA 2 (by decide) _ (fun _ => rfl) _ _ _ j.val 0 hj (by decide) (k0_off14_eq j ⟨0, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gA) = ld gA ⟨2, by decide⟩ (8 * j.val + 1)
      exact load_eq_s1 gA 2 (by decide) _ (fun _ => rfl) _ _ _ j.val 1 hj (by decide) (k0_off14_eq j ⟨1, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gA) = ld gA ⟨2, by decide⟩ (8 * j.val + 2)
      exact load_eq_s1 gA 2 (by decide) _ (fun _ => rfl) _ _ _ j.val 2 hj (by decide) (k0_off14_eq j ⟨2, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gA) = ld gA ⟨2, by decide⟩ (8 * j.val + 3)
      exact load_eq_s1 gA 2 (by decide) _ (fun _ => rfl) _ _ _ j.val 3 hj (by decide) (k0_off14_eq j ⟨3, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gA) = ld gA ⟨2, by decide⟩ (8 * j.val + 4)
      exact load_eq_s1 gA 2 (by decide) _ (fun _ => rfl) _ _ _ j.val 4 hj (by decide) (k0_off14_eq j ⟨4, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gA) = ld gA ⟨2, by decide⟩ (8 * j.val + 5)
      exact load_eq_s1 gA 2 (by decide) _ (fun _ => rfl) _ _ _ j.val 5 hj (by decide) (k0_off14_eq j ⟨5, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gA) = ld gA ⟨2, by decide⟩ (8 * j.val + 6)
      exact load_eq_s1 gA 2 (by decide) _ (fun _ => rfl) _ _ _ j.val 6 hj (by decide) (k0_off14_eq j ⟨6, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gA) = ld gA ⟨2, by decide⟩ (8 * j.val + 7)
      exact load_eq_s1 gA 2 (by decide) _ (fun _ => rfl) _ _ _ j.val 7 hj (by decide) (k0_off14_eq j ⟨7, by decide⟩)
  · fin_cases u
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gB) = ld gB ⟨2, by decide⟩ (8 * j.val + 0)
      exact load_eq_s3 gB 2 (by decide) _ (fun _ => rfl) _ _ _ j.val 0 hj (by decide) (k0_off14_eq j ⟨0, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gB) = ld gB ⟨2, by decide⟩ (8 * j.val + 1)
      exact load_eq_s3 gB 2 (by decide) _ (fun _ => rfl) _ _ _ j.val 1 hj (by decide) (k0_off14_eq j ⟨1, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gB) = ld gB ⟨2, by decide⟩ (8 * j.val + 2)
      exact load_eq_s3 gB 2 (by decide) _ (fun _ => rfl) _ _ _ j.val 2 hj (by decide) (k0_off14_eq j ⟨2, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gB) = ld gB ⟨2, by decide⟩ (8 * j.val + 3)
      exact load_eq_s3 gB 2 (by decide) _ (fun _ => rfl) _ _ _ j.val 3 hj (by decide) (k0_off14_eq j ⟨3, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gB) = ld gB ⟨2, by decide⟩ (8 * j.val + 4)
      exact load_eq_s3 gB 2 (by decide) _ (fun _ => rfl) _ _ _ j.val 4 hj (by decide) (k0_off14_eq j ⟨4, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gB) = ld gB ⟨2, by decide⟩ (8 * j.val + 5)
      exact load_eq_s3 gB 2 (by decide) _ (fun _ => rfl) _ _ _ j.val 5 hj (by decide) (k0_off14_eq j ⟨5, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gB) = ld gB ⟨2, by decide⟩ (8 * j.val + 6)
      exact load_eq_s3 gB 2 (by decide) _ (fun _ => rfl) _ _ _ j.val 6 hj (by decide) (k0_off14_eq j ⟨6, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gB) = ld gB ⟨2, by decide⟩ (8 * j.val + 7)
      exact load_eq_s3 gB 2 (by decide) _ (fun _ => rfl) _ _ _ j.val 7 hj (by decide) (k0_off14_eq j ⟨7, by decide⟩)

/-- Row loop t13: row 3 of slot buffers 1 (x) and 3 (t). -/
theorem trip_pure_t13 (gA gB : S8x2048.Idx → F .f32) (j : Fin k0_t13_loop.trips) (a : Acc4 F) :
    ((k0_pay518 (k0_pay317 (k0_pay308 (k0_pay300 a.1 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gB)) (k0_pay314 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gA)) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gB)) (k0_pay323 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gB)),
      k0_pay522 (k0_pay321 (k0_pay312 (k0_pay304 a.2.1 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gB),
      k0_pay519 (k0_pay318 (k0_pay309 (k0_pay301 a.2.2.1 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gB)) (k0_pay314 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gA)) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gB)) (k0_pay323 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gB)),
      k0_pay523 (k0_pay322 (k0_pay313 (k0_pay305 a.2.2.2 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gB)) : Acc4 F)
      = trip8 a (fun u => ld gA ⟨3, by decide⟩ (8 * j.val + u.val)) (fun u => ld gB ⟨3, by decide⟩ (8 * j.val + u.val)) := by
  have hj : j.val < 16 := Nat.lt_of_lt_of_le j.isLt k0_t13_abs.2.1
  refine (trip_t13 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gA) = ld gA ⟨3, by decide⟩ (8 * j.val + 0)
      exact load_eq_s1 gA 3 (by decide) _ (fun _ => rfl) _ _ _ j.val 0 hj (by decide) (k0_off15_eq j ⟨0, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gA) = ld gA ⟨3, by decide⟩ (8 * j.val + 1)
      exact load_eq_s1 gA 3 (by decide) _ (fun _ => rfl) _ _ _ j.val 1 hj (by decide) (k0_off15_eq j ⟨1, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gA) = ld gA ⟨3, by decide⟩ (8 * j.val + 2)
      exact load_eq_s1 gA 3 (by decide) _ (fun _ => rfl) _ _ _ j.val 2 hj (by decide) (k0_off15_eq j ⟨2, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gA) = ld gA ⟨3, by decide⟩ (8 * j.val + 3)
      exact load_eq_s1 gA 3 (by decide) _ (fun _ => rfl) _ _ _ j.val 3 hj (by decide) (k0_off15_eq j ⟨3, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gA) = ld gA ⟨3, by decide⟩ (8 * j.val + 4)
      exact load_eq_s1 gA 3 (by decide) _ (fun _ => rfl) _ _ _ j.val 4 hj (by decide) (k0_off15_eq j ⟨4, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gA) = ld gA ⟨3, by decide⟩ (8 * j.val + 5)
      exact load_eq_s1 gA 3 (by decide) _ (fun _ => rfl) _ _ _ j.val 5 hj (by decide) (k0_off15_eq j ⟨5, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gA) = ld gA ⟨3, by decide⟩ (8 * j.val + 6)
      exact load_eq_s1 gA 3 (by decide) _ (fun _ => rfl) _ _ _ j.val 6 hj (by decide) (k0_off15_eq j ⟨6, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gA) = ld gA ⟨3, by decide⟩ (8 * j.val + 7)
      exact load_eq_s1 gA 3 (by decide) _ (fun _ => rfl) _ _ _ j.val 7 hj (by decide) (k0_off15_eq j ⟨7, by decide⟩)
  · fin_cases u
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gB) = ld gB ⟨3, by decide⟩ (8 * j.val + 0)
      exact load_eq_s3 gB 3 (by decide) _ (fun _ => rfl) _ _ _ j.val 0 hj (by decide) (k0_off15_eq j ⟨0, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gB) = ld gB ⟨3, by decide⟩ (8 * j.val + 1)
      exact load_eq_s3 gB 3 (by decide) _ (fun _ => rfl) _ _ _ j.val 1 hj (by decide) (k0_off15_eq j ⟨1, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gB) = ld gB ⟨3, by decide⟩ (8 * j.val + 2)
      exact load_eq_s3 gB 3 (by decide) _ (fun _ => rfl) _ _ _ j.val 2 hj (by decide) (k0_off15_eq j ⟨2, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gB) = ld gB ⟨3, by decide⟩ (8 * j.val + 3)
      exact load_eq_s3 gB 3 (by decide) _ (fun _ => rfl) _ _ _ j.val 3 hj (by decide) (k0_off15_eq j ⟨3, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gB) = ld gB ⟨3, by decide⟩ (8 * j.val + 4)
      exact load_eq_s3 gB 3 (by decide) _ (fun _ => rfl) _ _ _ j.val 4 hj (by decide) (k0_off15_eq j ⟨4, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gB) = ld gB ⟨3, by decide⟩ (8 * j.val + 5)
      exact load_eq_s3 gB 3 (by decide) _ (fun _ => rfl) _ _ _ j.val 5 hj (by decide) (k0_off15_eq j ⟨5, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gB) = ld gB ⟨3, by decide⟩ (8 * j.val + 6)
      exact load_eq_s3 gB 3 (by decide) _ (fun _ => rfl) _ _ _ j.val 6 hj (by decide) (k0_off15_eq j ⟨6, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gB) = ld gB ⟨3, by decide⟩ (8 * j.val + 7)
      exact load_eq_s3 gB 3 (by decide) _ (fun _ => rfl) _ _ _ j.val 7 hj (by decide) (k0_off15_eq j ⟨7, by decide⟩)

/-- Row loop t14: row 4 of slot buffers 1 (x) and 3 (t). -/
theorem trip_pure_t14 (gA gB : S8x2048.Idx → F .f32) (j : Fin k0_t14_loop.trips) (a : Acc4 F) :
    ((k0_pay526 (k0_pay343 (k0_pay334 (k0_pay326 a.1 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gB)) (k0_pay340 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gA)) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gB)) (k0_pay349 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gB)),
      k0_pay530 (k0_pay347 (k0_pay338 (k0_pay330 a.2.1 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gB),
      k0_pay527 (k0_pay344 (k0_pay335 (k0_pay327 a.2.2.1 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gB)) (k0_pay340 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gA)) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gB)) (k0_pay349 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gB)),
      k0_pay531 (k0_pay348 (k0_pay339 (k0_pay331 a.2.2.2 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gB)) : Acc4 F)
      = trip8 a (fun u => ld gA ⟨4, by decide⟩ (8 * j.val + u.val)) (fun u => ld gB ⟨4, by decide⟩ (8 * j.val + u.val)) := by
  have hj : j.val < 16 := Nat.lt_of_lt_of_le j.isLt k0_t14_abs.2.1
  refine (trip_t14 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gA) = ld gA ⟨4, by decide⟩ (8 * j.val + 0)
      exact load_eq_s1 gA 4 (by decide) _ (fun _ => rfl) _ _ _ j.val 0 hj (by decide) (k0_off16_eq j ⟨0, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gA) = ld gA ⟨4, by decide⟩ (8 * j.val + 1)
      exact load_eq_s1 gA 4 (by decide) _ (fun _ => rfl) _ _ _ j.val 1 hj (by decide) (k0_off16_eq j ⟨1, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gA) = ld gA ⟨4, by decide⟩ (8 * j.val + 2)
      exact load_eq_s1 gA 4 (by decide) _ (fun _ => rfl) _ _ _ j.val 2 hj (by decide) (k0_off16_eq j ⟨2, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gA) = ld gA ⟨4, by decide⟩ (8 * j.val + 3)
      exact load_eq_s1 gA 4 (by decide) _ (fun _ => rfl) _ _ _ j.val 3 hj (by decide) (k0_off16_eq j ⟨3, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gA) = ld gA ⟨4, by decide⟩ (8 * j.val + 4)
      exact load_eq_s1 gA 4 (by decide) _ (fun _ => rfl) _ _ _ j.val 4 hj (by decide) (k0_off16_eq j ⟨4, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gA) = ld gA ⟨4, by decide⟩ (8 * j.val + 5)
      exact load_eq_s1 gA 4 (by decide) _ (fun _ => rfl) _ _ _ j.val 5 hj (by decide) (k0_off16_eq j ⟨5, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gA) = ld gA ⟨4, by decide⟩ (8 * j.val + 6)
      exact load_eq_s1 gA 4 (by decide) _ (fun _ => rfl) _ _ _ j.val 6 hj (by decide) (k0_off16_eq j ⟨6, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gA) = ld gA ⟨4, by decide⟩ (8 * j.val + 7)
      exact load_eq_s1 gA 4 (by decide) _ (fun _ => rfl) _ _ _ j.val 7 hj (by decide) (k0_off16_eq j ⟨7, by decide⟩)
  · fin_cases u
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gB) = ld gB ⟨4, by decide⟩ (8 * j.val + 0)
      exact load_eq_s3 gB 4 (by decide) _ (fun _ => rfl) _ _ _ j.val 0 hj (by decide) (k0_off16_eq j ⟨0, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gB) = ld gB ⟨4, by decide⟩ (8 * j.val + 1)
      exact load_eq_s3 gB 4 (by decide) _ (fun _ => rfl) _ _ _ j.val 1 hj (by decide) (k0_off16_eq j ⟨1, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gB) = ld gB ⟨4, by decide⟩ (8 * j.val + 2)
      exact load_eq_s3 gB 4 (by decide) _ (fun _ => rfl) _ _ _ j.val 2 hj (by decide) (k0_off16_eq j ⟨2, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gB) = ld gB ⟨4, by decide⟩ (8 * j.val + 3)
      exact load_eq_s3 gB 4 (by decide) _ (fun _ => rfl) _ _ _ j.val 3 hj (by decide) (k0_off16_eq j ⟨3, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gB) = ld gB ⟨4, by decide⟩ (8 * j.val + 4)
      exact load_eq_s3 gB 4 (by decide) _ (fun _ => rfl) _ _ _ j.val 4 hj (by decide) (k0_off16_eq j ⟨4, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gB) = ld gB ⟨4, by decide⟩ (8 * j.val + 5)
      exact load_eq_s3 gB 4 (by decide) _ (fun _ => rfl) _ _ _ j.val 5 hj (by decide) (k0_off16_eq j ⟨5, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gB) = ld gB ⟨4, by decide⟩ (8 * j.val + 6)
      exact load_eq_s3 gB 4 (by decide) _ (fun _ => rfl) _ _ _ j.val 6 hj (by decide) (k0_off16_eq j ⟨6, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gB) = ld gB ⟨4, by decide⟩ (8 * j.val + 7)
      exact load_eq_s3 gB 4 (by decide) _ (fun _ => rfl) _ _ _ j.val 7 hj (by decide) (k0_off16_eq j ⟨7, by decide⟩)

/-- Row loop t15: row 5 of slot buffers 1 (x) and 3 (t). -/
theorem trip_pure_t15 (gA gB : S8x2048.Idx → F .f32) (j : Fin k0_t15_loop.trips) (a : Acc4 F) :
    ((k0_pay534 (k0_pay369 (k0_pay360 (k0_pay352 a.1 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gB)) (k0_pay366 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gA)) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gB)) (k0_pay375 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gB)),
      k0_pay538 (k0_pay373 (k0_pay364 (k0_pay356 a.2.1 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gB),
      k0_pay535 (k0_pay370 (k0_pay361 (k0_pay353 a.2.2.1 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gB)) (k0_pay366 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gA)) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gB)) (k0_pay375 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gB)),
      k0_pay539 (k0_pay374 (k0_pay365 (k0_pay357 a.2.2.2 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gB)) : Acc4 F)
      = trip8 a (fun u => ld gA ⟨5, by decide⟩ (8 * j.val + u.val)) (fun u => ld gB ⟨5, by decide⟩ (8 * j.val + u.val)) := by
  have hj : j.val < 16 := Nat.lt_of_lt_of_le j.isLt k0_t15_abs.2.1
  refine (trip_t15 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gA) = ld gA ⟨5, by decide⟩ (8 * j.val + 0)
      exact load_eq_s1 gA 5 (by decide) _ (fun _ => rfl) _ _ _ j.val 0 hj (by decide) (k0_off17_eq j ⟨0, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gA) = ld gA ⟨5, by decide⟩ (8 * j.val + 1)
      exact load_eq_s1 gA 5 (by decide) _ (fun _ => rfl) _ _ _ j.val 1 hj (by decide) (k0_off17_eq j ⟨1, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gA) = ld gA ⟨5, by decide⟩ (8 * j.val + 2)
      exact load_eq_s1 gA 5 (by decide) _ (fun _ => rfl) _ _ _ j.val 2 hj (by decide) (k0_off17_eq j ⟨2, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gA) = ld gA ⟨5, by decide⟩ (8 * j.val + 3)
      exact load_eq_s1 gA 5 (by decide) _ (fun _ => rfl) _ _ _ j.val 3 hj (by decide) (k0_off17_eq j ⟨3, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gA) = ld gA ⟨5, by decide⟩ (8 * j.val + 4)
      exact load_eq_s1 gA 5 (by decide) _ (fun _ => rfl) _ _ _ j.val 4 hj (by decide) (k0_off17_eq j ⟨4, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gA) = ld gA ⟨5, by decide⟩ (8 * j.val + 5)
      exact load_eq_s1 gA 5 (by decide) _ (fun _ => rfl) _ _ _ j.val 5 hj (by decide) (k0_off17_eq j ⟨5, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gA) = ld gA ⟨5, by decide⟩ (8 * j.val + 6)
      exact load_eq_s1 gA 5 (by decide) _ (fun _ => rfl) _ _ _ j.val 6 hj (by decide) (k0_off17_eq j ⟨6, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gA) = ld gA ⟨5, by decide⟩ (8 * j.val + 7)
      exact load_eq_s1 gA 5 (by decide) _ (fun _ => rfl) _ _ _ j.val 7 hj (by decide) (k0_off17_eq j ⟨7, by decide⟩)
  · fin_cases u
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gB) = ld gB ⟨5, by decide⟩ (8 * j.val + 0)
      exact load_eq_s3 gB 5 (by decide) _ (fun _ => rfl) _ _ _ j.val 0 hj (by decide) (k0_off17_eq j ⟨0, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gB) = ld gB ⟨5, by decide⟩ (8 * j.val + 1)
      exact load_eq_s3 gB 5 (by decide) _ (fun _ => rfl) _ _ _ j.val 1 hj (by decide) (k0_off17_eq j ⟨1, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gB) = ld gB ⟨5, by decide⟩ (8 * j.val + 2)
      exact load_eq_s3 gB 5 (by decide) _ (fun _ => rfl) _ _ _ j.val 2 hj (by decide) (k0_off17_eq j ⟨2, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gB) = ld gB ⟨5, by decide⟩ (8 * j.val + 3)
      exact load_eq_s3 gB 5 (by decide) _ (fun _ => rfl) _ _ _ j.val 3 hj (by decide) (k0_off17_eq j ⟨3, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gB) = ld gB ⟨5, by decide⟩ (8 * j.val + 4)
      exact load_eq_s3 gB 5 (by decide) _ (fun _ => rfl) _ _ _ j.val 4 hj (by decide) (k0_off17_eq j ⟨4, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gB) = ld gB ⟨5, by decide⟩ (8 * j.val + 5)
      exact load_eq_s3 gB 5 (by decide) _ (fun _ => rfl) _ _ _ j.val 5 hj (by decide) (k0_off17_eq j ⟨5, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gB) = ld gB ⟨5, by decide⟩ (8 * j.val + 6)
      exact load_eq_s3 gB 5 (by decide) _ (fun _ => rfl) _ _ _ j.val 6 hj (by decide) (k0_off17_eq j ⟨6, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gB) = ld gB ⟨5, by decide⟩ (8 * j.val + 7)
      exact load_eq_s3 gB 5 (by decide) _ (fun _ => rfl) _ _ _ j.val 7 hj (by decide) (k0_off17_eq j ⟨7, by decide⟩)

/-- Row loop t16: row 6 of slot buffers 1 (x) and 3 (t). -/
theorem trip_pure_t16 (gA gB : S8x2048.Idx → F .f32) (j : Fin k0_t16_loop.trips) (a : Acc4 F) :
    ((k0_pay542 (k0_pay395 (k0_pay386 (k0_pay378 a.1 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gB)) (k0_pay392 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gA)) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gB)) (k0_pay401 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gB)),
      k0_pay546 (k0_pay399 (k0_pay390 (k0_pay382 a.2.1 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gB),
      k0_pay543 (k0_pay396 (k0_pay387 (k0_pay379 a.2.2.1 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gB)) (k0_pay392 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gA)) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gB)) (k0_pay401 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gB)),
      k0_pay547 (k0_pay400 (k0_pay391 (k0_pay383 a.2.2.2 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gB)) : Acc4 F)
      = trip8 a (fun u => ld gA ⟨6, by decide⟩ (8 * j.val + u.val)) (fun u => ld gB ⟨6, by decide⟩ (8 * j.val + u.val)) := by
  have hj : j.val < 16 := Nat.lt_of_lt_of_le j.isLt k0_t16_abs.2.1
  refine (trip_t16 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gA) = ld gA ⟨6, by decide⟩ (8 * j.val + 0)
      exact load_eq_s1 gA 6 (by decide) _ (fun _ => rfl) _ _ _ j.val 0 hj (by decide) (k0_off18_eq j ⟨0, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gA) = ld gA ⟨6, by decide⟩ (8 * j.val + 1)
      exact load_eq_s1 gA 6 (by decide) _ (fun _ => rfl) _ _ _ j.val 1 hj (by decide) (k0_off18_eq j ⟨1, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gA) = ld gA ⟨6, by decide⟩ (8 * j.val + 2)
      exact load_eq_s1 gA 6 (by decide) _ (fun _ => rfl) _ _ _ j.val 2 hj (by decide) (k0_off18_eq j ⟨2, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gA) = ld gA ⟨6, by decide⟩ (8 * j.val + 3)
      exact load_eq_s1 gA 6 (by decide) _ (fun _ => rfl) _ _ _ j.val 3 hj (by decide) (k0_off18_eq j ⟨3, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gA) = ld gA ⟨6, by decide⟩ (8 * j.val + 4)
      exact load_eq_s1 gA 6 (by decide) _ (fun _ => rfl) _ _ _ j.val 4 hj (by decide) (k0_off18_eq j ⟨4, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gA) = ld gA ⟨6, by decide⟩ (8 * j.val + 5)
      exact load_eq_s1 gA 6 (by decide) _ (fun _ => rfl) _ _ _ j.val 5 hj (by decide) (k0_off18_eq j ⟨5, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gA) = ld gA ⟨6, by decide⟩ (8 * j.val + 6)
      exact load_eq_s1 gA 6 (by decide) _ (fun _ => rfl) _ _ _ j.val 6 hj (by decide) (k0_off18_eq j ⟨6, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gA) = ld gA ⟨6, by decide⟩ (8 * j.val + 7)
      exact load_eq_s1 gA 6 (by decide) _ (fun _ => rfl) _ _ _ j.val 7 hj (by decide) (k0_off18_eq j ⟨7, by decide⟩)
  · fin_cases u
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gB) = ld gB ⟨6, by decide⟩ (8 * j.val + 0)
      exact load_eq_s3 gB 6 (by decide) _ (fun _ => rfl) _ _ _ j.val 0 hj (by decide) (k0_off18_eq j ⟨0, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gB) = ld gB ⟨6, by decide⟩ (8 * j.val + 1)
      exact load_eq_s3 gB 6 (by decide) _ (fun _ => rfl) _ _ _ j.val 1 hj (by decide) (k0_off18_eq j ⟨1, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gB) = ld gB ⟨6, by decide⟩ (8 * j.val + 2)
      exact load_eq_s3 gB 6 (by decide) _ (fun _ => rfl) _ _ _ j.val 2 hj (by decide) (k0_off18_eq j ⟨2, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gB) = ld gB ⟨6, by decide⟩ (8 * j.val + 3)
      exact load_eq_s3 gB 6 (by decide) _ (fun _ => rfl) _ _ _ j.val 3 hj (by decide) (k0_off18_eq j ⟨3, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gB) = ld gB ⟨6, by decide⟩ (8 * j.val + 4)
      exact load_eq_s3 gB 6 (by decide) _ (fun _ => rfl) _ _ _ j.val 4 hj (by decide) (k0_off18_eq j ⟨4, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gB) = ld gB ⟨6, by decide⟩ (8 * j.val + 5)
      exact load_eq_s3 gB 6 (by decide) _ (fun _ => rfl) _ _ _ j.val 5 hj (by decide) (k0_off18_eq j ⟨5, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gB) = ld gB ⟨6, by decide⟩ (8 * j.val + 6)
      exact load_eq_s3 gB 6 (by decide) _ (fun _ => rfl) _ _ _ j.val 6 hj (by decide) (k0_off18_eq j ⟨6, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gB) = ld gB ⟨6, by decide⟩ (8 * j.val + 7)
      exact load_eq_s3 gB 6 (by decide) _ (fun _ => rfl) _ _ _ j.val 7 hj (by decide) (k0_off18_eq j ⟨7, by decide⟩)

/-- Row loop t17: row 7 of slot buffers 1 (x) and 3 (t). -/
theorem trip_pure_t17 (gA gB : S8x2048.Idx → F .f32) (j : Fin k0_t17_loop.trips) (a : Acc4 F) :
    ((k0_pay4 (k0_pay421 (k0_pay412 (k0_pay404 a.1 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gB)) (k0_pay418 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gA)) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gB)) (k0_pay427 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gB)),
      k0_pay8 (k0_pay425 (k0_pay416 (k0_pay408 a.2.1 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gB),
      k0_pay5 (k0_pay422 (k0_pay413 (k0_pay405 a.2.2.1 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gB)) (k0_pay418 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gA)) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gB)) (k0_pay427 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gB)),
      k0_pay9 (k0_pay426 (k0_pay417 (k0_pay409 a.2.2.2 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gB)) : Acc4 F)
      = trip8 a (fun u => ld gA ⟨7, by decide⟩ (8 * j.val + u.val)) (fun u => ld gB ⟨7, by decide⟩ (8 * j.val + u.val)) := by
  have hj : j.val < 16 := Nat.lt_of_lt_of_le j.isLt k0_t17_abs.2.1
  refine (trip_t17 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gA) = ld gA ⟨7, by decide⟩ (8 * j.val + 0)
      exact load_eq_s1 gA 7 (by decide) _ (fun _ => rfl) _ _ _ j.val 0 hj (by decide) (k0_off19_eq j ⟨0, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gA) = ld gA ⟨7, by decide⟩ (8 * j.val + 1)
      exact load_eq_s1 gA 7 (by decide) _ (fun _ => rfl) _ _ _ j.val 1 hj (by decide) (k0_off19_eq j ⟨1, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gA) = ld gA ⟨7, by decide⟩ (8 * j.val + 2)
      exact load_eq_s1 gA 7 (by decide) _ (fun _ => rfl) _ _ _ j.val 2 hj (by decide) (k0_off19_eq j ⟨2, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gA) = ld gA ⟨7, by decide⟩ (8 * j.val + 3)
      exact load_eq_s1 gA 7 (by decide) _ (fun _ => rfl) _ _ _ j.val 3 hj (by decide) (k0_off19_eq j ⟨3, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gA) = ld gA ⟨7, by decide⟩ (8 * j.val + 4)
      exact load_eq_s1 gA 7 (by decide) _ (fun _ => rfl) _ _ _ j.val 4 hj (by decide) (k0_off19_eq j ⟨4, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gA) = ld gA ⟨7, by decide⟩ (8 * j.val + 5)
      exact load_eq_s1 gA 7 (by decide) _ (fun _ => rfl) _ _ _ j.val 5 hj (by decide) (k0_off19_eq j ⟨5, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gA) = ld gA ⟨7, by decide⟩ (8 * j.val + 6)
      exact load_eq_s1 gA 7 (by decide) _ (fun _ => rfl) _ _ _ j.val 6 hj (by decide) (k0_off19_eq j ⟨6, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gA) = ld gA ⟨7, by decide⟩ (8 * j.val + 7)
      exact load_eq_s1 gA 7 (by decide) _ (fun _ => rfl) _ _ _ j.val 7 hj (by decide) (k0_off19_eq j ⟨7, by decide⟩)
  · fin_cases u
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gB) = ld gB ⟨7, by decide⟩ (8 * j.val + 0)
      exact load_eq_s3 gB 7 (by decide) _ (fun _ => rfl) _ _ _ j.val 0 hj (by decide) (k0_off19_eq j ⟨0, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gB) = ld gB ⟨7, by decide⟩ (8 * j.val + 1)
      exact load_eq_s3 gB 7 (by decide) _ (fun _ => rfl) _ _ _ j.val 1 hj (by decide) (k0_off19_eq j ⟨1, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gB) = ld gB ⟨7, by decide⟩ (8 * j.val + 2)
      exact load_eq_s3 gB 7 (by decide) _ (fun _ => rfl) _ _ _ j.val 2 hj (by decide) (k0_off19_eq j ⟨2, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gB) = ld gB ⟨7, by decide⟩ (8 * j.val + 3)
      exact load_eq_s3 gB 7 (by decide) _ (fun _ => rfl) _ _ _ j.val 3 hj (by decide) (k0_off19_eq j ⟨3, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gB) = ld gB ⟨7, by decide⟩ (8 * j.val + 4)
      exact load_eq_s3 gB 7 (by decide) _ (fun _ => rfl) _ _ _ j.val 4 hj (by decide) (k0_off19_eq j ⟨4, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gB) = ld gB ⟨7, by decide⟩ (8 * j.val + 5)
      exact load_eq_s3 gB 7 (by decide) _ (fun _ => rfl) _ _ _ j.val 5 hj (by decide) (k0_off19_eq j ⟨5, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gB) = ld gB ⟨7, by decide⟩ (8 * j.val + 6)
      exact load_eq_s3 gB 7 (by decide) _ (fun _ => rfl) _ _ _ j.val 6 hj (by decide) (k0_off19_eq j ⟨6, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gB) = ld gB ⟨7, by decide⟩ (8 * j.val + 7)
      exact load_eq_s3 gB 7 (by decide) _ (fun _ => rfl) _ _ _ j.val 7 hj (by decide) (k0_off19_eq j ⟨7, by decide⟩)

end Cert.Proof.KI

end
-- ==== Proof.TilePure.lean ====
/-
  Every row loop's trip over the loads it makes: the eight row loops of the first slot's buffers and the eight of the
  second slot's.
-/
import proofs.«210622_g27255862460721_cont_9to1_1214_20_alg».proof.Proof.TilePureA
import proofs.«210622_g27255862460721_cont_9to1_1214_20_alg».proof.Proof.TilePureB
-- ==== Proof.TileCopyOut.lean ====
/-
  What a tile's two copy-outs leave in the [256] result arrays, entry by entry.

  The tile at grid position L stores its sum result a0 + a1 (sixteen lanes) into a [16] buffer and copies that buffer
  to entries 16 L₁ + 16 L₀ … + 15 of the [256] array of sums (L₀ < 1, so that is 16 L₁ …); likewise its count result. Entry
  i of the array of sums, for i among those sixteen, then holds lane i % 16 of the result of the tile whose first row
  is 128 (i / 16) — what the specification of all sixteen tiles says of entry i.
-/
import proofs.«210622_g27255862460721_cont_9to1_1214_20_alg».proof.Proof.TileOut
import Idealize.ShloMosaic.Lib.Writes

noncomputable section

namespace Cert.Proof.KI

open Cert.KernelIdeal Cert.KernelIdeal.Gen
open Idealize.ShloMosaic Idealize.ShloMosaic.ValueIdx Idealize.SL.Sem
open Cert.Proof.TileSpec (Acc4 tileFold outS outC scS scC)

variable {F : FTy → Type} [FloatOps F]

/-- The grid has one core row: the first grid coordinate is 0. -/
theorem grid_core_zero (L : grid0.Coords) : (L 0).val = 0 := by
  have h : (L 0).val < 1 := (L 0).isLt
  omega

/-- The second grid coordinate is a tile number below 16. -/
theorem grid_tile_lt (L : grid0.Coords) : (L 1).val < 16 := (L 1).isLt

/-- Entry i of the array of sums, for i among the tile's sixteen entries, after the tile's copy-out. -/
theorem out_s_pure (X Y : S16384x2048.Idx → F .f32) (fs : S256.Idx → F .f32) (f4 : S16.Idx → F .f32) (a : Acc4 F)
    (L : grid0.Coords) (ha : a = tileFold X Y (128 * (L 1).val + 128 * (L 0).val) 16) (i : S256.Idx)
    (hi : i ∈ ((Memref.whole main_v2_0_scv).slice (Rect.unit (s := S256) (k0_off20 L) S16.size (k0_off20_inb L))
      (fun _ => rfl)).view.set) :
    ((Memref.whole main_v2_0_scv).slice (Rect.unit (s := S256) (k0_off20 L) S16.size (k0_off20_inb L))
        (fun _ => rfl)).view.writes (Elt F) fs
      [⟨Rect.whole S16, ReadAs.same.apply (View.read (Elt F) (Memref.whole cc0_scratch4).view
        ((Memref.whole cc0_scratch4).view.writes (Elt F) f4
          [⟨Rect.unit (s := S16) ![0] S16.size inb_S16_S16_0, k0_pay10 a.1 a.2.1⟩]))⟩] i
      = scS X Y i := by
  obtain ⟨y, -, rfl⟩ := Finset.mem_map.mp hi
  have hy : (y 0).val < 16 := (y 0).isLt
  have hL0 := grid_core_zero L
  have hL1 := grid_tile_lt L
  have e0 : (Rect.whole S16).emb y = y := funext fun a => Fin.ext (by show 0 + 1 * (y a).val = (y a).val; omega)
  have e4 : (Rect.unit (s := S16) ![0] S16.size inb_S16_S16_0).emb y = y :=
    funext fun a => Fin.ext (by
      match a with
      | ⟨0, _⟩ => show 0 + 1 * (y 0).val = (y 0).val; omega)
  have h1 := View.read_writes_cons_emb (Val := Elt F)
    ((Memref.whole main_v2_0_scv).slice (Rect.unit (s := S256) (k0_off20 L) S16.size (k0_off20_inb L)) (fun _ => rfl)).view
    fs (Rect.whole S16)
    (ReadAs.same.apply (View.read (Elt F) (Memref.whole cc0_scratch4).view
      ((Memref.whole cc0_scratch4).view.writes (Elt F) f4
        [⟨Rect.unit (s := S16) ![0] S16.size inb_S16_S16_0, k0_pay10 a.1 a.2.1⟩]))) [] y
  have h2 := View.read_writes_cons_emb (Val := Elt F) (Memref.whole cc0_scratch4).view f4
    (Rect.unit (s := S16) ![0] S16.size inb_S16_S16_0) (k0_pay10 a.1 a.2.1) [] y
  rw [e0] at h1
  rw [e4] at h2
  have hv : ((((Memref.whole main_v2_0_scv).slice (Rect.unit (s := S256) (k0_off20 L) S16.size (k0_off20_inb L))
      (fun _ => rfl)).view.emb y) 0).val = 16 * (L 1).val + 16 * (L 0).val + 1 * (y 0).val := by
    show (k0_off20 L) 0 + 1 * (y 0).val = _
    rw [congrFun (k0_off20_eq L) 0]
    rfl
  refine (h1.trans h2).trans ?_
  subst ha
  have hb : 128 * (L 1).val + 128 * (L 0).val
      = 128 * (((((Memref.whole main_v2_0_scv).slice (Rect.unit (s := S256) (k0_off20 L) S16.size (k0_off20_inb L))
        (fun _ => rfl)).view.emb y) 0).val / 16) := by omega
  have hyy : y = ix1 ⟨((((Memref.whole main_v2_0_scv).slice (Rect.unit (s := S256) (k0_off20 L) S16.size (k0_off20_inb L))
        (fun _ => rfl)).view.emb y) 0).val % 16, Nat.mod_lt _ (by norm_num)⟩ := by
    refine (eq_ix1 y).trans (congrArg ix1 (Fin.ext ?_))
    show (y 0).val = _ % 16
    omega
  exact congrArg₂ (fun b (z : S16.Idx) => outS (tileFold X Y b 16) z) hb hyy

/-- Entry i of the array of counts, for i among the tile's sixteen entries, after the tile's copy-out. -/
theorem out_c_pure (X Y : S16384x2048.Idx → F .f32) (fs : S256.Idx → F .f32) (f4 : S16.Idx → F .f32) (a : Acc4 F)
    (L : grid0.Coords) (ha : a = tileFold X Y (128 * (L 1).val + 128 * (L 0).val) 16) (i : S256.Idx)
    (hi : i ∈ ((Memref.whole main_v2_1_scv).slice (Rect.unit (s := S256) (k0_off20 L) S16.size (k0_off20_inb L))
      (fun _ => rfl)).view.set) :
    ((Memref.whole main_v2_1_scv).slice (Rect.unit (s := S256) (k0_off20 L) S16.size (k0_off20_inb L))
        (fun _ => rfl)).view.writes (Elt F) fs
      [⟨Rect.whole S16, ReadAs.same.apply (View.read (Elt F) (Memref.whole cc0_scratch5).view
        ((Memref.whole cc0_scratch5).view.writes (Elt F) f4
          [⟨Rect.unit (s := S16) ![0] S16.size inb_S16_S16_0, k0_pay11 a.2.2.1 a.2.2.2⟩]))⟩] i
      = scC X Y i := by
  obtain ⟨y, -, rfl⟩ := Finset.mem_map.mp hi
  have hy : (y 0).val < 16 := (y 0).isLt
  have hL0 := grid_core_zero L
  have hL1 := grid_tile_lt L
  have e0 : (Rect.whole S16).emb y = y := funext fun a => Fin.ext (by show 0 + 1 * (y a).val = (y a).val; omega)
  have e4 : (Rect.unit (s := S16) ![0] S16.size inb_S16_S16_0).emb y = y :=
    funext fun a => Fin.ext (by
      match a with
      | ⟨0, _⟩ => show 0 + 1 * (y 0).val = (y 0).val; omega)
  have h1 := View.read_writes_cons_emb (Val := Elt F)
    ((Memref.whole main_v2_1_scv).slice (Rect.unit (s := S256) (k0_off20 L) S16.size (k0_off20_inb L)) (fun _ => rfl)).view
    fs (Rect.whole S16)
    (ReadAs.same.apply (View.read (Elt F) (Memref.whole cc0_scratch5).view
      ((Memref.whole cc0_scratch5).view.writes (Elt F) f4
        [⟨Rect.unit (s := S16) ![0] S16.size inb_S16_S16_0, k0_pay11 a.2.2.1 a.2.2.2⟩]))) [] y
  have h2 := View.read_writes_cons_emb (Val := Elt F) (Memref.whole cc0_scratch5).view f4
    (Rect.unit (s := S16) ![0] S16.size inb_S16_S16_0) (k0_pay11 a.2.2.1 a.2.2.2) [] y
  rw [e0] at h1
  rw [e4] at h2
  have hv : ((((Memref.whole main_v2_1_scv).slice (Rect.unit (s := S256) (k0_off20 L) S16.size (k0_off20_inb L))
      (fun _ => rfl)).view.emb y) 0).val = 16 * (L 1).val + 16 * (L 0).val + 1 * (y 0).val := by
    show (k0_off20 L) 0 + 1 * (y 0).val = _
    rw [congrFun (k0_off20_eq L) 0]
    rfl
  refine (h1.trans h2).trans ?_
  subst ha
  have hb : 128 * (L 1).val + 128 * (L 0).val
      = 128 * (((((Memref.whole main_v2_1_scv).slice (Rect.unit (s := S256) (k0_off20 L) S16.size (k0_off20_inb L))
        (fun _ => rfl)).view.emb y) 0).val / 16) := by omega
  have hyy : y = ix1 ⟨((((Memref.whole main_v2_1_scv).slice (Rect.unit (s := S256) (k0_off20 L) S16.size (k0_off20_inb L))
        (fun _ => rfl)).view.emb y) 0).val % 16, Nat.mod_lt _ (by norm_num)⟩ := by
    refine (eq_ix1 y).trans (congrArg ix1 (Fin.ext ?_))
    show (y 0).val = _ % 16
    omega
  exact congrArg₂ (fun b (z : S16.Idx) => outC (tileFold X Y b 16) z) hb hyy

end Cert.Proof.KI

end
-- ==== Proof.TileCopyOutEq.lean ====
/-
  A tile's two copy-outs, as equalities between assertions about the [256] result arrays.

  After the tile at grid position L has copied its sum result out, its sixteen entries of the array of sums — entries
  16 L₁ … 16 L₁ + 15, the L₁-th of the array's sixteen parts — hold what the specification of all sixteen tiles says of
  them; likewise the array of counts. Only those sixteen entries are held, so the two assertions are equal.
-/
import proofs.«210622_g27255862460721_cont_9to1_1214_20_alg».proof.Proof.KITileRes
import proofs.«210622_g27255862460721_cont_9to1_1214_20_alg».proof.Proof.TileCopyOut

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.TileSpec (Acc4 tileFold outS outC scS scC)

variable {F : FTy → Type} [FloatOps F] (d : Dev nD) (L : grid0.Coords)

local notation "𝕄" => MT nD τ sig (HIx 1) (Elt F) ℕ UU ℕ

omit [FloatOps F] in
/-- The tile's sixteen entries are the L₁-th of the sixteen parts of a [256] array. -/
theorem lanes_eq :
    Rect.unit (s := S256) (k0_off20 L) S16.size (k0_off20_inb L) = lanes (Fin.cast (rfl : grid0.bound 1 = 16) (L 1)) := by
  have hL0 := grid_core_zero L
  have hc : (Fin.cast (rfl : grid0.bound 1 = 16) (L 1)).val = (L 1).val := rfl
  unfold lanes Rect.part Rect.block
  congr 1 <;> funext a
  · rw [k0_off20_eq]
    match a with
    | 0 =>
      show 16 * (L 1).val + 16 * (L 0).val = (L 1).val * 16
      omega
  · match a with
    | 0 => rfl

omit [FloatOps F] in
/-- The entries of the array of sums that the tile's copy-out covers. -/
theorem set_out_s :
    ((Memref.whole main_v2_0_scv).slice (Rect.unit (s := S256) (k0_off20 L) S16.size (k0_off20_inb L)) (fun _ => rfl)).view.set
      = laneSet (Fin.cast (rfl : grid0.bound 1 = 16) (L 1)) := by
  show ((Memref.whole main_v2_0_scv : Memref sig .scVector .hbm S256 .f32).view.slice
      (Rect.unit (s := S256) (k0_off20 L) S16.size (k0_off20_inb L))).set = _
  rw [lanes_eq L]

omit [FloatOps F] in
/-- The entries of the array of counts that the tile's copy-out covers: the same sixteen. -/
theorem set_out_c :
    ((Memref.whole main_v2_1_scv).slice (Rect.unit (s := S256) (k0_off20 L) S16.size (k0_off20_inb L)) (fun _ => rfl)).view.set
      = laneSet (Fin.cast (rfl : grid0.bound 1 = 16) (L 1)) := by
  have h1 : (((Memref.whole main_v2_1_scv).slice (Rect.unit (s := S256) (k0_off20 L) S16.size (k0_off20_inb L))
      (fun _ => rfl)).view.set : Finset S256.Idx) = (Rect.unit (s := S256) (k0_off20 L) S16.size (k0_off20_inb L)).set := by
    show ((Memref.whole main_v2_1_scv : Memref sig .scVector .hbm S256 .f32).view.slice _).set = _
    rw [View.set_slice]
    exact Finset.map_refl
  have h0 : (((Memref.whole main_v2_0_scv).slice (Rect.unit (s := S256) (k0_off20 L) S16.size (k0_off20_inb L))
      (fun _ => rfl)).view.set : Finset S256.Idx) = (Rect.unit (s := S256) (k0_off20 L) S16.size (k0_off20_inb L)).set := by
    show ((Memref.whole main_v2_0_scv : Memref sig .scVector .hbm S256 .f32).view.slice _).set = _
    rw [View.set_slice]
    exact Finset.map_refl
  exact h1.trans (h0.symm.trans (set_out_s L))

/-- The tile's sum copy-out leaves its sixteen entries of the array of sums as the specification says. -/
theorem out_s_eq (X Y : S16384x2048.Idx → F .f32)
    (fs : Buf (Elt F) (((Memref.whole main_v2_0_scv).slice (Rect.unit (s := S256) (k0_off20 L) S16.size (k0_off20_inb L))
      (fun _ => rfl)).view.loc (V d (cV L) (jV L))))
    (f4 : Buf (Elt F) ((Memref.whole cc0_scratch4).view.loc (V d (cV L) (jV L)))) (a : Acc4 F)
    (ha : a = tileFold X Y (128 * (L 1).val + 128 * (L 0).val) 16) :
    (((Memref.whole main_v2_0_scv).slice (Rect.unit (s := S256) (k0_off20 L) S16.size (k0_off20_inb L))
        (fun _ => rfl)).view.loc (V d (cV L) (jV L))
      ↦[((Memref.whole main_v2_0_scv).slice (Rect.unit (s := S256) (k0_off20 L) S16.size (k0_off20_inb L))
        (fun _ => rfl)).view.set]{fullShare}
      ((Memref.whole main_v2_0_scv).slice (Rect.unit (s := S256) (k0_off20 L) S16.size (k0_off20_inb L))
          (fun _ => rfl)).view.writes (Elt F) fs
        [⟨Rect.whole S16, ReadAs.same.apply (View.read (Elt F) (Memref.whole cc0_scratch4).view
          ((Memref.whole cc0_scratch4).view.writes (Elt F) f4
            [⟨Rect.unit (s := S16) ![0] S16.size inb_S16_S16_0, k0_pay10 a.1 a.2.1⟩]))⟩] : sProp 𝕄)
      = (sLoc d ↦[laneSet (Fin.cast (rfl : grid0.bound 1 = 16) (L 1))]{fullShare} scS X Y) := by
  refine (pointsTo_congr fun i hi => out_s_pure X Y fs f4 a L ha i hi).trans ?_
  rw [set_out_s L]

/-- The tile's count copy-out leaves its sixteen entries of the array of counts as the specification says. -/
theorem out_c_eq (X Y : S16384x2048.Idx → F .f32)
    (fs : Buf (Elt F) (((Memref.whole main_v2_1_scv).slice (Rect.unit (s := S256) (k0_off20 L) S16.size (k0_off20_inb L))
      (fun _ => rfl)).view.loc (V d (cV L) (jV L))))
    (f5 : Buf (Elt F) ((Memref.whole cc0_scratch5).view.loc (V d (cV L) (jV L)))) (a : Acc4 F)
    (ha : a = tileFold X Y (128 * (L 1).val + 128 * (L 0).val) 16) :
    (((Memref.whole main_v2_1_scv).slice (Rect.unit (s := S256) (k0_off20 L) S16.size (k0_off20_inb L))
        (fun _ => rfl)).view.loc (V d (cV L) (jV L))
      ↦[((Memref.whole main_v2_1_scv).slice (Rect.unit (s := S256) (k0_off20 L) S16.size (k0_off20_inb L))
        (fun _ => rfl)).view.set]{fullShare}
      ((Memref.whole main_v2_1_scv).slice (Rect.unit (s := S256) (k0_off20 L) S16.size (k0_off20_inb L))
          (fun _ => rfl)).view.writes (Elt F) fs
        [⟨Rect.whole S16, ReadAs.same.apply (View.read (Elt F) (Memref.whole cc0_scratch5).view
          ((Memref.whole cc0_scratch5).view.writes (Elt F) f5
            [⟨Rect.unit (s := S16) ![0] S16.size inb_S16_S16_0, k0_pay11 a.2.2.1 a.2.2.2⟩]))⟩] : sProp 𝕄)
      = (cLoc d ↦[laneSet (Fin.cast (rfl : grid0.bound 1 = 16) (L 1))]{fullShare} scC X Y) := by
  refine (pointsTo_congr fun i hi => out_c_pure X Y fs f5 a L ha i hi).trans ?_
  rw [set_out_c L]

end Cert.Proof.KI

end
-- ==== Proof.KITile.lean ====
/-
  One vector subcore's task. The tile streams its 128 rows of the two big arrays through two slots of eight rows each (slot 0's next
  chunk in flight while slot 1's is summed, one semaphore per slot and array), accumulating per lane the squared differences and the
  counts in four carried vectors; the carried values are the generic fold `tileFold` of the rows read so far, and the two sixteen-lane
  results leave through the tile's own lanes of the [256] arrays.
-/
import proofs.«210622_g27255862460721_cont_9to1_1214_20_alg».proof.Proof.KISplit
import proofs.«210622_g27255862460721_cont_9to1_1214_20_alg».proof.Proof.TileIndex
import proofs.«210622_g27255862460721_cont_9to1_1214_20_alg».proof.Proof.TilePure
import proofs.«210622_g27255862460721_cont_9to1_1214_20_alg».proof.Proof.TileCopyOutEq

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Cert.Proof.TileSpec (Acc4 rowFold chunkFold tileFold rowsOf init4 outS outC trip8 ld scS scC)

abbrev xW : Memref sig .scVector .hbm S16384x2048 .f32 := Memref.whole main_v0_scv
abbrev tW : Memref sig .scVector .hbm S16384x2048 .f32 := Memref.whole main_v1_scv
abbrev sW : Memref sig .scVector .hbm S256 .f32 := Memref.whole main_v2_0_scv
abbrev cW : Memref sig .scVector .hbm S256 .f32 := Memref.whole main_v2_1_scv
abbrev b0 : Memref sig .scVector .vmem S8x2048 .f32 := Memref.whole cc0_scratch0
abbrev b1 : Memref sig .scVector .vmem S8x2048 .f32 := Memref.whole cc0_scratch1
abbrev b2 : Memref sig .scVector .vmem S8x2048 .f32 := Memref.whole cc0_scratch2
abbrev b3 : Memref sig .scVector .vmem S8x2048 .f32 := Memref.whole cc0_scratch3
abbrev b4 : Memref sig .scVector .vmem S16 .f32 := Memref.whole cc0_scratch4
abbrev b5 : Memref sig .scVector .vmem S16 .f32 := Memref.whole cc0_scratch5

abbrev sOut (L : grid0.Coords) : Memref sig .scVector .hbm S16 .f32 := sW.slice (Rect.unit (s := S256) (k0_off20 L) S16.size (k0_off20_inb L)) (fun _ => rfl)
abbrev cOut (L : grid0.Coords) : Memref sig .scVector .hbm S16 .f32 := cW.slice (Rect.unit (s := S256) (k0_off20 L) S16.size (k0_off20_inb L)) (fun _ => rfl)

variable (d : Dev nD) (L : grid0.Coords)

abbrev chunkX (off : Fin 2 → ℕ) (h : ∀ a, off a + S8x2048.size a ≤ S16384x2048.size a) : Memref sig .scVector .hbm S8x2048 .f32 :=
  xW.slice (Rect.unit (s := S16384x2048) off S8x2048.size h) (fun _ => rfl)
abbrev chunkT (off : Fin 2 → ℕ) (h : ∀ a, off a + S8x2048.size a ≤ S16384x2048.size a) : Memref sig .scVector .hbm S8x2048 .f32 :=
  tW.slice (Rect.unit (s := S16384x2048) off S8x2048.size h) (fun _ => rfl)

abbrev base (L : grid0.Coords) : ℕ := 128 * (L 1).val + 128 * (L 0).val

/-- A row chunk of the array in flight into a slot buffer on the slot's semaphore: the landed buffer — rows n..n+8 of the array —
    and the lent rows inside the flight, the rest of the read token beside it. -/
def inFlightX (sem : DmaSem sig) (q : PosShare TreeShare) (A : Buf (Elt F) ((xW).view.loc (thr d L))) (n : ℕ) : sProp 𝕄 :=
  iprop(∃ (off : Fin 2 → ℕ) (h : ∀ a, off a + S8x2048.size a ≤ S16384x2048.size a) (g : Buf (Elt F) ((b0).view.loc (thr d L))),
    ⌜g = rowsOf (F := F) A n⌝ ∗
    Transfers.Flight (countersEmb (U := UU)) (thr d L) (SemLoc.dma sem) (default : HIx 1) 524288
        iprop(((b0).view.loc (thr d L) ↦{fullShare} g)
          ∗ ((xW).view.loc (thr d L) ↦[((xW).slice (Rect.unit (s := S16384x2048) off S8x2048.size h) (fun _ => rfl)).view.set]{q} A))
      ∗ ((xW).view.loc (thr d L) ↦[Finset.univ \ ((xW).slice (Rect.unit (s := S16384x2048) off S8x2048.size h) (fun _ => rfl)).view.set]{q} A))

/-- A row chunk of the array in flight into a slot buffer on the slot's semaphore: the landed buffer — rows n..n+8 of the array —
    and the lent rows inside the flight, the rest of the read token beside it. -/
def inFlightT (sem : DmaSem sig) (q : PosShare TreeShare) (A : Buf (Elt F) ((tW).view.loc (thr d L))) (n : ℕ) : sProp 𝕄 :=
  iprop(∃ (off : Fin 2 → ℕ) (h : ∀ a, off a + S8x2048.size a ≤ S16384x2048.size a) (g : Buf (Elt F) ((b2).view.loc (thr d L))),
    ⌜g = rowsOf (F := F) A n⌝ ∗
    Transfers.Flight (countersEmb (U := UU)) (thr d L) (SemLoc.dma sem) (default : HIx 1) 524288
        iprop(((b2).view.loc (thr d L) ↦{fullShare} g)
          ∗ ((tW).view.loc (thr d L) ↦[((tW).slice (Rect.unit (s := S16384x2048) off S8x2048.size h) (fun _ => rfl)).view.set]{q} A))
      ∗ ((tW).view.loc (thr d L) ↦[Finset.univ \ ((tW).slice (Rect.unit (s := S16384x2048) off S8x2048.size h) (fun _ => rfl)).view.set]{q} A))

/-- A slot at rest: the read token whole, the buffer at some contents, the semaphore's counter at zero. -/
def atRest (sem : DmaSem sig) (src : Memref sig .scVector .hbm S16384x2048 .f32) (dst : Memref sig .scVector .vmem S8x2048 .f32)
    (q : PosShare TreeShare) (A : Buf (Elt F) (src.view.loc (thr d L))) : sProp 𝕄 :=
  iprop((src.view.loc (thr d L) ↦{q} A) ∗ (∃ g, dst.view.loc (thr d L) ↦{fullShare} g) ∗ semVal (thr d L, SemLoc.dma sem) 0)

/-- A row loop's invariant: the two slot buffers it reads, whole at their contents, and the carried sums so far. -/
def invI0 (gA : Buf (Elt F) ((b0).view.loc (thr d L))) (gB : Buf (Elt F) ((b2).view.loc (thr d L)))
    (r : Fin 8) (a : Acc4 F) (j : ℕ) (acc : Acc4 F) : sProp 𝕄 :=
  iprop(((b0).view.loc (thr d L) ↦{fullShare} gA) ∗ ((b2).view.loc (thr d L) ↦{fullShare} gB) ∗ ⌜acc = rowFold gA gB r j a⌝)

/-- A row loop's invariant: the two slot buffers it reads, whole at their contents, and the carried sums so far. -/
def invI1 (gA : Buf (Elt F) ((b1).view.loc (thr d L))) (gB : Buf (Elt F) ((b3).view.loc (thr d L)))
    (r : Fin 8) (a : Acc4 F) (j : ℕ) (acc : Acc4 F) : sProp 𝕄 :=
  iprop(((b1).view.loc (thr d L) ↦{fullShare} gA) ∗ ((b3).view.loc (thr d L) ↦{fullShare} gB) ∗ ⌜acc = rowFold gA gB r j a⌝)

omit [FloatOps F] in
theorem pts_ex {ℓ : Loc nD τ sig} {q : PosShare TreeShare} (f : Buf (Elt F) ℓ) : (ℓ ↦{q} f : sProp 𝕄) ⊢ iprop(∃ g, ℓ ↦{q} g) := by
  iintro H; iexists f; iexact H

omit [FloatOps F] in
theorem pts_gset_pos {ℓ : Loc nD τ sig} {C : Prop} [Decidable C] {R : C → Finset (Idx ℓ)} (hc : C) {q : PosShare TreeShare} {f : Buf (Elt F) ℓ} :
    (ℓ ↦[Finset.univ \ gset C R]{q} f : sProp 𝕄) ⊢ (ℓ ↦[Finset.univ \ R hc]{q} f) := by
  rw [gset.pos hc]
omit [FloatOps F] in
theorem pts_gset_neg {ℓ : Loc nD τ sig} {C : Prop} [Decidable C] {R : C → Finset (Idx ℓ)} (hn : ¬ C) {q : PosShare TreeShare} {f : Buf (Elt F) ℓ} :
    (ℓ ↦[Finset.univ \ gset C R]{q} f : sProp 𝕄) ⊢ (ℓ ↦{q} f) := by
  rw [gset.neg hn, Finset.sdiff_empty]

def invO (q : PosShare TreeShare) (O : CellTallies nD τ sig (HIx 1)) (W : Waits sig (HIx 1))
    (X : Buf (Elt F) ((xW).view.loc (thr d L))) (Tt : Buf (Elt F) ((tW).view.loc (thr d L))) (k : ℕ) (acc : Acc4 F) : sProp 𝕄 :=
  iprop(Transfers.MayWaits (thr d L) (none : HIx 1) O
    ∗ atRest d L cc0_scratch7.sem xW b1 (Transfers.shareTokN q 1) X
    ∗ atRest d L cc0_scratch9.sem tW b3 (Transfers.shareTokN q 3) Tt
    ∗ (∃ f, (sOut L).view.loc (thr d L) ↦[(sOut L).view.set]{fullShare} f)
    ∗ (∃ f, (cOut L).view.loc (thr d L) ↦[(cOut L).view.set]{fullShare} f)
    ∗ (∃ f, (b4).view.loc (thr d L) ↦{fullShare} f) ∗ (∃ f, (b5).view.loc (thr d L) ↦{fullShare} f)
    ∗ semVal (thr d L, SemLoc.dma cc0_scoped0.sem) 0 ∗ semVal (thr d L, SemLoc.dma cc0_scoped1.sem) 0
    ∗ (∃ W', ⌜∀ p ∈ W', p ∈ W ∨ p.2 = none⌝ ∗ owes (thr d L) O W')
    ∗ ⌜acc = tileFold X Tt (base L) (2 * k)⌝
    ∗ (if k < 8 then iprop(inFlightX d L cc0_scratch6.sem (Transfers.shareTokN q 0) X (base L + 16 * k) ∗ inFlightT d L cc0_scratch8.sem (Transfers.shareTokN q 2) Tt (base L + 16 * k))
       else iprop(atRest d L cc0_scratch6.sem xW b0 (Transfers.shareTokN q 0) X ∗ atRest d L cc0_scratch8.sem tW b2 (Transfers.shareTokN q 2) Tt)))

omit [FloatOps F] in
theorem cond1_iff : ∀ k : Fin k0_t1_loop.trips, k0_cond1 k = 1#1 ↔ k.val + 1 < 8 := by decide +kernel

/-! ## The tile's view of its arrays is the TensorCore's -/

omit [FloatOps F] in
theorem bound_one : grid0.bound 1 = 16 := rfl
abbrev jL (L : grid0.Coords) : Fin 16 := Fin.cast bound_one (L 1)

omit [FloatOps F] in
theorem pts_xW (q : PosShare TreeShare) (f : Buf (Elt F) (xLoc d)) :
    ((xW).view.loc (thr d L) ↦{q} f : sProp 𝕄) = xLoc d ↦{q} f := by
  simp only [Memref.view_whole, View.set_whole]
omit [FloatOps F] in
theorem pts_tW (q : PosShare TreeShare) (f : Buf (Elt F) (tLoc d)) :
    ((tW).view.loc (thr d L) ↦{q} f : sProp 𝕄) = tLoc d ↦{q} f := by
  simp only [Memref.view_whole, View.set_whole]

omit [FloatOps F] in
theorem set_sOut : (sOut L).view.set = laneSet (jL L) := set_out_s L
omit [FloatOps F] in
theorem set_cOut : (cOut L).view.set = laneSet (jL L) := set_out_c L
omit [FloatOps F] in
theorem pts_sOut (f : Buf (Elt F) (sLoc d)) :
    ((sOut L).view.loc (thr d L) ↦[(sOut L).view.set]{fullShare} f : sProp 𝕄) = sLoc d ↦[laneSet (jL L)]{fullShare} f := by
  rw [set_sOut]
omit [FloatOps F] in
theorem pts_cOut (f : Buf (Elt F) (cLoc d)) :
    ((cOut L).view.loc (thr d L) ↦[(cOut L).view.set]{fullShare} f : sProp 𝕄) = cLoc d ↦[laneSet (jL L)]{fullShare} f := by
  rw [set_cOut]

theorem tile_core (q : PosShare TreeShare) (O : CellTallies nD τ sig (HIx 1)) (W : Waits sig (HIx 1))
    (X : Buf (Elt F) ((xW).view.loc (thr d L))) (Tt : Buf (Elt F) ((tW).view.loc (thr d L))) :
    (iprop(Transfers.MayWaits (thr d L) (none : HIx 1) O
        ∗ ((xW).view.loc (thr d L) ↦{Transfers.shareTokN q 0} X) ∗ ((xW).view.loc (thr d L) ↦{Transfers.shareTokN q 1} X)
        ∗ ((tW).view.loc (thr d L) ↦{Transfers.shareTokN q 2} Tt) ∗ ((tW).view.loc (thr d L) ↦{Transfers.shareTokN q 3} Tt)
        ∗ (∃ f, (sOut L).view.loc (thr d L) ↦[(sOut L).view.set]{fullShare} f)
        ∗ (∃ f, (cOut L).view.loc (thr d L) ↦[(cOut L).view.set]{fullShare} f)
        ∗ (∃ f, (b0).view.loc (thr d L) ↦{fullShare} f) ∗ (∃ f, (b1).view.loc (thr d L) ↦{fullShare} f)
        ∗ (∃ f, (b2).view.loc (thr d L) ↦{fullShare} f) ∗ (∃ f, (b3).view.loc (thr d L) ↦{fullShare} f)
        ∗ (∃ f, (b4).view.loc (thr d L) ↦{fullShare} f) ∗ (∃ f, (b5).view.loc (thr d L) ↦{fullShare} f)
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scoped0.sem) 0 ∗ semVal (thr d L, SemLoc.dma cc0_scoped1.sem) 0
        ∗ owes (thr d L) O W) : sProp 𝕄)
      ⊢ wp frame (wpE (defs₀ (F := F)) 𝒱₀ (thr d L) none) Set.univ
          (cc0_body L xW (Memref.isWhole_whole _) tW (Memref.isWhole_whole _) sW (Memref.isWhole_whole _) cW (Memref.isWhole_whole _)
            b0 (Memref.isWhole_whole _) b1 (Memref.isWhole_whole _) b2 (Memref.isWhole_whole _) b3 (Memref.isWhole_whole _)
            b4 (Memref.isWhole_whole _) b5 (Memref.isWhole_whole _) cc0_scratch6 cc0_scratch7 cc0_scratch8 cc0_scratch9 cc0_scoped0 cc0_scoped1)
          fun _ => iprop(((xW).view.loc (thr d L) ↦{Transfers.shareTokN q 0} X) ∗ ((xW).view.loc (thr d L) ↦{Transfers.shareTokN q 1} X)
            ∗ ((tW).view.loc (thr d L) ↦{Transfers.shareTokN q 2} Tt) ∗ ((tW).view.loc (thr d L) ↦{Transfers.shareTokN q 3} Tt)
            ∗ (sLoc d ↦[laneSet (jL L)]{fullShare} scS X Tt)
            ∗ (cLoc d ↦[laneSet (jL L)]{fullShare} scC X Tt)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ (∃ f, (b4).view.loc (thr d L) ↦{fullShare} f) ∗ (∃ f, (b5).view.loc (thr d L) ↦{fullShare} f)
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  rw [cc0_body_eq_skeleton]; unfold cc0_body_skel
  iintro ⟨Hmw, Hx0, Hx1, Ht2, Ht3, ⟨%fs, Hos⟩, ⟨%fc, Hoc⟩, ⟨%f0, Hb0⟩, ⟨%f1, Hb1⟩, ⟨%f2, Hb2⟩, ⟨%f3, Hb3⟩, ⟨%f4, Hb4⟩, ⟨%f5, Hb5⟩,
    Hs6, Hs7, Hs8, Hs9, Hc0, Hc1, HO⟩
  sl_exec (disch := exact View.amount_pos _ _ (show 0 < S8x2048.numel by decide))
  sl_for (invO d L q O W X Tt) $$ [Hmw Hx1 Ht3 Hos Hoc Hb1 Hb3 Hb4 Hb5 Hs7 Hs9 Hc0 Hc1 HO Hs6 Hx0 Hs8 Ht2]
  case region =>
    intro k acc
    unfold invO
    rw [if_pos (show k.val < 8 from lt_of_lt_of_le k.isLt k0_t1_abs.2.1)]
    unfold inFlightX inFlightT atRest
    iintro ⟨Hmw, ⟨Hx1, ⟨%g1, Hb1⟩, Hs7⟩, ⟨Ht3, ⟨%g3, Hb3⟩, Hs9⟩, ⟨%fs, Hos⟩, ⟨%fc, Hoc⟩, ⟨%f4, Hb4⟩, ⟨%f5, Hb5⟩, Hc0, Hc1, ⟨%W', %hW', HO⟩, %hacc,
      ⟨%offx, %hx, %g0, %hg0, HF0, Hx0⟩, ⟨%offt, %ht, %g2, %hg2, HF2, Ht2⟩⟩
    sl_exec (disch := exact View.amount_pos _ _ (show 0 < S8x2048.numel by decide))
    sl_for (invI0 d L g0 g2 ⟨0, by decide⟩ acc) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t2 _ _ j acc'
    · unfold invI0; isplitl [HF0_dst]; · iexact HF0_dst
      isplitl [HF2_dst]; · iexact HF2_dst
      ipureintro; rfl
    iintro %acc2 HI
    unfold invI0
    icases HI with ⟨HF0_dst, HF2_dst, %h2⟩
    sl_exec (disch := exact View.amount_pos _ _ (show 0 < S8x2048.numel by decide))
    sl_for (invI0 d L g0 g2 ⟨1, by decide⟩ acc2) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t3 _ _ j acc'
    · unfold invI0; isplitl [HF0_dst]; · iexact HF0_dst
      isplitl [HF2_dst]; · iexact HF2_dst
      ipureintro; rfl
    iintro %acc3 HI
    unfold invI0
    icases HI with ⟨HF0_dst, HF2_dst, %h3⟩
    sl_exec (disch := exact View.amount_pos _ _ (show 0 < S8x2048.numel by decide))
    sl_for (invI0 d L g0 g2 ⟨2, by decide⟩ acc3) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t4 _ _ j acc'
    · unfold invI0; isplitl [HF0_dst]; · iexact HF0_dst
      isplitl [HF2_dst]; · iexact HF2_dst
      ipureintro; rfl
    iintro %acc4 HI
    unfold invI0
    icases HI with ⟨HF0_dst, HF2_dst, %h4⟩
    sl_exec (disch := exact View.amount_pos _ _ (show 0 < S8x2048.numel by decide))
    sl_for (invI0 d L g0 g2 ⟨3, by decide⟩ acc4) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t5 _ _ j acc'
    · unfold invI0; isplitl [HF0_dst]; · iexact HF0_dst
      isplitl [HF2_dst]; · iexact HF2_dst
      ipureintro; rfl
    iintro %acc5 HI
    unfold invI0
    icases HI with ⟨HF0_dst, HF2_dst, %h5⟩
    sl_exec (disch := exact View.amount_pos _ _ (show 0 < S8x2048.numel by decide))
    sl_for (invI0 d L g0 g2 ⟨4, by decide⟩ acc5) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t6 _ _ j acc'
    · unfold invI0; isplitl [HF0_dst]; · iexact HF0_dst
      isplitl [HF2_dst]; · iexact HF2_dst
      ipureintro; rfl
    iintro %acc6 HI
    unfold invI0
    icases HI with ⟨HF0_dst, HF2_dst, %h6⟩
    sl_exec (disch := exact View.amount_pos _ _ (show 0 < S8x2048.numel by decide))
    sl_for (invI0 d L g0 g2 ⟨5, by decide⟩ acc6) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t7 _ _ j acc'
    · unfold invI0; isplitl [HF0_dst]; · iexact HF0_dst
      isplitl [HF2_dst]; · iexact HF2_dst
      ipureintro; rfl
    iintro %acc7 HI
    unfold invI0
    icases HI with ⟨HF0_dst, HF2_dst, %h7⟩
    sl_exec (disch := exact View.amount_pos _ _ (show 0 < S8x2048.numel by decide))
    sl_for (invI0 d L g0 g2 ⟨6, by decide⟩ acc7) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t8 _ _ j acc'
    · unfold invI0; isplitl [HF0_dst]; · iexact HF0_dst
      isplitl [HF2_dst]; · iexact HF2_dst
      ipureintro; rfl
    iintro %acc8 HI
    unfold invI0
    icases HI with ⟨HF0_dst, HF2_dst, %h8⟩
    sl_exec (disch := exact View.amount_pos _ _ (show 0 < S8x2048.numel by decide))
    sl_for (invI0 d L g0 g2 ⟨7, by decide⟩ acc8) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t9 _ _ j acc'
    · unfold invI0; isplitl [HF0_dst]; · iexact HF0_dst
      isplitl [HF2_dst]; · iexact HF2_dst
      ipureintro; rfl
    iintro %acc9 HI
    unfold invI0
    icases HI with ⟨HF0_dst, HF2_dst, %h9⟩
    sl_exec (disch := exact View.amount_pos _ _ (show 0 < S8x2048.numel by decide))
    unfold tile_core.sl.dma0_2 tile_core.sl.dma0_3
    ihave Hb1e := (Entails.of_eq (congrArg (fun f => ((b1).view.loc (thr d L) ↦{fullShare} f : sProp 𝕄)) (chunk_eq_x1 d L X g1 _ (k0_off2_inb L k) (base L + 16 * k.val + 8) (k0_off2_eq L k)))) $$ Hb1
    ihave Hb3e := (Entails.of_eq (congrArg (fun f => ((b3).view.loc (thr d L) ↦{fullShare} f : sProp 𝕄)) (chunk_eq_t1 d L Tt g3 _ (k0_off2_inb L k) (base L + 16 * k.val + 8) (k0_off2_eq L k)))) $$ Hb3
    sl_for (invI1 d L (rowsOf (F := F) X (base L + 16 * k.val + 8)) (rowsOf (F := F) Tt (base L + 16 * k.val + 8)) ⟨0, by decide⟩ acc9) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t10 _ _ j acc'
    · unfold invI1; isplitl [Hb1e]; · iexact Hb1e
      isplitl [Hb3e]; · iexact Hb3e
      ipureintro; rfl
    iintro %acc10 HI
    unfold invI1
    icases HI with ⟨Hb1e, Hb3e, %h10⟩
    sl_exec (disch := exact View.amount_pos _ _ (show 0 < S8x2048.numel by decide))
    sl_for (invI1 d L (rowsOf (F := F) X (base L + 16 * k.val + 8)) (rowsOf (F := F) Tt (base L + 16 * k.val + 8)) ⟨1, by decide⟩ acc10) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t11 _ _ j acc'
    · unfold invI1; isplitl [Hb1e]; · iexact Hb1e
      isplitl [Hb3e]; · iexact Hb3e
      ipureintro; rfl
    iintro %acc11 HI
    unfold invI1
    icases HI with ⟨Hb1e, Hb3e, %h11⟩
    sl_exec (disch := exact View.amount_pos _ _ (show 0 < S8x2048.numel by decide))
    sl_for (invI1 d L (rowsOf (F := F) X (base L + 16 * k.val + 8)) (rowsOf (F := F) Tt (base L + 16 * k.val + 8)) ⟨2, by decide⟩ acc11) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t12 _ _ j acc'
    · unfold invI1; isplitl [Hb1e]; · iexact Hb1e
      isplitl [Hb3e]; · iexact Hb3e
      ipureintro; rfl
    iintro %acc12 HI
    unfold invI1
    icases HI with ⟨Hb1e, Hb3e, %h12⟩
    sl_exec (disch := exact View.amount_pos _ _ (show 0 < S8x2048.numel by decide))
    sl_for (invI1 d L (rowsOf (F := F) X (base L + 16 * k.val + 8)) (rowsOf (F := F) Tt (base L + 16 * k.val + 8)) ⟨3, by decide⟩ acc12) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t13 _ _ j acc'
    · unfold invI1; isplitl [Hb1e]; · iexact Hb1e
      isplitl [Hb3e]; · iexact Hb3e
      ipureintro; rfl
    iintro %acc13 HI
    unfold invI1
    icases HI with ⟨Hb1e, Hb3e, %h13⟩
    sl_exec (disch := exact View.amount_pos _ _ (show 0 < S8x2048.numel by decide))
    sl_for (invI1 d L (rowsOf (F := F) X (base L + 16 * k.val + 8)) (rowsOf (F := F) Tt (base L + 16 * k.val + 8)) ⟨4, by decide⟩ acc13) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t14 _ _ j acc'
    · unfold invI1; isplitl [Hb1e]; · iexact Hb1e
      isplitl [Hb3e]; · iexact Hb3e
      ipureintro; rfl
    iintro %acc14 HI
    unfold invI1
    icases HI with ⟨Hb1e, Hb3e, %h14⟩
    sl_exec (disch := exact View.amount_pos _ _ (show 0 < S8x2048.numel by decide))
    sl_for (invI1 d L (rowsOf (F := F) X (base L + 16 * k.val + 8)) (rowsOf (F := F) Tt (base L + 16 * k.val + 8)) ⟨5, by decide⟩ acc14) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t15 _ _ j acc'
    · unfold invI1; isplitl [Hb1e]; · iexact Hb1e
      isplitl [Hb3e]; · iexact Hb3e
      ipureintro; rfl
    iintro %acc15 HI
    unfold invI1
    icases HI with ⟨Hb1e, Hb3e, %h15⟩
    sl_exec (disch := exact View.amount_pos _ _ (show 0 < S8x2048.numel by decide))
    sl_for (invI1 d L (rowsOf (F := F) X (base L + 16 * k.val + 8)) (rowsOf (F := F) Tt (base L + 16 * k.val + 8)) ⟨6, by decide⟩ acc15) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t16 _ _ j acc'
    · unfold invI1; isplitl [Hb1e]; · iexact Hb1e
      isplitl [Hb3e]; · iexact Hb3e
      ipureintro; rfl
    iintro %acc16 HI
    unfold invI1
    icases HI with ⟨Hb1e, Hb3e, %h16⟩
    sl_exec (disch := exact View.amount_pos _ _ (show 0 < S8x2048.numel by decide))
    sl_for (invI1 d L (rowsOf (F := F) X (base L + 16 * k.val + 8)) (rowsOf (F := F) Tt (base L + 16 * k.val + 8)) ⟨7, by decide⟩ acc16) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t17 _ _ j acc'
    · unfold invI1; isplitl [Hb1e]; · iexact Hb1e
      isplitl [Hb3e]; · iexact Hb3e
      ipureintro; rfl
    iintro %acc17 HI
    unfold invI1
    icases HI with ⟨Hb1e, Hb3e, %h17⟩
    sl_exec (disch := exact View.amount_pos _ _ (show 0 < S8x2048.numel by decide))
    sl_step
    isplitl [Hmw]; · iexact Hmw
    isplitl [Hx1 Hb1e Hs7]
    · isplitl [Hx1]; · iexact Hx1
      isplitl [Hb1e]; · iexists _; iexact Hb1e
      iexact Hs7
    isplitl [Ht3 Hb3e Hs9]
    · isplitl [Ht3]; · iexact Ht3
      isplitl [Hb3e]; · iexists _; iexact Hb3e
      iexact Hs9
    isplitl [Hos]; · iexists _; iexact Hos
    isplitl [Hoc]; · iexists _; iexact Hoc
    isplitl [Hb4]; · iexists _; iexact Hb4
    isplitl [Hb5]; · iexists _; iexact Hb5
    isplitl [Hc0]; · iexact Hc0
    isplitl [Hc1]; · iexact Hc1
    isplitl [HO]
    · iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        rcases Finset.mem_insert.mp hp with hp | hp
        · exact .inr (hp ▸ rfl)
        rcases Finset.mem_insert.mp hp with hp | hp
        · exact .inr (hp ▸ rfl)
        exact hW' p hp
    isplitr
    · -- the sums after both chunks of the pair
      ipureintro
      have t2 : Scf.trips k0_t2_loop.lb k0_t2_loop.ub k0_t2_loop.st = 16 := by decide
      have t3 : Scf.trips k0_t3_loop.lb k0_t3_loop.ub k0_t3_loop.st = 16 := by decide
      have t4 : Scf.trips k0_t4_loop.lb k0_t4_loop.ub k0_t4_loop.st = 16 := by decide
      have t5 : Scf.trips k0_t5_loop.lb k0_t5_loop.ub k0_t5_loop.st = 16 := by decide
      have t6 : Scf.trips k0_t6_loop.lb k0_t6_loop.ub k0_t6_loop.st = 16 := by decide
      have t7 : Scf.trips k0_t7_loop.lb k0_t7_loop.ub k0_t7_loop.st = 16 := by decide
      have t8 : Scf.trips k0_t8_loop.lb k0_t8_loop.ub k0_t8_loop.st = 16 := by decide
      have t9 : Scf.trips k0_t9_loop.lb k0_t9_loop.ub k0_t9_loop.st = 16 := by decide
      have t10 : Scf.trips k0_t10_loop.lb k0_t10_loop.ub k0_t10_loop.st = 16 := by decide
      have t11 : Scf.trips k0_t11_loop.lb k0_t11_loop.ub k0_t11_loop.st = 16 := by decide
      have t12 : Scf.trips k0_t12_loop.lb k0_t12_loop.ub k0_t12_loop.st = 16 := by decide
      have t13 : Scf.trips k0_t13_loop.lb k0_t13_loop.ub k0_t13_loop.st = 16 := by decide
      have t14 : Scf.trips k0_t14_loop.lb k0_t14_loop.ub k0_t14_loop.st = 16 := by decide
      have t15 : Scf.trips k0_t15_loop.lb k0_t15_loop.ub k0_t15_loop.st = 16 := by decide
      have t16 : Scf.trips k0_t16_loop.lb k0_t16_loop.ub k0_t16_loop.st = 16 := by decide
      have t17 : Scf.trips k0_t17_loop.lb k0_t17_loop.ub k0_t17_loop.st = 16 := by decide
      rw [t2] at h2
      rw [t3] at h3
      rw [t4] at h4
      rw [t5] at h5
      rw [t6] at h6
      rw [t7] at h7
      rw [t8] at h8
      rw [t9] at h9
      rw [t10] at h10
      rw [t11] at h11
      rw [t12] at h12
      rw [t13] at h13
      rw [t14] at h14
      rw [t15] at h15
      rw [t16] at h16
      rw [t17] at h17
      have e1 : base L + 8 * (2 * k.val) = base L + 16 * k.val := by omega
      have e2 : base L + 8 * (2 * k.val + 1) = base L + 16 * k.val + 8 := by omega
      rw [show 2 * (k.val + 1) = 2 * k.val + 1 + 1 by omega, tileFold, tileFold, e1, e2, ← hacc]
      subst hg0 hg2
      unfold chunkFold
      rw [h17, h16, h15, h14, h13, h12, h11, h10, h9, h8, h7, h6, h5, h4, h3, h2]
      rfl
    by_cases hc : k0_cond1 k = 1#1
    · rw [if_pos ((cond1_iff k).mp hc)]
      ihave if1' := (Guarded.elim_pos hc) $$ if1
      icases if1' with ⟨HFa, HFb⟩
      ihave Hx0' := (pts_gset_pos (F := F) hc) $$ Hx0
      ihave Ht2' := (pts_gset_pos (F := F) hc) $$ Ht2
      unfold tile_core.sl.dma0_4 tile_core.sl.dma0_5
      isplitl [HFa Hx0']
      · iexists _, (k0_off11_inb L k hc), _; isplitr
        swap
        · isplitl [HFa]; · iexact HFa
          iexact Hx0'
        · ipureintro
          exact (chunk_eq_x0 d L X _ _ (k0_off11_inb L k hc) (base L + 16 * (k.val + 1)) ((k0_off11_eq L k).trans (by first | rfl | congr 1)))
      · iexists _, (k0_off11_inb L k hc), _; isplitr
        swap
        · isplitl [HFb]; · iexact HFb
          iexact Ht2'
        · ipureintro
          exact (chunk_eq_t0 d L Tt _ _ (k0_off11_inb L k hc) (base L + 16 * (k.val + 1)) ((k0_off11_eq L k).trans (by first | rfl | congr 1)))
    · rw [if_neg (fun h => hc ((cond1_iff k).mpr h))]
      ihave if1' := (Guarded.elim_neg hc) $$ if1
      icases if1' with ⟨Hs6, Hs8, Hb0, Hb2⟩
      ihave Hx0' := (pts_gset_neg (F := F) hc) $$ Hx0
      ihave Ht2' := (pts_gset_neg (F := F) hc) $$ Ht2
      isplitl [Hx0' Hb0 Hs6]
      · isplitl [Hx0']; · iexact Hx0'
        isplitl [Hb0]; · iexists _; iexact Hb0
        iexact Hs6
      · isplitl [Ht2']; · iexact Ht2'
        isplitl [Hb2]; · iexists _; iexact Hb2
        iexact Hs8
  · -- the invariant before the first pair: slot 0's two copies in flight, nothing summed yet
    unfold invO inFlightX inFlightT atRest
    rw [if_pos (by decide : (0 : ℕ) < 8)]
    unfold tile_core.sl.dma0 tile_core.sl.dma0_1
    isplitl [Hmw]; · iexact Hmw
    isplitl [Hx1 Hb1 Hs7]
    · isplitl [Hx1]; · iexact Hx1
      isplitl [Hb1]; · iexists _; iexact Hb1
      iexact Hs7
    isplitl [Ht3 Hb3 Hs9]
    · isplitl [Ht3]; · iexact Ht3
      isplitl [Hb3]; · iexists _; iexact Hb3
      iexact Hs9
    isplitl [Hos]; · iexists _; iexact Hos
    isplitl [Hoc]; · iexists _; iexact Hoc
    isplitl [Hb4]; · iexists _; iexact Hb4
    isplitl [Hb5]; · iexists _; iexact Hb5
    isplitl [Hc0]; · iexact Hc0
    isplitl [Hc1]; · iexact Hc1
    isplitl [HO]
    · iexists W; isplitr
      · ipureintro; exact fun p hp => .inl hp
      · iexact HO
    isplitr
    · ipureintro; rfl
    isplitl [Hs6 Hx0]
    · iexists _, (k0_off1_inb L), _; isplitr
      swap
      · isplitl [Hs6]; · iexact Hs6
        iexact Hx0
      · ipureintro
        exact (chunk_eq_x0 d L X _ _ (k0_off1_inb L) (base L + 16 * 0) ((k0_off1_eq L).trans (by first | rfl | congr 1)))
    · iexists _, (k0_off1_inb L), _; isplitr
      swap
      · isplitl [Hs8]; · iexact Hs8
        iexact Ht2
      · ipureintro
        exact (chunk_eq_t0 d L Tt _ _ (k0_off1_inb L) (base L + 16 * 0) ((k0_off1_eq L).trans (by first | rfl | congr 1)))
  iintro %accF HI
  unfold invO atRest
  rw [if_neg (show ¬ Scf.trips k0_t1_loop.lb k0_t1_loop.ub k0_t1_loop.st < 8 by decide)]
  icases HI with ⟨Hmw, ⟨Hx1, ⟨%g1, Hb1⟩, Hs7⟩, ⟨Ht3, ⟨%g3, Hb3⟩, Hs9⟩, ⟨%fs', Hos⟩, ⟨%fc', Hoc⟩, ⟨%f4', Hb4⟩, ⟨%f5', Hb5⟩, Hc0, Hc1, ⟨%W', %hW', HO⟩, %haccF,
    ⟨Hx0, ⟨%g0, Hb0⟩, Hs6⟩, ⟨Ht2, ⟨%g2, Hb2⟩, Hs8⟩⟩
  have haF : accF = tileFold X Tt (base L) 16 := by
    rw [haccF]; congr 1
  sl_exec (disch := exact View.amount_pos _ _ (show 0 < S16.numel by decide))
  sl_step
  unfold tile_core.sl.dma4 tile_core.sl.dma4_1 tile_core.sl.Hb4_1 tile_core.sl.Hb5_1
  ihave Hos' := (Entails.of_eq (out_s_eq d L X Tt fs' f4' accF haF)) $$ Hos
  ihave Hoc' := (Entails.of_eq (out_c_eq d L X Tt fc' f5' accF haF)) $$ Hoc
  isplitl [Hx0]; · iexact Hx0
  isplitl [Hx1]; · iexact Hx1
  isplitl [Ht2]; · iexact Ht2
  isplitl [Ht3]; · iexact Ht3
  isplitl [Hos']; · iexact Hos'
  isplitl [Hoc']; · iexact Hoc'
  isplitl [Hb0]; · iexists _; iexact Hb0
  isplitl [Hb1]; · iexists _; iexact Hb1
  isplitl [Hb2]; · iexists _; iexact Hb2
  isplitl [Hb3]; · iexists _; iexact Hb3
  isplitl [Hb4]; · iexists _; iexact Hb4
  isplitl [Hb5]; · iexists _; iexact Hb5
  isplitl [Hs6]; · iexact Hs6
  isplitl [Hs7]; · iexact Hs7
  isplitl [Hs8]; · iexact Hs8
  isplitl [Hs9]; · iexact Hs9
  isplitl [Hc0]; · iexact Hc0
  isplitl [Hc1]; · iexact Hc1
  iexists _; isplitr
  swap
  · iexact HO
  · ipureintro; intro p hp
    rcases Finset.mem_insert.mp hp with hp | hp
    · exact .inr (hp ▸ rfl)
    rcases Finset.mem_insert.mp hp with hp | hp
    · exact .inr (hp ▸ rfl)
    exact hW' p hp

/-! ## The task, from what the launch deals a tile -/

omit [FloatOps F] in
theorem toks4 (ℓ : Loc nD τ sig) (q : PosShare TreeShare) (f : Buf (Elt F) ℓ) :
    (bigSep Finset.univ fun i : Fin 4 => (ℓ ↦{Transfers.shareTok q 4 i} f : sProp 𝕄))
      = iprop((ℓ ↦{Transfers.shareTokN q 0} f) ∗ (ℓ ↦{Transfers.shareTokN q 1} f) ∗ (ℓ ↦{Transfers.shareTokN q 2} f) ∗ (ℓ ↦{Transfers.shareTokN q 3} f)) :=
  bigSep_univ_eq_bigSepL [(0 : Fin 4), (1 : Fin 4), (2 : Fin 4), (3 : Fin 4)] (by decide) (by decide) _

theorem tile_body (X Y : Dev nD → Arr2 F) (hF : (K (F := F)).Facts) (O : CellTallies nD τ sig (HIx 1)) (W : Waits sig (HIx 1)) (hO : ∀ g, O g none = 0) :
    (iprop(levAts (K (F := F)).L (K (F := F)).lev ∗ iprop(emp) ∗ goF X Y d (jL L)
        ∗ scopedBufs (thr d L) ∗ scopedSems0 (thr d L) ∗ owes (thr d L) O W) : sProp 𝕄)
      ⊢ wp frame (wpE (defs₀ (F := F)) 𝒱₀ (thr d L) none) Set.univ
          (cc0_body L xW (Memref.isWhole_whole _) tW (Memref.isWhole_whole _) sW (Memref.isWhole_whole _) cW (Memref.isWhole_whole _)
            b0 (Memref.isWhole_whole _) b1 (Memref.isWhole_whole _) b2 (Memref.isWhole_whole _) b3 (Memref.isWhole_whole _)
            b4 (Memref.isWhole_whole _) b5 (Memref.isWhole_whole _) cc0_scratch6 cc0_scratch7 cc0_scratch8 cc0_scratch9 cc0_scoped0 cc0_scoped1)
          fun _ => iprop(tdF X Y d (jL L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold goF tdF
  iintro ⟨#Hlv, -, ⟨Hx, Hy, ⟨%fs, Hs⟩, ⟨%fc, Hc⟩⟩, ⟨⟨%f0, Hb0⟩, ⟨%f1, Hb1⟩, ⟨%f2, Hb2⟩, ⟨%f3, Hb3⟩, ⟨%f4, Hb4⟩, ⟨%f5, Hb5⟩, Hbufs⟩,
    ⟨Hs6, Hs7, Hs8, Hs9, Hc0, Hc1, Hsems⟩, HO⟩
  ihave Hmw := ((K (F := F)).mayWaits_none (thr := thr d L) hO) $$ Hlv
  ihave Hx' := (Transfers.pointsTo_toks_split (Transfers.shareTok fullShare 16 (jL L)) 4) $$ Hx
  icases Hx' with ⟨Hxr, Hxt⟩
  ihave Hxt' := (Entails.of_eq (toks4 (F := F) (xLoc d) _ _)) $$ Hxt
  icases Hxt' with ⟨Hx0, Hx1, Hx2, Hx3⟩
  ihave Hy' := (Transfers.pointsTo_toks_split (Transfers.shareTok fullShare 16 (jL L)) 4) $$ Hy
  icases Hy' with ⟨Hyr, Hyt⟩
  ihave Hyt' := (Entails.of_eq (toks4 (F := F) (tLoc d) _ _)) $$ Hyt
  icases Hyt' with ⟨Hy0, Hy1, Hy2, Hy3⟩
  iapply (wp_wand_r frame _ Set.univ)
  isplitl [Hmw Hx0 Hx1 Hy2 Hy3 Hs Hc Hb0 Hb1 Hb2 Hb3 Hb4 Hb5 Hs6 Hs7 Hs8 Hs9 Hc0 Hc1 HO]
  · iapply (tile_core d L (Transfers.shareTok fullShare 16 (jL L)) O W (X d) (Y d))
    isplitl [Hmw]; · iexact Hmw
    isplitl [Hx0]; · iapply (Entails.of_eq (pts_xW (F := F) d L _ _).symm); iexact Hx0
    isplitl [Hx1]; · iapply (Entails.of_eq (pts_xW (F := F) d L _ _).symm); iexact Hx1
    isplitl [Hy2]; · iapply (Entails.of_eq (pts_tW (F := F) d L _ _).symm); iexact Hy2
    isplitl [Hy3]; · iapply (Entails.of_eq (pts_tW (F := F) d L _ _).symm); iexact Hy3
    isplitl [Hs]; · iexists fs; iapply (Entails.of_eq (pts_sOut (F := F) d L fs).symm); iexact Hs
    isplitl [Hc]; · iexists fc; iapply (Entails.of_eq (pts_cOut (F := F) d L fc).symm); iexact Hc
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hs6]; · iexact Hs6
    isplitl [Hs7]; · iexact Hs7
    isplitl [Hs8]; · iexact Hs8
    isplitl [Hs9]; · iexact Hs9
    isplitl [Hc0]; · iexact Hc0
    isplitl [Hc1]; · iexact Hc1
    iexact HO
  iintro %u ⟨Hx0, Hx1, Hy2, Hy3, Hs, Hc, Hb0, Hb1, Hb2, Hb3, Hb4, Hb5, Hs6, Hs7, Hs8, Hs9, Hc0, Hc1, HO⟩
  isplitl [Hxr Hx0 Hx1 Hx2 Hx3 Hyr Hy0 Hy1 Hy2 Hy3 Hs Hc]
  · isplitl [Hxr Hx0 Hx1 Hx2 Hx3]
    · iapply (Transfers.pointsTo_toks_join (Transfers.shareTok fullShare 16 (jL L)) 4)
      isplitl [Hxr]; · iexact Hxr
      iapply (Entails.of_eq (toks4 (F := F) (xLoc d) _ _).symm)
      isplitl [Hx0]; · iapply (Entails.of_eq (pts_xW (F := F) d L _ _)); iexact Hx0
      isplitl [Hx1]; · iapply (Entails.of_eq (pts_xW (F := F) d L _ _)); iexact Hx1
      isplitl [Hx2]; · iexact Hx2
      iexact Hx3
    isplitl [Hyr Hy0 Hy1 Hy2 Hy3]
    · iapply (Transfers.pointsTo_toks_join (Transfers.shareTok fullShare 16 (jL L)) 4)
      isplitl [Hyr]; · iexact Hyr
      iapply (Entails.of_eq (toks4 (F := F) (tLoc d) _ _).symm)
      isplitl [Hy0]; · iexact Hy0
      isplitl [Hy1]; · iexact Hy1
      isplitl [Hy2]; · iapply (Entails.of_eq (pts_tW (F := F) d L _ _)); iexact Hy2
      iapply (Entails.of_eq (pts_tW (F := F) d L _ _)); iexact Hy3
    isplitl [Hs]; · iexact Hs
    iexact Hc
  isplitl [Hb0 Hb1 Hb2 Hb3 Hb4 Hb5 Hbufs]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hbufs
  isplitl [Hs6 Hs7 Hs8 Hs9 Hc0 Hc1 Hsems]
  · isplitl [Hs6]; · iexact Hs6
    isplitl [Hs7]; · iexact Hs7
    isplitl [Hs8]; · iexact Hs8
    isplitl [Hs9]; · iexact Hs9
    isplitl [Hc0]; · iexact Hc0
    isplitl [Hc1]; · iexact Hc1
    iexact Hsems
  iexact HO

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s) xW (Memref.isWhole_whole _) tW (Memref.isWhole_whole _) sW (Memref.isWhole_whole _) cW (Memref.isWhole_whole _)
            b0 (Memref.isWhole_whole _) b1 (Memref.isWhole_whole _) b2 (Memref.isWhole_whole _) b3 (Memref.isWhole_whole _)
            b4 (Memref.isWhole_whole _) b5 (Memref.isWhole_whole _) cc0_scratch6 cc0_scratch7 cc0_scratch8 cc0_scratch9 cc0_scoped0 cc0_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (X Y : Dev nD → Arr2 F) (hF : (K (F := F)).Facts) : (K (F := F)).TileObl (D (F := F)) 𝒱 (P X Y) v₀ 0 := by
  intro d c i O W hO _ _
  simp only [show (P X Y).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) X Y hF O W hO).trans (wp_mono frame _ _ fun _ => obl_post)

end Cert.Proof.KI

end
-- ==== Proof.KIRun.lean ====
/-
  The idealized kernel's run: every weakly fair execution of @main on the TensorCore, the sequencers and the sixteen tiles ends with the
  arguments unchanged and the result at the mean of the squared differences as the two calls compute it; the frames and the equation
  with the reference's result follow.
-/
import proofs.«210622_g27255862460721_cont_9to1_1214_20_alg».proof.Proof.KIMain
import proofs.«210622_g27255862460721_cont_9to1_1214_20_alg».proof.Proof.KITile

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- What the run ends at: the arguments as found, the result at the kernel's closed term of them. -/
def QC : PUnit × MemSt nD τ sig (Elt F) → Prop := fun r => ∀ c : Dev nD,
  r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_v10) = kres (X0 m c) (Y0 m c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (X0 m) (Y0 m)) facts v₀
    (fun q hq => match q with | 0 => nomatch hq)
    (fun q _ => match q with | 0 => tileObl (X0 m) (Y0 m) facts)
    (fun q _ => match q with | 0 => SparseCore.Cfg.VecSplit.of_plain (vecSplit (X0 m) (Y0 m)))
    m ρ main (fun d => G d) (FIN m) (u₀ (F := F)) (sep_elim_left.trans (hu₀ (X0 m) (Y0 m))) (hmain m ρ) (fq m) (hfin m) (QC m) (fun _ h => h)

end Cert.Proof.KI

end
-- ==== Proof.KBBase.lean ====
/-
  The kernel's program as the SparseCore launch theorem sees it: one vector-subcore call over
  sixteen tiles of SparseCore 0, one TensorCore pipeline after it, and the resource algebra the proofs share —
  the handshakes' rounds, the pipeline's rounds, and the exclusive counters of the tiles' own local copies.
-/
import proofs.«210622_g27255862460721_cont_9to1_1214_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«210622_g27255862460721_cont_9to1_1214_20_alg».proof.Proof.Gen.Kernel
import proofs.«210622_g27255862460721_cont_9to1_1214_20_alg».proof.Proof.Gen.Kernel.Skeleton
import proofs.«210622_g27255862460721_cont_9to1_1214_20_alg».proof.Proof.Gen.Kernel.Launch
import proofs.«210622_g27255862460721_cont_9to1_1214_20_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The handshakes' rounds: the left factor. -/
abbrev EH : Emb UH (MT nD τ sig (HIx 1) (Elt F) ℕ UU ℕ) := embL

/-- The pipeline's rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.KB

end
-- ==== Proof.TileSpecB.lean ====
/-
  One tile's arithmetic as a function of the arrays it reads, for any float values.

  A tile keeps four accumulators of 16 lanes: two partial sums of squared differences (a0, a1) and two partial counts
  (c0, c1). One step takes a 16-lane piece of a row of x and the same piece of t, forms the squared difference d², and
  adds "d² where d² equals itself, else 0" to a sum accumulator and "1 where d² equals itself, else 0" to a count
  accumulator. A trip of the inner loop takes eight consecutive pieces of one row: pieces 0, 2, 4, 6 go to (a0, c0) and
  pieces 1, 3, 5, 7 to (a1, c1). A row of 2048 columns is 16 trips; a chunk is 8 rows in order; a tile is 16 chunks of
  consecutive rows, starting from zero accumulators. The tile's results are a0 + a1 and c0 + c1.
-/
import proofs.«210622_g27255862460721_cont_9to1_1214_20_alg».proof.Proof.Gen.Kernel.Skeleton
import Idealize.ShloMosaic.Lib.ValueIdx

noncomputable section

namespace Cert.Proof.TileSpecB

open Idealize.ShloMosaic Idealize.ShloMosaic.ValueIdx Cert.Kernel Cert.Kernel.Gen

variable {F : FTy → Type} [FloatOps F]

/-! ## One step -/

/-- The squared difference of two 16-lane pieces. -/
def sqv (xv tv : Vec F S16 .f32) : FVec F S16 .f32 :=
  mulf (subf (shapeCast S16 xv shapeCasts_S16_S16) (shapeCast S16 tv shapeCasts_S16_S16))
    (subf (shapeCast S16 xv shapeCasts_S16_S16) (shapeCast S16 tv shapeCasts_S16_S16))

/-- A sum accumulator after one step: it gains d² in the lanes where d² equals itself, and 0 elsewhere. -/
def accStep (a : FVec F S16 .f32) (xv tv : Vec F S16 .f32) : FVec F S16 .f32 :=
  addf a (select (cmpf .oeq (sqv xv tv) (sqv xv tv)) (sqv xv tv) (broadcast S16 (Scalar.ofBits .f32 0x00000000#32)))

/-- A count accumulator after one step: it gains 1 in the lanes where d² equals itself, and 0 elsewhere. -/
def cntStep (c : FVec F S16 .f32) (xv tv : Vec F S16 .f32) : FVec F S16 .f32 :=
  addf c (select (cmpf .oeq (sqv xv tv) (sqv xv tv)) (broadcast S16 (Scalar.ofBits .f32 0x3F800000#32))
    (broadcast S16 (Scalar.ofBits .f32 0x00000000#32)))

/-! ## One trip: eight steps -/

variable (F) in
/-- The four accumulators, in the loops' carried order: (a0, a1, c0, c1). -/
abbrev Acc4 : Type := FVec F S16 .f32 × FVec F S16 .f32 × FVec F S16 .f32 × FVec F S16 .f32

/-- One trip over eight pieces: pieces 0, 2, 4, 6 into (a0, c0), pieces 1, 3, 5, 7 into (a1, c1). -/
def trip8 (a : Acc4 F) (xs ts : Fin 8 → Vec F S16 .f32) : Acc4 F :=
  (accStep (accStep (accStep (accStep a.1 (xs 0) (ts 0)) (xs 2) (ts 2)) (xs 4) (ts 4)) (xs 6) (ts 6),
   accStep (accStep (accStep (accStep a.2.1 (xs 1) (ts 1)) (xs 3) (ts 3)) (xs 5) (ts 5)) (xs 7) (ts 7),
   cntStep (cntStep (cntStep (cntStep a.2.2.1 (xs 0) (ts 0)) (xs 2) (ts 2)) (xs 4) (ts 4)) (xs 6) (ts 6),
   cntStep (cntStep (cntStep (cntStep a.2.2.2 (xs 1) (ts 1)) (xs 3) (ts 3)) (xs 5) (ts 5)) (xs 7) (ts 7))

/-- The accumulators before the first chunk: zero in every lane. -/
def init4 : Acc4 F := (k0_pay1, k0_pay1, k0_pay1, k0_pay1)

/-- The tile's sum result: a0 + a1. -/
def outS (a : Acc4 F) : FVec F S16 .f32 := k0_pay10 a.1 a.2.1

/-- The tile's count result: c0 + c1. -/
def outC (a : Acc4 F) : FVec F S16 .f32 := k0_pay11 a.2.2.1 a.2.2.2

/-! ## The kernel's own step terms are these -/

example (a : FVec F S16 .f32) (x t : Vec F S16 .f32) : k0_pay12 x t = sqv x t := rfl
example (a : FVec F S16 .f32) (x t : Vec F S16 .f32) : k0_pay14 a x t = accStep a x t := rfl
example (c : FVec F S16 .f32) (x t : Vec F S16 .f32) : k0_pay15 c x t = cntStep c x t := rfl
example (a : FVec F S16 .f32) (x t : Vec F S16 .f32) : k0_pay18 a x t = accStep a x t := rfl
example (c : FVec F S16 .f32) (x t : Vec F S16 .f32) : k0_pay19 c x t = cntStep c x t := rfl
example (a : FVec F S16 .f32) (x t : Vec F S16 .f32) : k0_pay22 a x t = accStep a x t := rfl
example (a : FVec F S16 .f32) (x t : Vec F S16 .f32) : k0_pay26 a x t = accStep a x t := rfl
example (a : FVec F S16 .f32) (x t : Vec F S16 .f32) : k0_pay31 a (k0_pay28 x) t = accStep a x t := rfl
example (c : FVec F S16 .f32) (x t : Vec F S16 .f32) : k0_pay32 c (k0_pay28 x) t = cntStep c x t := rfl
example (a : FVec F S16 .f32) (x t : Vec F S16 .f32) : k0_pay35 a x t = accStep a x t := rfl
example (a : FVec F S16 .f32) (x t : Vec F S16 .f32) : k0_pay430 a (k0_pay37 x t) = accStep a x t := rfl
example (c : FVec F S16 .f32) (x t : Vec F S16 .f32) : k0_pay431 c (k0_pay37 x t) = cntStep c x t := rfl
example (a : FVec F S16 .f32) (x t : Vec F S16 .f32) : k0_pay434 a x t = accStep a x t := rfl
example (c : FVec F S16 .f32) (x t : Vec F S16 .f32) : k0_pay435 c x t = cntStep c x t := rfl

/-- The first inner loop's trip, written with the kernel's own terms over its sixteen loaded pieces and four carried
    accumulators, is `trip8`. -/
theorem trip_t2 (a0 a1 c0 c1 : FVec F S16 .f32) (x0 t0 x1 t1 x2 t2 x3 t3 x4 t4 x5 t5 x6 t6 x7 t7 : Vec F S16 .f32) :
    ((k0_pay430 (k0_pay31 (k0_pay22 (k0_pay14 a0 x0 t0) x2 t2) (k0_pay28 x4) t4) (k0_pay37 x6 t6),
      k0_pay434 (k0_pay35 (k0_pay26 (k0_pay18 a1 x1 t1) x3 t3) x5 t5) x7 t7,
      k0_pay431 (k0_pay32 (k0_pay23 (k0_pay15 c0 x0 t0) x2 t2) (k0_pay28 x4) t4) (k0_pay37 x6 t6),
      k0_pay435 (k0_pay36 (k0_pay27 (k0_pay19 c1 x1 t1) x3 t3) x5 t5) x7 t7) : Acc4 F)
      = trip8 (a0, a1, c0, c1) ![x0, x1, x2, x3, x4, x5, x6, x7] ![t0, t1, t2, t3, t4, t5, t6, t7] := rfl

/-! ## Rows, chunks, the tile -/

/-- A lane index is below 16. -/
theorem lane_lt (y : S16.Idx) : (y 0).val < 16 := (y 0).isLt

/-- Piece `n` of row `r` of an [8, 2048] chunk: columns 16 n … 16 n + 15 (reduced mod 2048 so that the piece is defined
    for every `n`; for n < 128 nothing is reduced). -/
def ld (g : S8x2048.Idx → F .f32) (r : Fin 8) (n : ℕ) : Vec F S16 .f32 :=
  fun y => g (ix2 r ⟨(16 * n + (y 0).val) % 2048, Nat.mod_lt _ (by norm_num)⟩)

/-- For n < 128 the piece is columns 16 n + lane. -/
theorem ld_apply (g : S8x2048.Idx → F .f32) (r : Fin 8) (n : ℕ) (hn : n < 128) (y : S16.Idx) :
    ld g r n y = g (ix2 r ⟨16 * n + (y 0).val, by have := lane_lt y; omega⟩) := by
  have := lane_lt y
  unfold ld
  congr 2
  exact Fin.ext (Nat.mod_eq_of_lt (by show 16 * n + (y 0).val < 2048; omega))

/-- The accumulators after `j` trips along row `r` of a chunk of x and of t. -/
def rowFold (g gt : S8x2048.Idx → F .f32) (r : Fin 8) : ℕ → Acc4 F → Acc4 F
  | 0, a => a
  | j + 1, a => trip8 (rowFold g gt r j a) (fun u => ld g r (8 * j + u.val)) (fun u => ld gt r (8 * j + u.val))

/-- The accumulators after a whole chunk: its rows 0 … 7 in order, 16 trips each. -/
def chunkFold (g gt : S8x2048.Idx → F .f32) (a : Acc4 F) : Acc4 F :=
  rowFold g gt 7 16 (rowFold g gt 6 16 (rowFold g gt 5 16 (rowFold g gt 4 16
    (rowFold g gt 3 16 (rowFold g gt 2 16 (rowFold g gt 1 16 (rowFold g gt 0 16 a)))))))

/-- Rows b … b + 7 of a [16384, 2048] array as an [8, 2048] chunk (the row reduced mod 16384 so that the chunk is
    defined for every `b`; for b + 8 ≤ 16384 nothing is reduced). -/
def rowsOf (X : S16384x2048.Idx → F .f32) (b : ℕ) : S8x2048.Idx → F .f32 :=
  fun y => X (ix2 ⟨(b + (y 0).val) % 16384, Nat.mod_lt _ (by norm_num)⟩ ⟨(y 1).val, idx2_lt1 y⟩)

/-- For b + 8 ≤ 16384 the chunk's row r is row b + r. -/
theorem rowsOf_apply (X : S16384x2048.Idx → F .f32) (b : ℕ) (hb : b + 8 ≤ 16384) (r : Fin 8) (c : Fin 2048) :
    rowsOf X b (ix2 r c) = X (ix2 ⟨b + r.val, by omega⟩ c) := by
  unfold rowsOf
  congr 2
  exact Fin.ext (Nat.mod_eq_of_lt (by show b + r.val < 16384; omega))

/-- The accumulators after `n` chunks of the tile whose first row is `base`. -/
def tileFold (X T : S16384x2048.Idx → F .f32) (base : ℕ) : ℕ → Acc4 F
  | 0 => init4
  | n + 1 => chunkFold (rowsOf X (base + 8 * n)) (rowsOf T (base + 8 * n)) (tileFold X T base n)

end Cert.Proof.TileSpecB

end
-- ==== Proof.TileOutB.lean ====
/-
  What the sixteen vector subcores leave in the two [256] result arrays: tile w = i / 16 writes lane i % 16 of its
  two accumulated sums (the squared differences, the counts) over its 128 rows.
-/
import proofs.«210622_g27255862460721_cont_9to1_1214_20_alg».proof.Proof.TileSpecB

noncomputable section

namespace Cert.Proof.TileSpecB

open Idealize.ShloMosaic Idealize.ShloMosaic.ValueIdx Cert.Kernel Cert.Kernel.Gen

variable {F : FTy → Type} [FloatOps F]

theorem lane256_lt (i : S256.Idx) : (i 0).val % 16 < 16 := Nat.mod_lt _ (by norm_num)

/-- The sums of squared differences, lane by lane, tile by tile. -/
def scS (X T : S16384x2048.Idx → F .f32) : S256.Idx → F .f32 :=
  fun i => outS (tileFold X T (128 * ((i 0).val / 16)) 16) (ix1 ⟨(i 0).val % 16, lane256_lt i⟩)

/-- The counts, lane by lane, tile by tile. -/
def scC (X T : S16384x2048.Idx → F .f32) : S256.Idx → F .f32 :=
  fun i => outC (tileFold X T (128 * ((i 0).val / 16)) 16) (ix1 ⟨(i 0).val % 16, lane256_lt i⟩)

end Cert.Proof.TileSpecB

end
-- ==== Proof.KBPay.lean ====
/-
  What the one SparseCore call carries: the two [16384,2048] arrays whole to the SparseCore and a read token of each to every tile,
  the two [256] result arrays whole and each tile's sixteen lanes of them, back at what the tiles accumulated.
-/
import proofs.«210622_g27255862460721_cont_9to1_1214_20_alg».proof.Proof.KBBase
import proofs.«210622_g27255862460721_cont_9to1_1214_20_alg».proof.Proof.TileOutB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.TileSpecB (scS scC)

variable {F : FTy → Type} [FloatOps F]

local notation "𝕄" => MT nD τ sig (HIx 1) (Elt F) ℕ UU ℕ

abbrev xLoc (d : Dev nD) : Loc nD τ sig := (SparseCore.T d).loc main_v0
abbrev tLoc (d : Dev nD) : Loc nD τ sig := (SparseCore.T d).loc main_v1
abbrev sLoc (d : Dev nD) : Loc nD τ sig := (SparseCore.T d).loc main_v2_0
abbrev cLoc (d : Dev nD) : Loc nD τ sig := (SparseCore.T d).loc main_v2_1

/-- The two whole [16384,2048] arrays as a function of the device: the contents the call finds them at. -/
abbrev Arr2 (F : FTy → Type) : Type := S16384x2048.Idx → F .f32

theorem hdiv16 : 16 ∣ S256.size 0 := ⟨16, rfl⟩
/-- Tile i's sixteen lanes of a [256] array. -/
abbrev lanes (i : Fin 16) : Rect S256 := Rect.part (s := S256) (a₀ := 0) hdiv16 i
abbrev laneSet (i : Fin 16) : Finset S256.Idx := ((Memref.whole main_v2_0_scv : Memref sig .scVector .hbm S256 .f32).view.slice (lanes i)).set

variable (X Y : Dev nD → Arr2 F)

/-- What the call hands the SparseCore: the two big arrays whole at their contents, the two result arrays whole at anything. -/
def stF (d : Dev nD) : sProp 𝕄 :=
  iprop((xLoc d ↦{fullShare} X d) ∗ (tLoc d ↦{fullShare} Y d) ∗ (∃ f, sLoc d ↦{fullShare} f) ∗ (∃ f, cLoc d ↦{fullShare} f))
/-- What comes back: the big arrays unchanged, the result arrays at what the sixteen tiles accumulated. -/
def dnF (d : Dev nD) : sProp 𝕄 :=
  iprop((xLoc d ↦{fullShare} X d) ∗ (tLoc d ↦{fullShare} Y d) ∗ (sLoc d ↦{fullShare} scS (X d) (Y d)) ∗ (cLoc d ↦{fullShare} scC (X d) (Y d)))
/-- A tile's share: a read token of each big array, its sixteen lanes of each result array at anything. -/
def goF (d : Dev nD) (i : Fin 16) : sProp 𝕄 :=
  iprop((xLoc d ↦{Transfers.shareTok fullShare 16 i} X d) ∗ (tLoc d ↦{Transfers.shareTok fullShare 16 i} Y d)
    ∗ (∃ f, sLoc d ↦[laneSet i]{fullShare} f) ∗ (∃ f, cLoc d ↦[laneSet i]{fullShare} f))
/-- What a tile hands back: its tokens, its lanes at its accumulated sums. -/
def tdF (d : Dev nD) (i : Fin 16) : sProp 𝕄 :=
  iprop((xLoc d ↦{Transfers.shareTok fullShare 16 i} X d) ∗ (tLoc d ↦{Transfers.shareTok fullShare 16 i} Y d)
    ∗ (sLoc d ↦[laneSet i]{fullShare} scS (X d) (Y d)) ∗ (cLoc d ↦[laneSet i]{fullShare} scC (X d) (Y d)))

def P : (K (F := F)).Pay (nD := nD) (Val := Elt F) (Name := ℕ) (U := UU) where
  st := fun _ d _ => stF X Y d
  dn := fun _ d _ => dnF X Y d
  go := fun q d _ i => match q with | 0 => goF X Y d (Fin.cast nSub_zero i)
  td := fun q d _ i => match q with | 0 => tdF X Y d (Fin.cast nSub_zero i)
  x := fun _ _ => iprop(emp)

instance P_storable : (P (F := F) X Y).IsStorable where
  st _ d _ := by unfold P stF; infer_instance
  dn _ d _ := by unfold P dnF; infer_instance
  go q d _ i := match q with | 0 => by unfold P goF; infer_instance
  td q d _ i := match q with | 0 => by unfold P tdF; infer_instance

/-- What the pipeline's region needs of the launch: its staging cells' ghost state. -/
abbrev G (d : Dev nD) : sProp 𝕄 := iprop(Pipeline.cellsGhost cfgs EP 0 d ∗ Pipeline.toksInit cfgs EP 0 d)

end Cert.Proof.KB

end
-- ==== Proof.TcRegionDataB.lean ====
/-
  The TensorCore accumulation region of the kernel: twenty-eight grid points, each adding one block's
  masked squared differences (and its count of unmasked elements) into two scalar accumulators carried from
  point to point in the staging cells of the two results, written back once after the last point.
  This module fixes the data of the region: the blocks each point reads, the running sum and count after each
  point, and the pipeline's proof data built from them.
-/
import proofs.«210622_g27255862460721_cont_9to1_1214_20_alg».proof.Proof.KBBase
import Idealize.ShloMosaic.Lib.Pipeline.FrameBody
import Idealize.ShloMosaic.Lib.Pipeline.Regions

noncomputable section

namespace Cert.Proof.TcRegionB

open Cert.Kernel Cert.Kernel.Gen Cert.Proof.KB

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The pipeline has no prefetched table: its one admissible table is the empty one. -/
abbrev adm : (p : Fin 1) → (pcfgs (F := F) p).Adm := fun p => (cfgs p).toPCfg_adm

/-- The TensorCore of device `d`. -/
abbrev tc (d : Dev nD) : Thread nD τ := SparseCore.T d

/-- Contents of a whole `[16384, 2048]` array, of a `[512, 2048]` block, of a one-word result. -/
abbrev Arr (F : FTy → Type) : Type := S16384x2048.Idx → Elt F .f32
abbrev Blk (F : FTy → Type) : Type := S512x2048.Idx → Elt F .f32
abbrev Wd (F : FTy → Type) : Type := S1.Idx → Elt F .f32

/-! ## The blocks the points read -/

/-- The block of the first operand's array (held at `X`) that point `t` reads: rows `[512 (t + 4), 512 (t + 5))`. -/
def blkX (X : Arr F) (t : Fin cfg1.N) : Blk F := ((cfg1.win 0).blk t).view.read (Elt F) X
/-- The block of the second operand's array (held at `Y`) that point `t` reads: the same rows. -/
def blkY (Y : Arr F) (t : Fin cfg1.N) : Blk F := ((cfg1.win 1).blk t).view.read (Elt F) Y

/-! ## The running sum and count -/

/-- The running sum after the first `n` points: from zero, each point adds its block's masked squared differences
    (the body's payload for the word it stores, which loads the second operand's block first). -/
def sumUpTo (X Y : Arr F) : ℕ → Elt F .f32
  | 0 => Scalar.ofBits .f32 0x00000000#32
  | n + 1 => if h : n < cfg1.N then k1_pay3 (blkY Y ⟨n, h⟩) (blkX X ⟨n, h⟩) (sumUpTo X Y n) else sumUpTo X Y n

/-- The running count after the first `n` points. -/
def cntUpTo (Y : Arr F) : ℕ → Elt F .f32
  | 0 => Scalar.ofBits .f32 0x00000000#32
  | n + 1 => if h : n < cfg1.N then k1_pay4 (blkY Y ⟨n, h⟩) (cntUpTo Y n) else cntUpTo Y n

/-- What the region leaves in the first result: the sum over all twenty-eight points. -/
def tcSum (X Y : Arr F) : Elt F .f32 := sumUpTo X Y cfg1.N
/-- What the region leaves in the second result: the count over all twenty-eight points. -/
def tcCnt (Y : Arr F) : Elt F .f32 := cntUpTo Y cfg1.N

theorem sumUpTo_succ (X Y : Arr F) (t : Fin cfg1.N) :
    sumUpTo X Y (t.val + 1) = k1_pay3 (blkY Y t) (blkX X t) (sumUpTo X Y t.val) := by
  show (if h : t.val < cfg1.N then _ else _) = _
  rw [dif_pos t.isLt]
theorem cntUpTo_succ (Y : Arr F) (t : Fin cfg1.N) :
    cntUpTo Y (t.val + 1) = k1_pay4 (blkY Y t) (cntUpTo Y t.val) := by
  show (if h : t.val < cfg1.N then _ else _) = _
  rw [dif_pos t.isLt]

/-! ## The pipeline's proof data -/

section Data

variable (d : Dev nD) (X Y : Arr F) (S₀ C₀ : Wd F) (B : Set (SemLoc sig × HIx 1))

/-- The proof data of the region on device `d`: the operands' arrays at `X` and `Y`, the results' at anything;
    after the body at point `t` each operand's staging buffer at the block it was handed and the results' staging
    words at the running sum and count; no invariant of its own; nothing owed, the recorded waits within `B`. -/
def dat : Dat τ (Elt F) (HIx 1) ℕ UU ℕ cfg1 d where
  A w := match w with
    | ⟨0, _⟩ => X
    | ⟨1, _⟩ => Y
    | ⟨2, _⟩ => S₀
    | ⟨3, _⟩ => C₀
  after w t := match w with
    | ⟨0, _⟩ => blkX X t
    | ⟨1, _⟩ => blkY Y t
    | ⟨2, _⟩ => fun _ => sumUpTo X Y (t.val + 1)
    | ⟨3, _⟩ => fun _ => cntUpTo Y (t.val + 1)
  Φ _ := iprop(emp)
  q _ := fullShare
  owed _ := 0
  recorded _ := B

def pdats : (p : Fin 1) → (c : Dev nD) → Dat τ (Elt F) (HIx 1) ℕ UU ℕ (Pipeline.pin (pcfgs (F := F)) adm p) c :=
  fun _ c => dat c X Y S₀ C₀ B

theorem A_0 : (dat d X Y S₀ C₀ B).A 0 = X := by dsimp only [dat]
theorem A_1 : (dat d X Y S₀ C₀ B).A 1 = Y := by dsimp only [dat]
theorem A_2 : (dat d X Y S₀ C₀ B).A 2 = S₀ := by dsimp only [dat]
theorem A_3 : (dat d X Y S₀ C₀ B).A 3 = C₀ := by dsimp only [dat]
theorem after_0 (t : Fin cfg1.N) : (dat d X Y S₀ C₀ B).after 0 t = blkX X t := by dsimp only [dat]
theorem after_1 (t : Fin cfg1.N) : (dat d X Y S₀ C₀ B).after 1 t = blkY Y t := by dsimp only [dat]
theorem after_2 (t : Fin cfg1.N) : (dat d X Y S₀ C₀ B).after 2 t = fun _ => sumUpTo X Y (t.val + 1) := by dsimp only [dat]
theorem after_3 (t : Fin cfg1.N) : (dat d X Y S₀ C₀ B).after 3 t = fun _ => cntUpTo Y (t.val + 1) := by dsimp only [dat]

/-- Each operand's current staging buffer holds its block at every point: it is fetched at every point, whole. -/
theorem before_0 (t : Fin cfg1.N) (e) : (dat d X Y S₀ C₀ B).before 0 t e = blkX X t := by
  rw [Dat.before_fetched _ 0 t (fetch1_0 t) e]
  unfold Dat.fetched Dat.blockOf blkX; rw [A_0]; rfl
theorem before_1 (t : Fin cfg1.N) (e) : (dat d X Y S₀ C₀ B).before 1 t e = blkY Y t := by
  rw [Dat.before_fetched _ 1 t (fetch1_1 t) e]
  unfold Dat.fetched Dat.blockOf blkY; rw [A_1]; rfl

/-- After the first point each result's staging word holds what the body left at the point before: the word is not
    written back between (only after the last point), the window is live and whole. -/
theorem before_2 (t : Fin cfg1.N) (ht : t.val ≠ 0) (e) : (dat d X Y S₀ C₀ B).before 2 t e = fun _ => sumUpTo X Y t.val := by
  have hN : t.val < 28 := t.isLt
  rw [Dat.before_out_kept _ 2 rfl t ht (Bool.eq_false_iff.mpr fun h => by have := (flush1_2 _).mp h; dsimp only at this; omega)
    (fun _ => rfl) (fun _ _ => rfl), after_2]
  funext _; dsimp only; rw [Nat.sub_add_cancel (Nat.pos_of_ne_zero ht)]
theorem before_3 (t : Fin cfg1.N) (ht : t.val ≠ 0) (e) : (dat d X Y S₀ C₀ B).before 3 t e = fun _ => cntUpTo Y t.val := by
  have hN : t.val < 28 := t.isLt
  rw [Dat.before_out_kept _ 3 rfl t ht (Bool.eq_false_iff.mpr fun h => by have := (flush1_3 _).mp h; dsimp only at this; omega)
    (fun _ => rfl) (fun _ _ => rfl), after_3]
  funext _; dsimp only; rw [Nat.sub_add_cancel (Nat.pos_of_ne_zero ht)]

end Data

end Cert.Proof.TcRegionB

end
-- ==== Proof.TcRegionBodyB.lean ====
/-
  The TensorCore accumulation region: the kernel body at one symbolic grid point, in each of its two cases — the
  first point, where it zeroes the two staging words before accumulating, and every later point, where it adds to
  what the point before left — run over whole staging memrefs held at named contents.
-/
import proofs.«210622_g27255862460721_cont_9to1_1214_20_alg».proof.Proof.TcRegionDataB
import Idealize.ShloMosaic.Lib.Tactic
import Idealize.ShloMosaic.Lib.Pipeline.Value

noncomputable section

namespace Cert.Proof.TcRegionB

open Cert.Kernel Cert.Kernel.Gen Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## Whole-shape loads and stores -/

theorem zeros1 : (![0] : Fin 1 → ℕ) = fun _ => 0 := by funext a; fin_cases a; rfl
theorem zeros2 : (![0, 0] : Fin 2 → ℕ) = fun _ => 0 := by funext a; fin_cases a <;> rfl

/-- A store through the whole-shape rectangle at zero offsets, last, leaves its payload. -/
theorem read_writes_unit_zero {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb (v := v) (f := f) (Rect.whole S) w L y
  rw [Rect.emb_whole_apply] at e
  exact e

/-- A load through the whole-shape rectangle at zero offsets of a whole memref held at `X` reads `X`. -/
theorem readAt_unit_zero {κ : Kind} {sp : Space} {S : Shape} {e : EltTy} {m : Memref sig κ sp S e} (hm : m.IsWhole) (X : S.Idx → Elt F e)
    {off : Fin S.rank → ℕ} (h : off = fun _ => 0) (inb : ∀ a, off a + S.size a ≤ S.size a) :
    View.readAt (Elt F) m.view (Rect.unit off S.size inb).toLoadRect (hm.unread X) = X := by
  rw [View.readAt_eq_ld, hm.read_unread]
  exact View.ld_unit_zero h inb X

/-- The condition of the body's one conditional, from the grid coordinates: the point is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

set_option maxHeartbeats 1000000 in
/-- The body at a later point (the conditional not taken): from the operands' staging buffers at their blocks and the
    results' staging words at the running sum `s` and count `c`, it leaves the operands' as they were and the words at
    the sum and count with this point's block added. -/
theorem run_B (d : Dev nD) (i : grid1.Coords) (arg1 : Memref sig .tc .vmem S512x2048 .f32) (harg1 : arg1.IsWhole) (arg2 : Memref sig .tc .vmem S512x2048 .f32) (harg2 : arg2.IsWhole)
    (arg3 : Memref sig .tc .smem S1 .f32) (harg3 : arg3.IsWhole) (arg4 : Memref sig .tc .smem S1 .f32) (harg4 : arg4.IsWhole) (hc : ¬cond1_0 i)
    (x y : Blk F) (s c : Elt F .f32) (E : Set ℕ) (K : PUnit → sProp 𝕄) :
    iprop(owns (tc d) arg1 fullShare x ∗ owns (tc d) arg2 fullShare y ∗ owns (tc d) arg3 fullShare (fun _ => s) ∗ owns (tc d) arg4 fullShare (fun _ => c)
        ∗ (iprop(owns (tc d) arg1 fullShare x ∗ owns (tc d) arg2 fullShare y ∗ owns (tc d) arg3 fullShare (fun _ => k1_pay3 y x s)
            ∗ owns (tc d) arg4 fullShare (fun _ => k1_pay4 y c)) -∗ K ⟨⟩))
      ⊢ wp frame (wpE (defs₀ (F := F)) Variants.none (tc d) none) E (cc1__tc_body i arg1 harg1 arg2 harg2 arg3 harg3 arg4 harg4) K := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_writes_unit_zero _ _ zeros1, readAt_unit_zero harg1 x zeros2, readAt_unit_zero harg2 y zeros2]
    sl_unfold_run_names
    rw [readAt_unit_zero harg3 (fun _ => s) zeros1]
    rfl
  · iexists _; isplitr
    swap; · iexact H4
    ipureintro
    rw [read_writes_unit_zero _ _ zeros1, readAt_unit_zero harg2 y zeros2]
    sl_unfold_run_names
    rw [readAt_unit_zero harg4 (fun _ => c) zeros1]
    rfl

set_option maxHeartbeats 1000000 in
/-- The body at the first point (the conditional taken): it zeroes both staging words, whatever they held, and then
    adds the first block: the words end at the sum and count of that block from zero. -/
theorem run_A (d : Dev nD) (i : grid1.Coords) (arg1 : Memref sig .tc .vmem S512x2048 .f32) (harg1 : arg1.IsWhole) (arg2 : Memref sig .tc .vmem S512x2048 .f32) (harg2 : arg2.IsWhole)
    (arg3 : Memref sig .tc .smem S1 .f32) (harg3 : arg3.IsWhole) (arg4 : Memref sig .tc .smem S1 .f32) (harg4 : arg4.IsWhole) (hc : cond1_0 i)
    (x y : Blk F) (s₀ c₀ : Wd F) (E : Set ℕ) (K : PUnit → sProp 𝕄) :
    iprop(owns (tc d) arg1 fullShare x ∗ owns (tc d) arg2 fullShare y ∗ owns (tc d) arg3 fullShare s₀ ∗ owns (tc d) arg4 fullShare c₀
        ∗ (iprop(owns (tc d) arg1 fullShare x ∗ owns (tc d) arg2 fullShare y
            ∗ owns (tc d) arg3 fullShare (fun _ => k1_pay3 y x (Scalar.ofBits .f32 0x00000000#32))
            ∗ owns (tc d) arg4 fullShare (fun _ => k1_pay4 y (Scalar.ofBits .f32 0x00000000#32))) -∗ K ⟨⟩))
      ⊢ wp frame (wpE (defs₀ (F := F)) Variants.none (tc d) none) E (cc1__tc_body i arg1 harg1 arg2 harg2 arg3 harg3 arg4 harg4) K := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_writes_unit_zero _ _ zeros1, readAt_unit_zero harg1 x zeros2, readAt_unit_zero harg2 y zeros2]
    sl_unfold_run_names
    rfl
  · iexists _; isplitr
    swap; · iexact H4
    ipureintro
    rw [read_writes_unit_zero _ _ zeros1, readAt_unit_zero harg2 y zeros2]
    sl_unfold_run_names
    rfl

end Cert.Proof.TcRegionB

end
-- ==== Proof.TcRegionB.lean ====
/-
  The TensorCore accumulation region, run: the body obligation at every grid point from the two cases of the body,
  what the two results' arrays hold after the one write-back, the region as the pipeline rule's record, and its
  run on the TensorCore inside the program over the extended body table — from the region boundary, the two operands'
  arrays, the two results' arrays and the pipeline's launch ghost state to the boundary again, the operands unchanged,
  the results at the sum and the count over the twenty-eight blocks.
-/
import proofs.«210622_g27255862460721_cont_9to1_1214_20_alg».proof.Proof.TcRegionBodyB

noncomputable section

namespace Cert.Proof.TcRegionB

open Cert.Kernel Cert.Kernel.Gen Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What the results' arrays end holding -/

section Final
variable (d : Dev nD) (X Y : Arr F) (S₀ C₀ : Wd F) (B : Set (SemLoc sig × HIx 1))

abbrev t27 : Fin cfg1.N := ⟨27, by decide⟩

theorem arrAt_0 : (dat d X Y S₀ C₀ B).arrAt 0 cfg1.N = X := ((dat d X Y S₀ C₀ B).arrAt_in 0 rfl _).trans (A_0 d X Y S₀ C₀ B)
theorem arrAt_1 : (dat d X Y S₀ C₀ B).arrAt 1 cfg1.N = Y := ((dat d X Y S₀ C₀ B).arrAt_in 1 rfl _).trans (A_1 d X Y S₀ C₀ B)

theorem flushed_2 (t : Fin cfg1.N) (hf : (cfg1.win 2).flush t = true) :
    (dat d X Y S₀ C₀ B).flushed 2 t = ((cfg1.win 2).blk t).view.read (Elt F) (fun _ => tcSum X Y) := by
  have hN : t.val < 28 := t.isLt
  have h27 : t.val = 27 := by have := (flush1_2 t).mp hf; omega
  show (cfg1.win 2).cut (grid1.coords t) ((dat d X Y S₀ C₀ B).after 2 t) = _
  rw [after_2]
  funext j
  show sumUpTo X Y (t.val + 1) = tcSum X Y
  rw [h27]; rfl

/-- The one write-back, after the last point, writes the whole one-word array: it ends holding the sum. -/
theorem arrAt_2 : (dat d X Y S₀ C₀ B).arrAt 2 cfg1.N = fun _ => tcSum X Y :=
  (dat d X Y S₀ C₀ B).arrAt_eq_of_cover 2 (fun _ => tcSum X Y) (flushed_2 d X Y S₀ C₀ B) fun i =>
    ⟨t27, (flush1_2 t27).mpr rfl, by
      show i ∈ ((View.whole main_v5_0).slice (win1_2.rect t27)).set
      rw [View.set_slice_whole, Rect.mem_set_unit]
      intro a
      have h0 : (i 0 : Nat) < 1 := (i 0).isLt
      match a with
      | ⟨0, _⟩ =>
        show win1_2.index t27 0 * win1_2.size 0 ≤ (i 0 : Nat) ∧ (i 0 : Nat) < win1_2.index t27 0 * win1_2.size 0 + win1_2.xsize (grid1.coords t27) 0
        rw [show win1_2.index t27 0 * win1_2.size 0 = 0 from by decide +kernel, show win1_2.xsize (grid1.coords t27) 0 = 1 from by decide +kernel]; omega⟩
end Final

section Final3
variable (d : Dev nD) (X Y : Arr F) (S₀ C₀ : Wd F) (B : Set (SemLoc sig × HIx 1))

theorem flushed_3 (t : Fin cfg1.N) (hf : (cfg1.win 3).flush t = true) :
    (dat d X Y S₀ C₀ B).flushed 3 t = ((cfg1.win 3).blk t).view.read (Elt F) (fun _ => tcCnt Y) := by
  have hN : t.val < 28 := t.isLt
  have h27 : t.val = 27 := by have := (flush1_3 t).mp hf; omega
  show (cfg1.win 3).cut (grid1.coords t) ((dat d X Y S₀ C₀ B).after 3 t) = _
  rw [after_3]
  funext j
  show cntUpTo Y (t.val + 1) = tcCnt Y
  rw [h27]; rfl

/-- Likewise the count. -/
theorem arrAt_3 : (dat d X Y S₀ C₀ B).arrAt 3 cfg1.N = fun _ => tcCnt Y :=
  (dat d X Y S₀ C₀ B).arrAt_eq_of_cover 3 (fun _ => tcCnt Y) (flushed_3 d X Y S₀ C₀ B) fun i =>
    ⟨t27, (flush1_3 t27).mpr rfl, by
      show i ∈ ((View.whole main_v5_1).slice (win1_3.rect t27)).set
      rw [View.set_slice_whole, Rect.mem_set_unit]
      intro a
      have h0 : (i 0 : Nat) < 1 := (i 0).isLt
      match a with
      | ⟨0, _⟩ =>
        show win1_3.index t27 0 * win1_3.size 0 ≤ (i 0 : Nat) ∧ (i 0 : Nat) < win1_3.index t27 0 * win1_3.size 0 + win1_3.xsize (grid1.coords t27) 0
        rw [show win1_3.index t27 0 * win1_3.size 0 = 0 from by decide +kernel, show win1_3.xsize (grid1.coords t27) 0 = 1 from by decide +kernel]; omega⟩
end Final3

/-! ## The body obligation -/

section Obligation

variable (c : Dev nD) (X Y : Arr F) (S₀ C₀ : Wd F) (B : Set (SemLoc sig × HIx 1))

set_option maxHeartbeats 800000 in
/-- The body at any point: the operands' memrefs hold their blocks; at the first point the results' words hold
    anything and the body zeroes them; at a later point they hold what the point before left, and the body adds
    to it; the core owes nothing throughout. -/
theorem sound_body (t : Fin cfg1.N) :
    iprop((dat c X Y S₀ C₀ B).Φ t.castSucc ∗ (dat c X Y S₀ C₀ B).owesAt (none : HIx 1) t.castSucc
        ∗ (∃ e, owns (tc c) (st1_0 t) fullShare ((dat c X Y S₀ C₀ B).before 0 t e))
        ∗ (∃ e, owns (tc c) (st1_1 t) fullShare ((dat c X Y S₀ C₀ B).before 1 t e))
        ∗ (∃ e, owns (tc c) (st1_2 t) fullShare ((dat c X Y S₀ C₀ B).before 2 t e))
        ∗ (∃ e, owns (tc c) (st1_3 t) fullShare ((dat c X Y S₀ C₀ B).before 3 t e)))
      ⊢ wp frame (wpE (defs₀ (F := F)) Variants.none (tc c) none) Set.univ (bodyAt1 t) (fun _ =>
          iprop((dat c X Y S₀ C₀ B).Φ t.succ ∗ (dat c X Y S₀ C₀ B).owesAt (none : HIx 1) t.succ
            ∗ owns (tc c) (st1_0 t) fullShare ((dat c X Y S₀ C₀ B).after 0 t)
            ∗ owns (tc c) (st1_1 t) fullShare ((dat c X Y S₀ C₀ B).after 1 t)
            ∗ owns (tc c) (st1_2 t) fullShare ((dat c X Y S₀ C₀ B).after 2 t)
            ∗ owns (tc c) (st1_3 t) fullShare ((dat c X Y S₀ C₀ B).after 3 t))) := by
  unfold bodyAt1
  simp only [before_0, before_1]
  rw [show (dat c X Y S₀ C₀ B).Φ t.succ = (dat c X Y S₀ C₀ B).Φ t.castSucc from rfl,
    show (dat c X Y S₀ C₀ B).owesAt (none : HIx 1) t.succ = (dat c X Y S₀ C₀ B).owesAt (none : HIx 1) t.castSucc from rfl,
    after_0, after_1, after_2, after_3, sumUpTo_succ, cntUpTo_succ]
  by_cases h0 : t.val = 0
  · rw [h0]
    iintro ⟨HΦ, Ho, ⟨%e0, H0⟩, ⟨%e1, H1⟩, ⟨%e2, H2⟩, ⟨%e3, H3⟩⟩
    iapply (run_A c (grid1.coords t) _ _ _ _ _ _ _ _ ((hcond1_0 t).mpr h0) (blkX X t) (blkY Y t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before_2 c X Y S₀ C₀ B t h0, before_3 c X Y S₀ C₀ B t h0]
    iintro ⟨HΦ, Ho, ⟨%e0, H0⟩, ⟨%e1, H1⟩, ⟨%e2, H2⟩, ⟨%e3, H3⟩⟩
    iapply (run_B c (grid1.coords t) _ _ _ _ _ _ _ _ (fun h => h0 ((hcond1_0 t).mp h)) (blkX X t) (blkY Y t) (sumUpTo X Y t.val) (cntUpTo Y t.val) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline rule's body obligation, at every point. -/
theorem body_obligation : BodyObligation (dat (F := F) c X Y S₀ C₀ B) (defs₀ (F := F)) Variants.none (none : HIx 1) Set.univ := fun t => by
  rw [bigSep_W1, bigSep_W1]
  exact sound_body c X Y S₀ C₀ B t

end Obligation

/-! ## The region -/

section Region

variable (X Y : Arr F) (S₀ C₀ : Wd F) (B : Set (SemLoc sig × HIx 1))
  (L : GSem nD τ sig → Finset (HIx 1)) (lv : GSem nD τ sig → HIx 1 → ℕ)

/-- A TensorCore array of device `c` held whole at `f`. -/
abbrev pl (c : Dev nD) (b : Ref sig .tc) (f : b.ty.Contents (Elt F)) : sProp 𝕄 := ((tc c).loc b) ↦{fullShare} f

/-- The region's arrays at contents `Fa` are the two operands and the two results held whole. -/
theorem arrays_eq (c : Dev nD) (Fa) :
    ((pdats X Y S₀ C₀ B 0 c).arrays Fa : sProp 𝕄)
      = iprop(pl c main_v0 (Fa 0) ∗ pl c main_v1 (Fa 1) ∗ pl c main_v5_0 (Fa 2) ∗ pl c main_v5_1 (Fa 3)) := by
  rw [Pipeline.arrays_eq (Pipeline.pin (pcfgs (F := F)) adm) (pdats X Y S₀ C₀ B) 0 c launch1.arr_whole
    ((pdats X Y S₀ C₀ B 0 c).share_full fun _ => rfl) Fa, bigSep_W1]

/-- What the region is entered from: the four arrays whole — the operands at `X` and `Y`, the results at anything —
    and the core owing nothing, its recorded waits within `B`. -/
def regPre (c : Dev nD) : sProp 𝕄 :=
  iprop(pl c main_v0 X ∗ pl c main_v1 Y ∗ pl c main_v5_0 S₀ ∗ pl c main_v5_1 C₀
    ∗ Pipeline.owesWithin c (0 : CellTallies nD τ sig (HIx 1)) B)

/-- What it leaves: the operands as they were, the results at the sum and the count over the twenty-eight blocks, the
    core owing nothing, its recorded waits within `B` and the pipeline's own. -/
def regPost (c : Dev nD) : sProp 𝕄 :=
  iprop(pl c main_v0 X ∗ pl c main_v1 Y ∗ pl c main_v5_0 (fun _ => tcSum X Y) ∗ pl c main_v5_1 (fun _ => tcCnt Y)
    ∗ Pipeline.owesWithin c (0 : CellTallies nD τ sig (HIx 1)) (B ∪ cfg1.waitPairs (none : HIx 1)))

/-- THE REGION as the pipeline rule's record: the four arrays into the pipeline, nothing else; no semaphore of the kernel's
    own; the body obligation above; nothing owed, so no wait evidence is needed. -/
def reg : Pipeline.RegionSeg (pcfgs (F := F)) adm (pdats X Y S₀ C₀ B) (none : HIx 1) defs₀ 𝒱₀ L lv 0 where
  win := launch1.win.to₀
  block_pos := launch1.block_pos
  stage_whole := launch1.stage_whole
  K := PEmpty
  osem k := k.elim
  ho := Pipeline.OwnSemFacts.none _
  hbody c := (body_obligation c X Y S₀ C₀ B).loose
  hwaits c := Pipeline.hwaits_of_owed_zero (pcfgs (F := F)) adm (pdats X Y S₀ C₀ B) (none : HIx 1) L lv 0 (fun _ _ => rfl) c
  pre := regPre X Y S₀ C₀ B
  post := regPost X Y B
  X _ := iprop(emp)
  Y _ := iprop(emp)
  Z _ := iprop(emp)
  hentry c := by
    rw [Pipeline.ownSems0_none, arrays_eq]
    unfold regPre
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun p hp => Or.inl (hW hp)
      iexact HO
    isplitr <;> iempintro
  hin c := by iintro -; iempintro
  hout c := by
    rw [Pipeline.ownSems0_none, scopedRest1_eq]
    iintro -; isplitr; · iempintro
    isplitr <;> iempintro
  hexit c := by
    rw [arrays_eq]
    unfold regPost
    rw [show (pdats X Y S₀ C₀ B 0 c).arrAt 0 (Pipeline.pin (pcfgs (F := F)) adm 0).N = X from arrAt_0 c X Y S₀ C₀ B,
      show (pdats X Y S₀ C₀ B 0 c).arrAt 1 (Pipeline.pin (pcfgs (F := F)) adm 0).N = Y from arrAt_1 c X Y S₀ C₀ B,
      show (pdats X Y S₀ C₀ B 0 c).arrAt 2 (Pipeline.pin (pcfgs (F := F)) adm 0).N = (fun _ => tcSum X Y) from arrAt_2 c X Y S₀ C₀ B,
      show (pdats X Y S₀ C₀ B 0 c).arrAt 3 (Pipeline.pin (pcfgs (F := F)) adm 0).N = (fun _ => tcCnt Y) from arrAt_3 c X Y S₀ C₀ B]
    iintro ⟨⟨H0, H1, H2, H3⟩, HO, -, -⟩
    imodintro
    isplitl [H0]; · iexact H0
    isplitl [H1]; · iexact H1
    isplitl [H2]; · iexact H2
    isplitl [H3]; · iexact H3
    iexact HO

set_option backward.isDefEq.respectTransparency.types false in
/-- THE REGION'S RUN on the TensorCore of `d`, inside the program over the extended body table: from the level facts,
    the region boundary, the four arrays, the core owing nothing and the pipeline's launch ghost state, the call runs
    to the boundary, the operands unchanged and the results at the sum and count, for any continuation. -/
theorem region_wp (d : Dev nD) {α : Type}
    (k : PUnit → Prog (TpuEff nD τ sig (Elt F) (SparseCore.Sig (ΛP (F := F)) 1) .tc) α) (Q : α → sProp 𝕄) :
    iprop(levAts L lv ∗ boundary (tc d) ∗ regPre X Y S₀ C₀ B d
        ∗ Pipeline.cellsGhost cfgs EP 0 d ∗ Pipeline.toksInit cfgs EP 0 d
        ∗ (iprop(boundary (tc d) ∗ regPost X Y B d) -∗ wp frame (wpE ((K (F := F)).defs D) 𝒱 (tc d) none) Set.univ (k ⟨⟩) Q))
      ⊢ wp frame (wpE ((K (F := F)).defs D) 𝒱 (tc d) none) Set.univ
          (Prog.lift (.customCall (SparseCore.inner (Pipeline.entry 0)) ()) >>= k) Q := by
  rw [wp_bind]
  refine .trans ?_ ((K (F := F)).wp_liftProg D 𝒱 (tc d) Set.univ none
    (.op (.customCall (Pipeline.entry 0) ()) .ret) fun a => wp frame (wpE ((K (F := F)).defs D) 𝒱 (tc d) none) Set.univ (k a) Q)
  refine .trans ?_ (Pipeline.RegionSeg.wp (pcfgs (F := F)) adm (pdats X Y S₀ C₀ B) (none : HIx 1) cellOf_inj EP defs₀ 𝒱₀ L lv
    (reg X Y S₀ C₀ B L lv) d none (fun _ h => by cases h) .ret _)
  rw [show (reg X Y S₀ C₀ B L lv).pre d = regPre X Y S₀ C₀ B d from rfl, show (reg X Y S₀ C₀ B L lv).post d = regPost X Y B d from rfl]
  iintro ⟨Hlev, Hb, Hpre, Hg, Ht, Hk⟩
  isplitl [Hk]
  · iintro H
    rw [wp_ret]
    imodintro
    iapply Hk
    iexact H
  isplitl [Hb]; · iexact Hb
  isplitl [Hpre]; · iexact Hpre
  isplitl [Hlev]; · iexact Hlev
  isplitl [Hg]; · iexact Hg
  iexact Ht

end Region

end Cert.Proof.TcRegionB

end
-- ==== Proof.KBMain.lean ====
/-
  The kernel's @main on the TensorCore of one device: two reshapes, the SparseCore call, the two sums of
  what the call left, the TensorCore accumulation region, and the five operations that combine the four scalars
  into the result — run from what the launch deals the TensorCore to the result array at a pure term of the two
  reshaped arguments, the arguments unchanged.
-/
import proofs.«210622_g27255862460721_cont_9to1_1214_20_alg».proof.Proof.KBPay
import proofs.«210622_g27255862460721_cont_9to1_1214_20_alg».proof.Proof.TcRegionB
import Idealize.ShloMosaic.Lib.Pipeline.Frame

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq)
open Cert.Proof.TileSpecB (scS scC)
open Cert.Proof.TcRegionB (tcSum tcCnt region_wp regPre regPost)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's host operations -/

abbrev opR0 : HloOp τ sig (Elt F) := StableHlo.reshape main_arg0 main_v0 rfl shapeCasts_S2x8192x2048_S16384x2048
abbrev opR1 : HloOp τ sig (Elt F) := StableHlo.reshape main_arg1 main_v1 rfl shapeCasts_S2x8192x2048_S16384x2048
abbrev opC0 : HloOp τ sig (Elt F) := StableHlo.nullary main_cst (constant S_ .f32 0x00000000#32)
abbrev opS : HloOp τ sig (Elt F) := StableHlo.binary main_v2_0 main_cst main_v3
  ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F))
abbrev opC1 : HloOp τ sig (Elt F) := StableHlo.nullary main_cst_0 (constant S_ .f32 0x00000000#32)
abbrev opC : HloOp τ sig (Elt F) := StableHlo.binary main_v2_1 main_cst_0 main_v4
  ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F))
abbrev opV6 : HloOp τ sig (Elt F) := StableHlo.reshape main_v5_0 main_v6 rfl shapeCasts_S1_S_
abbrev opV7 : HloOp τ sig (Elt F) := StableHlo.reshape main_v5_1 main_v7 rfl shapeCasts_S1_S_
abbrev opV8 : HloOp τ sig (Elt F) := StableHlo.binary main_v3 main_v6 main_v8
  (addf : (⟨S_, .f32⟩ : BufTy).Contents (Elt F) → (⟨S_, .f32⟩ : BufTy).Contents (Elt F) → (⟨S_, .f32⟩ : BufTy).Contents (Elt F))
abbrev opV9 : HloOp τ sig (Elt F) := StableHlo.binary main_v4 main_v7 main_v9
  (addf : (⟨S_, .f32⟩ : BufTy).Contents (Elt F) → (⟨S_, .f32⟩ : BufTy).Contents (Elt F) → (⟨S_, .f32⟩ : BufTy).Contents (Elt F))
abbrev opV10 : HloOp τ sig (Elt F) := StableHlo.binary main_v8 main_v9 main_v10
  (Host.divf : (⟨S_, .f32⟩ : BufTy).Contents (Elt F) → (⟨S_, .f32⟩ : BufTy).Contents (Elt F) → (⟨S_, .f32⟩ : BufTy).Contents (Elt F))

/-- The three host stretches: before the SparseCore call, between the two calls, after the region. -/
def ops1 : List (HloOp τ sig (Elt F)) := [opR0, opR1]
def ops2 : List (HloOp τ sig (Elt F)) := [opC0, opS, opC1, opC]
def ops3 : List (HloOp τ sig (Elt F)) := [opV6, opV7, opV8, opV9, opV10]

/-- @main is the three stretches around the two calls. -/
theorem main_eq (d : Dev nD) : main (F := F) d
    = (seq ops1 >>= fun _ => (K (F := F)).run d 0 >>= fun _ => seq ops2 >>= fun _ =>
        Prog.lift (.customCall (SparseCore.inner (Pipeline.entry 0)) ()) >>= fun _ => seq ops3 >>= fun _ => pure ⟨⟩) := rfl

/-- Every unscoped TensorCore buffer, the set the host operations run within. -/
abbrev SU : Finset (DevRef τ sig) := Pipeline.ucRefs τ sig

theorem ops1_sub : ∀ op ∈ (ops1 : List (HloOp τ sig (Elt F))), op.bufs ⊆ SU := by
  intro op h; simp only [ops1, List.mem_cons, List.mem_nil_iff, or_false] at h
  rcases h with rfl | rfl <;> exact Pipeline.sub_ucRefs _ (by simp)
theorem ops1_fresh : ∀ op ∈ (ops1 : List (HloOp τ sig (Elt F))), op.fresh = ∅ := by
  intro op h; simp only [ops1, List.mem_cons, List.mem_nil_iff, or_false] at h
  rcases h with rfl | rfl <;> rfl

/-- The launch valuation. -/
def V0 (d : Dev nD) : Valuation τ sig (Elt F) := fun b => m (d, b)

theorem unscoped_held (d : Dev nD) :
    (unscopedBufs d (fun b => m ((SparseCore.T d).loc b)) : sProp 𝕄) = held (T d) SU (V0 m d) :=
  Pipeline.unscopedBufs_held d (V0 m d)

/-- After the two reshapes. -/
def V1 (d : Dev nD) : Valuation τ sig (Elt F) := after ops1 (V0 m d)

/-- The two reshaped arguments: what the SparseCore call and the region read. -/
def X0 (d : Dev nD) : Arr2 F := V1 m d (Proc.devRef .tc main_v0)
def Y0 (d : Dev nD) : Arr2 F := V1 m d (Proc.devRef .tc main_v1)

theorem X0_eq (d : Dev nD) : X0 m d = shapeCast S16384x2048 (m ((SparseCore.T d).loc main_arg0)) shapeCasts_S2x8192x2048_S16384x2048 := by
  unfold X0 V1 ops1
  after_results
  rfl
theorem Y0_eq (d : Dev nD) : Y0 m d = shapeCast S16384x2048 (m ((SparseCore.T d).loc main_arg1)) shapeCasts_S2x8192x2048_S16384x2048 := by
  unfold Y0 V1 ops1
  after_results
  rfl

/-! ## The valuations, stage by stage -/

abbrev a0' : DevRef τ sig := Proc.devRef .tc main_arg0
abbrev a1' : DevRef τ sig := Proc.devRef .tc main_arg1
abbrev v0' : DevRef τ sig := Proc.devRef .tc main_v0
abbrev v1' : DevRef τ sig := Proc.devRef .tc main_v1
abbrev s' : DevRef τ sig := Proc.devRef .tc main_v2_0
abbrev c' : DevRef τ sig := Proc.devRef .tc main_v2_1
abbrev o0' : DevRef τ sig := Proc.devRef .tc main_v5_0
abbrev o1' : DevRef τ sig := Proc.devRef .tc main_v5_1
abbrev r' : DevRef τ sig := Proc.devRef .tc main_v10

/-- After the SparseCore call: the two result arrays at what the tiles accumulated. -/
def V2 (d : Dev nD) : Valuation τ sig (Elt F) :=
  Function.update (Function.update (V1 m d) s' (scS (X0 m d) (Y0 m d))) c' (scC (X0 m d) (Y0 m d))
/-- After the two sums. -/
def V3 (d : Dev nD) : Valuation τ sig (Elt F) := after ops2 (V2 m d)
/-- After the region: its two results at the sum and the count. -/
def V4 (d : Dev nD) : Valuation τ sig (Elt F) :=
  Function.update (Function.update (V3 m d) o0' (fun _ => tcSum (X0 m d) (Y0 m d))) o1' (fun _ => tcCnt (Y0 m d))
/-- At the end. -/
def V5 (d : Dev nD) : Valuation τ sig (Elt F) := after ops3 (V4 m d)

/-- The result, as a pure term of the two reshaped arguments. -/
def kres (X Y : Arr2 F) : S_.Idx → F .f32 :=
  Host.divf
    (addf (Host.reduceAdd (scS X Y) (constant S_ .f32 0x00000000#32) reducesTo_S256_S_d0 h_S_)
      (shapeCast S_ (fun _ : S1.Idx => tcSum X Y) shapeCasts_S1_S_))
    (addf (Host.reduceAdd (scC X Y) (constant S_ .f32 0x00000000#32) reducesTo_S256_S_d0 h_S_)
      (shapeCast S_ (fun _ : S1.Idx => tcCnt Y) shapeCasts_S1_S_))

theorem V2_v0 (d : Dev nD) : V2 m d v0' = X0 m d :=
  (Function.update_of_ne (show v0' ≠ c' by decide) _ _).trans (Function.update_of_ne (show v0' ≠ s' by decide) _ _)
theorem V2_v1 (d : Dev nD) : V2 m d v1' = Y0 m d :=
  (Function.update_of_ne (show v1' ≠ c' by decide) _ _).trans (Function.update_of_ne (show v1' ≠ s' by decide) _ _)
theorem V2_s (d : Dev nD) : V2 m d s' = scS (X0 m d) (Y0 m d) :=
  (Function.update_of_ne (show s' ≠ c' by decide) _ _).trans (Function.update_self _ _ _)
theorem V2_c (d : Dev nD) : V2 m d c' = scC (X0 m d) (Y0 m d) := Function.update_self _ _ _
theorem V2_of_ne (d : Dev nD) (b : DevRef τ sig) (hs : b ≠ s') (hc : b ≠ c') : V2 m d b = V1 m d b :=
  (Function.update_of_ne hc _ _).trans (Function.update_of_ne hs _ _)

theorem V3_v0 (d : Dev nD) : V3 m d v0' = X0 m d := by
  unfold V3 ops2; after_results; exact V2_v0 m d
theorem V3_v1 (d : Dev nD) : V3 m d v1' = Y0 m d := by
  unfold V3 ops2; after_results; exact V2_v1 m d
theorem V3_v3 (d : Dev nD) : V3 m d (Proc.devRef .tc main_v3)
    = Host.reduceAdd (scS (X0 m d) (Y0 m d)) (constant S_ .f32 0x00000000#32) reducesTo_S256_S_d0 h_S_ := by
  unfold V3 ops2; after_results; rw [V2_s]
theorem V3_v4 (d : Dev nD) : V3 m d (Proc.devRef .tc main_v4)
    = Host.reduceAdd (scC (X0 m d) (Y0 m d)) (constant S_ .f32 0x00000000#32) reducesTo_S256_S_d0 h_S_ := by
  unfold V3 ops2; after_results; rw [V2_c]
theorem V3_a0 (d : Dev nD) : V3 m d a0' = m (d, a0') := by
  unfold V3 ops2; after_results; rw [V2_of_ne m d a0' (by decide) (by decide)]; unfold V1 ops1; after_results; rfl
theorem V3_a1 (d : Dev nD) : V3 m d a1' = m (d, a1') := by
  unfold V3 ops2; after_results; rw [V2_of_ne m d a1' (by decide) (by decide)]; unfold V1 ops1; after_results; rfl

theorem V4_of_ne (d : Dev nD) (b : DevRef τ sig) (h0 : b ≠ o0') (h1 : b ≠ o1') : V4 m d b = V3 m d b :=
  (Function.update_of_ne h1 _ _).trans (Function.update_of_ne h0 _ _)
theorem V4_o0 (d : Dev nD) : V4 m d o0' = fun _ => tcSum (X0 m d) (Y0 m d) :=
  (Function.update_of_ne (show o0' ≠ o1' by decide) _ _).trans (Function.update_self _ _ _)
theorem V4_o1 (d : Dev nD) : V4 m d o1' = fun _ => tcCnt (Y0 m d) := Function.update_self _ _ _

theorem V5_r (d : Dev nD) : V5 m d r' = kres (X0 m d) (Y0 m d) := by
  unfold V5 ops3; after_results
  rw [V4_of_ne m d _ (by decide) (by decide), V4_of_ne m d (Proc.devRef .tc main_v4) (by decide) (by decide), V4_o0, V4_o1, V3_v3, V3_v4]
  rfl
theorem V5_a0 (d : Dev nD) : V5 m d a0' = m (d, a0') := by
  unfold V5 ops3; after_results; rw [V4_of_ne m d a0' (by decide) (by decide)]; exact V3_a0 m d
theorem V5_a1 (d : Dev nD) : V5 m d a1' = m (d, a1') := by
  unfold V5 ops3; after_results; rw [V4_of_ne m d a1' (by decide) (by decide)]; exact V3_a1 m d

theorem ops2_sub : ∀ op ∈ (ops2 : List (HloOp τ sig (Elt F))), op.bufs ⊆ SU := by
  intro op h; simp only [ops2, List.mem_cons, List.mem_nil_iff, or_false] at h
  rcases h with rfl | rfl | rfl | rfl <;> exact Pipeline.sub_ucRefs _ (by simp)
theorem ops2_fresh : ∀ op ∈ (ops2 : List (HloOp τ sig (Elt F))), op.fresh = ∅ := by
  intro op h; simp only [ops2, List.mem_cons, List.mem_nil_iff, or_false] at h
  rcases h with rfl | rfl | rfl | rfl <;> rfl
theorem ops3_sub : ∀ op ∈ (ops3 : List (HloOp τ sig (Elt F))), op.bufs ⊆ SU := by
  intro op h; simp only [ops3, List.mem_cons, List.mem_nil_iff, or_false] at h
  rcases h with rfl | rfl | rfl | rfl | rfl <;> exact Pipeline.sub_ucRefs _ (by simp)
theorem ops3_fresh : ∀ op ∈ (ops3 : List (HloOp τ sig (Elt F))), op.fresh = ∅ := by
  intro op h; simp only [ops3, List.mem_cons, List.mem_nil_iff, or_false] at h
  rcases h with rfl | rfl | rfl | rfl | rfl <;> rfl

/-! ## The arrays the two calls take, and the three the claim reads -/

/-- The SparseCore call's four arrays, the region's four, the claim's three. -/
abbrev S4 : Finset (DevRef τ sig) := {v0', v1', s', c'}
abbrev R4 : Finset (DevRef τ sig) := {v0', v1', o0', o1'}
abbrev F3 : Finset (DevRef τ sig) := {a0', a1', r'}

theorem S4_sub : S4 ⊆ SU := by decide
theorem R4_sub : R4 ⊆ SU := by decide
theorem F3_sub : F3 ⊆ SU := by decide

omit [FloatOps F] in
theorem held_S4 (d : Dev nD) (W : Valuation τ sig (Elt F)) :
    (held (T d) S4 W : sProp 𝕄) = iprop((xLoc d ↦{fullShare} W v0') ∗ (tLoc d ↦{fullShare} W v1') ∗ (sLoc d ↦{fullShare} W s') ∗ (cLoc d ↦{fullShare} W c')) := by
  unfold held S4
  rw [SparseCore.bigSep_insert' (by decide), SparseCore.bigSep_insert' (by decide), SparseCore.bigSep_insert' (by decide), bigSep_singleton]
omit [FloatOps F] in
theorem held_R4 (d : Dev nD) (W : Valuation τ sig (Elt F)) :
    (held (T d) R4 W : sProp 𝕄) = iprop((xLoc d ↦{fullShare} W v0') ∗ (tLoc d ↦{fullShare} W v1')
      ∗ ((SparseCore.T d).loc main_v5_0 ↦{fullShare} W o0') ∗ ((SparseCore.T d).loc main_v5_1 ↦{fullShare} W o1')) := by
  unfold held R4
  rw [SparseCore.bigSep_insert' (by decide), SparseCore.bigSep_insert' (by decide), SparseCore.bigSep_insert' (by decide), bigSep_singleton]
omit [FloatOps F] in
theorem held_F3 (d : Dev nD) (W : Valuation τ sig (Elt F)) :
    (held (T d) F3 W : sProp 𝕄) = iprop(((SparseCore.T d).loc main_arg0 ↦{fullShare} W a0') ∗ ((SparseCore.T d).loc main_arg1 ↦{fullShare} W a1')
      ∗ ((SparseCore.T d).loc main_v10 ↦{fullShare} W r')) := by
  unfold held F3
  rw [SparseCore.bigSep_insert' (by decide), SparseCore.bigSep_insert' (by decide), bigSep_singleton]

/-- The call's operands and results, for its one SparseCore. -/
theorem st0_eq (d : Dev nD) (X Y : Dev nD → Arr2 F) :
    (bigSep Finset.univ fun c : Fin ((K (F := F)).nCore 0) => (P X Y).st 0 d c) = stF X Y d := by
  show (bigSep (Finset.univ : Finset (Fin 1)) fun _ => stF X Y d) = _
  rw [show (Finset.univ : Finset (Fin 1)) = {0} by decide, bigSep_singleton]
theorem dn0_eq (d : Dev nD) (X Y : Dev nD → Arr2 F) :
    (bigSep Finset.univ fun c : Fin ((K (F := F)).nCore 0) => (P X Y).dn 0 d c) = dnF X Y d := by
  show (bigSep (Finset.univ : Finset (Fin 1)) fun _ => dnF X Y d) = _
  rw [show (Finset.univ : Finset (Fin 1)) = {0} by decide, bigSep_singleton]

/-- What @main leaves the claim: the two arguments at their launch contents, the result at the pure term. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_v10 ↦{fullShare} kres (X0 m d) (Y0 m d)))

/-- The recorded waits the TensorCore may hold after the call: at levels of the first call. -/
def B8 (d : Dev nD) : Set (SemLoc sig × HIx 1) := {p | (K (F := F)).lev (SparseCore.T d, p.1) p.2 ≤ 8}

/-! ## The held set, split at each call's arrays -/

open Idealize.ShloMosaic.TcCoe in
theorem e1 (d : Dev nD) : (held (d.tc : Thread nD τ) SU (after ops1 (V0 m d)) : sProp 𝕄)
    = iprop(((xLoc d ↦{fullShare} X0 m d) ∗ (tLoc d ↦{fullShare} Y0 m d) ∗ (sLoc d ↦{fullShare} V1 m d s') ∗ (cLoc d ↦{fullShare} V1 m d c'))
        ∗ held (T d) (SU \ S4) (V1 m d)) :=
  (held_sub_split (T d) S4_sub (V1 m d)).trans (by rw [held_S4]; rfl)

open Idealize.ShloMosaic.TcCoe in
theorem e2 (d : Dev nD) : (held (d.tc : Thread nD τ) SU (V2 m d) : sProp 𝕄)
    = iprop(((xLoc d ↦{fullShare} X0 m d) ∗ (tLoc d ↦{fullShare} Y0 m d) ∗ (sLoc d ↦{fullShare} scS (X0 m d) (Y0 m d)) ∗ (cLoc d ↦{fullShare} scC (X0 m d) (Y0 m d)))
        ∗ held (T d) (SU \ S4) (V1 m d)) :=
  (held_sub_split (T d) S4_sub (V2 m d)).trans (by
    rw [held_S4, V2_v0, V2_v1, V2_s, V2_c, held_congr (T d) (S := SU \ S4) (V := V2 m d) (V' := V1 m d) fun b hb => by
      have hb' := (Finset.mem_sdiff.mp hb).2
      exact V2_of_ne m d b (fun h => hb' (by rw [h]; decide)) (fun h => hb' (by rw [h]; decide))])

open Idealize.ShloMosaic.TcCoe in
theorem e3 (d : Dev nD) : (held (d.tc : Thread nD τ) SU (after ops2 (V2 m d)) : sProp 𝕄)
    = iprop(((xLoc d ↦{fullShare} X0 m d) ∗ (tLoc d ↦{fullShare} Y0 m d)
          ∗ ((SparseCore.T d).loc main_v5_0 ↦{fullShare} V3 m d o0') ∗ ((SparseCore.T d).loc main_v5_1 ↦{fullShare} V3 m d o1'))
        ∗ held (T d) (SU \ R4) (V3 m d)) :=
  (held_sub_split (T d) R4_sub (V3 m d)).trans (by rw [held_R4, V3_v0, V3_v1])

open Idealize.ShloMosaic.TcCoe in
theorem e4 (d : Dev nD) : (held (d.tc : Thread nD τ) SU (V4 m d) : sProp 𝕄)
    = iprop(((xLoc d ↦{fullShare} X0 m d) ∗ (tLoc d ↦{fullShare} Y0 m d)
          ∗ ((SparseCore.T d).loc main_v5_0 ↦{fullShare} fun _ => tcSum (X0 m d) (Y0 m d))
          ∗ ((SparseCore.T d).loc main_v5_1 ↦{fullShare} fun _ => tcCnt (Y0 m d)))
        ∗ held (T d) (SU \ R4) (V3 m d)) :=
  (held_sub_split (T d) R4_sub (V4 m d)).trans (by
    rw [held_R4, V4_of_ne m d v0' (by decide) (by decide), V4_of_ne m d v1' (by decide) (by decide), V3_v0, V3_v1, V4_o0, V4_o1,
      held_congr (T d) (S := SU \ R4) (V := V4 m d) (V' := V3 m d) fun b hb => by
        have hb' := (Finset.mem_sdiff.mp hb).2
        exact V4_of_ne m d b (fun h => hb' (by rw [h]; decide)) (fun h => hb' (by rw [h]; decide))])

open Idealize.ShloMosaic.TcCoe in
theorem e5 (d : Dev nD) : (held (d.tc : Thread nD τ) SU (after ops3 (V4 m d)) : sProp 𝕄)
    = iprop((((SparseCore.T d).loc main_arg0 ↦{fullShare} m ((SparseCore.T d).loc main_arg0))
          ∗ ((SparseCore.T d).loc main_arg1 ↦{fullShare} m ((SparseCore.T d).loc main_arg1))
          ∗ ((SparseCore.T d).loc main_v10 ↦{fullShare} kres (X0 m d) (Y0 m d)))
        ∗ held (T d) (SU \ F3) (V5 m d)) :=
  (held_sub_split (T d) F3_sub (V5 m d)).trans (by rw [held_F3, V5_a0, V5_a1, V5_r])

set_option backward.isDefEq.respectTransparency.types false in
set_option maxHeartbeats 2000000 in
/-- @main on device `d`'s TensorCore: the reshapes, the call (from the two reshaped arrays and the two result arrays,
    back at what the tiles accumulated), the two sums, the region (from the two reshaped arrays again, its results at the
    sum and the count), the five last operations; the arguments kept, the result at the pure term. -/
theorem hmain (κ : GSem nD τ sig → ℕ) (d : Dev nD) :
    iprop((K (F := F)).ctx EH (P (X0 m) (Y0 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, Hg, Ht⟩
  -- the two reshapes
  iapply (wp_seq 𝒱 none Set.univ d SU _ ops1 ops1_sub ops1_fresh (V0 m d)) $$ [Hb Hheld]
  · isplitl [Hb]; · iexact Hb
    iexact Hheld
  rw [e1 m d]
  iintro ⟨Hb, ⟨Hx, Hy, Hs, Hc⟩, Hrest⟩
  -- the call
  rw [wp_bind]
  iapply ((K (F := F)).wp_run (D (F := F)) 𝒱 (EH := EH) (P := P (X0 m) (Y0 m)) κ d 0) $$ [Hst Hx Hy Hs Hc Hb Hrest Hg Ht]
  isplitr; · iexact Hctx
  isplitl [Hst]; · iexact Hst
  isplitl [Hx Hy Hs Hc]
  · rw [st0_eq]; unfold stF
    isplitl [Hx]; · iexact Hx
    isplitl [Hy]; · iexact Hy
    isplitl [Hs]; · iexists _; iexact Hs
    iexists _; iexact Hc
  rw [dn0_eq]; unfold dnF
  iintro ⟨Hst, Hx, Hy, Hs, Hc⟩
  -- the two sums
  iapply (wp_seq 𝒱 none Set.univ d SU _ ops2 ops2_sub ops2_fresh (V2 m d)) $$ [Hb Hx Hy Hs Hc Hrest]
  · isplitl [Hb]; · iexact Hb
    rw [e2 m d]
    isplitr [Hrest]
    · isplitl [Hx]; · iexact Hx
      isplitl [Hy]; · iexact Hy
      isplitl [Hs]; · iexact Hs
      iexact Hc
    iexact Hrest
  rw [e3 m d]
  iintro ⟨Hb, ⟨Hx, Hy, Ho0, Ho1⟩, Hrest⟩
  -- the TensorCore's handshake state after the call: every start it owed is signalled
  have hO1 : (K (F := F)).Otc d (((0 : Fin 1) : ℕ) + 1) = 0 := (K (F := F)).Otc_end d le_rfl
  have hO1' : (K (F := F)).Otc d 1 = 0 := (K (F := F)).Otc_end d le_rfl
  unfold SparseCore.Cfg.tcSt
  rw [hO1, hO1']
  icases Hst with ⟨⟨%W, %hW, HO⟩, Hst'⟩
  -- the region
  iapply (region_wp (X0 m d) (Y0 m d) (V3 m d o0') (V3 m d o1') (B8 (F := F) d) (K (F := F)).L (K (F := F)).lev d _ _) $$ [Hb Hx Hy Ho0 Ho1 HO Hg Ht Hrest Hst']
  isplitr
  · iapply (SparseCore.Cfg.ctx_levAts κ); iexact Hctx
  isplitl [Hb]; · iexact Hb
  isplitl [Hx Hy Ho0 Ho1 HO]
  · unfold regPre Pipeline.owesWithin
    isplitl [Hx]; · iexact Hx
    isplitl [Hy]; · iexact Hy
    isplitl [Ho0]; · iexact Ho0
    isplitl [Ho1]; · iexact Ho1
    iexists W; isplitr; · ipureintro; exact fun p hp => hW p hp
    iexact HO
  isplitl [Hg]; · iexact Hg
  isplitl [Ht]; · iexact Ht
  unfold regPost Pipeline.owesWithin
  iintro ⟨Hb, Hx, Hy, Ho0, Ho1, %W', %hW', HO⟩
  -- the last five operations
  iapply (wp_seq 𝒱 none Set.univ d SU _ ops3 ops3_sub ops3_fresh (V4 m d)) $$ [Hb Hx Hy Ho0 Ho1 Hrest]
  · isplitl [Hb]; · iexact Hb
    rw [e4 m d]
    isplitr [Hrest]
    · isplitl [Hx]; · iexact Hx
      isplitl [Hy]; · iexact Hy
      isplitl [Ho0]; · iexact Ho0
      iexact Ho1
    iexact Hrest
  rw [e5 m d]
  iintro ⟨Hb, ⟨Ha0, Ha1, Hr⟩, -⟩
  rw [wp_pure]; imodintro
  isplitr [Ha0 Ha1 Hr]
  · isplitl [HO]
    · iexists W'; isplitr
      · ipureintro; intro p hp
        rcases hW' (Finset.mem_coe.mpr hp) with h | ⟨w, s, hps⟩
        · exact h
        · rw [hps]; exact Nat.zero_le _
      iexact HO
    iexact Hst'
  unfold FIN
  isplitl [Ha0]; · iexact Ha0
  isplitl [Ha1]; · iexact Ha1
  iexact Hr

/-! ## What the final memory says -/

/-- The claim's reading of a final state on device `d`: the two arguments as launched, the result at the pure term. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v10) = kres (X0 m d) (Y0 m d)

theorem hfin (d : Dev nD) (s' : Phys nD τ sig (Elt F)) : iprop(FIN m d ∗ SI s') ⊢ (⌜fq m d s'⌝ : sProp 𝕄) := by
  unfold FIN
  iintro ⟨⟨Ha0, Ha1, Hr⟩, HSI⟩
  ihave %h0 := (SI_pointsTo_agree (st := s') (ℓ := (SparseCore.T d).loc main_arg0) (I := Finset.univ) (q := fullShare)
    (f := m ((SparseCore.T d).loc main_arg0))) $$ [HSI Ha0]
  · isplitl [HSI] <;> iassumption
  ihave %h1 := (SI_pointsTo_agree (st := s') (ℓ := (SparseCore.T d).loc main_arg1) (I := Finset.univ) (q := fullShare)
    (f := m ((SparseCore.T d).loc main_arg1))) $$ [HSI Ha1]
  · isplitl [HSI] <;> iassumption
  ihave %h2 := (SI_pointsTo_agree (st := s') (ℓ := (SparseCore.T d).loc main_v10) (I := Finset.univ) (q := fullShare)
    (f := kres (X0 m d) (Y0 m d))) $$ [HSI Hr]
  · isplitl [HSI] <;> iassumption
  ipureintro
  exact ⟨funext fun i => h0 i (Finset.mem_univ i), funext fun i => h1 i (Finset.mem_univ i), funext fun i => h2 i (Finset.mem_univ i)⟩

/-! ## The launch element -/

/-- The launch element of the ghost state: the handshake cells' rounds, the pipeline's staging cells' rounds, no counter. -/
def u₀ : UU := (initOf (K (F := F)).hsCells (K (F := F)).hsToks,
  (initOf (Pipeline.cells cfgs cellOf_inj) (Pipeline.launchToks cfgs cellOf_inj), (1 : Counters)))

omit [FloatOps F] in
theorem bigSep_emp' {I : Type} (s : Finset I) : (bigSep s fun _ => iprop(emp)) = (iprop(emp) : sProp 𝕄) := bigSep_emp_const s

/-- The pipeline's component of the launch element funds each device's staging cells' ghost state and duty tokens. -/
theorem fund_pipe : (BI.own ((embR : Emb (UP × Counters) 𝕄)
      (initOf (Pipeline.cells cfgs cellOf_inj) (Pipeline.launchToks cfgs cellOf_inj), (1 : Counters))) : sProp 𝕄)
    ⊢ iprop(|==> ((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))) :=
  (own_pair_emb (embR : Emb (UP × Counters) 𝕄) _ _).trans (sep_elim_left.trans (Pipeline.fund_ghost cfgs (EP (F := F)) cellOf_inj))

/-- From the launch element: the handshakes' rounds for the launch theorem, each device's staging cells' ghost state
    and duty tokens for its region, and nothing for the kernels' own. -/
theorem hu₀ (X Y : Dev nD → Arr2 F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X Y).x q thr) := by
  unfold u₀
  refine (ownU_pair _ _).trans ((sep_mono_right (fund_pipe (F := F))).trans ?_)
  iintro ⟨HH, Hgt⟩
  imod Hgt with ⟨Hg, Ht⟩
  imodintro
  isplitl [HH]; · iexact HH
  isplitl [Hg Ht]
  · unfold G
    rw [bigSep_sep']
    simp only [show (Finset.univ : Finset (Fin 1)) = {0} by decide, bigSep_singleton]
    isplitl [Hg]; · iexact Hg
    iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.KB

end
-- ==== Proof.KBSplit.lean ====
/-
  How the SparseCore's operands split among its sixteen tiles and the results gather: a read token of each big array per tile (the
  remainder of the share set aside until they come back), the two [256] arrays by their sixteen lane groups.
-/
import proofs.«210622_g27255862460721_cont_9to1_1214_20_alg».proof.Proof.KBPay

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.TileSpecB (scS scC)

variable {F : FTy → Type} [FloatOps F]

local notation "𝕄" => MT nD τ sig (HIx 1) (Elt F) ℕ UU ℕ

omit [FloatOps F] in
theorem laneSet_eq (i : Fin 16) : laneSet i = (lanes i).set := by
  show ((View.whole (main_v2_0_scv : Ref sig .scVector)).slice (lanes i)).set = _
  rw [View.set_slice]; exact Finset.map_refl
omit [FloatOps F] in
theorem lanes_disjoint : ∀ i ∈ (Finset.univ : Finset (Fin 16)), ∀ j ∈ (Finset.univ : Finset (Fin 16)), i ≠ j → Disjoint (laneSet i) (laneSet j) :=
  fun i _ j _ h => by rw [laneSet_eq, laneSet_eq]; exact Rect.part_disjoint hdiv16 h
omit [FloatOps F] in
theorem lanes_cover : (Finset.univ : Finset (Fin 16)).biUnion laneSet = Finset.univ :=
  (Finset.biUnion_congr rfl fun i _ => laneSet_eq i).trans (Rect.biUnion_part hdiv16)

omit [FloatOps F] in
theorem sPts_lanes (d : Dev nD) (f : Buf (Elt F) (sLoc d)) :
    (sLoc d ↦{fullShare} f : sProp 𝕄) = bigSep Finset.univ fun i : Fin 16 => sLoc d ↦[laneSet i]{fullShare} f := by
  rw [← pointsTo_biUnion Finset.univ (ℓ := sLoc d) laneSet lanes_disjoint, lanes_cover]; try rfl
omit [FloatOps F] in
theorem cPts_lanes (d : Dev nD) (f : Buf (Elt F) (cLoc d)) :
    (cLoc d ↦{fullShare} f : sProp 𝕄) = bigSep Finset.univ fun i : Fin 16 => cLoc d ↦[laneSet i]{fullShare} f := by
  rw [← pointsTo_biUnion Finset.univ (ℓ := cLoc d) laneSet lanes_disjoint, lanes_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable (X Y : Dev nD → Arr2 F)

omit [FloatOps F] in
theorem pts_set_ex {ℓ : Loc nD τ sig} {A : Finset (Idx ℓ)} {q : PosShare TreeShare} (f : Buf (Elt F) ℓ) :
    (ℓ ↦[A]{q} f : sProp 𝕄) ⊢ iprop(∃ g, ℓ ↦[A]{q} g) := by
  iintro H; iexists f; iexact H
omit [FloatOps F] in
theorem s_lanes_ex (d : Dev nD) (fs : Buf (Elt F) (sLoc d)) :
    (bigSep Finset.univ fun i : Fin 16 => (sLoc d ↦[laneSet i]{fullShare} fs : sProp 𝕄))
      ⊢ bigSep Finset.univ fun i : Fin 16 => iprop(∃ f, sLoc d ↦[laneSet i]{fullShare} f) :=
  bigSep_mono fun _ _ => pts_set_ex fs
omit [FloatOps F] in
theorem c_lanes_ex (d : Dev nD) (fc : Buf (Elt F) (cLoc d)) :
    (bigSep Finset.univ fun i : Fin 16 => (cLoc d ↦[laneSet i]{fullShare} fc : sProp 𝕄))
      ⊢ bigSep Finset.univ fun i : Fin 16 => iprop(∃ f, cLoc d ↦[laneSet i]{fullShare} f) :=
  bigSep_mono fun _ _ => pts_set_ex fc

/-- The split and the gather, over the sixteen tiles. -/
theorem split_aux (d : Dev nD) (A B : Arr2 F) (sA cA : S256.Idx → F .f32) :
    (iprop((xLoc d ↦{fullShare} A) ∗ (tLoc d ↦{fullShare} B) ∗ (∃ f, sLoc d ↦{fullShare} f) ∗ (∃ f, cLoc d ↦{fullShare} f)) : sProp 𝕄) ⊢ |={Set.univ}=> iprop(
      (bigSep Finset.univ fun i : Fin 16 =>
        iprop((xLoc d ↦{Transfers.shareTok fullShare 16 i} A) ∗ (tLoc d ↦{Transfers.shareTok fullShare 16 i} B)
          ∗ (∃ f, sLoc d ↦[laneSet i]{fullShare} f) ∗ (∃ f, cLoc d ↦[laneSet i]{fullShare} f)))
      ∗ ((bigSep Finset.univ fun i : Fin 16 =>
          iprop((xLoc d ↦{Transfers.shareTok fullShare 16 i} A) ∗ (tLoc d ↦{Transfers.shareTok fullShare 16 i} B)
            ∗ (sLoc d ↦[laneSet i]{fullShare} sA) ∗ (cLoc d ↦[laneSet i]{fullShare} cA)))
          -∗ iprop((xLoc d ↦{fullShare} A) ∗ (tLoc d ↦{fullShare} B) ∗ (sLoc d ↦{fullShare} sA) ∗ (cLoc d ↦{fullShare} cA)))) := by
  rw [bigSep_sep', bigSep_sep', bigSep_sep', bigSep_sep', bigSep_sep', bigSep_sep', sPts_lanes d sA, cPts_lanes d cA]
  iintro ⟨Hx, Hy, ⟨%fs, Hs⟩, ⟨%fc, Hc⟩⟩
  ihave Hx' := (Transfers.pointsTo_toks_split fullShare 16) $$ Hx
  icases Hx' with ⟨Hxr, Hxt⟩
  ihave Hy' := (Transfers.pointsTo_toks_split fullShare 16) $$ Hy
  icases Hy' with ⟨Hyr, Hyt⟩
  ihave Hs' := (Entails.of_eq (sPts_lanes (F := F) d fs)) $$ Hs
  ihave Hc' := (Entails.of_eq (cPts_lanes (F := F) d fc)) $$ Hc
  imodintro
  isplitl [Hxt Hyt Hs' Hc']
  · isplitl [Hxt]; · iexact Hxt
    isplitl [Hyt]; · iexact Hyt
    isplitl [Hs']
    · iapply (s_lanes_ex (F := F) d fs); iexact Hs'
    · iapply (c_lanes_ex (F := F) d fc); iexact Hc'
  iintro ⟨Hxt, Hyt, Hs, Hc⟩
  isplitl [Hxr Hxt]
  · iapply (Transfers.pointsTo_toks_join fullShare 16); isplitl [Hxr] <;> iassumption
  isplitl [Hyr Hyt]
  · iapply (Transfers.pointsTo_toks_join fullShare 16); isplitl [Hyr] <;> iassumption
  isplitl [Hs]; · iexact Hs
  iexact Hc

variable (X Y : Dev nD → Arr2 F)

theorem vecSplit : (K (F := F)).VecSplit' (P X Y) 0 := by
  intro d c
  show stF X Y d ⊢ |={Set.univ}=> iprop((bigSep Finset.univ fun i : Fin ((K (F := F)).nSub 0) => goF X Y d (Fin.cast nSub_zero i))
      ∗ ((bigSep Finset.univ fun i : Fin ((K (F := F)).nSub 0) => tdF X Y d (Fin.cast nSub_zero i)) -∗ dnF X Y d))
  rw [bigSep_tasks (F := F) (goF X Y d), bigSep_tasks (F := F) (tdF X Y d)]
  unfold stF goF tdF dnF
  exact split_aux d (X d) (Y d) (scS (X d) (Y d)) (scC (X d) (Y d))

end Cert.Proof.KB

end
-- ==== Proof.KBTileRes.lean ====
/-
  A tile's own scratch: its six buffers and six DMA semaphores among everything scoped to it.
-/
import proofs.«210622_g27255862460721_cont_9to1_1214_20_alg».proof.Proof.KBPay

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

variable (d : Dev nD) (L : grid0.Coords)

abbrev restCells : Finset (GSem nD τ sig) := (((((((ownCells (V d (cV L) (jV L))).erase ((V d (cV L) (jV L)), SemLoc.dma cc0_scratch6.sem)).erase ((V d (cV L) (jV L)), SemLoc.dma cc0_scratch7.sem)).erase ((V d (cV L) (jV L)), SemLoc.dma cc0_scratch8.sem)).erase ((V d (cV L) (jV L)), SemLoc.dma cc0_scratch9.sem)).erase ((V d (cV L) (jV L)), SemLoc.dma cc0_scoped0.sem)).erase ((V d (cV L) (jV L)), SemLoc.dma cc0_scoped1.sem))
abbrev restRefs : Finset (DevRef τ sig) := (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))

theorem ownSems0_V :
    (ownSems0 (V d (cV L) (jV L)) : sProp 𝕄)
      = iprop(semVal ((V d (cV L) (jV L)), SemLoc.dma cc0_scratch6.sem) 0 ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0 ∗ semVal ((V d (cV L) (jV L)), SemLoc.dma cc0_scoped0.sem) 0 ∗ semVal ((V d (cV L) (jV L)), SemLoc.dma cc0_scoped1.sem) 0
          ∗ bigSep (restCells d L) fun g => semVal g 0) := by
  unfold SparseCore.Cfg.ownSems0
  rw [SparseCore.bigSep_erase' ((mem_ownCells (g := (((V d (cV L) (jV L)), SemLoc.dma cc0_scratch6.sem) : GSem nD τ sig))).mpr ⟨rfl, by show (SemLoc.dma cc0_scratch6.sem : SemLoc sig).isScoped .scVector = true; decide⟩),
    SparseCore.bigSep_erase' (Finset.mem_erase.mpr ⟨fun e => absurd (Prod.mk.inj e).2 (show (SemLoc.dma cc0_scratch7.sem : SemLoc sig) ≠ SemLoc.dma cc0_scratch6.sem by decide), (mem_ownCells (g := (((V d (cV L) (jV L)), SemLoc.dma cc0_scratch7.sem) : GSem nD τ sig))).mpr ⟨rfl, by show (SemLoc.dma cc0_scratch7.sem : SemLoc sig).isScoped .scVector = true; decide⟩⟩),
    SparseCore.bigSep_erase' (Finset.mem_erase.mpr ⟨fun e => absurd (Prod.mk.inj e).2 (show (SemLoc.dma cc0_scratch8.sem : SemLoc sig) ≠ SemLoc.dma cc0_scratch7.sem by decide), Finset.mem_erase.mpr ⟨fun e => absurd (Prod.mk.inj e).2 (show (SemLoc.dma cc0_scratch8.sem : SemLoc sig) ≠ SemLoc.dma cc0_scratch6.sem by decide), (mem_ownCells (g := (((V d (cV L) (jV L)), SemLoc.dma cc0_scratch8.sem) : GSem nD τ sig))).mpr ⟨rfl, by show (SemLoc.dma cc0_scratch8.sem : SemLoc sig).isScoped .scVector = true; decide⟩⟩⟩),
    SparseCore.bigSep_erase' (Finset.mem_erase.mpr ⟨fun e => absurd (Prod.mk.inj e).2 (show (SemLoc.dma cc0_scratch9.sem : SemLoc sig) ≠ SemLoc.dma cc0_scratch8.sem by decide), Finset.mem_erase.mpr ⟨fun e => absurd (Prod.mk.inj e).2 (show (SemLoc.dma cc0_scratch9.sem : SemLoc sig) ≠ SemLoc.dma cc0_scratch7.sem by decide), Finset.mem_erase.mpr ⟨fun e => absurd (Prod.mk.inj e).2 (show (SemLoc.dma cc0_scratch9.sem : SemLoc sig) ≠ SemLoc.dma cc0_scratch6.sem by decide), (mem_ownCells (g := (((V d (cV L) (jV L)), SemLoc.dma cc0_scratch9.sem) : GSem nD τ sig))).mpr ⟨rfl, by show (SemLoc.dma cc0_scratch9.sem : SemLoc sig).isScoped .scVector = true; decide⟩⟩⟩⟩),
    SparseCore.bigSep_erase' (Finset.mem_erase.mpr ⟨fun e => absurd (Prod.mk.inj e).2 (show (SemLoc.dma cc0_scoped0.sem : SemLoc sig) ≠ SemLoc.dma cc0_scratch9.sem by decide), Finset.mem_erase.mpr ⟨fun e => absurd (Prod.mk.inj e).2 (show (SemLoc.dma cc0_scoped0.sem : SemLoc sig) ≠ SemLoc.dma cc0_scratch8.sem by decide), Finset.mem_erase.mpr ⟨fun e => absurd (Prod.mk.inj e).2 (show (SemLoc.dma cc0_scoped0.sem : SemLoc sig) ≠ SemLoc.dma cc0_scratch7.sem by decide), Finset.mem_erase.mpr ⟨fun e => absurd (Prod.mk.inj e).2 (show (SemLoc.dma cc0_scoped0.sem : SemLoc sig) ≠ SemLoc.dma cc0_scratch6.sem by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨fun e => absurd (Prod.mk.inj e).2 (show (SemLoc.dma cc0_scoped1.sem : SemLoc sig) ≠ SemLoc.dma cc0_scoped0.sem by decide), Finset.mem_erase.mpr ⟨fun e => absurd (Prod.mk.inj e).2 (show (SemLoc.dma cc0_scoped1.sem : SemLoc sig) ≠ SemLoc.dma cc0_scratch9.sem by decide), Finset.mem_erase.mpr ⟨fun e => absurd (Prod.mk.inj e).2 (show (SemLoc.dma cc0_scoped1.sem : SemLoc sig) ≠ SemLoc.dma cc0_scratch8.sem by decide), Finset.mem_erase.mpr ⟨fun e => absurd (Prod.mk.inj e).2 (show (SemLoc.dma cc0_scoped1.sem : SemLoc sig) ≠ SemLoc.dma cc0_scratch7.sem by decide), Finset.mem_erase.mpr ⟨fun e => absurd (Prod.mk.inj e).2 (show (SemLoc.dma cc0_scoped1.sem : SemLoc sig) ≠ SemLoc.dma cc0_scratch6.sem by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

end Cert.Proof.KB

end
-- ==== Proof.TileTripsB.lean ====
/- The sixteen inner loops of a tile all make the same trip.

  A tile's work on a pair of chunks is sixteen row loops (eight rows of the first chunk, eight of the second), each
  written out separately in the kernel's text with its own copies of the step's operations. Every one of them carries
  the four accumulators (a0, a1, c0, c1) through the same eight steps over its eight loaded pieces of x and of t:
  pieces 0, 2, 4, 6 into (a0, c0) and pieces 1, 3, 5, 7 into (a1, c1). Each statement below names one loop's printed
  terms and says they are that one trip; each holds by unfolding the definitions. (The first loop's statement,
  trip_t2, is in the module this one imports.)
-/
import proofs.«210622_g27255862460721_cont_9to1_1214_20_alg».proof.Proof.TileSpecB

noncomputable section

namespace Cert.Proof.TileSpecB

open Idealize.ShloMosaic Idealize.ShloMosaic.ValueIdx Cert.Kernel Cert.Kernel.Gen

variable {F : FTy → Type} [FloatOps F]

theorem trip_t3 (a0 a1 c0 c1 : FVec F S16 .f32) (x0 t0 x1 t1 x2 t2 x3 t3 x4 t4 x5 t5 x6 t6 x7 t7 : Vec F S16 .f32) :
    ((k0_pay438 (k0_pay57 (k0_pay48 (k0_pay40 a0 x0 t0) x2 t2) (k0_pay54 x4) t4) (k0_pay63 x6 t6),
      k0_pay442 (k0_pay61 (k0_pay52 (k0_pay44 a1 x1 t1) x3 t3) x5 t5) x7 t7,
      k0_pay439 (k0_pay58 (k0_pay49 (k0_pay41 c0 x0 t0) x2 t2) (k0_pay54 x4) t4) (k0_pay63 x6 t6),
      k0_pay443 (k0_pay62 (k0_pay53 (k0_pay45 c1 x1 t1) x3 t3) x5 t5) x7 t7) : Acc4 F)
      = trip8 (a0, a1, c0, c1) ![x0, x1, x2, x3, x4, x5, x6, x7] ![t0, t1, t2, t3, t4, t5, t6, t7] := rfl

theorem trip_t4 (a0 a1 c0 c1 : FVec F S16 .f32) (x0 t0 x1 t1 x2 t2 x3 t3 x4 t4 x5 t5 x6 t6 x7 t7 : Vec F S16 .f32) :
    ((k0_pay446 (k0_pay83 (k0_pay74 (k0_pay66 a0 x0 t0) x2 t2) (k0_pay80 x4) t4) (k0_pay89 x6 t6),
      k0_pay450 (k0_pay87 (k0_pay78 (k0_pay70 a1 x1 t1) x3 t3) x5 t5) x7 t7,
      k0_pay447 (k0_pay84 (k0_pay75 (k0_pay67 c0 x0 t0) x2 t2) (k0_pay80 x4) t4) (k0_pay89 x6 t6),
      k0_pay451 (k0_pay88 (k0_pay79 (k0_pay71 c1 x1 t1) x3 t3) x5 t5) x7 t7) : Acc4 F)
      = trip8 (a0, a1, c0, c1) ![x0, x1, x2, x3, x4, x5, x6, x7] ![t0, t1, t2, t3, t4, t5, t6, t7] := rfl

theorem trip_t5 (a0 a1 c0 c1 : FVec F S16 .f32) (x0 t0 x1 t1 x2 t2 x3 t3 x4 t4 x5 t5 x6 t6 x7 t7 : Vec F S16 .f32) :
    ((k0_pay454 (k0_pay109 (k0_pay100 (k0_pay92 a0 x0 t0) x2 t2) (k0_pay106 x4) t4) (k0_pay115 x6 t6),
      k0_pay458 (k0_pay113 (k0_pay104 (k0_pay96 a1 x1 t1) x3 t3) x5 t5) x7 t7,
      k0_pay455 (k0_pay110 (k0_pay101 (k0_pay93 c0 x0 t0) x2 t2) (k0_pay106 x4) t4) (k0_pay115 x6 t6),
      k0_pay459 (k0_pay114 (k0_pay105 (k0_pay97 c1 x1 t1) x3 t3) x5 t5) x7 t7) : Acc4 F)
      = trip8 (a0, a1, c0, c1) ![x0, x1, x2, x3, x4, x5, x6, x7] ![t0, t1, t2, t3, t4, t5, t6, t7] := rfl

theorem trip_t6 (a0 a1 c0 c1 : FVec F S16 .f32) (x0 t0 x1 t1 x2 t2 x3 t3 x4 t4 x5 t5 x6 t6 x7 t7 : Vec F S16 .f32) :
    ((k0_pay462 (k0_pay135 (k0_pay126 (k0_pay118 a0 x0 t0) x2 t2) (k0_pay132 x4) t4) (k0_pay141 x6 t6),
      k0_pay466 (k0_pay139 (k0_pay130 (k0_pay122 a1 x1 t1) x3 t3) x5 t5) x7 t7,
      k0_pay463 (k0_pay136 (k0_pay127 (k0_pay119 c0 x0 t0) x2 t2) (k0_pay132 x4) t4) (k0_pay141 x6 t6),
      k0_pay467 (k0_pay140 (k0_pay131 (k0_pay123 c1 x1 t1) x3 t3) x5 t5) x7 t7) : Acc4 F)
      = trip8 (a0, a1, c0, c1) ![x0, x1, x2, x3, x4, x5, x6, x7] ![t0, t1, t2, t3, t4, t5, t6, t7] := rfl

theorem trip_t7 (a0 a1 c0 c1 : FVec F S16 .f32) (x0 t0 x1 t1 x2 t2 x3 t3 x4 t4 x5 t5 x6 t6 x7 t7 : Vec F S16 .f32) :
    ((k0_pay470 (k0_pay161 (k0_pay152 (k0_pay144 a0 x0 t0) x2 t2) (k0_pay158 x4) t4) (k0_pay167 x6 t6),
      k0_pay474 (k0_pay165 (k0_pay156 (k0_pay148 a1 x1 t1) x3 t3) x5 t5) x7 t7,
      k0_pay471 (k0_pay162 (k0_pay153 (k0_pay145 c0 x0 t0) x2 t2) (k0_pay158 x4) t4) (k0_pay167 x6 t6),
      k0_pay475 (k0_pay166 (k0_pay157 (k0_pay149 c1 x1 t1) x3 t3) x5 t5) x7 t7) : Acc4 F)
      = trip8 (a0, a1, c0, c1) ![x0, x1, x2, x3, x4, x5, x6, x7] ![t0, t1, t2, t3, t4, t5, t6, t7] := rfl

theorem trip_t8 (a0 a1 c0 c1 : FVec F S16 .f32) (x0 t0 x1 t1 x2 t2 x3 t3 x4 t4 x5 t5 x6 t6 x7 t7 : Vec F S16 .f32) :
    ((k0_pay478 (k0_pay187 (k0_pay178 (k0_pay170 a0 x0 t0) x2 t2) (k0_pay184 x4) t4) (k0_pay193 x6 t6),
      k0_pay482 (k0_pay191 (k0_pay182 (k0_pay174 a1 x1 t1) x3 t3) x5 t5) x7 t7,
      k0_pay479 (k0_pay188 (k0_pay179 (k0_pay171 c0 x0 t0) x2 t2) (k0_pay184 x4) t4) (k0_pay193 x6 t6),
      k0_pay483 (k0_pay192 (k0_pay183 (k0_pay175 c1 x1 t1) x3 t3) x5 t5) x7 t7) : Acc4 F)
      = trip8 (a0, a1, c0, c1) ![x0, x1, x2, x3, x4, x5, x6, x7] ![t0, t1, t2, t3, t4, t5, t6, t7] := rfl

theorem trip_t9 (a0 a1 c0 c1 : FVec F S16 .f32) (x0 t0 x1 t1 x2 t2 x3 t3 x4 t4 x5 t5 x6 t6 x7 t7 : Vec F S16 .f32) :
    ((k0_pay486 (k0_pay213 (k0_pay204 (k0_pay196 a0 x0 t0) x2 t2) (k0_pay210 x4) t4) (k0_pay219 x6 t6),
      k0_pay490 (k0_pay217 (k0_pay208 (k0_pay200 a1 x1 t1) x3 t3) x5 t5) x7 t7,
      k0_pay487 (k0_pay214 (k0_pay205 (k0_pay197 c0 x0 t0) x2 t2) (k0_pay210 x4) t4) (k0_pay219 x6 t6),
      k0_pay491 (k0_pay218 (k0_pay209 (k0_pay201 c1 x1 t1) x3 t3) x5 t5) x7 t7) : Acc4 F)
      = trip8 (a0, a1, c0, c1) ![x0, x1, x2, x3, x4, x5, x6, x7] ![t0, t1, t2, t3, t4, t5, t6, t7] := rfl

theorem trip_t10 (a0 a1 c0 c1 : FVec F S16 .f32) (x0 t0 x1 t1 x2 t2 x3 t3 x4 t4 x5 t5 x6 t6 x7 t7 : Vec F S16 .f32) :
    ((k0_pay494 (k0_pay239 (k0_pay230 (k0_pay222 a0 x0 t0) x2 t2) (k0_pay236 x4) t4) (k0_pay245 x6 t6),
      k0_pay498 (k0_pay243 (k0_pay234 (k0_pay226 a1 x1 t1) x3 t3) x5 t5) x7 t7,
      k0_pay495 (k0_pay240 (k0_pay231 (k0_pay223 c0 x0 t0) x2 t2) (k0_pay236 x4) t4) (k0_pay245 x6 t6),
      k0_pay499 (k0_pay244 (k0_pay235 (k0_pay227 c1 x1 t1) x3 t3) x5 t5) x7 t7) : Acc4 F)
      = trip8 (a0, a1, c0, c1) ![x0, x1, x2, x3, x4, x5, x6, x7] ![t0, t1, t2, t3, t4, t5, t6, t7] := rfl

theorem trip_t11 (a0 a1 c0 c1 : FVec F S16 .f32) (x0 t0 x1 t1 x2 t2 x3 t3 x4 t4 x5 t5 x6 t6 x7 t7 : Vec F S16 .f32) :
    ((k0_pay502 (k0_pay265 (k0_pay256 (k0_pay248 a0 x0 t0) x2 t2) (k0_pay262 x4) t4) (k0_pay271 x6 t6),
      k0_pay506 (k0_pay269 (k0_pay260 (k0_pay252 a1 x1 t1) x3 t3) x5 t5) x7 t7,
      k0_pay503 (k0_pay266 (k0_pay257 (k0_pay249 c0 x0 t0) x2 t2) (k0_pay262 x4) t4) (k0_pay271 x6 t6),
      k0_pay507 (k0_pay270 (k0_pay261 (k0_pay253 c1 x1 t1) x3 t3) x5 t5) x7 t7) : Acc4 F)
      = trip8 (a0, a1, c0, c1) ![x0, x1, x2, x3, x4, x5, x6, x7] ![t0, t1, t2, t3, t4, t5, t6, t7] := rfl

theorem trip_t12 (a0 a1 c0 c1 : FVec F S16 .f32) (x0 t0 x1 t1 x2 t2 x3 t3 x4 t4 x5 t5 x6 t6 x7 t7 : Vec F S16 .f32) :
    ((k0_pay510 (k0_pay291 (k0_pay282 (k0_pay274 a0 x0 t0) x2 t2) (k0_pay288 x4) t4) (k0_pay297 x6 t6),
      k0_pay514 (k0_pay295 (k0_pay286 (k0_pay278 a1 x1 t1) x3 t3) x5 t5) x7 t7,
      k0_pay511 (k0_pay292 (k0_pay283 (k0_pay275 c0 x0 t0) x2 t2) (k0_pay288 x4) t4) (k0_pay297 x6 t6),
      k0_pay515 (k0_pay296 (k0_pay287 (k0_pay279 c1 x1 t1) x3 t3) x5 t5) x7 t7) : Acc4 F)
      = trip8 (a0, a1, c0, c1) ![x0, x1, x2, x3, x4, x5, x6, x7] ![t0, t1, t2, t3, t4, t5, t6, t7] := rfl

theorem trip_t13 (a0 a1 c0 c1 : FVec F S16 .f32) (x0 t0 x1 t1 x2 t2 x3 t3 x4 t4 x5 t5 x6 t6 x7 t7 : Vec F S16 .f32) :
    ((k0_pay518 (k0_pay317 (k0_pay308 (k0_pay300 a0 x0 t0) x2 t2) (k0_pay314 x4) t4) (k0_pay323 x6 t6),
      k0_pay522 (k0_pay321 (k0_pay312 (k0_pay304 a1 x1 t1) x3 t3) x5 t5) x7 t7,
      k0_pay519 (k0_pay318 (k0_pay309 (k0_pay301 c0 x0 t0) x2 t2) (k0_pay314 x4) t4) (k0_pay323 x6 t6),
      k0_pay523 (k0_pay322 (k0_pay313 (k0_pay305 c1 x1 t1) x3 t3) x5 t5) x7 t7) : Acc4 F)
      = trip8 (a0, a1, c0, c1) ![x0, x1, x2, x3, x4, x5, x6, x7] ![t0, t1, t2, t3, t4, t5, t6, t7] := rfl

theorem trip_t14 (a0 a1 c0 c1 : FVec F S16 .f32) (x0 t0 x1 t1 x2 t2 x3 t3 x4 t4 x5 t5 x6 t6 x7 t7 : Vec F S16 .f32) :
    ((k0_pay526 (k0_pay343 (k0_pay334 (k0_pay326 a0 x0 t0) x2 t2) (k0_pay340 x4) t4) (k0_pay349 x6 t6),
      k0_pay530 (k0_pay347 (k0_pay338 (k0_pay330 a1 x1 t1) x3 t3) x5 t5) x7 t7,
      k0_pay527 (k0_pay344 (k0_pay335 (k0_pay327 c0 x0 t0) x2 t2) (k0_pay340 x4) t4) (k0_pay349 x6 t6),
      k0_pay531 (k0_pay348 (k0_pay339 (k0_pay331 c1 x1 t1) x3 t3) x5 t5) x7 t7) : Acc4 F)
      = trip8 (a0, a1, c0, c1) ![x0, x1, x2, x3, x4, x5, x6, x7] ![t0, t1, t2, t3, t4, t5, t6, t7] := rfl

theorem trip_t15 (a0 a1 c0 c1 : FVec F S16 .f32) (x0 t0 x1 t1 x2 t2 x3 t3 x4 t4 x5 t5 x6 t6 x7 t7 : Vec F S16 .f32) :
    ((k0_pay534 (k0_pay369 (k0_pay360 (k0_pay352 a0 x0 t0) x2 t2) (k0_pay366 x4) t4) (k0_pay375 x6 t6),
      k0_pay538 (k0_pay373 (k0_pay364 (k0_pay356 a1 x1 t1) x3 t3) x5 t5) x7 t7,
      k0_pay535 (k0_pay370 (k0_pay361 (k0_pay353 c0 x0 t0) x2 t2) (k0_pay366 x4) t4) (k0_pay375 x6 t6),
      k0_pay539 (k0_pay374 (k0_pay365 (k0_pay357 c1 x1 t1) x3 t3) x5 t5) x7 t7) : Acc4 F)
      = trip8 (a0, a1, c0, c1) ![x0, x1, x2, x3, x4, x5, x6, x7] ![t0, t1, t2, t3, t4, t5, t6, t7] := rfl

theorem trip_t16 (a0 a1 c0 c1 : FVec F S16 .f32) (x0 t0 x1 t1 x2 t2 x3 t3 x4 t4 x5 t5 x6 t6 x7 t7 : Vec F S16 .f32) :
    ((k0_pay542 (k0_pay395 (k0_pay386 (k0_pay378 a0 x0 t0) x2 t2) (k0_pay392 x4) t4) (k0_pay401 x6 t6),
      k0_pay546 (k0_pay399 (k0_pay390 (k0_pay382 a1 x1 t1) x3 t3) x5 t5) x7 t7,
      k0_pay543 (k0_pay396 (k0_pay387 (k0_pay379 c0 x0 t0) x2 t2) (k0_pay392 x4) t4) (k0_pay401 x6 t6),
      k0_pay547 (k0_pay400 (k0_pay391 (k0_pay383 c1 x1 t1) x3 t3) x5 t5) x7 t7) : Acc4 F)
      = trip8 (a0, a1, c0, c1) ![x0, x1, x2, x3, x4, x5, x6, x7] ![t0, t1, t2, t3, t4, t5, t6, t7] := rfl

theorem trip_t17 (a0 a1 c0 c1 : FVec F S16 .f32) (x0 t0 x1 t1 x2 t2 x3 t3 x4 t4 x5 t5 x6 t6 x7 t7 : Vec F S16 .f32) :
    ((k0_pay4 (k0_pay421 (k0_pay412 (k0_pay404 a0 x0 t0) x2 t2) (k0_pay418 x4) t4) (k0_pay427 x6 t6),
      k0_pay8 (k0_pay425 (k0_pay416 (k0_pay408 a1 x1 t1) x3 t3) x5 t5) x7 t7,
      k0_pay5 (k0_pay422 (k0_pay413 (k0_pay405 c0 x0 t0) x2 t2) (k0_pay418 x4) t4) (k0_pay427 x6 t6),
      k0_pay9 (k0_pay426 (k0_pay417 (k0_pay409 c1 x1 t1) x3 t3) x5 t5) x7 t7) : Acc4 F)
      = trip8 (a0, a1, c0, c1) ![x0, x1, x2, x3, x4, x5, x6, x7] ![t0, t1, t2, t3, t4, t5, t6, t7] := rfl

end Cert.Proof.TileSpecB

end
-- ==== Proof.TileIndexBaseB.lean ====
/-
  Index facts about a tile's data movement, as equations between array contents.

  A chunk copy moves rows n … n + 7 of a [16384, 2048] array, all 2048 columns, over a whole [8, 2048] buffer: entry
  (r, c) of the buffer then holds entry (n + r, c) of the array. A row loop reads row r of such a buffer as a [2048]
  array and loads sixteen lanes from column 128 j + 16 u: piece 8 j + u of the row.
-/
import proofs.«210622_g27255862460721_cont_9to1_1214_20_alg».proof.Proof.TileTripsB

noncomputable section

namespace Cert.Proof.KB

open Cert.Kernel Cert.Kernel.Gen
open Idealize.ShloMosaic Idealize.ShloMosaic.ValueIdx Idealize.SL.Sem
open Cert.Proof.TileSpecB (Acc4 rowFold chunkFold tileFold rowsOf init4 outS outC trip8 ld)

variable {F : FTy → Type} [FloatOps F]

/-! ## A landed chunk -/

/-- The 8-row, full-width rectangle at row n of a [16384, 2048] array reads, at (r, c), the array at (n + r, c). -/
theorem rows_emb (A : S16384x2048.Idx → F .f32) (off : Fin 2 → ℕ)
    (h : ∀ a, off a + S8x2048.size a ≤ S16384x2048.size a) (n : ℕ) (hoff : off = ![n, 0]) (y : S8x2048.Idx) :
    A ((Rect.unit (s := S16384x2048) off S8x2048.size h).emb y) = rowsOf A n y := by
  subst hoff
  have h0 : n + 8 ≤ 16384 := h 0
  have hy := idx2_lt0 y
  unfold rowsOf
  congr 1
  funext a
  match a with
  | ⟨0, _⟩ =>
    refine Fin.ext ?_
    show n + 1 * (y 0).val = (n + (y 0).val) % 16384
    rw [Nat.mod_eq_of_lt (by omega)]
    omega
  | ⟨1, _⟩ =>
    refine Fin.ext ?_
    show 0 + 1 * (y 1).val = (y 1).val
    omega

/-- The slice of the first argument's array at rows n … n + 7 reads as those rows. -/
theorem read_rows_x (A : S16384x2048.Idx → F .f32) (off : Fin 2 → ℕ)
    (h : ∀ a, off a + S8x2048.size a ≤ S16384x2048.size a) (n : ℕ) (hoff : off = ![n, 0]) :
    View.read (Elt F) ((Memref.whole main_v0_scv).slice (Rect.unit (s := S16384x2048) off S8x2048.size h) (fun _ => rfl)).view A
      = rowsOf A n :=
  funext fun y => rows_emb A off h n hoff y

/-- The slice of the second argument's array at rows n … n + 7 reads as those rows. -/
theorem read_rows_t (A : S16384x2048.Idx → F .f32) (off : Fin 2 → ℕ)
    (h : ∀ a, off a + S8x2048.size a ≤ S16384x2048.size a) (n : ℕ) (hoff : off = ![n, 0]) :
    View.read (Elt F) ((Memref.whole main_v1_scv).slice (Rect.unit (s := S16384x2048) off S8x2048.size h) (fun _ => rfl)).view A
      = rowsOf A n :=
  funext fun y => rows_emb A off h n hoff y

/-- Rows n … n + 7 of the first array, landed in the first slot of its pair of buffers. -/
theorem landed_x0 (A : S16384x2048.Idx → F .f32) (gold : S8x2048.Idx → F .f32) (off : Fin 2 → ℕ)
    (h : ∀ a, off a + S8x2048.size a ≤ S16384x2048.size a) (n : ℕ) (hoff : off = ![n, 0]) :
    View.write (Elt F) (Memref.whole cc0_scratch0).view gold
        (ReadAs.same.apply (View.read (Elt F)
          ((Memref.whole main_v0_scv).slice (Rect.unit (s := S16384x2048) off S8x2048.size h) (fun _ => rfl)).view A))
        Finset.univ
      = rowsOf A n := by
  rw [read_rows_x A off h n hoff]
  exact View.write_whole_univ _ _ _

/-- Rows n … n + 7 of the first array, landed in the second slot of its pair of buffers. -/
theorem landed_x1 (A : S16384x2048.Idx → F .f32) (gold : S8x2048.Idx → F .f32) (off : Fin 2 → ℕ)
    (h : ∀ a, off a + S8x2048.size a ≤ S16384x2048.size a) (n : ℕ) (hoff : off = ![n, 0]) :
    View.write (Elt F) (Memref.whole cc0_scratch1).view gold
        (ReadAs.same.apply (View.read (Elt F)
          ((Memref.whole main_v0_scv).slice (Rect.unit (s := S16384x2048) off S8x2048.size h) (fun _ => rfl)).view A))
        Finset.univ
      = rowsOf A n := by
  rw [read_rows_x A off h n hoff]
  exact View.write_whole_univ _ _ _

/-- Rows n … n + 7 of the second array, landed in the first slot of its pair of buffers. -/
theorem landed_t0 (A : S16384x2048.Idx → F .f32) (gold : S8x2048.Idx → F .f32) (off : Fin 2 → ℕ)
    (h : ∀ a, off a + S8x2048.size a ≤ S16384x2048.size a) (n : ℕ) (hoff : off = ![n, 0]) :
    View.write (Elt F) (Memref.whole cc0_scratch2).view gold
        (ReadAs.same.apply (View.read (Elt F)
          ((Memref.whole main_v1_scv).slice (Rect.unit (s := S16384x2048) off S8x2048.size h) (fun _ => rfl)).view A))
        Finset.univ
      = rowsOf A n := by
  rw [read_rows_t A off h n hoff]
  exact View.write_whole_univ _ _ _

/-- Rows n … n + 7 of the second array, landed in the second slot of its pair of buffers. -/
theorem landed_t1 (A : S16384x2048.Idx → F .f32) (gold : S8x2048.Idx → F .f32) (off : Fin 2 → ℕ)
    (h : ∀ a, off a + S8x2048.size a ≤ S16384x2048.size a) (n : ℕ) (hoff : off = ![n, 0]) :
    View.write (Elt F) (Memref.whole cc0_scratch3).view gold
        (ReadAs.same.apply (View.read (Elt F)
          ((Memref.whole main_v1_scv).slice (Rect.unit (s := S16384x2048) off S8x2048.size h) (fun _ => rfl)).view A))
        Finset.univ
      = rowsOf A n := by
  rw [read_rows_t A off h n hoff]
  exact View.write_whole_univ _ _ _

/-! ## A row loop's load: sixteen lanes of one row of a slot buffer -/

/-- Row r of an [8, 2048] buffer, read as a [2048] array, at the sixteen columns from 128 j + 16 u: piece 8 j + u of the
    row. -/
theorem row_piece (g : S8x2048.Idx → F .f32) (r : ℕ) (hr8 : r < 8)
    (hr : ∀ a, (![r, 0] : Fin 2 → ℕ) a + S1x2048.size a ≤ S8x2048.size a) (hq : S2048.numel = S1x2048.numel)
    (off : Fin 1 → ℕ) (h : ∀ a, off a + S16.size a ≤ S2048.size a) (j u : ℕ) (hj : j < 16) (hu : u < 8)
    (hoff : off = ![128 * j + 16 * u]) (y : (Rect.unit (s := S2048) off S16.size h).toLoadRect.shape.Idx) :
    g ((Rect.unit (s := S8x2048) ![r, 0] S1x2048.size hr).emb
        (Shape.reshapeEquiv hq ((Rect.unit (s := S2048) off S16.size h).toLoadRect.idx y)))
      = ld g ⟨r, hr8⟩ (8 * j + u) y := by
  subst hoff
  have hy : (y 0).val < 16 := (y 0).isLt
  have hrm : (Shape.reshapeEquiv hq ((Rect.unit (s := S2048) ![128 * j + 16 * u] S16.size h).toLoadRect.idx y) 0).val * 2048
      + (Shape.reshapeEquiv hq ((Rect.unit (s := S2048) ![128 * j + 16 * u] S16.size h).toLoadRect.idx y) 1).val
      = 128 * j + 16 * u + 1 * (y 0).val := by
    have := Shape.rowMajor_reshapeEquiv hq ((Rect.unit (s := S2048) ![128 * j + 16 * u] S16.size h).toLoadRect.idx y)
    rw [Shape.rowMajor_val_two, Shape.rowMajor_val_one] at this
    exact this
  have hw0 := idx2_lt0 (Shape.reshapeEquiv hq ((Rect.unit (s := S2048) ![128 * j + 16 * u] S16.size h).toLoadRect.idx y))
  unfold ld
  congr 1
  funext a
  match a with
  | ⟨0, _⟩ =>
    refine Fin.ext ?_
    show r + 1 * (Shape.reshapeEquiv hq ((Rect.unit (s := S2048) ![128 * j + 16 * u] S16.size h).toLoadRect.idx y) 0).val = r
    omega
  | ⟨1, _⟩ =>
    refine Fin.ext ?_
    show 0 + 1 * (Shape.reshapeEquiv hq ((Rect.unit (s := S2048) ![128 * j + 16 * u] S16.size h).toLoadRect.idx y) 1).val
      = (16 * (8 * j + u) + (y 0).val) % 2048
    rw [Nat.mod_eq_of_lt (by omega)]
    omega

/-- A 16-lane load from row r of slot buffer 0, at columns 128 j + 16 u …, is piece 8 j + u of that row. -/
theorem load_eq_s0 (g : S8x2048.Idx → F .f32) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch0).slice (Rect.unit (s := S8x2048) ![r, 0] S1x2048.size hr) hst).squeeze S2048 hsq).view
        (Rect.unit (s := S2048) off S16.size h).toLoadRect g
      = ld g ⟨r, hr8⟩ (8 * j + u) :=
  funext fun y => row_piece g r hr8 hr hsq.numel_eq off h j u hj hu hoff y

/-- A 16-lane load from row r of slot buffer 1, at columns 128 j + 16 u …, is piece 8 j + u of that row. -/
theorem load_eq_s1 (g : S8x2048.Idx → F .f32) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch1).slice (Rect.unit (s := S8x2048) ![r, 0] S1x2048.size hr) hst).squeeze S2048 hsq).view
        (Rect.unit (s := S2048) off S16.size h).toLoadRect g
      = ld g ⟨r, hr8⟩ (8 * j + u) :=
  funext fun y => row_piece g r hr8 hr hsq.numel_eq off h j u hj hu hoff y

/-- A 16-lane load from row r of slot buffer 2, at columns 128 j + 16 u …, is piece 8 j + u of that row. -/
theorem load_eq_s2 (g : S8x2048.Idx → F .f32) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch2).slice (Rect.unit (s := S8x2048) ![r, 0] S1x2048.size hr) hst).squeeze S2048 hsq).view
        (Rect.unit (s := S2048) off S16.size h).toLoadRect g
      = ld g ⟨r, hr8⟩ (8 * j + u) :=
  funext fun y => row_piece g r hr8 hr hsq.numel_eq off h j u hj hu hoff y

/-- A 16-lane load from row r of slot buffer 3, at columns 128 j + 16 u …, is piece 8 j + u of that row. -/
theorem load_eq_s3 (g : S8x2048.Idx → F .f32) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch3).slice (Rect.unit (s := S8x2048) ![r, 0] S1x2048.size hr) hst).squeeze S2048 hsq).view
        (Rect.unit (s := S2048) off S16.size h).toLoadRect g
      = ld g ⟨r, hr8⟩ (8 * j + u) :=
  funext fun y => row_piece g r hr8 hr hsq.numel_eq off h j u hj hu hoff y

end Cert.Proof.KB

end
-- ==== Proof.TileIndexB.lean ====
/-
  Index facts about a tile's data movement, stated over the contents of the tile's own buffers.

  A landed chunk is eight rows of the array; a row loop's load is a piece of a row. Here each array's contents is typed
  as the contents of a buffer on the tile's thread.
-/
import proofs.«210622_g27255862460721_cont_9to1_1214_20_alg».proof.Proof.KBTileRes
import proofs.«210622_g27255862460721_cont_9to1_1214_20_alg».proof.Proof.TileIndexBaseB

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.TileSpecB (Acc4 rowFold chunkFold tileFold rowsOf init4 outS outC trip8 ld scS scC)

variable {F : FTy → Type} [FloatOps F] (d : Dev nD) (L : grid0.Coords)

abbrev thr : Thread nD τ := V d (cV L) (jV L)

/-! ## A landed chunk: the copy written over the whole slot buffer -/

/-- Rows n … n + 7 of the first array, landed in the first slot of its pair of buffers. -/
theorem chunk_eq_x0 (A : Buf (Elt F) ((Memref.whole main_v0_scv).view.loc (thr d L)))
    (gold : Buf (Elt F) ((Memref.whole cc0_scratch0).view.loc (thr d L))) (off : Fin 2 → ℕ)
    (h : ∀ a, off a + S8x2048.size a ≤ S16384x2048.size a) (n : ℕ) (hoff : off = ![n, 0]) :
    View.write (Elt F) (Memref.whole cc0_scratch0).view gold
        (ReadAs.same.apply (View.read (Elt F)
          ((Memref.whole main_v0_scv).slice (Rect.unit (s := S16384x2048) off S8x2048.size h) (fun _ => rfl)).view A))
        Finset.univ
      = rowsOf A n :=
  landed_x0 A gold off h n hoff

/-- Rows n … n + 7 of the first array, landed in the second slot of its pair of buffers. -/
theorem chunk_eq_x1 (A : Buf (Elt F) ((Memref.whole main_v0_scv).view.loc (thr d L)))
    (gold : Buf (Elt F) ((Memref.whole cc0_scratch1).view.loc (thr d L))) (off : Fin 2 → ℕ)
    (h : ∀ a, off a + S8x2048.size a ≤ S16384x2048.size a) (n : ℕ) (hoff : off = ![n, 0]) :
    View.write (Elt F) (Memref.whole cc0_scratch1).view gold
        (ReadAs.same.apply (View.read (Elt F)
          ((Memref.whole main_v0_scv).slice (Rect.unit (s := S16384x2048) off S8x2048.size h) (fun _ => rfl)).view A))
        Finset.univ
      = rowsOf A n :=
  landed_x1 A gold off h n hoff

/-- Rows n … n + 7 of the second array, landed in the first slot of its pair of buffers. -/
theorem chunk_eq_t0 (A : Buf (Elt F) ((Memref.whole main_v1_scv).view.loc (thr d L)))
    (gold : Buf (Elt F) ((Memref.whole cc0_scratch2).view.loc (thr d L))) (off : Fin 2 → ℕ)
    (h : ∀ a, off a + S8x2048.size a ≤ S16384x2048.size a) (n : ℕ) (hoff : off = ![n, 0]) :
    View.write (Elt F) (Memref.whole cc0_scratch2).view gold
        (ReadAs.same.apply (View.read (Elt F)
          ((Memref.whole main_v1_scv).slice (Rect.unit (s := S16384x2048) off S8x2048.size h) (fun _ => rfl)).view A))
        Finset.univ
      = rowsOf A n :=
  landed_t0 A gold off h n hoff

/-- Rows n … n + 7 of the second array, landed in the second slot of its pair of buffers. -/
theorem chunk_eq_t1 (A : Buf (Elt F) ((Memref.whole main_v1_scv).view.loc (thr d L)))
    (gold : Buf (Elt F) ((Memref.whole cc0_scratch3).view.loc (thr d L))) (off : Fin 2 → ℕ)
    (h : ∀ a, off a + S8x2048.size a ≤ S16384x2048.size a) (n : ℕ) (hoff : off = ![n, 0]) :
    View.write (Elt F) (Memref.whole cc0_scratch3).view gold
        (ReadAs.same.apply (View.read (Elt F)
          ((Memref.whole main_v1_scv).slice (Rect.unit (s := S16384x2048) off S8x2048.size h) (fun _ => rfl)).view A))
        Finset.univ
      = rowsOf A n :=
  landed_t1 A gold off h n hoff

/-! ## A row loop's load -/

/-- A 16-lane load from row r of slot buffer 0, at columns 128 j + 16 u …, is piece 8 j + u of that row. -/
theorem load_eq_b0 (g : Buf (Elt F) ((Memref.whole cc0_scratch0).view.loc (thr d L))) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch0).slice (Rect.unit (s := S8x2048) ![r, 0] S1x2048.size hr) hst).squeeze S2048 hsq).view
        (Rect.unit (s := S2048) off S16.size h).toLoadRect g
      = ld g ⟨r, hr8⟩ (8 * j + u) :=
  load_eq_s0 g r hr8 hr hst hsq off h j u hj hu hoff

/-- A 16-lane load from row r of slot buffer 1, at columns 128 j + 16 u …, is piece 8 j + u of that row. -/
theorem load_eq_b1 (g : Buf (Elt F) ((Memref.whole cc0_scratch1).view.loc (thr d L))) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch1).slice (Rect.unit (s := S8x2048) ![r, 0] S1x2048.size hr) hst).squeeze S2048 hsq).view
        (Rect.unit (s := S2048) off S16.size h).toLoadRect g
      = ld g ⟨r, hr8⟩ (8 * j + u) :=
  load_eq_s1 g r hr8 hr hst hsq off h j u hj hu hoff

/-- A 16-lane load from row r of slot buffer 2, at columns 128 j + 16 u …, is piece 8 j + u of that row. -/
theorem load_eq_b2 (g : Buf (Elt F) ((Memref.whole cc0_scratch2).view.loc (thr d L))) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch2).slice (Rect.unit (s := S8x2048) ![r, 0] S1x2048.size hr) hst).squeeze S2048 hsq).view
        (Rect.unit (s := S2048) off S16.size h).toLoadRect g
      = ld g ⟨r, hr8⟩ (8 * j + u) :=
  load_eq_s2 g r hr8 hr hst hsq off h j u hj hu hoff

/-- A 16-lane load from row r of slot buffer 3, at columns 128 j + 16 u …, is piece 8 j + u of that row. -/
theorem load_eq_b3 (g : Buf (Elt F) ((Memref.whole cc0_scratch3).view.loc (thr d L))) (r : ℕ) (hr8 : r < 8)
    (hr : ∀ a, (![r, 0] : Fin 2 → ℕ) a + S1x2048.size a ≤ S8x2048.size a)
    (hst : ∀ a, (Rect.unit (s := S8x2048) ![r, 0] S1x2048.size hr).stride a = 1) (hsq : S1x2048.Squeezes S2048)
    (off : Fin 1 → ℕ) (h : ∀ a, off a + S16.size a ≤ S2048.size a) (j u : ℕ) (hj : j < 16) (hu : u < 8)
    (hoff : off = ![128 * j + 16 * u]) :
    View.readAt (Elt F)
        (((Memref.whole cc0_scratch3).slice (Rect.unit (s := S8x2048) ![r, 0] S1x2048.size hr) hst).squeeze S2048 hsq).view
        (Rect.unit (s := S2048) off S16.size h).toLoadRect g
      = ld g ⟨r, hr8⟩ (8 * j + u) :=
  load_eq_s3 g r hr8 hr hst hsq off h j u hj hu hoff

end Cert.Proof.KB

end
-- ==== Proof.TilePureABits.lean ====
/- A row loop's trip over the loads it makes.

  Row loop t of a tile reads row r of one slot buffer of x and of the same slot's buffer of t. In trip j it loads, from each,
  the eight 16-lane pieces at columns 128 j + 16 u (u < 8), that is pieces 8 j + u of the row, and carries the four
  accumulators through the eight steps. Each statement below writes one loop's yield over those sixteen loads and says it
  is the one trip over the row's pieces 8 j … 8 j + 7; it follows from the loop's trip statement and the reading of a load
  as a piece of a row.
-/
import proofs.«210622_g27255862460721_cont_9to1_1214_20_alg».proof.Proof.TileIndexBaseB
import Mathlib.Tactic.FinCases

noncomputable section

namespace Cert.Proof.KB

open Cert.Kernel Cert.Kernel.Gen
open Idealize.ShloMosaic Idealize.ShloMosaic.ValueIdx Idealize.SL.Sem
open Cert.Proof.TileSpecB

variable {F : FTy → Type} [FloatOps F]

/-- Row loop t2: row 0 of slot buffers 0 (x) and 2 (t). -/
theorem trip_pure_t2 (gA gB : S8x2048.Idx → F .f32) (j : Fin k0_t2_loop.trips) (a : Acc4 F) :
    ((k0_pay430 (k0_pay31 (k0_pay22 (k0_pay14 a.1 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gB)) (k0_pay28 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gA)) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gB)) (k0_pay37 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gB)),
      k0_pay434 (k0_pay35 (k0_pay26 (k0_pay18 a.2.1 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gB),
      k0_pay431 (k0_pay32 (k0_pay23 (k0_pay15 a.2.2.1 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gB)) (k0_pay28 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gA)) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gB)) (k0_pay37 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gB)),
      k0_pay435 (k0_pay36 (k0_pay27 (k0_pay19 a.2.2.2 (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gB)) (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gA) (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gB)) : Acc4 F)
      = trip8 a (fun u => ld gA ⟨0, by decide⟩ (8 * j.val + u.val)) (fun u => ld gB ⟨0, by decide⟩ (8 * j.val + u.val)) := by
  have hj : j.val < 16 := Nat.lt_of_lt_of_le j.isLt k0_t2_abs.2.1
  refine (trip_t2 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gA) = ld gA ⟨0, by decide⟩ (8 * j.val + 0)
      exact load_eq_s0 gA 0 (by decide) _ (fun _ => rfl) _ _ _ j.val 0 hj (by decide) (k0_off3_eq j ⟨0, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gA) = ld gA ⟨0, by decide⟩ (8 * j.val + 1)
      exact load_eq_s0 gA 0 (by decide) _ (fun _ => rfl) _ _ _ j.val 1 hj (by decide) (k0_off3_eq j ⟨1, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gA) = ld gA ⟨0, by decide⟩ (8 * j.val + 2)
      exact load_eq_s0 gA 0 (by decide) _ (fun _ => rfl) _ _ _ j.val 2 hj (by decide) (k0_off3_eq j ⟨2, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gA) = ld gA ⟨0, by decide⟩ (8 * j.val + 3)
      exact load_eq_s0 gA 0 (by decide) _ (fun _ => rfl) _ _ _ j.val 3 hj (by decide) (k0_off3_eq j ⟨3, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gA) = ld gA ⟨0, by decide⟩ (8 * j.val + 4)
      exact load_eq_s0 gA 0 (by decide) _ (fun _ => rfl) _ _ _ j.val 4 hj (by decide) (k0_off3_eq j ⟨4, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gA) = ld gA ⟨0, by decide⟩ (8 * j.val + 5)
      exact load_eq_s0 gA 0 (by decide) _ (fun _ => rfl) _ _ _ j.val 5 hj (by decide) (k0_off3_eq j ⟨5, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gA) = ld gA ⟨0, by decide⟩ (8 * j.val + 6)
      exact load_eq_s0 gA 0 (by decide) _ (fun _ => rfl) _ _ _ j.val 6 hj (by decide) (k0_off3_eq j ⟨6, by decide⟩)
    · show (View.readAt (Elt F) (((Memref.whole cc0_scratch0).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gA) = ld gA ⟨0, by decide⟩ (8 * j.val + 7)
      exact load_eq_s0 gA 0 (by decide) _ (fun _ => rfl) _ _ _ j.val 7 hj (by decide) (k0_off3_eq j ⟨7, by decide⟩)
  · fin_cases u
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 0#32) S16.size (k0_off3_inb j 0)).toLoadRect gB) = ld gB ⟨0, by decide⟩ (8 * j.val + 0)
      exact load_eq_s2 gB 0 (by decide) _ (fun _ => rfl) _ _ _ j.val 0 hj (by decide) (k0_off3_eq j ⟨0, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 16#32) S16.size (k0_off3_inb j 1)).toLoadRect gB) = ld gB ⟨0, by decide⟩ (8 * j.val + 1)
      exact load_eq_s2 gB 0 (by decide) _ (fun _ => rfl) _ _ _ j.val 1 hj (by decide) (k0_off3_eq j ⟨1, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 32#32) S16.size (k0_off3_inb j 2)).toLoadRect gB) = ld gB ⟨0, by decide⟩ (8 * j.val + 2)
      exact load_eq_s2 gB 0 (by decide) _ (fun _ => rfl) _ _ _ j.val 2 hj (by decide) (k0_off3_eq j ⟨2, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 48#32) S16.size (k0_off3_inb j 3)).toLoadRect gB) = ld gB ⟨0, by decide⟩ (8 * j.val + 3)
      exact load_eq_s2 gB 0 (by decide) _ (fun _ => rfl) _ _ _ j.val 3 hj (by decide) (k0_off3_eq j ⟨3, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 64#32) S16.size (k0_off3_inb j 4)).toLoadRect gB) = ld gB ⟨0, by decide⟩ (8 * j.val + 4)
      exact load_eq_s2 gB 0 (by decide) _ (fun _ => rfl) _ _ _ j.val 4 hj (by decide) (k0_off3_eq j ⟨4, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 80#32) S16.size (k0_off3_inb j 5)).toLoadRect gB) = ld gB ⟨0, by decide⟩ (8 * j.val + 5)
      exact load_eq_s2 gB 0 (by decide) _ (fun _ => rfl) _ _ _ j.val 5 hj (by decide) (k0_off3_eq j ⟨5, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 96#32) S16.size (k0_off3_inb j 6)).toLoadRect gB) = ld gB ⟨0, by decide⟩ (8 * j.val + 6)
      exact load_eq_s2 gB 0 (by decide) _ (fun _ => rfl) _ _ _ j.val 6 hj (by decide) (k0_off3_eq j ⟨6, by decide⟩)
    · show (View.readAt (Elt F) (((Memref.whole cc0_scratch2).slice (Rect.unit (s := S8x2048) ![0, 0] S1x2048.size inb_S8x2048_S1x2048_0_0) (fun _ => rfl)).squeeze S2048 squeezes_S1x2048_S2048).view (Rect.unit (s := S2048) (k0_off3 j 112#32) S16.size (k0_off3_inb j 7)).toLoadRect gB) = ld gB ⟨0, by decide⟩ (8 * j.val + 7)
      exact load_eq_s2 gB 0 (by decide) _ (fun _ => rfl) _ _ _ j.val 7 hj (by decide) (k0_off3_eq j ⟨7, by decide⟩)

/-- Row loop t3: row 1 of slot buffers 0 (x) and 2 (t). -/
theorem trip_pure_t3 (gA gB : S8x2048.Idx → F .f32) (j : Fin k0_t3_loop.trips) (a : Acc4 F) :
    ((k0_pay438 (k0_pay57 (k0_pay48 (k0_pay40 a.1 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gB)) (k0_pay54 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gA)) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gB)) (k0_pay63 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gB)),
      k0_pay442 (k0_pay61 (k0_pay52 (k0_pay44 a.2.1 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gB),
      k0_pay439 (k0_pay58 (k0_pay49 (k0_pay41 a.2.2.1 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gB)) (k0_pay54 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gA)) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gB)) (k0_pay63 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gB)),
      k0_pay443 (k0_pay62 (k0_pay53 (k0_pay45 a.2.2.2 (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gB)) (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gA) (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gB)) : Acc4 F)
      = trip8 a (fun u => ld gA ⟨1, by decide⟩ (8 * j.val + u.val)) (fun u => ld gB ⟨1, by decide⟩ (8 * j.val + u.val)) := by
  have hj : j.val < 16 := Nat.lt_of_lt_of_le j.isLt k0_t3_abs.2.1
  refine (trip_t3 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gA) = ld gA ⟨1, by decide⟩ (8 * j.val + 0)
      exact load_eq_s0 gA 1 (by decide) _ (fun _ => rfl) _ _ _ j.val 0 hj (by decide) (k0_off4_eq j ⟨0, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gA) = ld gA ⟨1, by decide⟩ (8 * j.val + 1)
      exact load_eq_s0 gA 1 (by decide) _ (fun _ => rfl) _ _ _ j.val 1 hj (by decide) (k0_off4_eq j ⟨1, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gA) = ld gA ⟨1, by decide⟩ (8 * j.val + 2)
      exact load_eq_s0 gA 1 (by decide) _ (fun _ => rfl) _ _ _ j.val 2 hj (by decide) (k0_off4_eq j ⟨2, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gA) = ld gA ⟨1, by decide⟩ (8 * j.val + 3)
      exact load_eq_s0 gA 1 (by decide) _ (fun _ => rfl) _ _ _ j.val 3 hj (by decide) (k0_off4_eq j ⟨3, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gA) = ld gA ⟨1, by decide⟩ (8 * j.val + 4)
      exact load_eq_s0 gA 1 (by decide) _ (fun _ => rfl) _ _ _ j.val 4 hj (by decide) (k0_off4_eq j ⟨4, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gA) = ld gA ⟨1, by decide⟩ (8 * j.val + 5)
      exact load_eq_s0 gA 1 (by decide) _ (fun _ => rfl) _ _ _ j.val 5 hj (by decide) (k0_off4_eq j ⟨5, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gA) = ld gA ⟨1, by decide⟩ (8 * j.val + 6)
      exact load_eq_s0 gA 1 (by decide) _ (fun _ => rfl) _ _ _ j.val 6 hj (by decide) (k0_off4_eq j ⟨6, by decide⟩)
    · show (View.readAt (Elt F) (((Memref.whole cc0_scratch0).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gA) = ld gA ⟨1, by decide⟩ (8 * j.val + 7)
      exact load_eq_s0 gA 1 (by decide) _ (fun _ => rfl) _ _ _ j.val 7 hj (by decide) (k0_off4_eq j ⟨7, by decide⟩)
  · fin_cases u
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 0#32) S16.size (k0_off4_inb j 0)).toLoadRect gB) = ld gB ⟨1, by decide⟩ (8 * j.val + 0)
      exact load_eq_s2 gB 1 (by decide) _ (fun _ => rfl) _ _ _ j.val 0 hj (by decide) (k0_off4_eq j ⟨0, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 16#32) S16.size (k0_off4_inb j 1)).toLoadRect gB) = ld gB ⟨1, by decide⟩ (8 * j.val + 1)
      exact load_eq_s2 gB 1 (by decide) _ (fun _ => rfl) _ _ _ j.val 1 hj (by decide) (k0_off4_eq j ⟨1, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 32#32) S16.size (k0_off4_inb j 2)).toLoadRect gB) = ld gB ⟨1, by decide⟩ (8 * j.val + 2)
      exact load_eq_s2 gB 1 (by decide) _ (fun _ => rfl) _ _ _ j.val 2 hj (by decide) (k0_off4_eq j ⟨2, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 48#32) S16.size (k0_off4_inb j 3)).toLoadRect gB) = ld gB ⟨1, by decide⟩ (8 * j.val + 3)
      exact load_eq_s2 gB 1 (by decide) _ (fun _ => rfl) _ _ _ j.val 3 hj (by decide) (k0_off4_eq j ⟨3, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 64#32) S16.size (k0_off4_inb j 4)).toLoadRect gB) = ld gB ⟨1, by decide⟩ (8 * j.val + 4)
      exact load_eq_s2 gB 1 (by decide) _ (fun _ => rfl) _ _ _ j.val 4 hj (by decide) (k0_off4_eq j ⟨4, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 80#32) S16.size (k0_off4_inb j 5)).toLoadRect gB) = ld gB ⟨1, by decide⟩ (8 * j.val + 5)
      exact load_eq_s2 gB 1 (by decide) _ (fun _ => rfl) _ _ _ j.val 5 hj (by decide) (k0_off4_eq j ⟨5, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 96#32) S16.size (k0_off4_inb j 6)).toLoadRect gB) = ld gB ⟨1, by decide⟩ (8 * j.val + 6)
      exact load_eq_s2 gB 1 (by decide) _ (fun _ => rfl) _ _ _ j.val 6 hj (by decide) (k0_off4_eq j ⟨6, by decide⟩)
    · show (View.readAt (Elt F) (((Memref.whole cc0_scratch2).slice (Rect.unit (s := S8x2048) ![1, 0] S1x2048.size inb_S8x2048_S1x2048_1_0) (fun _ => rfl)).squeeze S2048 squeezes_S1x2048_S2048).view (Rect.unit (s := S2048) (k0_off4 j 112#32) S16.size (k0_off4_inb j 7)).toLoadRect gB) = ld gB ⟨1, by decide⟩ (8 * j.val + 7)
      exact load_eq_s2 gB 1 (by decide) _ (fun _ => rfl) _ _ _ j.val 7 hj (by decide) (k0_off4_eq j ⟨7, by decide⟩)

/-- Row loop t4: row 2 of slot buffers 0 (x) and 2 (t). -/
theorem trip_pure_t4 (gA gB : S8x2048.Idx → F .f32) (j : Fin k0_t4_loop.trips) (a : Acc4 F) :
    ((k0_pay446 (k0_pay83 (k0_pay74 (k0_pay66 a.1 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gB)) (k0_pay80 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gA)) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gB)) (k0_pay89 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gB)),
      k0_pay450 (k0_pay87 (k0_pay78 (k0_pay70 a.2.1 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gB),
      k0_pay447 (k0_pay84 (k0_pay75 (k0_pay67 a.2.2.1 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gB)) (k0_pay80 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gA)) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gB)) (k0_pay89 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gB)),
      k0_pay451 (k0_pay88 (k0_pay79 (k0_pay71 a.2.2.2 (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gB)) (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gA) (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gB)) : Acc4 F)
      = trip8 a (fun u => ld gA ⟨2, by decide⟩ (8 * j.val + u.val)) (fun u => ld gB ⟨2, by decide⟩ (8 * j.val + u.val)) := by
  have hj : j.val < 16 := Nat.lt_of_lt_of_le j.isLt k0_t4_abs.2.1
  refine (trip_t4 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gA) = ld gA ⟨2, by decide⟩ (8 * j.val + 0)
      exact load_eq_s0 gA 2 (by decide) _ (fun _ => rfl) _ _ _ j.val 0 hj (by decide) (k0_off5_eq j ⟨0, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gA) = ld gA ⟨2, by decide⟩ (8 * j.val + 1)
      exact load_eq_s0 gA 2 (by decide) _ (fun _ => rfl) _ _ _ j.val 1 hj (by decide) (k0_off5_eq j ⟨1, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gA) = ld gA ⟨2, by decide⟩ (8 * j.val + 2)
      exact load_eq_s0 gA 2 (by decide) _ (fun _ => rfl) _ _ _ j.val 2 hj (by decide) (k0_off5_eq j ⟨2, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gA) = ld gA ⟨2, by decide⟩ (8 * j.val + 3)
      exact load_eq_s0 gA 2 (by decide) _ (fun _ => rfl) _ _ _ j.val 3 hj (by decide) (k0_off5_eq j ⟨3, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gA) = ld gA ⟨2, by decide⟩ (8 * j.val + 4)
      exact load_eq_s0 gA 2 (by decide) _ (fun _ => rfl) _ _ _ j.val 4 hj (by decide) (k0_off5_eq j ⟨4, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gA) = ld gA ⟨2, by decide⟩ (8 * j.val + 5)
      exact load_eq_s0 gA 2 (by decide) _ (fun _ => rfl) _ _ _ j.val 5 hj (by decide) (k0_off5_eq j ⟨5, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gA) = ld gA ⟨2, by decide⟩ (8 * j.val + 6)
      exact load_eq_s0 gA 2 (by decide) _ (fun _ => rfl) _ _ _ j.val 6 hj (by decide) (k0_off5_eq j ⟨6, by decide⟩)
    · show (View.readAt (Elt F) (((Memref.whole cc0_scratch0).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gA) = ld gA ⟨2, by decide⟩ (8 * j.val + 7)
      exact load_eq_s0 gA 2 (by decide) _ (fun _ => rfl) _ _ _ j.val 7 hj (by decide) (k0_off5_eq j ⟨7, by decide⟩)
  · fin_cases u
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 0#32) S16.size (k0_off5_inb j 0)).toLoadRect gB) = ld gB ⟨2, by decide⟩ (8 * j.val + 0)
      exact load_eq_s2 gB 2 (by decide) _ (fun _ => rfl) _ _ _ j.val 0 hj (by decide) (k0_off5_eq j ⟨0, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 16#32) S16.size (k0_off5_inb j 1)).toLoadRect gB) = ld gB ⟨2, by decide⟩ (8 * j.val + 1)
      exact load_eq_s2 gB 2 (by decide) _ (fun _ => rfl) _ _ _ j.val 1 hj (by decide) (k0_off5_eq j ⟨1, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 32#32) S16.size (k0_off5_inb j 2)).toLoadRect gB) = ld gB ⟨2, by decide⟩ (8 * j.val + 2)
      exact load_eq_s2 gB 2 (by decide) _ (fun _ => rfl) _ _ _ j.val 2 hj (by decide) (k0_off5_eq j ⟨2, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 48#32) S16.size (k0_off5_inb j 3)).toLoadRect gB) = ld gB ⟨2, by decide⟩ (8 * j.val + 3)
      exact load_eq_s2 gB 2 (by decide) _ (fun _ => rfl) _ _ _ j.val 3 hj (by decide) (k0_off5_eq j ⟨3, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 64#32) S16.size (k0_off5_inb j 4)).toLoadRect gB) = ld gB ⟨2, by decide⟩ (8 * j.val + 4)
      exact load_eq_s2 gB 2 (by decide) _ (fun _ => rfl) _ _ _ j.val 4 hj (by decide) (k0_off5_eq j ⟨4, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 80#32) S16.size (k0_off5_inb j 5)).toLoadRect gB) = ld gB ⟨2, by decide⟩ (8 * j.val + 5)
      exact load_eq_s2 gB 2 (by decide) _ (fun _ => rfl) _ _ _ j.val 5 hj (by decide) (k0_off5_eq j ⟨5, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 96#32) S16.size (k0_off5_inb j 6)).toLoadRect gB) = ld gB ⟨2, by decide⟩ (8 * j.val + 6)
      exact load_eq_s2 gB 2 (by decide) _ (fun _ => rfl) _ _ _ j.val 6 hj (by decide) (k0_off5_eq j ⟨6, by decide⟩)
    · show (View.readAt (Elt F) (((Memref.whole cc0_scratch2).slice (Rect.unit (s := S8x2048) ![2, 0] S1x2048.size inb_S8x2048_S1x2048_2_0) (fun _ => rfl)).squeeze S2048 squeezes_S1x2048_S2048).view (Rect.unit (s := S2048) (k0_off5 j 112#32) S16.size (k0_off5_inb j 7)).toLoadRect gB) = ld gB ⟨2, by decide⟩ (8 * j.val + 7)
      exact load_eq_s2 gB 2 (by decide) _ (fun _ => rfl) _ _ _ j.val 7 hj (by decide) (k0_off5_eq j ⟨7, by decide⟩)

/-- Row loop t5: row 3 of slot buffers 0 (x) and 2 (t). -/
theorem trip_pure_t5 (gA gB : S8x2048.Idx → F .f32) (j : Fin k0_t5_loop.trips) (a : Acc4 F) :
    ((k0_pay454 (k0_pay109 (k0_pay100 (k0_pay92 a.1 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gB)) (k0_pay106 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gA)) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gB)) (k0_pay115 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gB)),
      k0_pay458 (k0_pay113 (k0_pay104 (k0_pay96 a.2.1 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gB),
      k0_pay455 (k0_pay110 (k0_pay101 (k0_pay93 a.2.2.1 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gB)) (k0_pay106 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gA)) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gB)) (k0_pay115 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gB)),
      k0_pay459 (k0_pay114 (k0_pay105 (k0_pay97 a.2.2.2 (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gB)) (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gA) (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gB)) : Acc4 F)
      = trip8 a (fun u => ld gA ⟨3, by decide⟩ (8 * j.val + u.val)) (fun u => ld gB ⟨3, by decide⟩ (8 * j.val + u.val)) := by
  have hj : j.val < 16 := Nat.lt_of_lt_of_le j.isLt k0_t5_abs.2.1
  refine (trip_t5 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gA) = ld gA ⟨3, by decide⟩ (8 * j.val + 0)
      exact load_eq_s0 gA 3 (by decide) _ (fun _ => rfl) _ _ _ j.val 0 hj (by decide) (k0_off6_eq j ⟨0, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gA) = ld gA ⟨3, by decide⟩ (8 * j.val + 1)
      exact load_eq_s0 gA 3 (by decide) _ (fun _ => rfl) _ _ _ j.val 1 hj (by decide) (k0_off6_eq j ⟨1, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gA) = ld gA ⟨3, by decide⟩ (8 * j.val + 2)
      exact load_eq_s0 gA 3 (by decide) _ (fun _ => rfl) _ _ _ j.val 2 hj (by decide) (k0_off6_eq j ⟨2, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gA) = ld gA ⟨3, by decide⟩ (8 * j.val + 3)
      exact load_eq_s0 gA 3 (by decide) _ (fun _ => rfl) _ _ _ j.val 3 hj (by decide) (k0_off6_eq j ⟨3, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gA) = ld gA ⟨3, by decide⟩ (8 * j.val + 4)
      exact load_eq_s0 gA 3 (by decide) _ (fun _ => rfl) _ _ _ j.val 4 hj (by decide) (k0_off6_eq j ⟨4, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gA) = ld gA ⟨3, by decide⟩ (8 * j.val + 5)
      exact load_eq_s0 gA 3 (by decide) _ (fun _ => rfl) _ _ _ j.val 5 hj (by decide) (k0_off6_eq j ⟨5, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gA) = ld gA ⟨3, by decide⟩ (8 * j.val + 6)
      exact load_eq_s0 gA 3 (by decide) _ (fun _ => rfl) _ _ _ j.val 6 hj (by decide) (k0_off6_eq j ⟨6, by decide⟩)
    · show (View.readAt (Elt F) (((Memref.whole cc0_scratch0).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gA) = ld gA ⟨3, by decide⟩ (8 * j.val + 7)
      exact load_eq_s0 gA 3 (by decide) _ (fun _ => rfl) _ _ _ j.val 7 hj (by decide) (k0_off6_eq j ⟨7, by decide⟩)
  · fin_cases u
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 0#32) S16.size (k0_off6_inb j 0)).toLoadRect gB) = ld gB ⟨3, by decide⟩ (8 * j.val + 0)
      exact load_eq_s2 gB 3 (by decide) _ (fun _ => rfl) _ _ _ j.val 0 hj (by decide) (k0_off6_eq j ⟨0, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 16#32) S16.size (k0_off6_inb j 1)).toLoadRect gB) = ld gB ⟨3, by decide⟩ (8 * j.val + 1)
      exact load_eq_s2 gB 3 (by decide) _ (fun _ => rfl) _ _ _ j.val 1 hj (by decide) (k0_off6_eq j ⟨1, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 32#32) S16.size (k0_off6_inb j 2)).toLoadRect gB) = ld gB ⟨3, by decide⟩ (8 * j.val + 2)
      exact load_eq_s2 gB 3 (by decide) _ (fun _ => rfl) _ _ _ j.val 2 hj (by decide) (k0_off6_eq j ⟨2, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 48#32) S16.size (k0_off6_inb j 3)).toLoadRect gB) = ld gB ⟨3, by decide⟩ (8 * j.val + 3)
      exact load_eq_s2 gB 3 (by decide) _ (fun _ => rfl) _ _ _ j.val 3 hj (by decide) (k0_off6_eq j ⟨3, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 64#32) S16.size (k0_off6_inb j 4)).toLoadRect gB) = ld gB ⟨3, by decide⟩ (8 * j.val + 4)
      exact load_eq_s2 gB 3 (by decide) _ (fun _ => rfl) _ _ _ j.val 4 hj (by decide) (k0_off6_eq j ⟨4, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 80#32) S16.size (k0_off6_inb j 5)).toLoadRect gB) = ld gB ⟨3, by decide⟩ (8 * j.val + 5)
      exact load_eq_s2 gB 3 (by decide) _ (fun _ => rfl) _ _ _ j.val 5 hj (by decide) (k0_off6_eq j ⟨5, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 96#32) S16.size (k0_off6_inb j 6)).toLoadRect gB) = ld gB ⟨3, by decide⟩ (8 * j.val + 6)
      exact load_eq_s2 gB 3 (by decide) _ (fun _ => rfl) _ _ _ j.val 6 hj (by decide) (k0_off6_eq j ⟨6, by decide⟩)
    · show (View.readAt (Elt F) (((Memref.whole cc0_scratch2).slice (Rect.unit (s := S8x2048) ![3, 0] S1x2048.size inb_S8x2048_S1x2048_3_0) (fun _ => rfl)).squeeze S2048 squeezes_S1x2048_S2048).view (Rect.unit (s := S2048) (k0_off6 j 112#32) S16.size (k0_off6_inb j 7)).toLoadRect gB) = ld gB ⟨3, by decide⟩ (8 * j.val + 7)
      exact load_eq_s2 gB 3 (by decide) _ (fun _ => rfl) _ _ _ j.val 7 hj (by decide) (k0_off6_eq j ⟨7, by decide⟩)

/-- Row loop t6: row 4 of slot buffers 0 (x) and 2 (t). -/
theorem trip_pure_t6 (gA gB : S8x2048.Idx → F .f32) (j : Fin k0_t6_loop.trips) (a : Acc4 F) :
    ((k0_pay462 (k0_pay135 (k0_pay126 (k0_pay118 a.1 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gB)) (k0_pay132 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gA)) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gB)) (k0_pay141 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gB)),
      k0_pay466 (k0_pay139 (k0_pay130 (k0_pay122 a.2.1 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gB),
      k0_pay463 (k0_pay136 (k0_pay127 (k0_pay119 a.2.2.1 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gB)) (k0_pay132 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gA)) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gB)) (k0_pay141 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gB)),
      k0_pay467 (k0_pay140 (k0_pay131 (k0_pay123 a.2.2.2 (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gB)) (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gA) (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gB)) : Acc4 F)
      = trip8 a (fun u => ld gA ⟨4, by decide⟩ (8 * j.val + u.val)) (fun u => ld gB ⟨4, by decide⟩ (8 * j.val + u.val)) := by
  have hj : j.val < 16 := Nat.lt_of_lt_of_le j.isLt k0_t6_abs.2.1
  refine (trip_t6 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gA) = ld gA ⟨4, by decide⟩ (8 * j.val + 0)
      exact load_eq_s0 gA 4 (by decide) _ (fun _ => rfl) _ _ _ j.val 0 hj (by decide) (k0_off7_eq j ⟨0, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gA) = ld gA ⟨4, by decide⟩ (8 * j.val + 1)
      exact load_eq_s0 gA 4 (by decide) _ (fun _ => rfl) _ _ _ j.val 1 hj (by decide) (k0_off7_eq j ⟨1, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gA) = ld gA ⟨4, by decide⟩ (8 * j.val + 2)
      exact load_eq_s0 gA 4 (by decide) _ (fun _ => rfl) _ _ _ j.val 2 hj (by decide) (k0_off7_eq j ⟨2, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gA) = ld gA ⟨4, by decide⟩ (8 * j.val + 3)
      exact load_eq_s0 gA 4 (by decide) _ (fun _ => rfl) _ _ _ j.val 3 hj (by decide) (k0_off7_eq j ⟨3, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gA) = ld gA ⟨4, by decide⟩ (8 * j.val + 4)
      exact load_eq_s0 gA 4 (by decide) _ (fun _ => rfl) _ _ _ j.val 4 hj (by decide) (k0_off7_eq j ⟨4, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gA) = ld gA ⟨4, by decide⟩ (8 * j.val + 5)
      exact load_eq_s0 gA 4 (by decide) _ (fun _ => rfl) _ _ _ j.val 5 hj (by decide) (k0_off7_eq j ⟨5, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gA) = ld gA ⟨4, by decide⟩ (8 * j.val + 6)
      exact load_eq_s0 gA 4 (by decide) _ (fun _ => rfl) _ _ _ j.val 6 hj (by decide) (k0_off7_eq j ⟨6, by decide⟩)
    · show (View.readAt (Elt F) (((Memref.whole cc0_scratch0).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gA) = ld gA ⟨4, by decide⟩ (8 * j.val + 7)
      exact load_eq_s0 gA 4 (by decide) _ (fun _ => rfl) _ _ _ j.val 7 hj (by decide) (k0_off7_eq j ⟨7, by decide⟩)
  · fin_cases u
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 0#32) S16.size (k0_off7_inb j 0)).toLoadRect gB) = ld gB ⟨4, by decide⟩ (8 * j.val + 0)
      exact load_eq_s2 gB 4 (by decide) _ (fun _ => rfl) _ _ _ j.val 0 hj (by decide) (k0_off7_eq j ⟨0, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 16#32) S16.size (k0_off7_inb j 1)).toLoadRect gB) = ld gB ⟨4, by decide⟩ (8 * j.val + 1)
      exact load_eq_s2 gB 4 (by decide) _ (fun _ => rfl) _ _ _ j.val 1 hj (by decide) (k0_off7_eq j ⟨1, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 32#32) S16.size (k0_off7_inb j 2)).toLoadRect gB) = ld gB ⟨4, by decide⟩ (8 * j.val + 2)
      exact load_eq_s2 gB 4 (by decide) _ (fun _ => rfl) _ _ _ j.val 2 hj (by decide) (k0_off7_eq j ⟨2, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 48#32) S16.size (k0_off7_inb j 3)).toLoadRect gB) = ld gB ⟨4, by decide⟩ (8 * j.val + 3)
      exact load_eq_s2 gB 4 (by decide) _ (fun _ => rfl) _ _ _ j.val 3 hj (by decide) (k0_off7_eq j ⟨3, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 64#32) S16.size (k0_off7_inb j 4)).toLoadRect gB) = ld gB ⟨4, by decide⟩ (8 * j.val + 4)
      exact load_eq_s2 gB 4 (by decide) _ (fun _ => rfl) _ _ _ j.val 4 hj (by decide) (k0_off7_eq j ⟨4, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 80#32) S16.size (k0_off7_inb j 5)).toLoadRect gB) = ld gB ⟨4, by decide⟩ (8 * j.val + 5)
      exact load_eq_s2 gB 4 (by decide) _ (fun _ => rfl) _ _ _ j.val 5 hj (by decide) (k0_off7_eq j ⟨5, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 96#32) S16.size (k0_off7_inb j 6)).toLoadRect gB) = ld gB ⟨4, by decide⟩ (8 * j.val + 6)
      exact load_eq_s2 gB 4 (by decide) _ (fun _ => rfl) _ _ _ j.val 6 hj (by decide) (k0_off7_eq j ⟨6, by decide⟩)
    · show (View.readAt (Elt F) (((Memref.whole cc0_scratch2).slice (Rect.unit (s := S8x2048) ![4, 0] S1x2048.size inb_S8x2048_S1x2048_4_0) (fun _ => rfl)).squeeze S2048 squeezes_S1x2048_S2048).view (Rect.unit (s := S2048) (k0_off7 j 112#32) S16.size (k0_off7_inb j 7)).toLoadRect gB) = ld gB ⟨4, by decide⟩ (8 * j.val + 7)
      exact load_eq_s2 gB 4 (by decide) _ (fun _ => rfl) _ _ _ j.val 7 hj (by decide) (k0_off7_eq j ⟨7, by decide⟩)

/-- Row loop t7: row 5 of slot buffers 0 (x) and 2 (t). -/
theorem trip_pure_t7 (gA gB : S8x2048.Idx → F .f32) (j : Fin k0_t7_loop.trips) (a : Acc4 F) :
    ((k0_pay470 (k0_pay161 (k0_pay152 (k0_pay144 a.1 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gB)) (k0_pay158 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gA)) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gB)) (k0_pay167 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gB)),
      k0_pay474 (k0_pay165 (k0_pay156 (k0_pay148 a.2.1 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gB),
      k0_pay471 (k0_pay162 (k0_pay153 (k0_pay145 a.2.2.1 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gB)) (k0_pay158 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gA)) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gB)) (k0_pay167 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gB)),
      k0_pay475 (k0_pay166 (k0_pay157 (k0_pay149 a.2.2.2 (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gB)) (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gA) (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gB)) : Acc4 F)
      = trip8 a (fun u => ld gA ⟨5, by decide⟩ (8 * j.val + u.val)) (fun u => ld gB ⟨5, by decide⟩ (8 * j.val + u.val)) := by
  have hj : j.val < 16 := Nat.lt_of_lt_of_le j.isLt k0_t7_abs.2.1
  refine (trip_t7 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gA) = ld gA ⟨5, by decide⟩ (8 * j.val + 0)
      exact load_eq_s0 gA 5 (by decide) _ (fun _ => rfl) _ _ _ j.val 0 hj (by decide) (k0_off8_eq j ⟨0, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gA) = ld gA ⟨5, by decide⟩ (8 * j.val + 1)
      exact load_eq_s0 gA 5 (by decide) _ (fun _ => rfl) _ _ _ j.val 1 hj (by decide) (k0_off8_eq j ⟨1, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gA) = ld gA ⟨5, by decide⟩ (8 * j.val + 2)
      exact load_eq_s0 gA 5 (by decide) _ (fun _ => rfl) _ _ _ j.val 2 hj (by decide) (k0_off8_eq j ⟨2, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gA) = ld gA ⟨5, by decide⟩ (8 * j.val + 3)
      exact load_eq_s0 gA 5 (by decide) _ (fun _ => rfl) _ _ _ j.val 3 hj (by decide) (k0_off8_eq j ⟨3, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gA) = ld gA ⟨5, by decide⟩ (8 * j.val + 4)
      exact load_eq_s0 gA 5 (by decide) _ (fun _ => rfl) _ _ _ j.val 4 hj (by decide) (k0_off8_eq j ⟨4, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gA) = ld gA ⟨5, by decide⟩ (8 * j.val + 5)
      exact load_eq_s0 gA 5 (by decide) _ (fun _ => rfl) _ _ _ j.val 5 hj (by decide) (k0_off8_eq j ⟨5, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gA) = ld gA ⟨5, by decide⟩ (8 * j.val + 6)
      exact load_eq_s0 gA 5 (by decide) _ (fun _ => rfl) _ _ _ j.val 6 hj (by decide) (k0_off8_eq j ⟨6, by decide⟩)
    · show (View.readAt (Elt F) (((Memref.whole cc0_scratch0).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gA) = ld gA ⟨5, by decide⟩ (8 * j.val + 7)
      exact load_eq_s0 gA 5 (by decide) _ (fun _ => rfl) _ _ _ j.val 7 hj (by decide) (k0_off8_eq j ⟨7, by decide⟩)
  · fin_cases u
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 0#32) S16.size (k0_off8_inb j 0)).toLoadRect gB) = ld gB ⟨5, by decide⟩ (8 * j.val + 0)
      exact load_eq_s2 gB 5 (by decide) _ (fun _ => rfl) _ _ _ j.val 0 hj (by decide) (k0_off8_eq j ⟨0, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 16#32) S16.size (k0_off8_inb j 1)).toLoadRect gB) = ld gB ⟨5, by decide⟩ (8 * j.val + 1)
      exact load_eq_s2 gB 5 (by decide) _ (fun _ => rfl) _ _ _ j.val 1 hj (by decide) (k0_off8_eq j ⟨1, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 32#32) S16.size (k0_off8_inb j 2)).toLoadRect gB) = ld gB ⟨5, by decide⟩ (8 * j.val + 2)
      exact load_eq_s2 gB 5 (by decide) _ (fun _ => rfl) _ _ _ j.val 2 hj (by decide) (k0_off8_eq j ⟨2, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 48#32) S16.size (k0_off8_inb j 3)).toLoadRect gB) = ld gB ⟨5, by decide⟩ (8 * j.val + 3)
      exact load_eq_s2 gB 5 (by decide) _ (fun _ => rfl) _ _ _ j.val 3 hj (by decide) (k0_off8_eq j ⟨3, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 64#32) S16.size (k0_off8_inb j 4)).toLoadRect gB) = ld gB ⟨5, by decide⟩ (8 * j.val + 4)
      exact load_eq_s2 gB 5 (by decide) _ (fun _ => rfl) _ _ _ j.val 4 hj (by decide) (k0_off8_eq j ⟨4, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 80#32) S16.size (k0_off8_inb j 5)).toLoadRect gB) = ld gB ⟨5, by decide⟩ (8 * j.val + 5)
      exact load_eq_s2 gB 5 (by decide) _ (fun _ => rfl) _ _ _ j.val 5 hj (by decide) (k0_off8_eq j ⟨5, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 96#32) S16.size (k0_off8_inb j 6)).toLoadRect gB) = ld gB ⟨5, by decide⟩ (8 * j.val + 6)
      exact load_eq_s2 gB 5 (by decide) _ (fun _ => rfl) _ _ _ j.val 6 hj (by decide) (k0_off8_eq j ⟨6, by decide⟩)
    · show (View.readAt (Elt F) (((Memref.whole cc0_scratch2).slice (Rect.unit (s := S8x2048) ![5, 0] S1x2048.size inb_S8x2048_S1x2048_5_0) (fun _ => rfl)).squeeze S2048 squeezes_S1x2048_S2048).view (Rect.unit (s := S2048) (k0_off8 j 112#32) S16.size (k0_off8_inb j 7)).toLoadRect gB) = ld gB ⟨5, by decide⟩ (8 * j.val + 7)
      exact load_eq_s2 gB 5 (by decide) _ (fun _ => rfl) _ _ _ j.val 7 hj (by decide) (k0_off8_eq j ⟨7, by decide⟩)

/-- Row loop t8: row 6 of slot buffers 0 (x) and 2 (t). -/
theorem trip_pure_t8 (gA gB : S8x2048.Idx → F .f32) (j : Fin k0_t8_loop.trips) (a : Acc4 F) :
    ((k0_pay478 (k0_pay187 (k0_pay178 (k0_pay170 a.1 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gB)) (k0_pay184 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gA)) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gB)) (k0_pay193 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gB)),
      k0_pay482 (k0_pay191 (k0_pay182 (k0_pay174 a.2.1 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gB),
      k0_pay479 (k0_pay188 (k0_pay179 (k0_pay171 a.2.2.1 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gB)) (k0_pay184 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gA)) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gB)) (k0_pay193 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gB)),
      k0_pay483 (k0_pay192 (k0_pay183 (k0_pay175 a.2.2.2 (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gB)) (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gA) (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gB)) : Acc4 F)
      = trip8 a (fun u => ld gA ⟨6, by decide⟩ (8 * j.val + u.val)) (fun u => ld gB ⟨6, by decide⟩ (8 * j.val + u.val)) := by
  have hj : j.val < 16 := Nat.lt_of_lt_of_le j.isLt k0_t8_abs.2.1
  refine (trip_t8 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gA) = ld gA ⟨6, by decide⟩ (8 * j.val + 0)
      exact load_eq_s0 gA 6 (by decide) _ (fun _ => rfl) _ _ _ j.val 0 hj (by decide) (k0_off9_eq j ⟨0, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gA) = ld gA ⟨6, by decide⟩ (8 * j.val + 1)
      exact load_eq_s0 gA 6 (by decide) _ (fun _ => rfl) _ _ _ j.val 1 hj (by decide) (k0_off9_eq j ⟨1, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gA) = ld gA ⟨6, by decide⟩ (8 * j.val + 2)
      exact load_eq_s0 gA 6 (by decide) _ (fun _ => rfl) _ _ _ j.val 2 hj (by decide) (k0_off9_eq j ⟨2, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gA) = ld gA ⟨6, by decide⟩ (8 * j.val + 3)
      exact load_eq_s0 gA 6 (by decide) _ (fun _ => rfl) _ _ _ j.val 3 hj (by decide) (k0_off9_eq j ⟨3, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gA) = ld gA ⟨6, by decide⟩ (8 * j.val + 4)
      exact load_eq_s0 gA 6 (by decide) _ (fun _ => rfl) _ _ _ j.val 4 hj (by decide) (k0_off9_eq j ⟨4, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gA) = ld gA ⟨6, by decide⟩ (8 * j.val + 5)
      exact load_eq_s0 gA 6 (by decide) _ (fun _ => rfl) _ _ _ j.val 5 hj (by decide) (k0_off9_eq j ⟨5, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gA) = ld gA ⟨6, by decide⟩ (8 * j.val + 6)
      exact load_eq_s0 gA 6 (by decide) _ (fun _ => rfl) _ _ _ j.val 6 hj (by decide) (k0_off9_eq j ⟨6, by decide⟩)
    · show (View.readAt (Elt F) (((Memref.whole cc0_scratch0).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gA) = ld gA ⟨6, by decide⟩ (8 * j.val + 7)
      exact load_eq_s0 gA 6 (by decide) _ (fun _ => rfl) _ _ _ j.val 7 hj (by decide) (k0_off9_eq j ⟨7, by decide⟩)
  · fin_cases u
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 0#32) S16.size (k0_off9_inb j 0)).toLoadRect gB) = ld gB ⟨6, by decide⟩ (8 * j.val + 0)
      exact load_eq_s2 gB 6 (by decide) _ (fun _ => rfl) _ _ _ j.val 0 hj (by decide) (k0_off9_eq j ⟨0, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 16#32) S16.size (k0_off9_inb j 1)).toLoadRect gB) = ld gB ⟨6, by decide⟩ (8 * j.val + 1)
      exact load_eq_s2 gB 6 (by decide) _ (fun _ => rfl) _ _ _ j.val 1 hj (by decide) (k0_off9_eq j ⟨1, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 32#32) S16.size (k0_off9_inb j 2)).toLoadRect gB) = ld gB ⟨6, by decide⟩ (8 * j.val + 2)
      exact load_eq_s2 gB 6 (by decide) _ (fun _ => rfl) _ _ _ j.val 2 hj (by decide) (k0_off9_eq j ⟨2, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 48#32) S16.size (k0_off9_inb j 3)).toLoadRect gB) = ld gB ⟨6, by decide⟩ (8 * j.val + 3)
      exact load_eq_s2 gB 6 (by decide) _ (fun _ => rfl) _ _ _ j.val 3 hj (by decide) (k0_off9_eq j ⟨3, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 64#32) S16.size (k0_off9_inb j 4)).toLoadRect gB) = ld gB ⟨6, by decide⟩ (8 * j.val + 4)
      exact load_eq_s2 gB 6 (by decide) _ (fun _ => rfl) _ _ _ j.val 4 hj (by decide) (k0_off9_eq j ⟨4, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 80#32) S16.size (k0_off9_inb j 5)).toLoadRect gB) = ld gB ⟨6, by decide⟩ (8 * j.val + 5)
      exact load_eq_s2 gB 6 (by decide) _ (fun _ => rfl) _ _ _ j.val 5 hj (by decide) (k0_off9_eq j ⟨5, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 96#32) S16.size (k0_off9_inb j 6)).toLoadRect gB) = ld gB ⟨6, by decide⟩ (8 * j.val + 6)
      exact load_eq_s2 gB 6 (by decide) _ (fun _ => rfl) _ _ _ j.val 6 hj (by decide) (k0_off9_eq j ⟨6, by decide⟩)
    · show (View.readAt (Elt F) (((Memref.whole cc0_scratch2).slice (Rect.unit (s := S8x2048) ![6, 0] S1x2048.size inb_S8x2048_S1x2048_6_0) (fun _ => rfl)).squeeze S2048 squeezes_S1x2048_S2048).view (Rect.unit (s := S2048) (k0_off9 j 112#32) S16.size (k0_off9_inb j 7)).toLoadRect gB) = ld gB ⟨6, by decide⟩ (8 * j.val + 7)
      exact load_eq_s2 gB 6 (by decide) _ (fun _ => rfl) _ _ _ j.val 7 hj (by decide) (k0_off9_eq j ⟨7, by decide⟩)

/-- Row loop t9: row 7 of slot buffers 0 (x) and 2 (t). -/
theorem trip_pure_t9 (gA gB : S8x2048.Idx → F .f32) (j : Fin k0_t9_loop.trips) (a : Acc4 F) :
    ((k0_pay486 (k0_pay213 (k0_pay204 (k0_pay196 a.1 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gB)) (k0_pay210 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gA)) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gB)) (k0_pay219 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gB)),
      k0_pay490 (k0_pay217 (k0_pay208 (k0_pay200 a.2.1 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gB),
      k0_pay487 (k0_pay214 (k0_pay205 (k0_pay197 a.2.2.1 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gB)) (k0_pay210 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gA)) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gB)) (k0_pay219 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gB)),
      k0_pay491 (k0_pay218 (k0_pay209 (k0_pay201 a.2.2.2 (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gB)) (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gA) (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gB)) : Acc4 F)
      = trip8 a (fun u => ld gA ⟨7, by decide⟩ (8 * j.val + u.val)) (fun u => ld gB ⟨7, by decide⟩ (8 * j.val + u.val)) := by
  have hj : j.val < 16 := Nat.lt_of_lt_of_le j.isLt k0_t9_abs.2.1
  refine (trip_t9 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gA) = ld gA ⟨7, by decide⟩ (8 * j.val + 0)
      exact load_eq_s0 gA 7 (by decide) _ (fun _ => rfl) _ _ _ j.val 0 hj (by decide) (k0_off10_eq j ⟨0, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gA) = ld gA ⟨7, by decide⟩ (8 * j.val + 1)
      exact load_eq_s0 gA 7 (by decide) _ (fun _ => rfl) _ _ _ j.val 1 hj (by decide) (k0_off10_eq j ⟨1, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gA) = ld gA ⟨7, by decide⟩ (8 * j.val + 2)
      exact load_eq_s0 gA 7 (by decide) _ (fun _ => rfl) _ _ _ j.val 2 hj (by decide) (k0_off10_eq j ⟨2, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gA) = ld gA ⟨7, by decide⟩ (8 * j.val + 3)
      exact load_eq_s0 gA 7 (by decide) _ (fun _ => rfl) _ _ _ j.val 3 hj (by decide) (k0_off10_eq j ⟨3, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gA) = ld gA ⟨7, by decide⟩ (8 * j.val + 4)
      exact load_eq_s0 gA 7 (by decide) _ (fun _ => rfl) _ _ _ j.val 4 hj (by decide) (k0_off10_eq j ⟨4, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gA) = ld gA ⟨7, by decide⟩ (8 * j.val + 5)
      exact load_eq_s0 gA 7 (by decide) _ (fun _ => rfl) _ _ _ j.val 5 hj (by decide) (k0_off10_eq j ⟨5, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gA) = ld gA ⟨7, by decide⟩ (8 * j.val + 6)
      exact load_eq_s0 gA 7 (by decide) _ (fun _ => rfl) _ _ _ j.val 6 hj (by decide) (k0_off10_eq j ⟨6, by decide⟩)
    · show (View.readAt (Elt F) (((Memref.whole cc0_scratch0).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gA) = ld gA ⟨7, by decide⟩ (8 * j.val + 7)
      exact load_eq_s0 gA 7 (by decide) _ (fun _ => rfl) _ _ _ j.val 7 hj (by decide) (k0_off10_eq j ⟨7, by decide⟩)
  · fin_cases u
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 0#32) S16.size (k0_off10_inb j 0)).toLoadRect gB) = ld gB ⟨7, by decide⟩ (8 * j.val + 0)
      exact load_eq_s2 gB 7 (by decide) _ (fun _ => rfl) _ _ _ j.val 0 hj (by decide) (k0_off10_eq j ⟨0, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 16#32) S16.size (k0_off10_inb j 1)).toLoadRect gB) = ld gB ⟨7, by decide⟩ (8 * j.val + 1)
      exact load_eq_s2 gB 7 (by decide) _ (fun _ => rfl) _ _ _ j.val 1 hj (by decide) (k0_off10_eq j ⟨1, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 32#32) S16.size (k0_off10_inb j 2)).toLoadRect gB) = ld gB ⟨7, by decide⟩ (8 * j.val + 2)
      exact load_eq_s2 gB 7 (by decide) _ (fun _ => rfl) _ _ _ j.val 2 hj (by decide) (k0_off10_eq j ⟨2, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 48#32) S16.size (k0_off10_inb j 3)).toLoadRect gB) = ld gB ⟨7, by decide⟩ (8 * j.val + 3)
      exact load_eq_s2 gB 7 (by decide) _ (fun _ => rfl) _ _ _ j.val 3 hj (by decide) (k0_off10_eq j ⟨3, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 64#32) S16.size (k0_off10_inb j 4)).toLoadRect gB) = ld gB ⟨7, by decide⟩ (8 * j.val + 4)
      exact load_eq_s2 gB 7 (by decide) _ (fun _ => rfl) _ _ _ j.val 4 hj (by decide) (k0_off10_eq j ⟨4, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 80#32) S16.size (k0_off10_inb j 5)).toLoadRect gB) = ld gB ⟨7, by decide⟩ (8 * j.val + 5)
      exact load_eq_s2 gB 7 (by decide) _ (fun _ => rfl) _ _ _ j.val 5 hj (by decide) (k0_off10_eq j ⟨5, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 96#32) S16.size (k0_off10_inb j 6)).toLoadRect gB) = ld gB ⟨7, by decide⟩ (8 * j.val + 6)
      exact load_eq_s2 gB 7 (by decide) _ (fun _ => rfl) _ _ _ j.val 6 hj (by decide) (k0_off10_eq j ⟨6, by decide⟩)
    · show (View.readAt (Elt F) (((Memref.whole cc0_scratch2).slice (Rect.unit (s := S8x2048) ![7, 0] S1x2048.size inb_S8x2048_S1x2048_7_0) (fun _ => rfl)).squeeze S2048 squeezes_S1x2048_S2048).view (Rect.unit (s := S2048) (k0_off10 j 112#32) S16.size (k0_off10_inb j 7)).toLoadRect gB) = ld gB ⟨7, by decide⟩ (8 * j.val + 7)
      exact load_eq_s2 gB 7 (by decide) _ (fun _ => rfl) _ _ _ j.val 7 hj (by decide) (k0_off10_eq j ⟨7, by decide⟩)

end Cert.Proof.KB

end
-- ==== Proof.TilePureBBits.lean ====
/- A row loop's trip over the loads it makes.

  Row loop t of a tile reads row r of one slot buffer of x and of the same slot's buffer of t. In trip j it loads, from each,
  the eight 16-lane pieces at columns 128 j + 16 u (u < 8), that is pieces 8 j + u of the row, and carries the four
  accumulators through the eight steps. Each statement below writes one loop's yield over those sixteen loads and says it
  is the one trip over the row's pieces 8 j … 8 j + 7; it follows from the loop's trip statement and the reading of a load
  as a piece of a row.
-/
import proofs.«210622_g27255862460721_cont_9to1_1214_20_alg».proof.Proof.TileIndexBaseB
import Mathlib.Tactic.FinCases

noncomputable section

namespace Cert.Proof.KB

open Cert.Kernel Cert.Kernel.Gen
open Idealize.ShloMosaic Idealize.ShloMosaic.ValueIdx Idealize.SL.Sem
open Cert.Proof.TileSpecB

variable {F : FTy → Type} [FloatOps F]

/-- Row loop t10: row 0 of slot buffers 1 (x) and 3 (t). -/
theorem trip_pure_t10 (gA gB : S8x2048.Idx → F .f32) (j : Fin k0_t10_loop.trips) (a : Acc4 F) :
    ((k0_pay494 (k0_pay239 (k0_pay230 (k0_pay222 a.1 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gB)) (k0_pay236 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gA)) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gB)) (k0_pay245 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gB)),
      k0_pay498 (k0_pay243 (k0_pay234 (k0_pay226 a.2.1 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gB),
      k0_pay495 (k0_pay240 (k0_pay231 (k0_pay223 a.2.2.1 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gB)) (k0_pay236 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gA)) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gB)) (k0_pay245 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gB)),
      k0_pay499 (k0_pay244 (k0_pay235 (k0_pay227 a.2.2.2 (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gB)) (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gA) (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gB)) : Acc4 F)
      = trip8 a (fun u => ld gA ⟨0, by decide⟩ (8 * j.val + u.val)) (fun u => ld gB ⟨0, by decide⟩ (8 * j.val + u.val)) := by
  have hj : j.val < 16 := Nat.lt_of_lt_of_le j.isLt k0_t10_abs.2.1
  refine (trip_t10 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gA) = ld gA ⟨0, by decide⟩ (8 * j.val + 0)
      exact load_eq_s1 gA 0 (by decide) _ (fun _ => rfl) _ _ _ j.val 0 hj (by decide) (k0_off12_eq j ⟨0, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gA) = ld gA ⟨0, by decide⟩ (8 * j.val + 1)
      exact load_eq_s1 gA 0 (by decide) _ (fun _ => rfl) _ _ _ j.val 1 hj (by decide) (k0_off12_eq j ⟨1, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gA) = ld gA ⟨0, by decide⟩ (8 * j.val + 2)
      exact load_eq_s1 gA 0 (by decide) _ (fun _ => rfl) _ _ _ j.val 2 hj (by decide) (k0_off12_eq j ⟨2, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gA) = ld gA ⟨0, by decide⟩ (8 * j.val + 3)
      exact load_eq_s1 gA 0 (by decide) _ (fun _ => rfl) _ _ _ j.val 3 hj (by decide) (k0_off12_eq j ⟨3, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gA) = ld gA ⟨0, by decide⟩ (8 * j.val + 4)
      exact load_eq_s1 gA 0 (by decide) _ (fun _ => rfl) _ _ _ j.val 4 hj (by decide) (k0_off12_eq j ⟨4, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gA) = ld gA ⟨0, by decide⟩ (8 * j.val + 5)
      exact load_eq_s1 gA 0 (by decide) _ (fun _ => rfl) _ _ _ j.val 5 hj (by decide) (k0_off12_eq j ⟨5, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gA) = ld gA ⟨0, by decide⟩ (8 * j.val + 6)
      exact load_eq_s1 gA 0 (by decide) _ (fun _ => rfl) _ _ _ j.val 6 hj (by decide) (k0_off12_eq j ⟨6, by decide⟩)
    · show (View.readAt (Elt F) (((Memref.whole cc0_scratch1).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gA) = ld gA ⟨0, by decide⟩ (8 * j.val + 7)
      exact load_eq_s1 gA 0 (by decide) _ (fun _ => rfl) _ _ _ j.val 7 hj (by decide) (k0_off12_eq j ⟨7, by decide⟩)
  · fin_cases u
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 0#32) S16.size (k0_off12_inb j 0)).toLoadRect gB) = ld gB ⟨0, by decide⟩ (8 * j.val + 0)
      exact load_eq_s3 gB 0 (by decide) _ (fun _ => rfl) _ _ _ j.val 0 hj (by decide) (k0_off12_eq j ⟨0, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 16#32) S16.size (k0_off12_inb j 1)).toLoadRect gB) = ld gB ⟨0, by decide⟩ (8 * j.val + 1)
      exact load_eq_s3 gB 0 (by decide) _ (fun _ => rfl) _ _ _ j.val 1 hj (by decide) (k0_off12_eq j ⟨1, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 32#32) S16.size (k0_off12_inb j 2)).toLoadRect gB) = ld gB ⟨0, by decide⟩ (8 * j.val + 2)
      exact load_eq_s3 gB 0 (by decide) _ (fun _ => rfl) _ _ _ j.val 2 hj (by decide) (k0_off12_eq j ⟨2, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 48#32) S16.size (k0_off12_inb j 3)).toLoadRect gB) = ld gB ⟨0, by decide⟩ (8 * j.val + 3)
      exact load_eq_s3 gB 0 (by decide) _ (fun _ => rfl) _ _ _ j.val 3 hj (by decide) (k0_off12_eq j ⟨3, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 64#32) S16.size (k0_off12_inb j 4)).toLoadRect gB) = ld gB ⟨0, by decide⟩ (8 * j.val + 4)
      exact load_eq_s3 gB 0 (by decide) _ (fun _ => rfl) _ _ _ j.val 4 hj (by decide) (k0_off12_eq j ⟨4, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 80#32) S16.size (k0_off12_inb j 5)).toLoadRect gB) = ld gB ⟨0, by decide⟩ (8 * j.val + 5)
      exact load_eq_s3 gB 0 (by decide) _ (fun _ => rfl) _ _ _ j.val 5 hj (by decide) (k0_off12_eq j ⟨5, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 96#32) S16.size (k0_off12_inb j 6)).toLoadRect gB) = ld gB ⟨0, by decide⟩ (8 * j.val + 6)
      exact load_eq_s3 gB 0 (by decide) _ (fun _ => rfl) _ _ _ j.val 6 hj (by decide) (k0_off12_eq j ⟨6, by decide⟩)
    · show (View.readAt (Elt F) (((Memref.whole cc0_scratch3).slice (Rect.unit (s := S8x2048) ![0, 0] S1x2048.size inb_S8x2048_S1x2048_0_0) (fun _ => rfl)).squeeze S2048 squeezes_S1x2048_S2048).view (Rect.unit (s := S2048) (k0_off12 j 112#32) S16.size (k0_off12_inb j 7)).toLoadRect gB) = ld gB ⟨0, by decide⟩ (8 * j.val + 7)
      exact load_eq_s3 gB 0 (by decide) _ (fun _ => rfl) _ _ _ j.val 7 hj (by decide) (k0_off12_eq j ⟨7, by decide⟩)

/-- Row loop t11: row 1 of slot buffers 1 (x) and 3 (t). -/
theorem trip_pure_t11 (gA gB : S8x2048.Idx → F .f32) (j : Fin k0_t11_loop.trips) (a : Acc4 F) :
    ((k0_pay502 (k0_pay265 (k0_pay256 (k0_pay248 a.1 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gB)) (k0_pay262 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gA)) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gB)) (k0_pay271 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gB)),
      k0_pay506 (k0_pay269 (k0_pay260 (k0_pay252 a.2.1 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gB),
      k0_pay503 (k0_pay266 (k0_pay257 (k0_pay249 a.2.2.1 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gB)) (k0_pay262 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gA)) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gB)) (k0_pay271 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gB)),
      k0_pay507 (k0_pay270 (k0_pay261 (k0_pay253 a.2.2.2 (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gB)) (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gA) (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gB)) : Acc4 F)
      = trip8 a (fun u => ld gA ⟨1, by decide⟩ (8 * j.val + u.val)) (fun u => ld gB ⟨1, by decide⟩ (8 * j.val + u.val)) := by
  have hj : j.val < 16 := Nat.lt_of_lt_of_le j.isLt k0_t11_abs.2.1
  refine (trip_t11 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gA) = ld gA ⟨1, by decide⟩ (8 * j.val + 0)
      exact load_eq_s1 gA 1 (by decide) _ (fun _ => rfl) _ _ _ j.val 0 hj (by decide) (k0_off13_eq j ⟨0, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gA) = ld gA ⟨1, by decide⟩ (8 * j.val + 1)
      exact load_eq_s1 gA 1 (by decide) _ (fun _ => rfl) _ _ _ j.val 1 hj (by decide) (k0_off13_eq j ⟨1, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gA) = ld gA ⟨1, by decide⟩ (8 * j.val + 2)
      exact load_eq_s1 gA 1 (by decide) _ (fun _ => rfl) _ _ _ j.val 2 hj (by decide) (k0_off13_eq j ⟨2, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gA) = ld gA ⟨1, by decide⟩ (8 * j.val + 3)
      exact load_eq_s1 gA 1 (by decide) _ (fun _ => rfl) _ _ _ j.val 3 hj (by decide) (k0_off13_eq j ⟨3, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gA) = ld gA ⟨1, by decide⟩ (8 * j.val + 4)
      exact load_eq_s1 gA 1 (by decide) _ (fun _ => rfl) _ _ _ j.val 4 hj (by decide) (k0_off13_eq j ⟨4, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gA) = ld gA ⟨1, by decide⟩ (8 * j.val + 5)
      exact load_eq_s1 gA 1 (by decide) _ (fun _ => rfl) _ _ _ j.val 5 hj (by decide) (k0_off13_eq j ⟨5, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gA) = ld gA ⟨1, by decide⟩ (8 * j.val + 6)
      exact load_eq_s1 gA 1 (by decide) _ (fun _ => rfl) _ _ _ j.val 6 hj (by decide) (k0_off13_eq j ⟨6, by decide⟩)
    · show (View.readAt (Elt F) (((Memref.whole cc0_scratch1).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gA) = ld gA ⟨1, by decide⟩ (8 * j.val + 7)
      exact load_eq_s1 gA 1 (by decide) _ (fun _ => rfl) _ _ _ j.val 7 hj (by decide) (k0_off13_eq j ⟨7, by decide⟩)
  · fin_cases u
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 0#32) S16.size (k0_off13_inb j 0)).toLoadRect gB) = ld gB ⟨1, by decide⟩ (8 * j.val + 0)
      exact load_eq_s3 gB 1 (by decide) _ (fun _ => rfl) _ _ _ j.val 0 hj (by decide) (k0_off13_eq j ⟨0, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 16#32) S16.size (k0_off13_inb j 1)).toLoadRect gB) = ld gB ⟨1, by decide⟩ (8 * j.val + 1)
      exact load_eq_s3 gB 1 (by decide) _ (fun _ => rfl) _ _ _ j.val 1 hj (by decide) (k0_off13_eq j ⟨1, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 32#32) S16.size (k0_off13_inb j 2)).toLoadRect gB) = ld gB ⟨1, by decide⟩ (8 * j.val + 2)
      exact load_eq_s3 gB 1 (by decide) _ (fun _ => rfl) _ _ _ j.val 2 hj (by decide) (k0_off13_eq j ⟨2, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 48#32) S16.size (k0_off13_inb j 3)).toLoadRect gB) = ld gB ⟨1, by decide⟩ (8 * j.val + 3)
      exact load_eq_s3 gB 1 (by decide) _ (fun _ => rfl) _ _ _ j.val 3 hj (by decide) (k0_off13_eq j ⟨3, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 64#32) S16.size (k0_off13_inb j 4)).toLoadRect gB) = ld gB ⟨1, by decide⟩ (8 * j.val + 4)
      exact load_eq_s3 gB 1 (by decide) _ (fun _ => rfl) _ _ _ j.val 4 hj (by decide) (k0_off13_eq j ⟨4, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 80#32) S16.size (k0_off13_inb j 5)).toLoadRect gB) = ld gB ⟨1, by decide⟩ (8 * j.val + 5)
      exact load_eq_s3 gB 1 (by decide) _ (fun _ => rfl) _ _ _ j.val 5 hj (by decide) (k0_off13_eq j ⟨5, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 96#32) S16.size (k0_off13_inb j 6)).toLoadRect gB) = ld gB ⟨1, by decide⟩ (8 * j.val + 6)
      exact load_eq_s3 gB 1 (by decide) _ (fun _ => rfl) _ _ _ j.val 6 hj (by decide) (k0_off13_eq j ⟨6, by decide⟩)
    · show (View.readAt (Elt F) (((Memref.whole cc0_scratch3).slice (Rect.unit (s := S8x2048) ![1, 0] S1x2048.size inb_S8x2048_S1x2048_1_0) (fun _ => rfl)).squeeze S2048 squeezes_S1x2048_S2048).view (Rect.unit (s := S2048) (k0_off13 j 112#32) S16.size (k0_off13_inb j 7)).toLoadRect gB) = ld gB ⟨1, by decide⟩ (8 * j.val + 7)
      exact load_eq_s3 gB 1 (by decide) _ (fun _ => rfl) _ _ _ j.val 7 hj (by decide) (k0_off13_eq j ⟨7, by decide⟩)

/-- Row loop t12: row 2 of slot buffers 1 (x) and 3 (t). -/
theorem trip_pure_t12 (gA gB : S8x2048.Idx → F .f32) (j : Fin k0_t12_loop.trips) (a : Acc4 F) :
    ((k0_pay510 (k0_pay291 (k0_pay282 (k0_pay274 a.1 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gB)) (k0_pay288 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gA)) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gB)) (k0_pay297 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gB)),
      k0_pay514 (k0_pay295 (k0_pay286 (k0_pay278 a.2.1 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gB),
      k0_pay511 (k0_pay292 (k0_pay283 (k0_pay275 a.2.2.1 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gB)) (k0_pay288 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gA)) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gB)) (k0_pay297 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gB)),
      k0_pay515 (k0_pay296 (k0_pay287 (k0_pay279 a.2.2.2 (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gB)) (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gA) (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gB)) : Acc4 F)
      = trip8 a (fun u => ld gA ⟨2, by decide⟩ (8 * j.val + u.val)) (fun u => ld gB ⟨2, by decide⟩ (8 * j.val + u.val)) := by
  have hj : j.val < 16 := Nat.lt_of_lt_of_le j.isLt k0_t12_abs.2.1
  refine (trip_t12 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gA) = ld gA ⟨2, by decide⟩ (8 * j.val + 0)
      exact load_eq_s1 gA 2 (by decide) _ (fun _ => rfl) _ _ _ j.val 0 hj (by decide) (k0_off14_eq j ⟨0, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gA) = ld gA ⟨2, by decide⟩ (8 * j.val + 1)
      exact load_eq_s1 gA 2 (by decide) _ (fun _ => rfl) _ _ _ j.val 1 hj (by decide) (k0_off14_eq j ⟨1, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gA) = ld gA ⟨2, by decide⟩ (8 * j.val + 2)
      exact load_eq_s1 gA 2 (by decide) _ (fun _ => rfl) _ _ _ j.val 2 hj (by decide) (k0_off14_eq j ⟨2, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gA) = ld gA ⟨2, by decide⟩ (8 * j.val + 3)
      exact load_eq_s1 gA 2 (by decide) _ (fun _ => rfl) _ _ _ j.val 3 hj (by decide) (k0_off14_eq j ⟨3, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gA) = ld gA ⟨2, by decide⟩ (8 * j.val + 4)
      exact load_eq_s1 gA 2 (by decide) _ (fun _ => rfl) _ _ _ j.val 4 hj (by decide) (k0_off14_eq j ⟨4, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gA) = ld gA ⟨2, by decide⟩ (8 * j.val + 5)
      exact load_eq_s1 gA 2 (by decide) _ (fun _ => rfl) _ _ _ j.val 5 hj (by decide) (k0_off14_eq j ⟨5, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gA) = ld gA ⟨2, by decide⟩ (8 * j.val + 6)
      exact load_eq_s1 gA 2 (by decide) _ (fun _ => rfl) _ _ _ j.val 6 hj (by decide) (k0_off14_eq j ⟨6, by decide⟩)
    · show (View.readAt (Elt F) (((Memref.whole cc0_scratch1).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gA) = ld gA ⟨2, by decide⟩ (8 * j.val + 7)
      exact load_eq_s1 gA 2 (by decide) _ (fun _ => rfl) _ _ _ j.val 7 hj (by decide) (k0_off14_eq j ⟨7, by decide⟩)
  · fin_cases u
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 0#32) S16.size (k0_off14_inb j 0)).toLoadRect gB) = ld gB ⟨2, by decide⟩ (8 * j.val + 0)
      exact load_eq_s3 gB 2 (by decide) _ (fun _ => rfl) _ _ _ j.val 0 hj (by decide) (k0_off14_eq j ⟨0, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 16#32) S16.size (k0_off14_inb j 1)).toLoadRect gB) = ld gB ⟨2, by decide⟩ (8 * j.val + 1)
      exact load_eq_s3 gB 2 (by decide) _ (fun _ => rfl) _ _ _ j.val 1 hj (by decide) (k0_off14_eq j ⟨1, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 32#32) S16.size (k0_off14_inb j 2)).toLoadRect gB) = ld gB ⟨2, by decide⟩ (8 * j.val + 2)
      exact load_eq_s3 gB 2 (by decide) _ (fun _ => rfl) _ _ _ j.val 2 hj (by decide) (k0_off14_eq j ⟨2, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 48#32) S16.size (k0_off14_inb j 3)).toLoadRect gB) = ld gB ⟨2, by decide⟩ (8 * j.val + 3)
      exact load_eq_s3 gB 2 (by decide) _ (fun _ => rfl) _ _ _ j.val 3 hj (by decide) (k0_off14_eq j ⟨3, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 64#32) S16.size (k0_off14_inb j 4)).toLoadRect gB) = ld gB ⟨2, by decide⟩ (8 * j.val + 4)
      exact load_eq_s3 gB 2 (by decide) _ (fun _ => rfl) _ _ _ j.val 4 hj (by decide) (k0_off14_eq j ⟨4, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 80#32) S16.size (k0_off14_inb j 5)).toLoadRect gB) = ld gB ⟨2, by decide⟩ (8 * j.val + 5)
      exact load_eq_s3 gB 2 (by decide) _ (fun _ => rfl) _ _ _ j.val 5 hj (by decide) (k0_off14_eq j ⟨5, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 96#32) S16.size (k0_off14_inb j 6)).toLoadRect gB) = ld gB ⟨2, by decide⟩ (8 * j.val + 6)
      exact load_eq_s3 gB 2 (by decide) _ (fun _ => rfl) _ _ _ j.val 6 hj (by decide) (k0_off14_eq j ⟨6, by decide⟩)
    · show (View.readAt (Elt F) (((Memref.whole cc0_scratch3).slice (Rect.unit (s := S8x2048) ![2, 0] S1x2048.size inb_S8x2048_S1x2048_2_0) (fun _ => rfl)).squeeze S2048 squeezes_S1x2048_S2048).view (Rect.unit (s := S2048) (k0_off14 j 112#32) S16.size (k0_off14_inb j 7)).toLoadRect gB) = ld gB ⟨2, by decide⟩ (8 * j.val + 7)
      exact load_eq_s3 gB 2 (by decide) _ (fun _ => rfl) _ _ _ j.val 7 hj (by decide) (k0_off14_eq j ⟨7, by decide⟩)

/-- Row loop t13: row 3 of slot buffers 1 (x) and 3 (t). -/
theorem trip_pure_t13 (gA gB : S8x2048.Idx → F .f32) (j : Fin k0_t13_loop.trips) (a : Acc4 F) :
    ((k0_pay518 (k0_pay317 (k0_pay308 (k0_pay300 a.1 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gB)) (k0_pay314 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gA)) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gB)) (k0_pay323 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gB)),
      k0_pay522 (k0_pay321 (k0_pay312 (k0_pay304 a.2.1 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gB),
      k0_pay519 (k0_pay318 (k0_pay309 (k0_pay301 a.2.2.1 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gB)) (k0_pay314 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gA)) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gB)) (k0_pay323 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gB)),
      k0_pay523 (k0_pay322 (k0_pay313 (k0_pay305 a.2.2.2 (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gB)) (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gA) (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gB)) : Acc4 F)
      = trip8 a (fun u => ld gA ⟨3, by decide⟩ (8 * j.val + u.val)) (fun u => ld gB ⟨3, by decide⟩ (8 * j.val + u.val)) := by
  have hj : j.val < 16 := Nat.lt_of_lt_of_le j.isLt k0_t13_abs.2.1
  refine (trip_t13 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gA) = ld gA ⟨3, by decide⟩ (8 * j.val + 0)
      exact load_eq_s1 gA 3 (by decide) _ (fun _ => rfl) _ _ _ j.val 0 hj (by decide) (k0_off15_eq j ⟨0, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gA) = ld gA ⟨3, by decide⟩ (8 * j.val + 1)
      exact load_eq_s1 gA 3 (by decide) _ (fun _ => rfl) _ _ _ j.val 1 hj (by decide) (k0_off15_eq j ⟨1, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gA) = ld gA ⟨3, by decide⟩ (8 * j.val + 2)
      exact load_eq_s1 gA 3 (by decide) _ (fun _ => rfl) _ _ _ j.val 2 hj (by decide) (k0_off15_eq j ⟨2, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gA) = ld gA ⟨3, by decide⟩ (8 * j.val + 3)
      exact load_eq_s1 gA 3 (by decide) _ (fun _ => rfl) _ _ _ j.val 3 hj (by decide) (k0_off15_eq j ⟨3, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gA) = ld gA ⟨3, by decide⟩ (8 * j.val + 4)
      exact load_eq_s1 gA 3 (by decide) _ (fun _ => rfl) _ _ _ j.val 4 hj (by decide) (k0_off15_eq j ⟨4, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gA) = ld gA ⟨3, by decide⟩ (8 * j.val + 5)
      exact load_eq_s1 gA 3 (by decide) _ (fun _ => rfl) _ _ _ j.val 5 hj (by decide) (k0_off15_eq j ⟨5, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gA) = ld gA ⟨3, by decide⟩ (8 * j.val + 6)
      exact load_eq_s1 gA 3 (by decide) _ (fun _ => rfl) _ _ _ j.val 6 hj (by decide) (k0_off15_eq j ⟨6, by decide⟩)
    · show (View.readAt (Elt F) (((Memref.whole cc0_scratch1).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gA) = ld gA ⟨3, by decide⟩ (8 * j.val + 7)
      exact load_eq_s1 gA 3 (by decide) _ (fun _ => rfl) _ _ _ j.val 7 hj (by decide) (k0_off15_eq j ⟨7, by decide⟩)
  · fin_cases u
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 0#32) S16.size (k0_off15_inb j 0)).toLoadRect gB) = ld gB ⟨3, by decide⟩ (8 * j.val + 0)
      exact load_eq_s3 gB 3 (by decide) _ (fun _ => rfl) _ _ _ j.val 0 hj (by decide) (k0_off15_eq j ⟨0, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 16#32) S16.size (k0_off15_inb j 1)).toLoadRect gB) = ld gB ⟨3, by decide⟩ (8 * j.val + 1)
      exact load_eq_s3 gB 3 (by decide) _ (fun _ => rfl) _ _ _ j.val 1 hj (by decide) (k0_off15_eq j ⟨1, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 32#32) S16.size (k0_off15_inb j 2)).toLoadRect gB) = ld gB ⟨3, by decide⟩ (8 * j.val + 2)
      exact load_eq_s3 gB 3 (by decide) _ (fun _ => rfl) _ _ _ j.val 2 hj (by decide) (k0_off15_eq j ⟨2, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 48#32) S16.size (k0_off15_inb j 3)).toLoadRect gB) = ld gB ⟨3, by decide⟩ (8 * j.val + 3)
      exact load_eq_s3 gB 3 (by decide) _ (fun _ => rfl) _ _ _ j.val 3 hj (by decide) (k0_off15_eq j ⟨3, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 64#32) S16.size (k0_off15_inb j 4)).toLoadRect gB) = ld gB ⟨3, by decide⟩ (8 * j.val + 4)
      exact load_eq_s3 gB 3 (by decide) _ (fun _ => rfl) _ _ _ j.val 4 hj (by decide) (k0_off15_eq j ⟨4, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 80#32) S16.size (k0_off15_inb j 5)).toLoadRect gB) = ld gB ⟨3, by decide⟩ (8 * j.val + 5)
      exact load_eq_s3 gB 3 (by decide) _ (fun _ => rfl) _ _ _ j.val 5 hj (by decide) (k0_off15_eq j ⟨5, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 96#32) S16.size (k0_off15_inb j 6)).toLoadRect gB) = ld gB ⟨3, by decide⟩ (8 * j.val + 6)
      exact load_eq_s3 gB 3 (by decide) _ (fun _ => rfl) _ _ _ j.val 6 hj (by decide) (k0_off15_eq j ⟨6, by decide⟩)
    · show (View.readAt (Elt F) (((Memref.whole cc0_scratch3).slice (Rect.unit (s := S8x2048) ![3, 0] S1x2048.size inb_S8x2048_S1x2048_3_0) (fun _ => rfl)).squeeze S2048 squeezes_S1x2048_S2048).view (Rect.unit (s := S2048) (k0_off15 j 112#32) S16.size (k0_off15_inb j 7)).toLoadRect gB) = ld gB ⟨3, by decide⟩ (8 * j.val + 7)
      exact load_eq_s3 gB 3 (by decide) _ (fun _ => rfl) _ _ _ j.val 7 hj (by decide) (k0_off15_eq j ⟨7, by decide⟩)

/-- Row loop t14: row 4 of slot buffers 1 (x) and 3 (t). -/
theorem trip_pure_t14 (gA gB : S8x2048.Idx → F .f32) (j : Fin k0_t14_loop.trips) (a : Acc4 F) :
    ((k0_pay526 (k0_pay343 (k0_pay334 (k0_pay326 a.1 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gB)) (k0_pay340 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gA)) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gB)) (k0_pay349 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gB)),
      k0_pay530 (k0_pay347 (k0_pay338 (k0_pay330 a.2.1 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gB),
      k0_pay527 (k0_pay344 (k0_pay335 (k0_pay327 a.2.2.1 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gB)) (k0_pay340 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gA)) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gB)) (k0_pay349 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gB)),
      k0_pay531 (k0_pay348 (k0_pay339 (k0_pay331 a.2.2.2 (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gB)) (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gA) (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gB)) : Acc4 F)
      = trip8 a (fun u => ld gA ⟨4, by decide⟩ (8 * j.val + u.val)) (fun u => ld gB ⟨4, by decide⟩ (8 * j.val + u.val)) := by
  have hj : j.val < 16 := Nat.lt_of_lt_of_le j.isLt k0_t14_abs.2.1
  refine (trip_t14 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gA) = ld gA ⟨4, by decide⟩ (8 * j.val + 0)
      exact load_eq_s1 gA 4 (by decide) _ (fun _ => rfl) _ _ _ j.val 0 hj (by decide) (k0_off16_eq j ⟨0, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gA) = ld gA ⟨4, by decide⟩ (8 * j.val + 1)
      exact load_eq_s1 gA 4 (by decide) _ (fun _ => rfl) _ _ _ j.val 1 hj (by decide) (k0_off16_eq j ⟨1, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gA) = ld gA ⟨4, by decide⟩ (8 * j.val + 2)
      exact load_eq_s1 gA 4 (by decide) _ (fun _ => rfl) _ _ _ j.val 2 hj (by decide) (k0_off16_eq j ⟨2, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gA) = ld gA ⟨4, by decide⟩ (8 * j.val + 3)
      exact load_eq_s1 gA 4 (by decide) _ (fun _ => rfl) _ _ _ j.val 3 hj (by decide) (k0_off16_eq j ⟨3, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gA) = ld gA ⟨4, by decide⟩ (8 * j.val + 4)
      exact load_eq_s1 gA 4 (by decide) _ (fun _ => rfl) _ _ _ j.val 4 hj (by decide) (k0_off16_eq j ⟨4, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gA) = ld gA ⟨4, by decide⟩ (8 * j.val + 5)
      exact load_eq_s1 gA 4 (by decide) _ (fun _ => rfl) _ _ _ j.val 5 hj (by decide) (k0_off16_eq j ⟨5, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gA) = ld gA ⟨4, by decide⟩ (8 * j.val + 6)
      exact load_eq_s1 gA 4 (by decide) _ (fun _ => rfl) _ _ _ j.val 6 hj (by decide) (k0_off16_eq j ⟨6, by decide⟩)
    · show (View.readAt (Elt F) (((Memref.whole cc0_scratch1).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gA) = ld gA ⟨4, by decide⟩ (8 * j.val + 7)
      exact load_eq_s1 gA 4 (by decide) _ (fun _ => rfl) _ _ _ j.val 7 hj (by decide) (k0_off16_eq j ⟨7, by decide⟩)
  · fin_cases u
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 0#32) S16.size (k0_off16_inb j 0)).toLoadRect gB) = ld gB ⟨4, by decide⟩ (8 * j.val + 0)
      exact load_eq_s3 gB 4 (by decide) _ (fun _ => rfl) _ _ _ j.val 0 hj (by decide) (k0_off16_eq j ⟨0, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 16#32) S16.size (k0_off16_inb j 1)).toLoadRect gB) = ld gB ⟨4, by decide⟩ (8 * j.val + 1)
      exact load_eq_s3 gB 4 (by decide) _ (fun _ => rfl) _ _ _ j.val 1 hj (by decide) (k0_off16_eq j ⟨1, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 32#32) S16.size (k0_off16_inb j 2)).toLoadRect gB) = ld gB ⟨4, by decide⟩ (8 * j.val + 2)
      exact load_eq_s3 gB 4 (by decide) _ (fun _ => rfl) _ _ _ j.val 2 hj (by decide) (k0_off16_eq j ⟨2, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 48#32) S16.size (k0_off16_inb j 3)).toLoadRect gB) = ld gB ⟨4, by decide⟩ (8 * j.val + 3)
      exact load_eq_s3 gB 4 (by decide) _ (fun _ => rfl) _ _ _ j.val 3 hj (by decide) (k0_off16_eq j ⟨3, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 64#32) S16.size (k0_off16_inb j 4)).toLoadRect gB) = ld gB ⟨4, by decide⟩ (8 * j.val + 4)
      exact load_eq_s3 gB 4 (by decide) _ (fun _ => rfl) _ _ _ j.val 4 hj (by decide) (k0_off16_eq j ⟨4, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 80#32) S16.size (k0_off16_inb j 5)).toLoadRect gB) = ld gB ⟨4, by decide⟩ (8 * j.val + 5)
      exact load_eq_s3 gB 4 (by decide) _ (fun _ => rfl) _ _ _ j.val 5 hj (by decide) (k0_off16_eq j ⟨5, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 96#32) S16.size (k0_off16_inb j 6)).toLoadRect gB) = ld gB ⟨4, by decide⟩ (8 * j.val + 6)
      exact load_eq_s3 gB 4 (by decide) _ (fun _ => rfl) _ _ _ j.val 6 hj (by decide) (k0_off16_eq j ⟨6, by decide⟩)
    · show (View.readAt (Elt F) (((Memref.whole cc0_scratch3).slice (Rect.unit (s := S8x2048) ![4, 0] S1x2048.size inb_S8x2048_S1x2048_4_0) (fun _ => rfl)).squeeze S2048 squeezes_S1x2048_S2048).view (Rect.unit (s := S2048) (k0_off16 j 112#32) S16.size (k0_off16_inb j 7)).toLoadRect gB) = ld gB ⟨4, by decide⟩ (8 * j.val + 7)
      exact load_eq_s3 gB 4 (by decide) _ (fun _ => rfl) _ _ _ j.val 7 hj (by decide) (k0_off16_eq j ⟨7, by decide⟩)

/-- Row loop t15: row 5 of slot buffers 1 (x) and 3 (t). -/
theorem trip_pure_t15 (gA gB : S8x2048.Idx → F .f32) (j : Fin k0_t15_loop.trips) (a : Acc4 F) :
    ((k0_pay534 (k0_pay369 (k0_pay360 (k0_pay352 a.1 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gB)) (k0_pay366 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gA)) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gB)) (k0_pay375 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gB)),
      k0_pay538 (k0_pay373 (k0_pay364 (k0_pay356 a.2.1 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gB),
      k0_pay535 (k0_pay370 (k0_pay361 (k0_pay353 a.2.2.1 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gB)) (k0_pay366 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gA)) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gB)) (k0_pay375 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gB)),
      k0_pay539 (k0_pay374 (k0_pay365 (k0_pay357 a.2.2.2 (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gB)) (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gA) (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gB)) : Acc4 F)
      = trip8 a (fun u => ld gA ⟨5, by decide⟩ (8 * j.val + u.val)) (fun u => ld gB ⟨5, by decide⟩ (8 * j.val + u.val)) := by
  have hj : j.val < 16 := Nat.lt_of_lt_of_le j.isLt k0_t15_abs.2.1
  refine (trip_t15 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gA) = ld gA ⟨5, by decide⟩ (8 * j.val + 0)
      exact load_eq_s1 gA 5 (by decide) _ (fun _ => rfl) _ _ _ j.val 0 hj (by decide) (k0_off17_eq j ⟨0, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gA) = ld gA ⟨5, by decide⟩ (8 * j.val + 1)
      exact load_eq_s1 gA 5 (by decide) _ (fun _ => rfl) _ _ _ j.val 1 hj (by decide) (k0_off17_eq j ⟨1, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gA) = ld gA ⟨5, by decide⟩ (8 * j.val + 2)
      exact load_eq_s1 gA 5 (by decide) _ (fun _ => rfl) _ _ _ j.val 2 hj (by decide) (k0_off17_eq j ⟨2, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gA) = ld gA ⟨5, by decide⟩ (8 * j.val + 3)
      exact load_eq_s1 gA 5 (by decide) _ (fun _ => rfl) _ _ _ j.val 3 hj (by decide) (k0_off17_eq j ⟨3, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gA) = ld gA ⟨5, by decide⟩ (8 * j.val + 4)
      exact load_eq_s1 gA 5 (by decide) _ (fun _ => rfl) _ _ _ j.val 4 hj (by decide) (k0_off17_eq j ⟨4, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gA) = ld gA ⟨5, by decide⟩ (8 * j.val + 5)
      exact load_eq_s1 gA 5 (by decide) _ (fun _ => rfl) _ _ _ j.val 5 hj (by decide) (k0_off17_eq j ⟨5, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gA) = ld gA ⟨5, by decide⟩ (8 * j.val + 6)
      exact load_eq_s1 gA 5 (by decide) _ (fun _ => rfl) _ _ _ j.val 6 hj (by decide) (k0_off17_eq j ⟨6, by decide⟩)
    · show (View.readAt (Elt F) (((Memref.whole cc0_scratch1).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gA) = ld gA ⟨5, by decide⟩ (8 * j.val + 7)
      exact load_eq_s1 gA 5 (by decide) _ (fun _ => rfl) _ _ _ j.val 7 hj (by decide) (k0_off17_eq j ⟨7, by decide⟩)
  · fin_cases u
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 0#32) S16.size (k0_off17_inb j 0)).toLoadRect gB) = ld gB ⟨5, by decide⟩ (8 * j.val + 0)
      exact load_eq_s3 gB 5 (by decide) _ (fun _ => rfl) _ _ _ j.val 0 hj (by decide) (k0_off17_eq j ⟨0, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 16#32) S16.size (k0_off17_inb j 1)).toLoadRect gB) = ld gB ⟨5, by decide⟩ (8 * j.val + 1)
      exact load_eq_s3 gB 5 (by decide) _ (fun _ => rfl) _ _ _ j.val 1 hj (by decide) (k0_off17_eq j ⟨1, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 32#32) S16.size (k0_off17_inb j 2)).toLoadRect gB) = ld gB ⟨5, by decide⟩ (8 * j.val + 2)
      exact load_eq_s3 gB 5 (by decide) _ (fun _ => rfl) _ _ _ j.val 2 hj (by decide) (k0_off17_eq j ⟨2, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 48#32) S16.size (k0_off17_inb j 3)).toLoadRect gB) = ld gB ⟨5, by decide⟩ (8 * j.val + 3)
      exact load_eq_s3 gB 5 (by decide) _ (fun _ => rfl) _ _ _ j.val 3 hj (by decide) (k0_off17_eq j ⟨3, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 64#32) S16.size (k0_off17_inb j 4)).toLoadRect gB) = ld gB ⟨5, by decide⟩ (8 * j.val + 4)
      exact load_eq_s3 gB 5 (by decide) _ (fun _ => rfl) _ _ _ j.val 4 hj (by decide) (k0_off17_eq j ⟨4, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 80#32) S16.size (k0_off17_inb j 5)).toLoadRect gB) = ld gB ⟨5, by decide⟩ (8 * j.val + 5)
      exact load_eq_s3 gB 5 (by decide) _ (fun _ => rfl) _ _ _ j.val 5 hj (by decide) (k0_off17_eq j ⟨5, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 96#32) S16.size (k0_off17_inb j 6)).toLoadRect gB) = ld gB ⟨5, by decide⟩ (8 * j.val + 6)
      exact load_eq_s3 gB 5 (by decide) _ (fun _ => rfl) _ _ _ j.val 6 hj (by decide) (k0_off17_eq j ⟨6, by decide⟩)
    · show (View.readAt (Elt F) (((Memref.whole cc0_scratch3).slice (Rect.unit (s := S8x2048) ![5, 0] S1x2048.size inb_S8x2048_S1x2048_5_0) (fun _ => rfl)).squeeze S2048 squeezes_S1x2048_S2048).view (Rect.unit (s := S2048) (k0_off17 j 112#32) S16.size (k0_off17_inb j 7)).toLoadRect gB) = ld gB ⟨5, by decide⟩ (8 * j.val + 7)
      exact load_eq_s3 gB 5 (by decide) _ (fun _ => rfl) _ _ _ j.val 7 hj (by decide) (k0_off17_eq j ⟨7, by decide⟩)

/-- Row loop t16: row 6 of slot buffers 1 (x) and 3 (t). -/
theorem trip_pure_t16 (gA gB : S8x2048.Idx → F .f32) (j : Fin k0_t16_loop.trips) (a : Acc4 F) :
    ((k0_pay542 (k0_pay395 (k0_pay386 (k0_pay378 a.1 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gB)) (k0_pay392 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gA)) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gB)) (k0_pay401 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gB)),
      k0_pay546 (k0_pay399 (k0_pay390 (k0_pay382 a.2.1 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gB),
      k0_pay543 (k0_pay396 (k0_pay387 (k0_pay379 a.2.2.1 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gB)) (k0_pay392 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gA)) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gB)) (k0_pay401 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gB)),
      k0_pay547 (k0_pay400 (k0_pay391 (k0_pay383 a.2.2.2 (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gB)) (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gA) (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gB)) : Acc4 F)
      = trip8 a (fun u => ld gA ⟨6, by decide⟩ (8 * j.val + u.val)) (fun u => ld gB ⟨6, by decide⟩ (8 * j.val + u.val)) := by
  have hj : j.val < 16 := Nat.lt_of_lt_of_le j.isLt k0_t16_abs.2.1
  refine (trip_t16 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gA) = ld gA ⟨6, by decide⟩ (8 * j.val + 0)
      exact load_eq_s1 gA 6 (by decide) _ (fun _ => rfl) _ _ _ j.val 0 hj (by decide) (k0_off18_eq j ⟨0, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gA) = ld gA ⟨6, by decide⟩ (8 * j.val + 1)
      exact load_eq_s1 gA 6 (by decide) _ (fun _ => rfl) _ _ _ j.val 1 hj (by decide) (k0_off18_eq j ⟨1, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gA) = ld gA ⟨6, by decide⟩ (8 * j.val + 2)
      exact load_eq_s1 gA 6 (by decide) _ (fun _ => rfl) _ _ _ j.val 2 hj (by decide) (k0_off18_eq j ⟨2, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gA) = ld gA ⟨6, by decide⟩ (8 * j.val + 3)
      exact load_eq_s1 gA 6 (by decide) _ (fun _ => rfl) _ _ _ j.val 3 hj (by decide) (k0_off18_eq j ⟨3, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gA) = ld gA ⟨6, by decide⟩ (8 * j.val + 4)
      exact load_eq_s1 gA 6 (by decide) _ (fun _ => rfl) _ _ _ j.val 4 hj (by decide) (k0_off18_eq j ⟨4, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gA) = ld gA ⟨6, by decide⟩ (8 * j.val + 5)
      exact load_eq_s1 gA 6 (by decide) _ (fun _ => rfl) _ _ _ j.val 5 hj (by decide) (k0_off18_eq j ⟨5, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gA) = ld gA ⟨6, by decide⟩ (8 * j.val + 6)
      exact load_eq_s1 gA 6 (by decide) _ (fun _ => rfl) _ _ _ j.val 6 hj (by decide) (k0_off18_eq j ⟨6, by decide⟩)
    · show (View.readAt (Elt F) (((Memref.whole cc0_scratch1).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gA) = ld gA ⟨6, by decide⟩ (8 * j.val + 7)
      exact load_eq_s1 gA 6 (by decide) _ (fun _ => rfl) _ _ _ j.val 7 hj (by decide) (k0_off18_eq j ⟨7, by decide⟩)
  · fin_cases u
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 0#32) S16.size (k0_off18_inb j 0)).toLoadRect gB) = ld gB ⟨6, by decide⟩ (8 * j.val + 0)
      exact load_eq_s3 gB 6 (by decide) _ (fun _ => rfl) _ _ _ j.val 0 hj (by decide) (k0_off18_eq j ⟨0, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 16#32) S16.size (k0_off18_inb j 1)).toLoadRect gB) = ld gB ⟨6, by decide⟩ (8 * j.val + 1)
      exact load_eq_s3 gB 6 (by decide) _ (fun _ => rfl) _ _ _ j.val 1 hj (by decide) (k0_off18_eq j ⟨1, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 32#32) S16.size (k0_off18_inb j 2)).toLoadRect gB) = ld gB ⟨6, by decide⟩ (8 * j.val + 2)
      exact load_eq_s3 gB 6 (by decide) _ (fun _ => rfl) _ _ _ j.val 2 hj (by decide) (k0_off18_eq j ⟨2, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 48#32) S16.size (k0_off18_inb j 3)).toLoadRect gB) = ld gB ⟨6, by decide⟩ (8 * j.val + 3)
      exact load_eq_s3 gB 6 (by decide) _ (fun _ => rfl) _ _ _ j.val 3 hj (by decide) (k0_off18_eq j ⟨3, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 64#32) S16.size (k0_off18_inb j 4)).toLoadRect gB) = ld gB ⟨6, by decide⟩ (8 * j.val + 4)
      exact load_eq_s3 gB 6 (by decide) _ (fun _ => rfl) _ _ _ j.val 4 hj (by decide) (k0_off18_eq j ⟨4, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 80#32) S16.size (k0_off18_inb j 5)).toLoadRect gB) = ld gB ⟨6, by decide⟩ (8 * j.val + 5)
      exact load_eq_s3 gB 6 (by decide) _ (fun _ => rfl) _ _ _ j.val 5 hj (by decide) (k0_off18_eq j ⟨5, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 96#32) S16.size (k0_off18_inb j 6)).toLoadRect gB) = ld gB ⟨6, by decide⟩ (8 * j.val + 6)
      exact load_eq_s3 gB 6 (by decide) _ (fun _ => rfl) _ _ _ j.val 6 hj (by decide) (k0_off18_eq j ⟨6, by decide⟩)
    · show (View.readAt (Elt F) (((Memref.whole cc0_scratch3).slice (Rect.unit (s := S8x2048) ![6, 0] S1x2048.size inb_S8x2048_S1x2048_6_0) (fun _ => rfl)).squeeze S2048 squeezes_S1x2048_S2048).view (Rect.unit (s := S2048) (k0_off18 j 112#32) S16.size (k0_off18_inb j 7)).toLoadRect gB) = ld gB ⟨6, by decide⟩ (8 * j.val + 7)
      exact load_eq_s3 gB 6 (by decide) _ (fun _ => rfl) _ _ _ j.val 7 hj (by decide) (k0_off18_eq j ⟨7, by decide⟩)

/-- Row loop t17: row 7 of slot buffers 1 (x) and 3 (t). -/
theorem trip_pure_t17 (gA gB : S8x2048.Idx → F .f32) (j : Fin k0_t17_loop.trips) (a : Acc4 F) :
    ((k0_pay4 (k0_pay421 (k0_pay412 (k0_pay404 a.1 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gB)) (k0_pay418 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gA)) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gB)) (k0_pay427 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gB)),
      k0_pay8 (k0_pay425 (k0_pay416 (k0_pay408 a.2.1 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gB),
      k0_pay5 (k0_pay422 (k0_pay413 (k0_pay405 a.2.2.1 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gB)) (k0_pay418 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gA)) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gB)) (k0_pay427 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gB)),
      k0_pay9 (k0_pay426 (k0_pay417 (k0_pay409 a.2.2.2 (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gB)) (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gA) (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gB)) : Acc4 F)
      = trip8 a (fun u => ld gA ⟨7, by decide⟩ (8 * j.val + u.val)) (fun u => ld gB ⟨7, by decide⟩ (8 * j.val + u.val)) := by
  have hj : j.val < 16 := Nat.lt_of_lt_of_le j.isLt k0_t17_abs.2.1
  refine (trip_t17 a.1 a.2.1 a.2.2.1 a.2.2.2 _ _ _ _ _ _ _ _ _ _ _ _ _ _ _ _).trans
    (congrArg₂ (trip8 a) (funext fun u => ?_) (funext fun u => ?_))
  · fin_cases u
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gA) = ld gA ⟨7, by decide⟩ (8 * j.val + 0)
      exact load_eq_s1 gA 7 (by decide) _ (fun _ => rfl) _ _ _ j.val 0 hj (by decide) (k0_off19_eq j ⟨0, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gA) = ld gA ⟨7, by decide⟩ (8 * j.val + 1)
      exact load_eq_s1 gA 7 (by decide) _ (fun _ => rfl) _ _ _ j.val 1 hj (by decide) (k0_off19_eq j ⟨1, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gA) = ld gA ⟨7, by decide⟩ (8 * j.val + 2)
      exact load_eq_s1 gA 7 (by decide) _ (fun _ => rfl) _ _ _ j.val 2 hj (by decide) (k0_off19_eq j ⟨2, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gA) = ld gA ⟨7, by decide⟩ (8 * j.val + 3)
      exact load_eq_s1 gA 7 (by decide) _ (fun _ => rfl) _ _ _ j.val 3 hj (by decide) (k0_off19_eq j ⟨3, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gA) = ld gA ⟨7, by decide⟩ (8 * j.val + 4)
      exact load_eq_s1 gA 7 (by decide) _ (fun _ => rfl) _ _ _ j.val 4 hj (by decide) (k0_off19_eq j ⟨4, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gA) = ld gA ⟨7, by decide⟩ (8 * j.val + 5)
      exact load_eq_s1 gA 7 (by decide) _ (fun _ => rfl) _ _ _ j.val 5 hj (by decide) (k0_off19_eq j ⟨5, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gA) = ld gA ⟨7, by decide⟩ (8 * j.val + 6)
      exact load_eq_s1 gA 7 (by decide) _ (fun _ => rfl) _ _ _ j.val 6 hj (by decide) (k0_off19_eq j ⟨6, by decide⟩)
    · show (View.readAt (Elt F) (((Memref.whole cc0_scratch1).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gA) = ld gA ⟨7, by decide⟩ (8 * j.val + 7)
      exact load_eq_s1 gA 7 (by decide) _ (fun _ => rfl) _ _ _ j.val 7 hj (by decide) (k0_off19_eq j ⟨7, by decide⟩)
  · fin_cases u
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 0#32) S16.size (k0_off19_inb j 0)).toLoadRect gB) = ld gB ⟨7, by decide⟩ (8 * j.val + 0)
      exact load_eq_s3 gB 7 (by decide) _ (fun _ => rfl) _ _ _ j.val 0 hj (by decide) (k0_off19_eq j ⟨0, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 16#32) S16.size (k0_off19_inb j 1)).toLoadRect gB) = ld gB ⟨7, by decide⟩ (8 * j.val + 1)
      exact load_eq_s3 gB 7 (by decide) _ (fun _ => rfl) _ _ _ j.val 1 hj (by decide) (k0_off19_eq j ⟨1, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 32#32) S16.size (k0_off19_inb j 2)).toLoadRect gB) = ld gB ⟨7, by decide⟩ (8 * j.val + 2)
      exact load_eq_s3 gB 7 (by decide) _ (fun _ => rfl) _ _ _ j.val 2 hj (by decide) (k0_off19_eq j ⟨2, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 48#32) S16.size (k0_off19_inb j 3)).toLoadRect gB) = ld gB ⟨7, by decide⟩ (8 * j.val + 3)
      exact load_eq_s3 gB 7 (by decide) _ (fun _ => rfl) _ _ _ j.val 3 hj (by decide) (k0_off19_eq j ⟨3, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 64#32) S16.size (k0_off19_inb j 4)).toLoadRect gB) = ld gB ⟨7, by decide⟩ (8 * j.val + 4)
      exact load_eq_s3 gB 7 (by decide) _ (fun _ => rfl) _ _ _ j.val 4 hj (by decide) (k0_off19_eq j ⟨4, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 80#32) S16.size (k0_off19_inb j 5)).toLoadRect gB) = ld gB ⟨7, by decide⟩ (8 * j.val + 5)
      exact load_eq_s3 gB 7 (by decide) _ (fun _ => rfl) _ _ _ j.val 5 hj (by decide) (k0_off19_eq j ⟨5, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 96#32) S16.size (k0_off19_inb j 6)).toLoadRect gB) = ld gB ⟨7, by decide⟩ (8 * j.val + 6)
      exact load_eq_s3 gB 7 (by decide) _ (fun _ => rfl) _ _ _ j.val 6 hj (by decide) (k0_off19_eq j ⟨6, by decide⟩)
    · show (View.readAt (Elt F) (((Memref.whole cc0_scratch3).slice (Rect.unit (s := S8x2048) ![7, 0] S1x2048.size inb_S8x2048_S1x2048_7_0) (fun _ => rfl)).squeeze S2048 squeezes_S1x2048_S2048).view (Rect.unit (s := S2048) (k0_off19 j 112#32) S16.size (k0_off19_inb j 7)).toLoadRect gB) = ld gB ⟨7, by decide⟩ (8 * j.val + 7)
      exact load_eq_s3 gB 7 (by decide) _ (fun _ => rfl) _ _ _ j.val 7 hj (by decide) (k0_off19_eq j ⟨7, by decide⟩)

end Cert.Proof.KB

end
-- ==== Proof.TilePureBits.lean ====
/-
  Every row loop's trip over the loads it makes: the eight row loops of the first slot's buffers and the eight of the
  second slot's.
-/
import proofs.«210622_g27255862460721_cont_9to1_1214_20_alg».proof.Proof.TilePureABits
import proofs.«210622_g27255862460721_cont_9to1_1214_20_alg».proof.Proof.TilePureBBits
-- ==== Proof.TileCopyOutB.lean ====
/-
  What a tile's two copy-outs leave in the [256] result arrays, entry by entry.

  The tile at grid position L stores its sum result a0 + a1 (sixteen lanes) into a [16] buffer and copies that buffer
  to entries 16 L₁ + 16 L₀ … + 15 of the [256] array of sums (L₀ < 1, so that is 16 L₁ …); likewise its count result. Entry
  i of the array of sums, for i among those sixteen, then holds lane i % 16 of the result of the tile whose first row
  is 128 (i / 16) — what the specification of all sixteen tiles says of entry i.
-/
import proofs.«210622_g27255862460721_cont_9to1_1214_20_alg».proof.Proof.TileOutB
import Idealize.ShloMosaic.Lib.Writes

noncomputable section

namespace Cert.Proof.KB

open Cert.Kernel Cert.Kernel.Gen
open Idealize.ShloMosaic Idealize.ShloMosaic.ValueIdx Idealize.SL.Sem
open Cert.Proof.TileSpecB (Acc4 tileFold outS outC scS scC)

variable {F : FTy → Type} [FloatOps F]

/-- The grid has one core row: the first grid coordinate is 0. -/
theorem grid_core_zero (L : grid0.Coords) : (L 0).val = 0 := by
  have h : (L 0).val < 1 := (L 0).isLt
  omega

/-- The second grid coordinate is a tile number below 16. -/
theorem grid_tile_lt (L : grid0.Coords) : (L 1).val < 16 := (L 1).isLt

/-- Entry i of the array of sums, for i among the tile's sixteen entries, after the tile's copy-out. -/
theorem out_s_pure (X Y : S16384x2048.Idx → F .f32) (fs : S256.Idx → F .f32) (f4 : S16.Idx → F .f32) (a : Acc4 F)
    (L : grid0.Coords) (ha : a = tileFold X Y (128 * (L 1).val + 128 * (L 0).val) 16) (i : S256.Idx)
    (hi : i ∈ ((Memref.whole main_v2_0_scv).slice (Rect.unit (s := S256) (k0_off20 L) S16.size (k0_off20_inb L))
      (fun _ => rfl)).view.set) :
    ((Memref.whole main_v2_0_scv).slice (Rect.unit (s := S256) (k0_off20 L) S16.size (k0_off20_inb L))
        (fun _ => rfl)).view.writes (Elt F) fs
      [⟨Rect.whole S16, ReadAs.same.apply (View.read (Elt F) (Memref.whole cc0_scratch4).view
        ((Memref.whole cc0_scratch4).view.writes (Elt F) f4
          [⟨Rect.unit (s := S16) ![0] S16.size inb_S16_S16_0, k0_pay10 a.1 a.2.1⟩]))⟩] i
      = scS X Y i := by
  obtain ⟨y, -, rfl⟩ := Finset.mem_map.mp hi
  have hy : (y 0).val < 16 := (y 0).isLt
  have hL0 := grid_core_zero L
  have hL1 := grid_tile_lt L
  have e0 : (Rect.whole S16).emb y = y := funext fun a => Fin.ext (by show 0 + 1 * (y a).val = (y a).val; omega)
  have e4 : (Rect.unit (s := S16) ![0] S16.size inb_S16_S16_0).emb y = y :=
    funext fun a => Fin.ext (by
      match a with
      | ⟨0, _⟩ => show 0 + 1 * (y 0).val = (y 0).val; omega)
  have h1 := View.read_writes_cons_emb (Val := Elt F)
    ((Memref.whole main_v2_0_scv).slice (Rect.unit (s := S256) (k0_off20 L) S16.size (k0_off20_inb L)) (fun _ => rfl)).view
    fs (Rect.whole S16)
    (ReadAs.same.apply (View.read (Elt F) (Memref.whole cc0_scratch4).view
      ((Memref.whole cc0_scratch4).view.writes (Elt F) f4
        [⟨Rect.unit (s := S16) ![0] S16.size inb_S16_S16_0, k0_pay10 a.1 a.2.1⟩]))) [] y
  have h2 := View.read_writes_cons_emb (Val := Elt F) (Memref.whole cc0_scratch4).view f4
    (Rect.unit (s := S16) ![0] S16.size inb_S16_S16_0) (k0_pay10 a.1 a.2.1) [] y
  rw [e0] at h1
  rw [e4] at h2
  have hv : ((((Memref.whole main_v2_0_scv).slice (Rect.unit (s := S256) (k0_off20 L) S16.size (k0_off20_inb L))
      (fun _ => rfl)).view.emb y) 0).val = 16 * (L 1).val + 16 * (L 0).val + 1 * (y 0).val := by
    show (k0_off20 L) 0 + 1 * (y 0).val = _
    rw [congrFun (k0_off20_eq L) 0]
    rfl
  refine (h1.trans h2).trans ?_
  subst ha
  have hb : 128 * (L 1).val + 128 * (L 0).val
      = 128 * (((((Memref.whole main_v2_0_scv).slice (Rect.unit (s := S256) (k0_off20 L) S16.size (k0_off20_inb L))
        (fun _ => rfl)).view.emb y) 0).val / 16) := by omega
  have hyy : y = ix1 ⟨((((Memref.whole main_v2_0_scv).slice (Rect.unit (s := S256) (k0_off20 L) S16.size (k0_off20_inb L))
        (fun _ => rfl)).view.emb y) 0).val % 16, Nat.mod_lt _ (by norm_num)⟩ := by
    refine (eq_ix1 y).trans (congrArg ix1 (Fin.ext ?_))
    show (y 0).val = _ % 16
    omega
  exact congrArg₂ (fun b (z : S16.Idx) => outS (tileFold X Y b 16) z) hb hyy

/-- Entry i of the array of counts, for i among the tile's sixteen entries, after the tile's copy-out. -/
theorem out_c_pure (X Y : S16384x2048.Idx → F .f32) (fs : S256.Idx → F .f32) (f4 : S16.Idx → F .f32) (a : Acc4 F)
    (L : grid0.Coords) (ha : a = tileFold X Y (128 * (L 1).val + 128 * (L 0).val) 16) (i : S256.Idx)
    (hi : i ∈ ((Memref.whole main_v2_1_scv).slice (Rect.unit (s := S256) (k0_off20 L) S16.size (k0_off20_inb L))
      (fun _ => rfl)).view.set) :
    ((Memref.whole main_v2_1_scv).slice (Rect.unit (s := S256) (k0_off20 L) S16.size (k0_off20_inb L))
        (fun _ => rfl)).view.writes (Elt F) fs
      [⟨Rect.whole S16, ReadAs.same.apply (View.read (Elt F) (Memref.whole cc0_scratch5).view
        ((Memref.whole cc0_scratch5).view.writes (Elt F) f4
          [⟨Rect.unit (s := S16) ![0] S16.size inb_S16_S16_0, k0_pay11 a.2.2.1 a.2.2.2⟩]))⟩] i
      = scC X Y i := by
  obtain ⟨y, -, rfl⟩ := Finset.mem_map.mp hi
  have hy : (y 0).val < 16 := (y 0).isLt
  have hL0 := grid_core_zero L
  have hL1 := grid_tile_lt L
  have e0 : (Rect.whole S16).emb y = y := funext fun a => Fin.ext (by show 0 + 1 * (y a).val = (y a).val; omega)
  have e4 : (Rect.unit (s := S16) ![0] S16.size inb_S16_S16_0).emb y = y :=
    funext fun a => Fin.ext (by
      match a with
      | ⟨0, _⟩ => show 0 + 1 * (y 0).val = (y 0).val; omega)
  have h1 := View.read_writes_cons_emb (Val := Elt F)
    ((Memref.whole main_v2_1_scv).slice (Rect.unit (s := S256) (k0_off20 L) S16.size (k0_off20_inb L)) (fun _ => rfl)).view
    fs (Rect.whole S16)
    (ReadAs.same.apply (View.read (Elt F) (Memref.whole cc0_scratch5).view
      ((Memref.whole cc0_scratch5).view.writes (Elt F) f4
        [⟨Rect.unit (s := S16) ![0] S16.size inb_S16_S16_0, k0_pay11 a.2.2.1 a.2.2.2⟩]))) [] y
  have h2 := View.read_writes_cons_emb (Val := Elt F) (Memref.whole cc0_scratch5).view f4
    (Rect.unit (s := S16) ![0] S16.size inb_S16_S16_0) (k0_pay11 a.2.2.1 a.2.2.2) [] y
  rw [e0] at h1
  rw [e4] at h2
  have hv : ((((Memref.whole main_v2_1_scv).slice (Rect.unit (s := S256) (k0_off20 L) S16.size (k0_off20_inb L))
      (fun _ => rfl)).view.emb y) 0).val = 16 * (L 1).val + 16 * (L 0).val + 1 * (y 0).val := by
    show (k0_off20 L) 0 + 1 * (y 0).val = _
    rw [congrFun (k0_off20_eq L) 0]
    rfl
  refine (h1.trans h2).trans ?_
  subst ha
  have hb : 128 * (L 1).val + 128 * (L 0).val
      = 128 * (((((Memref.whole main_v2_1_scv).slice (Rect.unit (s := S256) (k0_off20 L) S16.size (k0_off20_inb L))
        (fun _ => rfl)).view.emb y) 0).val / 16) := by omega
  have hyy : y = ix1 ⟨((((Memref.whole main_v2_1_scv).slice (Rect.unit (s := S256) (k0_off20 L) S16.size (k0_off20_inb L))
        (fun _ => rfl)).view.emb y) 0).val % 16, Nat.mod_lt _ (by norm_num)⟩ := by
    refine (eq_ix1 y).trans (congrArg ix1 (Fin.ext ?_))
    show (y 0).val = _ % 16
    omega
  exact congrArg₂ (fun b (z : S16.Idx) => outC (tileFold X Y b 16) z) hb hyy

end Cert.Proof.KB

end
-- ==== Proof.TileCopyOutEqB.lean ====
/-
  A tile's two copy-outs, as equalities between assertions about the [256] result arrays.

  After the tile at grid position L has copied its sum result out, its sixteen entries of the array of sums — entries
  16 L₁ … 16 L₁ + 15, the L₁-th of the array's sixteen parts — hold what the specification of all sixteen tiles says of
  them; likewise the array of counts. Only those sixteen entries are held, so the two assertions are equal.
-/
import proofs.«210622_g27255862460721_cont_9to1_1214_20_alg».proof.Proof.KBTileRes
import proofs.«210622_g27255862460721_cont_9to1_1214_20_alg».proof.Proof.TileCopyOutB

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.TileSpecB (Acc4 tileFold outS outC scS scC)

variable {F : FTy → Type} [FloatOps F] (d : Dev nD) (L : grid0.Coords)

local notation "𝕄" => MT nD τ sig (HIx 1) (Elt F) ℕ UU ℕ

omit [FloatOps F] in
/-- The tile's sixteen entries are the L₁-th of the sixteen parts of a [256] array. -/
theorem lanes_eq :
    Rect.unit (s := S256) (k0_off20 L) S16.size (k0_off20_inb L) = lanes (Fin.cast (rfl : grid0.bound 1 = 16) (L 1)) := by
  have hL0 := grid_core_zero L
  have hc : (Fin.cast (rfl : grid0.bound 1 = 16) (L 1)).val = (L 1).val := rfl
  unfold lanes Rect.part Rect.block
  congr 1 <;> funext a
  · rw [k0_off20_eq]
    match a with
    | 0 =>
      show 16 * (L 1).val + 16 * (L 0).val = (L 1).val * 16
      omega
  · match a with
    | 0 => rfl

omit [FloatOps F] in
/-- The entries of the array of sums that the tile's copy-out covers. -/
theorem set_out_s :
    ((Memref.whole main_v2_0_scv).slice (Rect.unit (s := S256) (k0_off20 L) S16.size (k0_off20_inb L)) (fun _ => rfl)).view.set
      = laneSet (Fin.cast (rfl : grid0.bound 1 = 16) (L 1)) := by
  show ((Memref.whole main_v2_0_scv : Memref sig .scVector .hbm S256 .f32).view.slice
      (Rect.unit (s := S256) (k0_off20 L) S16.size (k0_off20_inb L))).set = _
  rw [lanes_eq L]

omit [FloatOps F] in
/-- The entries of the array of counts that the tile's copy-out covers: the same sixteen. -/
theorem set_out_c :
    ((Memref.whole main_v2_1_scv).slice (Rect.unit (s := S256) (k0_off20 L) S16.size (k0_off20_inb L)) (fun _ => rfl)).view.set
      = laneSet (Fin.cast (rfl : grid0.bound 1 = 16) (L 1)) := by
  have h1 : (((Memref.whole main_v2_1_scv).slice (Rect.unit (s := S256) (k0_off20 L) S16.size (k0_off20_inb L))
      (fun _ => rfl)).view.set : Finset S256.Idx) = (Rect.unit (s := S256) (k0_off20 L) S16.size (k0_off20_inb L)).set := by
    show ((Memref.whole main_v2_1_scv : Memref sig .scVector .hbm S256 .f32).view.slice _).set = _
    rw [View.set_slice]
    exact Finset.map_refl
  have h0 : (((Memref.whole main_v2_0_scv).slice (Rect.unit (s := S256) (k0_off20 L) S16.size (k0_off20_inb L))
      (fun _ => rfl)).view.set : Finset S256.Idx) = (Rect.unit (s := S256) (k0_off20 L) S16.size (k0_off20_inb L)).set := by
    show ((Memref.whole main_v2_0_scv : Memref sig .scVector .hbm S256 .f32).view.slice _).set = _
    rw [View.set_slice]
    exact Finset.map_refl
  exact h1.trans (h0.symm.trans (set_out_s L))

/-- The tile's sum copy-out leaves its sixteen entries of the array of sums as the specification says. -/
theorem out_s_eq (X Y : S16384x2048.Idx → F .f32)
    (fs : Buf (Elt F) (((Memref.whole main_v2_0_scv).slice (Rect.unit (s := S256) (k0_off20 L) S16.size (k0_off20_inb L))
      (fun _ => rfl)).view.loc (V d (cV L) (jV L))))
    (f4 : Buf (Elt F) ((Memref.whole cc0_scratch4).view.loc (V d (cV L) (jV L)))) (a : Acc4 F)
    (ha : a = tileFold X Y (128 * (L 1).val + 128 * (L 0).val) 16) :
    (((Memref.whole main_v2_0_scv).slice (Rect.unit (s := S256) (k0_off20 L) S16.size (k0_off20_inb L))
        (fun _ => rfl)).view.loc (V d (cV L) (jV L))
      ↦[((Memref.whole main_v2_0_scv).slice (Rect.unit (s := S256) (k0_off20 L) S16.size (k0_off20_inb L))
        (fun _ => rfl)).view.set]{fullShare}
      ((Memref.whole main_v2_0_scv).slice (Rect.unit (s := S256) (k0_off20 L) S16.size (k0_off20_inb L))
          (fun _ => rfl)).view.writes (Elt F) fs
        [⟨Rect.whole S16, ReadAs.same.apply (View.read (Elt F) (Memref.whole cc0_scratch4).view
          ((Memref.whole cc0_scratch4).view.writes (Elt F) f4
            [⟨Rect.unit (s := S16) ![0] S16.size inb_S16_S16_0, k0_pay10 a.1 a.2.1⟩]))⟩] : sProp 𝕄)
      = (sLoc d ↦[laneSet (Fin.cast (rfl : grid0.bound 1 = 16) (L 1))]{fullShare} scS X Y) := by
  refine (pointsTo_congr fun i hi => out_s_pure X Y fs f4 a L ha i hi).trans ?_
  rw [set_out_s L]

/-- The tile's count copy-out leaves its sixteen entries of the array of counts as the specification says. -/
theorem out_c_eq (X Y : S16384x2048.Idx → F .f32)
    (fs : Buf (Elt F) (((Memref.whole main_v2_1_scv).slice (Rect.unit (s := S256) (k0_off20 L) S16.size (k0_off20_inb L))
      (fun _ => rfl)).view.loc (V d (cV L) (jV L))))
    (f5 : Buf (Elt F) ((Memref.whole cc0_scratch5).view.loc (V d (cV L) (jV L)))) (a : Acc4 F)
    (ha : a = tileFold X Y (128 * (L 1).val + 128 * (L 0).val) 16) :
    (((Memref.whole main_v2_1_scv).slice (Rect.unit (s := S256) (k0_off20 L) S16.size (k0_off20_inb L))
        (fun _ => rfl)).view.loc (V d (cV L) (jV L))
      ↦[((Memref.whole main_v2_1_scv).slice (Rect.unit (s := S256) (k0_off20 L) S16.size (k0_off20_inb L))
        (fun _ => rfl)).view.set]{fullShare}
      ((Memref.whole main_v2_1_scv).slice (Rect.unit (s := S256) (k0_off20 L) S16.size (k0_off20_inb L))
          (fun _ => rfl)).view.writes (Elt F) fs
        [⟨Rect.whole S16, ReadAs.same.apply (View.read (Elt F) (Memref.whole cc0_scratch5).view
          ((Memref.whole cc0_scratch5).view.writes (Elt F) f5
            [⟨Rect.unit (s := S16) ![0] S16.size inb_S16_S16_0, k0_pay11 a.2.2.1 a.2.2.2⟩]))⟩] : sProp 𝕄)
      = (cLoc d ↦[laneSet (Fin.cast (rfl : grid0.bound 1 = 16) (L 1))]{fullShare} scC X Y) := by
  refine (pointsTo_congr fun i hi => out_c_pure X Y fs f5 a L ha i hi).trans ?_
  rw [set_out_c L]

end Cert.Proof.KB

end
-- ==== Proof.KBTile.lean ====
/-
  One vector subcore's task. The tile streams its 128 rows of the two big arrays through two slots of eight rows each (slot 0's next
  chunk in flight while slot 1's is summed, one semaphore per slot and array), accumulating per lane the squared differences and the
  counts in four carried vectors; the carried values are the generic fold `tileFold` of the rows read so far, and the two sixteen-lane
  results leave through the tile's own lanes of the [256] arrays.
-/
import proofs.«210622_g27255862460721_cont_9to1_1214_20_alg».proof.Proof.KBSplit
import proofs.«210622_g27255862460721_cont_9to1_1214_20_alg».proof.Proof.TileIndexB
import proofs.«210622_g27255862460721_cont_9to1_1214_20_alg».proof.Proof.TilePureBits
import proofs.«210622_g27255862460721_cont_9to1_1214_20_alg».proof.Proof.TileCopyOutEqB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Cert.Proof.TileSpecB (Acc4 rowFold chunkFold tileFold rowsOf init4 outS outC trip8 ld scS scC)

abbrev xW : Memref sig .scVector .hbm S16384x2048 .f32 := Memref.whole main_v0_scv
abbrev tW : Memref sig .scVector .hbm S16384x2048 .f32 := Memref.whole main_v1_scv
abbrev sW : Memref sig .scVector .hbm S256 .f32 := Memref.whole main_v2_0_scv
abbrev cW : Memref sig .scVector .hbm S256 .f32 := Memref.whole main_v2_1_scv
abbrev b0 : Memref sig .scVector .vmem S8x2048 .f32 := Memref.whole cc0_scratch0
abbrev b1 : Memref sig .scVector .vmem S8x2048 .f32 := Memref.whole cc0_scratch1
abbrev b2 : Memref sig .scVector .vmem S8x2048 .f32 := Memref.whole cc0_scratch2
abbrev b3 : Memref sig .scVector .vmem S8x2048 .f32 := Memref.whole cc0_scratch3
abbrev b4 : Memref sig .scVector .vmem S16 .f32 := Memref.whole cc0_scratch4
abbrev b5 : Memref sig .scVector .vmem S16 .f32 := Memref.whole cc0_scratch5

abbrev sOut (L : grid0.Coords) : Memref sig .scVector .hbm S16 .f32 := sW.slice (Rect.unit (s := S256) (k0_off20 L) S16.size (k0_off20_inb L)) (fun _ => rfl)
abbrev cOut (L : grid0.Coords) : Memref sig .scVector .hbm S16 .f32 := cW.slice (Rect.unit (s := S256) (k0_off20 L) S16.size (k0_off20_inb L)) (fun _ => rfl)

variable (d : Dev nD) (L : grid0.Coords)

abbrev chunkX (off : Fin 2 → ℕ) (h : ∀ a, off a + S8x2048.size a ≤ S16384x2048.size a) : Memref sig .scVector .hbm S8x2048 .f32 :=
  xW.slice (Rect.unit (s := S16384x2048) off S8x2048.size h) (fun _ => rfl)
abbrev chunkT (off : Fin 2 → ℕ) (h : ∀ a, off a + S8x2048.size a ≤ S16384x2048.size a) : Memref sig .scVector .hbm S8x2048 .f32 :=
  tW.slice (Rect.unit (s := S16384x2048) off S8x2048.size h) (fun _ => rfl)

abbrev base (L : grid0.Coords) : ℕ := 128 * (L 1).val + 128 * (L 0).val

/-- A row chunk of the array in flight into a slot buffer on the slot's semaphore: the landed buffer — rows n..n+8 of the array —
    and the lent rows inside the flight, the rest of the read token beside it. -/
def inFlightX (sem : DmaSem sig) (q : PosShare TreeShare) (A : Buf (Elt F) ((xW).view.loc (thr d L))) (n : ℕ) : sProp 𝕄 :=
  iprop(∃ (off : Fin 2 → ℕ) (h : ∀ a, off a + S8x2048.size a ≤ S16384x2048.size a) (g : Buf (Elt F) ((b0).view.loc (thr d L))),
    ⌜g = rowsOf (F := F) A n⌝ ∗
    Transfers.Flight (countersEmb (U := UU)) (thr d L) (SemLoc.dma sem) (default : HIx 1) 524288
        iprop(((b0).view.loc (thr d L) ↦{fullShare} g)
          ∗ ((xW).view.loc (thr d L) ↦[((xW).slice (Rect.unit (s := S16384x2048) off S8x2048.size h) (fun _ => rfl)).view.set]{q} A))
      ∗ ((xW).view.loc (thr d L) ↦[Finset.univ \ ((xW).slice (Rect.unit (s := S16384x2048) off S8x2048.size h) (fun _ => rfl)).view.set]{q} A))

/-- A row chunk of the array in flight into a slot buffer on the slot's semaphore: the landed buffer — rows n..n+8 of the array —
    and the lent rows inside the flight, the rest of the read token beside it. -/
def inFlightT (sem : DmaSem sig) (q : PosShare TreeShare) (A : Buf (Elt F) ((tW).view.loc (thr d L))) (n : ℕ) : sProp 𝕄 :=
  iprop(∃ (off : Fin 2 → ℕ) (h : ∀ a, off a + S8x2048.size a ≤ S16384x2048.size a) (g : Buf (Elt F) ((b2).view.loc (thr d L))),
    ⌜g = rowsOf (F := F) A n⌝ ∗
    Transfers.Flight (countersEmb (U := UU)) (thr d L) (SemLoc.dma sem) (default : HIx 1) 524288
        iprop(((b2).view.loc (thr d L) ↦{fullShare} g)
          ∗ ((tW).view.loc (thr d L) ↦[((tW).slice (Rect.unit (s := S16384x2048) off S8x2048.size h) (fun _ => rfl)).view.set]{q} A))
      ∗ ((tW).view.loc (thr d L) ↦[Finset.univ \ ((tW).slice (Rect.unit (s := S16384x2048) off S8x2048.size h) (fun _ => rfl)).view.set]{q} A))

/-- A slot at rest: the read token whole, the buffer at some contents, the semaphore's counter at zero. -/
def atRest (sem : DmaSem sig) (src : Memref sig .scVector .hbm S16384x2048 .f32) (dst : Memref sig .scVector .vmem S8x2048 .f32)
    (q : PosShare TreeShare) (A : Buf (Elt F) (src.view.loc (thr d L))) : sProp 𝕄 :=
  iprop((src.view.loc (thr d L) ↦{q} A) ∗ (∃ g, dst.view.loc (thr d L) ↦{fullShare} g) ∗ semVal (thr d L, SemLoc.dma sem) 0)

/-- A row loop's invariant: the two slot buffers it reads, whole at their contents, and the carried sums so far. -/
def invI0 (gA : Buf (Elt F) ((b0).view.loc (thr d L))) (gB : Buf (Elt F) ((b2).view.loc (thr d L)))
    (r : Fin 8) (a : Acc4 F) (j : ℕ) (acc : Acc4 F) : sProp 𝕄 :=
  iprop(((b0).view.loc (thr d L) ↦{fullShare} gA) ∗ ((b2).view.loc (thr d L) ↦{fullShare} gB) ∗ ⌜acc = rowFold gA gB r j a⌝)

/-- A row loop's invariant: the two slot buffers it reads, whole at their contents, and the carried sums so far. -/
def invI1 (gA : Buf (Elt F) ((b1).view.loc (thr d L))) (gB : Buf (Elt F) ((b3).view.loc (thr d L)))
    (r : Fin 8) (a : Acc4 F) (j : ℕ) (acc : Acc4 F) : sProp 𝕄 :=
  iprop(((b1).view.loc (thr d L) ↦{fullShare} gA) ∗ ((b3).view.loc (thr d L) ↦{fullShare} gB) ∗ ⌜acc = rowFold gA gB r j a⌝)

omit [FloatOps F] in
theorem pts_ex {ℓ : Loc nD τ sig} {q : PosShare TreeShare} (f : Buf (Elt F) ℓ) : (ℓ ↦{q} f : sProp 𝕄) ⊢ iprop(∃ g, ℓ ↦{q} g) := by
  iintro H; iexists f; iexact H

omit [FloatOps F] in
theorem pts_gset_pos {ℓ : Loc nD τ sig} {C : Prop} [Decidable C] {R : C → Finset (Idx ℓ)} (hc : C) {q : PosShare TreeShare} {f : Buf (Elt F) ℓ} :
    (ℓ ↦[Finset.univ \ gset C R]{q} f : sProp 𝕄) ⊢ (ℓ ↦[Finset.univ \ R hc]{q} f) := by
  rw [gset.pos hc]
omit [FloatOps F] in
theorem pts_gset_neg {ℓ : Loc nD τ sig} {C : Prop} [Decidable C] {R : C → Finset (Idx ℓ)} (hn : ¬ C) {q : PosShare TreeShare} {f : Buf (Elt F) ℓ} :
    (ℓ ↦[Finset.univ \ gset C R]{q} f : sProp 𝕄) ⊢ (ℓ ↦{q} f) := by
  rw [gset.neg hn, Finset.sdiff_empty]

def invO (q : PosShare TreeShare) (O : CellTallies nD τ sig (HIx 1)) (W : Waits sig (HIx 1))
    (X : Buf (Elt F) ((xW).view.loc (thr d L))) (Tt : Buf (Elt F) ((tW).view.loc (thr d L))) (k : ℕ) (acc : Acc4 F) : sProp 𝕄 :=
  iprop(Transfers.MayWaits (thr d L) (none : HIx 1) O
    ∗ atRest d L cc0_scratch7.sem xW b1 (Transfers.shareTokN q 1) X
    ∗ atRest d L cc0_scratch9.sem tW b3 (Transfers.shareTokN q 3) Tt
    ∗ (∃ f, (sOut L).view.loc (thr d L) ↦[(sOut L).view.set]{fullShare} f)
    ∗ (∃ f, (cOut L).view.loc (thr d L) ↦[(cOut L).view.set]{fullShare} f)
    ∗ (∃ f, (b4).view.loc (thr d L) ↦{fullShare} f) ∗ (∃ f, (b5).view.loc (thr d L) ↦{fullShare} f)
    ∗ semVal (thr d L, SemLoc.dma cc0_scoped0.sem) 0 ∗ semVal (thr d L, SemLoc.dma cc0_scoped1.sem) 0
    ∗ (∃ W', ⌜∀ p ∈ W', p ∈ W ∨ p.2 = none⌝ ∗ owes (thr d L) O W')
    ∗ ⌜acc = tileFold X Tt (base L) (2 * k)⌝
    ∗ (if k < 8 then iprop(inFlightX d L cc0_scratch6.sem (Transfers.shareTokN q 0) X (base L + 16 * k) ∗ inFlightT d L cc0_scratch8.sem (Transfers.shareTokN q 2) Tt (base L + 16 * k))
       else iprop(atRest d L cc0_scratch6.sem xW b0 (Transfers.shareTokN q 0) X ∗ atRest d L cc0_scratch8.sem tW b2 (Transfers.shareTokN q 2) Tt)))

omit [FloatOps F] in
theorem cond1_iff : ∀ k : Fin k0_t1_loop.trips, k0_cond1 k = 1#1 ↔ k.val + 1 < 8 := by decide +kernel

/-! ## The tile's view of its arrays is the TensorCore's -/

omit [FloatOps F] in
theorem bound_one : grid0.bound 1 = 16 := rfl
abbrev jL (L : grid0.Coords) : Fin 16 := Fin.cast bound_one (L 1)

omit [FloatOps F] in
theorem pts_xW (q : PosShare TreeShare) (f : Buf (Elt F) (xLoc d)) :
    ((xW).view.loc (thr d L) ↦{q} f : sProp 𝕄) = xLoc d ↦{q} f := by
  simp only [Memref.view_whole, View.set_whole]
omit [FloatOps F] in
theorem pts_tW (q : PosShare TreeShare) (f : Buf (Elt F) (tLoc d)) :
    ((tW).view.loc (thr d L) ↦{q} f : sProp 𝕄) = tLoc d ↦{q} f := by
  simp only [Memref.view_whole, View.set_whole]

omit [FloatOps F] in
theorem set_sOut : (sOut L).view.set = laneSet (jL L) := set_out_s L
omit [FloatOps F] in
theorem set_cOut : (cOut L).view.set = laneSet (jL L) := set_out_c L
omit [FloatOps F] in
theorem pts_sOut (f : Buf (Elt F) (sLoc d)) :
    ((sOut L).view.loc (thr d L) ↦[(sOut L).view.set]{fullShare} f : sProp 𝕄) = sLoc d ↦[laneSet (jL L)]{fullShare} f := by
  rw [set_sOut]
omit [FloatOps F] in
theorem pts_cOut (f : Buf (Elt F) (cLoc d)) :
    ((cOut L).view.loc (thr d L) ↦[(cOut L).view.set]{fullShare} f : sProp 𝕄) = cLoc d ↦[laneSet (jL L)]{fullShare} f := by
  rw [set_cOut]

theorem tile_core (q : PosShare TreeShare) (O : CellTallies nD τ sig (HIx 1)) (W : Waits sig (HIx 1))
    (X : Buf (Elt F) ((xW).view.loc (thr d L))) (Tt : Buf (Elt F) ((tW).view.loc (thr d L))) :
    (iprop(Transfers.MayWaits (thr d L) (none : HIx 1) O
        ∗ ((xW).view.loc (thr d L) ↦{Transfers.shareTokN q 0} X) ∗ ((xW).view.loc (thr d L) ↦{Transfers.shareTokN q 1} X)
        ∗ ((tW).view.loc (thr d L) ↦{Transfers.shareTokN q 2} Tt) ∗ ((tW).view.loc (thr d L) ↦{Transfers.shareTokN q 3} Tt)
        ∗ (∃ f, (sOut L).view.loc (thr d L) ↦[(sOut L).view.set]{fullShare} f)
        ∗ (∃ f, (cOut L).view.loc (thr d L) ↦[(cOut L).view.set]{fullShare} f)
        ∗ (∃ f, (b0).view.loc (thr d L) ↦{fullShare} f) ∗ (∃ f, (b1).view.loc (thr d L) ↦{fullShare} f)
        ∗ (∃ f, (b2).view.loc (thr d L) ↦{fullShare} f) ∗ (∃ f, (b3).view.loc (thr d L) ↦{fullShare} f)
        ∗ (∃ f, (b4).view.loc (thr d L) ↦{fullShare} f) ∗ (∃ f, (b5).view.loc (thr d L) ↦{fullShare} f)
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scoped0.sem) 0 ∗ semVal (thr d L, SemLoc.dma cc0_scoped1.sem) 0
        ∗ owes (thr d L) O W) : sProp 𝕄)
      ⊢ wp frame (wpE (defs₀ (F := F)) 𝒱₀ (thr d L) none) Set.univ
          (cc0_body L xW (Memref.isWhole_whole _) tW (Memref.isWhole_whole _) sW (Memref.isWhole_whole _) cW (Memref.isWhole_whole _)
            b0 (Memref.isWhole_whole _) b1 (Memref.isWhole_whole _) b2 (Memref.isWhole_whole _) b3 (Memref.isWhole_whole _)
            b4 (Memref.isWhole_whole _) b5 (Memref.isWhole_whole _) cc0_scratch6 cc0_scratch7 cc0_scratch8 cc0_scratch9 cc0_scoped0 cc0_scoped1)
          fun _ => iprop(((xW).view.loc (thr d L) ↦{Transfers.shareTokN q 0} X) ∗ ((xW).view.loc (thr d L) ↦{Transfers.shareTokN q 1} X)
            ∗ ((tW).view.loc (thr d L) ↦{Transfers.shareTokN q 2} Tt) ∗ ((tW).view.loc (thr d L) ↦{Transfers.shareTokN q 3} Tt)
            ∗ (sLoc d ↦[laneSet (jL L)]{fullShare} scS X Tt)
            ∗ (cLoc d ↦[laneSet (jL L)]{fullShare} scC X Tt)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ (∃ f, (b4).view.loc (thr d L) ↦{fullShare} f) ∗ (∃ f, (b5).view.loc (thr d L) ↦{fullShare} f)
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  rw [cc0_body_eq_skeleton]; unfold cc0_body_skel
  iintro ⟨Hmw, Hx0, Hx1, Ht2, Ht3, ⟨%fs, Hos⟩, ⟨%fc, Hoc⟩, ⟨%f0, Hb0⟩, ⟨%f1, Hb1⟩, ⟨%f2, Hb2⟩, ⟨%f3, Hb3⟩, ⟨%f4, Hb4⟩, ⟨%f5, Hb5⟩,
    Hs6, Hs7, Hs8, Hs9, Hc0, Hc1, HO⟩
  sl_exec (disch := exact View.amount_pos _ _ (show 0 < S8x2048.numel by decide))
  sl_for (invO d L q O W X Tt) $$ [Hmw Hx1 Ht3 Hos Hoc Hb1 Hb3 Hb4 Hb5 Hs7 Hs9 Hc0 Hc1 HO Hs6 Hx0 Hs8 Ht2]
  case region =>
    intro k acc
    unfold invO
    rw [if_pos (show k.val < 8 from lt_of_lt_of_le k.isLt k0_t1_abs.2.1)]
    unfold inFlightX inFlightT atRest
    iintro ⟨Hmw, ⟨Hx1, ⟨%g1, Hb1⟩, Hs7⟩, ⟨Ht3, ⟨%g3, Hb3⟩, Hs9⟩, ⟨%fs, Hos⟩, ⟨%fc, Hoc⟩, ⟨%f4, Hb4⟩, ⟨%f5, Hb5⟩, Hc0, Hc1, ⟨%W', %hW', HO⟩, %hacc,
      ⟨%offx, %hx, %g0, %hg0, HF0, Hx0⟩, ⟨%offt, %ht, %g2, %hg2, HF2, Ht2⟩⟩
    sl_exec (disch := exact View.amount_pos _ _ (show 0 < S8x2048.numel by decide))
    sl_for (invI0 d L g0 g2 ⟨0, by decide⟩ acc) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t2 _ _ j acc'
    · unfold invI0; isplitl [HF0_dst]; · iexact HF0_dst
      isplitl [HF2_dst]; · iexact HF2_dst
      ipureintro; rfl
    iintro %acc2 HI
    unfold invI0
    icases HI with ⟨HF0_dst, HF2_dst, %h2⟩
    sl_exec (disch := exact View.amount_pos _ _ (show 0 < S8x2048.numel by decide))
    sl_for (invI0 d L g0 g2 ⟨1, by decide⟩ acc2) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t3 _ _ j acc'
    · unfold invI0; isplitl [HF0_dst]; · iexact HF0_dst
      isplitl [HF2_dst]; · iexact HF2_dst
      ipureintro; rfl
    iintro %acc3 HI
    unfold invI0
    icases HI with ⟨HF0_dst, HF2_dst, %h3⟩
    sl_exec (disch := exact View.amount_pos _ _ (show 0 < S8x2048.numel by decide))
    sl_for (invI0 d L g0 g2 ⟨2, by decide⟩ acc3) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t4 _ _ j acc'
    · unfold invI0; isplitl [HF0_dst]; · iexact HF0_dst
      isplitl [HF2_dst]; · iexact HF2_dst
      ipureintro; rfl
    iintro %acc4 HI
    unfold invI0
    icases HI with ⟨HF0_dst, HF2_dst, %h4⟩
    sl_exec (disch := exact View.amount_pos _ _ (show 0 < S8x2048.numel by decide))
    sl_for (invI0 d L g0 g2 ⟨3, by decide⟩ acc4) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t5 _ _ j acc'
    · unfold invI0; isplitl [HF0_dst]; · iexact HF0_dst
      isplitl [HF2_dst]; · iexact HF2_dst
      ipureintro; rfl
    iintro %acc5 HI
    unfold invI0
    icases HI with ⟨HF0_dst, HF2_dst, %h5⟩
    sl_exec (disch := exact View.amount_pos _ _ (show 0 < S8x2048.numel by decide))
    sl_for (invI0 d L g0 g2 ⟨4, by decide⟩ acc5) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t6 _ _ j acc'
    · unfold invI0; isplitl [HF0_dst]; · iexact HF0_dst
      isplitl [HF2_dst]; · iexact HF2_dst
      ipureintro; rfl
    iintro %acc6 HI
    unfold invI0
    icases HI with ⟨HF0_dst, HF2_dst, %h6⟩
    sl_exec (disch := exact View.amount_pos _ _ (show 0 < S8x2048.numel by decide))
    sl_for (invI0 d L g0 g2 ⟨5, by decide⟩ acc6) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t7 _ _ j acc'
    · unfold invI0; isplitl [HF0_dst]; · iexact HF0_dst
      isplitl [HF2_dst]; · iexact HF2_dst
      ipureintro; rfl
    iintro %acc7 HI
    unfold invI0
    icases HI with ⟨HF0_dst, HF2_dst, %h7⟩
    sl_exec (disch := exact View.amount_pos _ _ (show 0 < S8x2048.numel by decide))
    sl_for (invI0 d L g0 g2 ⟨6, by decide⟩ acc7) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t8 _ _ j acc'
    · unfold invI0; isplitl [HF0_dst]; · iexact HF0_dst
      isplitl [HF2_dst]; · iexact HF2_dst
      ipureintro; rfl
    iintro %acc8 HI
    unfold invI0
    icases HI with ⟨HF0_dst, HF2_dst, %h8⟩
    sl_exec (disch := exact View.amount_pos _ _ (show 0 < S8x2048.numel by decide))
    sl_for (invI0 d L g0 g2 ⟨7, by decide⟩ acc8) $$ [HF0_dst HF2_dst]
    case region =>
      intro j acc'
      unfold invI0
      iintro ⟨HA, HB, %hacc'⟩
      sl_exec
      sl_step
      isplitl [HA]; · iexact HA
      isplitl [HB]; · iexact HB
      ipureintro
      rw [rowFold, ← hacc']
      exact trip_pure_t9 _ _ j acc'
    · unfold invI0; isplitl [HF0_dst]; · iexact HF0_dst
      isplitl [HF2_dst]; · iexact HF2_dst
      ipureintro; rfl
    iintro %acc9 HI
    unfold invI0
    icases HI with ⟨HF0_dst, HF2_dst, %h9⟩
    sl_exec (disch := exact View.amount_pos _ _ (show 0 < S8x2048.numel by decide))
    unfold tile_core.sl.dma0_2 tile_core.sl.dma0_3
    ihave Hb1e := (Entails.of_eq (congrArg (fun f => ((b1).view.loc (thr d L) ↦{fullShare} f : sProp 𝕄)) (chunk_eq_x1 d L X g1 _ (k0_off2_inb L k) (base L + 16 * k.val + 8) (k0_off2_eq L k)))) $$ Hb1
    ihave Hb3e := (Entails.of_eq (congrArg (fun f => ((b3).view.loc (thr d L) ↦{fullShare} f : sProp 𝕄)) (chunk_eq_t1 d L Tt g3 _ (k0_off2_inb L k) (base L + 16 * k.val + 8) (k0_off2_eq L k)))) $$ Hb3
    sl_for (invI1 d L (rowsOf (F := F) X (base L + 16 * k.val + 8)) (rowsOf (F := F) Tt (base L + 16 * k.val + 8)) ⟨0, by decide⟩ acc9) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t10 _ _ j acc'
    · unfold invI1; isplitl [Hb1e]; · iexact Hb1e
      isplitl [Hb3e]; · iexact Hb3e
      ipureintro; rfl
    iintro %acc10 HI
    unfold invI1
    icases HI with ⟨Hb1e, Hb3e, %h10⟩
    sl_exec (disch := exact View.amount_pos _ _ (show 0 < S8x2048.numel by decide))
    sl_for (invI1 d L (rowsOf (F := F) X (base L + 16 * k.val + 8)) (rowsOf (F := F) Tt (base L + 16 * k.val + 8)) ⟨1, by decide⟩ acc10) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t11 _ _ j acc'
    · unfold invI1; isplitl [Hb1e]; · iexact Hb1e
      isplitl [Hb3e]; · iexact Hb3e
      ipureintro; rfl
    iintro %acc11 HI
    unfold invI1
    icases HI with ⟨Hb1e, Hb3e, %h11⟩
    sl_exec (disch := exact View.amount_pos _ _ (show 0 < S8x2048.numel by decide))
    sl_for (invI1 d L (rowsOf (F := F) X (base L + 16 * k.val + 8)) (rowsOf (F := F) Tt (base L + 16 * k.val + 8)) ⟨2, by decide⟩ acc11) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t12 _ _ j acc'
    · unfold invI1; isplitl [Hb1e]; · iexact Hb1e
      isplitl [Hb3e]; · iexact Hb3e
      ipureintro; rfl
    iintro %acc12 HI
    unfold invI1
    icases HI with ⟨Hb1e, Hb3e, %h12⟩
    sl_exec (disch := exact View.amount_pos _ _ (show 0 < S8x2048.numel by decide))
    sl_for (invI1 d L (rowsOf (F := F) X (base L + 16 * k.val + 8)) (rowsOf (F := F) Tt (base L + 16 * k.val + 8)) ⟨3, by decide⟩ acc12) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t13 _ _ j acc'
    · unfold invI1; isplitl [Hb1e]; · iexact Hb1e
      isplitl [Hb3e]; · iexact Hb3e
      ipureintro; rfl
    iintro %acc13 HI
    unfold invI1
    icases HI with ⟨Hb1e, Hb3e, %h13⟩
    sl_exec (disch := exact View.amount_pos _ _ (show 0 < S8x2048.numel by decide))
    sl_for (invI1 d L (rowsOf (F := F) X (base L + 16 * k.val + 8)) (rowsOf (F := F) Tt (base L + 16 * k.val + 8)) ⟨4, by decide⟩ acc13) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t14 _ _ j acc'
    · unfold invI1; isplitl [Hb1e]; · iexact Hb1e
      isplitl [Hb3e]; · iexact Hb3e
      ipureintro; rfl
    iintro %acc14 HI
    unfold invI1
    icases HI with ⟨Hb1e, Hb3e, %h14⟩
    sl_exec (disch := exact View.amount_pos _ _ (show 0 < S8x2048.numel by decide))
    sl_for (invI1 d L (rowsOf (F := F) X (base L + 16 * k.val + 8)) (rowsOf (F := F) Tt (base L + 16 * k.val + 8)) ⟨5, by decide⟩ acc14) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t15 _ _ j acc'
    · unfold invI1; isplitl [Hb1e]; · iexact Hb1e
      isplitl [Hb3e]; · iexact Hb3e
      ipureintro; rfl
    iintro %acc15 HI
    unfold invI1
    icases HI with ⟨Hb1e, Hb3e, %h15⟩
    sl_exec (disch := exact View.amount_pos _ _ (show 0 < S8x2048.numel by decide))
    sl_for (invI1 d L (rowsOf (F := F) X (base L + 16 * k.val + 8)) (rowsOf (F := F) Tt (base L + 16 * k.val + 8)) ⟨6, by decide⟩ acc15) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t16 _ _ j acc'
    · unfold invI1; isplitl [Hb1e]; · iexact Hb1e
      isplitl [Hb3e]; · iexact Hb3e
      ipureintro; rfl
    iintro %acc16 HI
    unfold invI1
    icases HI with ⟨Hb1e, Hb3e, %h16⟩
    sl_exec (disch := exact View.amount_pos _ _ (show 0 < S8x2048.numel by decide))
    sl_for (invI1 d L (rowsOf (F := F) X (base L + 16 * k.val + 8)) (rowsOf (F := F) Tt (base L + 16 * k.val + 8)) ⟨7, by decide⟩ acc16) $$ [Hb1e Hb3e]
    case region =>
      intro j acc'
      unfold invI1
      iintro ⟨HA, HB, %hacc'⟩
      sl_exec
      sl_step
      isplitl [HA]; · iexact HA
      isplitl [HB]; · iexact HB
      ipureintro
      rw [rowFold, ← hacc']
      exact trip_pure_t17 _ _ j acc'
    · unfold invI1; isplitl [Hb1e]; · iexact Hb1e
      isplitl [Hb3e]; · iexact Hb3e
      ipureintro; rfl
    iintro %acc17 HI
    unfold invI1
    icases HI with ⟨Hb1e, Hb3e, %h17⟩
    sl_exec (disch := exact View.amount_pos _ _ (show 0 < S8x2048.numel by decide))
    sl_step
    isplitl [Hmw]; · iexact Hmw
    isplitl [Hx1 Hb1e Hs7]
    · isplitl [Hx1]; · iexact Hx1
      isplitl [Hb1e]; · iexists _; iexact Hb1e
      iexact Hs7
    isplitl [Ht3 Hb3e Hs9]
    · isplitl [Ht3]; · iexact Ht3
      isplitl [Hb3e]; · iexists _; iexact Hb3e
      iexact Hs9
    isplitl [Hos]; · iexists _; iexact Hos
    isplitl [Hoc]; · iexists _; iexact Hoc
    isplitl [Hb4]; · iexists _; iexact Hb4
    isplitl [Hb5]; · iexists _; iexact Hb5
    isplitl [Hc0]; · iexact Hc0
    isplitl [Hc1]; · iexact Hc1
    isplitl [HO]
    · iexists _; isplitr
      swap
      · iexact HO
      · ipureintro; intro p hp
        rcases Finset.mem_insert.mp hp with hp | hp
        · exact .inr (hp ▸ rfl)
        rcases Finset.mem_insert.mp hp with hp | hp
        · exact .inr (hp ▸ rfl)
        rcases Finset.mem_insert.mp hp with hp | hp
        · exact .inr (hp ▸ rfl)
        rcases Finset.mem_insert.mp hp with hp | hp
        · exact .inr (hp ▸ rfl)
        exact hW' p hp
    isplitr
    · -- the sums after both chunks of the pair
      ipureintro
      have t2 : Scf.trips k0_t2_loop.lb k0_t2_loop.ub k0_t2_loop.st = 16 := by decide
      have t3 : Scf.trips k0_t3_loop.lb k0_t3_loop.ub k0_t3_loop.st = 16 := by decide
      have t4 : Scf.trips k0_t4_loop.lb k0_t4_loop.ub k0_t4_loop.st = 16 := by decide
      have t5 : Scf.trips k0_t5_loop.lb k0_t5_loop.ub k0_t5_loop.st = 16 := by decide
      have t6 : Scf.trips k0_t6_loop.lb k0_t6_loop.ub k0_t6_loop.st = 16 := by decide
      have t7 : Scf.trips k0_t7_loop.lb k0_t7_loop.ub k0_t7_loop.st = 16 := by decide
      have t8 : Scf.trips k0_t8_loop.lb k0_t8_loop.ub k0_t8_loop.st = 16 := by decide
      have t9 : Scf.trips k0_t9_loop.lb k0_t9_loop.ub k0_t9_loop.st = 16 := by decide
      have t10 : Scf.trips k0_t10_loop.lb k0_t10_loop.ub k0_t10_loop.st = 16 := by decide
      have t11 : Scf.trips k0_t11_loop.lb k0_t11_loop.ub k0_t11_loop.st = 16 := by decide
      have t12 : Scf.trips k0_t12_loop.lb k0_t12_loop.ub k0_t12_loop.st = 16 := by decide
      have t13 : Scf.trips k0_t13_loop.lb k0_t13_loop.ub k0_t13_loop.st = 16 := by decide
      have t14 : Scf.trips k0_t14_loop.lb k0_t14_loop.ub k0_t14_loop.st = 16 := by decide
      have t15 : Scf.trips k0_t15_loop.lb k0_t15_loop.ub k0_t15_loop.st = 16 := by decide
      have t16 : Scf.trips k0_t16_loop.lb k0_t16_loop.ub k0_t16_loop.st = 16 := by decide
      have t17 : Scf.trips k0_t17_loop.lb k0_t17_loop.ub k0_t17_loop.st = 16 := by decide
      rw [t2] at h2
      rw [t3] at h3
      rw [t4] at h4
      rw [t5] at h5
      rw [t6] at h6
      rw [t7] at h7
      rw [t8] at h8
      rw [t9] at h9
      rw [t10] at h10
      rw [t11] at h11
      rw [t12] at h12
      rw [t13] at h13
      rw [t14] at h14
      rw [t15] at h15
      rw [t16] at h16
      rw [t17] at h17
      have e1 : base L + 8 * (2 * k.val) = base L + 16 * k.val := by omega
      have e2 : base L + 8 * (2 * k.val + 1) = base L + 16 * k.val + 8 := by omega
      rw [show 2 * (k.val + 1) = 2 * k.val + 1 + 1 by omega, tileFold, tileFold, e1, e2, ← hacc]
      subst hg0 hg2
      unfold chunkFold
      rw [h17, h16, h15, h14, h13, h12, h11, h10, h9, h8, h7, h6, h5, h4, h3, h2]
      rfl
    by_cases hc : k0_cond1 k = 1#1
    · rw [if_pos ((cond1_iff k).mp hc)]
      ihave if1' := (Guarded.elim_pos hc) $$ if1
      icases if1' with ⟨HFa, HFb⟩
      ihave Hx0' := (pts_gset_pos (F := F) hc) $$ Hx0
      ihave Ht2' := (pts_gset_pos (F := F) hc) $$ Ht2
      unfold tile_core.sl.dma0_4 tile_core.sl.dma0_5
      isplitl [HFa Hx0']
      · iexists _, (k0_off11_inb L k hc), _; isplitr
        swap
        · isplitl [HFa]; · iexact HFa
          iexact Hx0'
        · ipureintro
          exact (chunk_eq_x0 d L X _ _ (k0_off11_inb L k hc) (base L + 16 * (k.val + 1)) ((k0_off11_eq L k).trans (by first | rfl | congr 1)))
      · iexists _, (k0_off11_inb L k hc), _; isplitr
        swap
        · isplitl [HFb]; · iexact HFb
          iexact Ht2'
        · ipureintro
          exact (chunk_eq_t0 d L Tt _ _ (k0_off11_inb L k hc) (base L + 16 * (k.val + 1)) ((k0_off11_eq L k).trans (by first | rfl | congr 1)))
    · rw [if_neg (fun h => hc ((cond1_iff k).mpr h))]
      ihave if1' := (Guarded.elim_neg hc) $$ if1
      icases if1' with ⟨Hs6, Hs8, Hb0, Hb2⟩
      ihave Hx0' := (pts_gset_neg (F := F) hc) $$ Hx0
      ihave Ht2' := (pts_gset_neg (F := F) hc) $$ Ht2
      isplitl [Hx0' Hb0 Hs6]
      · isplitl [Hx0']; · iexact Hx0'
        isplitl [Hb0]; · iexists _; iexact Hb0
        iexact Hs6
      · isplitl [Ht2']; · iexact Ht2'
        isplitl [Hb2]; · iexists _; iexact Hb2
        iexact Hs8
  · -- the invariant before the first pair: slot 0's two copies in flight, nothing summed yet
    unfold invO inFlightX inFlightT atRest
    rw [if_pos (by decide : (0 : ℕ) < 8)]
    unfold tile_core.sl.dma0 tile_core.sl.dma0_1
    isplitl [Hmw]; · iexact Hmw
    isplitl [Hx1 Hb1 Hs7]
    · isplitl [Hx1]; · iexact Hx1
      isplitl [Hb1]; · iexists _; iexact Hb1
      iexact Hs7
    isplitl [Ht3 Hb3 Hs9]
    · isplitl [Ht3]; · iexact Ht3
      isplitl [Hb3]; · iexists _; iexact Hb3
      iexact Hs9
    isplitl [Hos]; · iexists _; iexact Hos
    isplitl [Hoc]; · iexists _; iexact Hoc
    isplitl [Hb4]; · iexists _; iexact Hb4
    isplitl [Hb5]; · iexists _; iexact Hb5
    isplitl [Hc0]; · iexact Hc0
    isplitl [Hc1]; · iexact Hc1
    isplitl [HO]
    · iexists W; isplitr
      · ipureintro; exact fun p hp => .inl hp
      · iexact HO
    isplitr
    · ipureintro; rfl
    isplitl [Hs6 Hx0]
    · iexists _, (k0_off1_inb L), _; isplitr
      swap
      · isplitl [Hs6]; · iexact Hs6
        iexact Hx0
      · ipureintro
        exact (chunk_eq_x0 d L X _ _ (k0_off1_inb L) (base L + 16 * 0) ((k0_off1_eq L).trans (by first | rfl | congr 1)))
    · iexists _, (k0_off1_inb L), _; isplitr
      swap
      · isplitl [Hs8]; · iexact Hs8
        iexact Ht2
      · ipureintro
        exact (chunk_eq_t0 d L Tt _ _ (k0_off1_inb L) (base L + 16 * 0) ((k0_off1_eq L).trans (by first | rfl | congr 1)))
  iintro %accF HI
  unfold invO atRest
  rw [if_neg (show ¬ Scf.trips k0_t1_loop.lb k0_t1_loop.ub k0_t1_loop.st < 8 by decide)]
  icases HI with ⟨Hmw, ⟨Hx1, ⟨%g1, Hb1⟩, Hs7⟩, ⟨Ht3, ⟨%g3, Hb3⟩, Hs9⟩, ⟨%fs', Hos⟩, ⟨%fc', Hoc⟩, ⟨%f4', Hb4⟩, ⟨%f5', Hb5⟩, Hc0, Hc1, ⟨%W', %hW', HO⟩, %haccF,
    ⟨Hx0, ⟨%g0, Hb0⟩, Hs6⟩, ⟨Ht2, ⟨%g2, Hb2⟩, Hs8⟩⟩
  have haF : accF = tileFold X Tt (base L) 16 := by
    rw [haccF]; congr 1
  sl_exec (disch := exact View.amount_pos _ _ (show 0 < S16.numel by decide))
  sl_step
  unfold tile_core.sl.dma4 tile_core.sl.dma4_1 tile_core.sl.Hb4_1 tile_core.sl.Hb5_1
  ihave Hos' := (Entails.of_eq (out_s_eq d L X Tt fs' f4' accF haF)) $$ Hos
  ihave Hoc' := (Entails.of_eq (out_c_eq d L X Tt fc' f5' accF haF)) $$ Hoc
  isplitl [Hx0]; · iexact Hx0
  isplitl [Hx1]; · iexact Hx1
  isplitl [Ht2]; · iexact Ht2
  isplitl [Ht3]; · iexact Ht3
  isplitl [Hos']; · iexact Hos'
  isplitl [Hoc']; · iexact Hoc'
  isplitl [Hb0]; · iexists _; iexact Hb0
  isplitl [Hb1]; · iexists _; iexact Hb1
  isplitl [Hb2]; · iexists _; iexact Hb2
  isplitl [Hb3]; · iexists _; iexact Hb3
  isplitl [Hb4]; · iexists _; iexact Hb4
  isplitl [Hb5]; · iexists _; iexact Hb5
  isplitl [Hs6]; · iexact Hs6
  isplitl [Hs7]; · iexact Hs7
  isplitl [Hs8]; · iexact Hs8
  isplitl [Hs9]; · iexact Hs9
  isplitl [Hc0]; · iexact Hc0
  isplitl [Hc1]; · iexact Hc1
  iexists _; isplitr
  swap
  · iexact HO
  · ipureintro; intro p hp
    rcases Finset.mem_insert.mp hp with hp | hp
    · exact .inr (hp ▸ rfl)
    rcases Finset.mem_insert.mp hp with hp | hp
    · exact .inr (hp ▸ rfl)
    exact hW' p hp

/-! ## The task, from what the launch deals a tile -/

omit [FloatOps F] in
theorem toks4 (ℓ : Loc nD τ sig) (q : PosShare TreeShare) (f : Buf (Elt F) ℓ) :
    (bigSep Finset.univ fun i : Fin 4 => (ℓ ↦{Transfers.shareTok q 4 i} f : sProp 𝕄))
      = iprop((ℓ ↦{Transfers.shareTokN q 0} f) ∗ (ℓ ↦{Transfers.shareTokN q 1} f) ∗ (ℓ ↦{Transfers.shareTokN q 2} f) ∗ (ℓ ↦{Transfers.shareTokN q 3} f)) :=
  bigSep_univ_eq_bigSepL [(0 : Fin 4), (1 : Fin 4), (2 : Fin 4), (3 : Fin 4)] (by decide) (by decide) _

theorem tile_body (X Y : Dev nD → Arr2 F) (hF : (K (F := F)).Facts) (O : CellTallies nD τ sig (HIx 1)) (W : Waits sig (HIx 1)) (hO : ∀ g, O g none = 0) :
    (iprop(levAts (K (F := F)).L (K (F := F)).lev ∗ iprop(emp) ∗ goF X Y d (jL L)
        ∗ scopedBufs (thr d L) ∗ scopedSems0 (thr d L) ∗ owes (thr d L) O W) : sProp 𝕄)
      ⊢ wp frame (wpE (defs₀ (F := F)) 𝒱₀ (thr d L) none) Set.univ
          (cc0_body L xW (Memref.isWhole_whole _) tW (Memref.isWhole_whole _) sW (Memref.isWhole_whole _) cW (Memref.isWhole_whole _)
            b0 (Memref.isWhole_whole _) b1 (Memref.isWhole_whole _) b2 (Memref.isWhole_whole _) b3 (Memref.isWhole_whole _)
            b4 (Memref.isWhole_whole _) b5 (Memref.isWhole_whole _) cc0_scratch6 cc0_scratch7 cc0_scratch8 cc0_scratch9 cc0_scoped0 cc0_scoped1)
          fun _ => iprop(tdF X Y d (jL L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold goF tdF
  iintro ⟨#Hlv, -, ⟨Hx, Hy, ⟨%fs, Hs⟩, ⟨%fc, Hc⟩⟩, ⟨⟨%f0, Hb0⟩, ⟨%f1, Hb1⟩, ⟨%f2, Hb2⟩, ⟨%f3, Hb3⟩, ⟨%f4, Hb4⟩, ⟨%f5, Hb5⟩, Hbufs⟩,
    ⟨Hs6, Hs7, Hs8, Hs9, Hc0, Hc1, Hsems⟩, HO⟩
  ihave Hmw := ((K (F := F)).mayWaits_none (thr := thr d L) hO) $$ Hlv
  ihave Hx' := (Transfers.pointsTo_toks_split (Transfers.shareTok fullShare 16 (jL L)) 4) $$ Hx
  icases Hx' with ⟨Hxr, Hxt⟩
  ihave Hxt' := (Entails.of_eq (toks4 (F := F) (xLoc d) _ _)) $$ Hxt
  icases Hxt' with ⟨Hx0, Hx1, Hx2, Hx3⟩
  ihave Hy' := (Transfers.pointsTo_toks_split (Transfers.shareTok fullShare 16 (jL L)) 4) $$ Hy
  icases Hy' with ⟨Hyr, Hyt⟩
  ihave Hyt' := (Entails.of_eq (toks4 (F := F) (tLoc d) _ _)) $$ Hyt
  icases Hyt' with ⟨Hy0, Hy1, Hy2, Hy3⟩
  iapply (wp_wand_r frame _ Set.univ)
  isplitl [Hmw Hx0 Hx1 Hy2 Hy3 Hs Hc Hb0 Hb1 Hb2 Hb3 Hb4 Hb5 Hs6 Hs7 Hs8 Hs9 Hc0 Hc1 HO]
  · iapply (tile_core d L (Transfers.shareTok fullShare 16 (jL L)) O W (X d) (Y d))
    isplitl [Hmw]; · iexact Hmw
    isplitl [Hx0]; · iapply (Entails.of_eq (pts_xW (F := F) d L _ _).symm); iexact Hx0
    isplitl [Hx1]; · iapply (Entails.of_eq (pts_xW (F := F) d L _ _).symm); iexact Hx1
    isplitl [Hy2]; · iapply (Entails.of_eq (pts_tW (F := F) d L _ _).symm); iexact Hy2
    isplitl [Hy3]; · iapply (Entails.of_eq (pts_tW (F := F) d L _ _).symm); iexact Hy3
    isplitl [Hs]; · iexists fs; iapply (Entails.of_eq (pts_sOut (F := F) d L fs).symm); iexact Hs
    isplitl [Hc]; · iexists fc; iapply (Entails.of_eq (pts_cOut (F := F) d L fc).symm); iexact Hc
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hs6]; · iexact Hs6
    isplitl [Hs7]; · iexact Hs7
    isplitl [Hs8]; · iexact Hs8
    isplitl [Hs9]; · iexact Hs9
    isplitl [Hc0]; · iexact Hc0
    isplitl [Hc1]; · iexact Hc1
    iexact HO
  iintro %u ⟨Hx0, Hx1, Hy2, Hy3, Hs, Hc, Hb0, Hb1, Hb2, Hb3, Hb4, Hb5, Hs6, Hs7, Hs8, Hs9, Hc0, Hc1, HO⟩
  isplitl [Hxr Hx0 Hx1 Hx2 Hx3 Hyr Hy0 Hy1 Hy2 Hy3 Hs Hc]
  · isplitl [Hxr Hx0 Hx1 Hx2 Hx3]
    · iapply (Transfers.pointsTo_toks_join (Transfers.shareTok fullShare 16 (jL L)) 4)
      isplitl [Hxr]; · iexact Hxr
      iapply (Entails.of_eq (toks4 (F := F) (xLoc d) _ _).symm)
      isplitl [Hx0]; · iapply (Entails.of_eq (pts_xW (F := F) d L _ _)); iexact Hx0
      isplitl [Hx1]; · iapply (Entails.of_eq (pts_xW (F := F) d L _ _)); iexact Hx1
      isplitl [Hx2]; · iexact Hx2
      iexact Hx3
    isplitl [Hyr Hy0 Hy1 Hy2 Hy3]
    · iapply (Transfers.pointsTo_toks_join (Transfers.shareTok fullShare 16 (jL L)) 4)
      isplitl [Hyr]; · iexact Hyr
      iapply (Entails.of_eq (toks4 (F := F) (tLoc d) _ _).symm)
      isplitl [Hy0]; · iexact Hy0
      isplitl [Hy1]; · iexact Hy1
      isplitl [Hy2]; · iapply (Entails.of_eq (pts_tW (F := F) d L _ _)); iexact Hy2
      iapply (Entails.of_eq (pts_tW (F := F) d L _ _)); iexact Hy3
    isplitl [Hs]; · iexact Hs
    iexact Hc
  isplitl [Hb0 Hb1 Hb2 Hb3 Hb4 Hb5 Hbufs]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hbufs
  isplitl [Hs6 Hs7 Hs8 Hs9 Hc0 Hc1 Hsems]
  · isplitl [Hs6]; · iexact Hs6
    isplitl [Hs7]; · iexact Hs7
    isplitl [Hs8]; · iexact Hs8
    isplitl [Hs9]; · iexact Hs9
    isplitl [Hc0]; · iexact Hc0
    isplitl [Hc1]; · iexact Hc1
    iexact Hsems
  iexact HO

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s) xW (Memref.isWhole_whole _) tW (Memref.isWhole_whole _) sW (Memref.isWhole_whole _) cW (Memref.isWhole_whole _)
            b0 (Memref.isWhole_whole _) b1 (Memref.isWhole_whole _) b2 (Memref.isWhole_whole _) b3 (Memref.isWhole_whole _)
            b4 (Memref.isWhole_whole _) b5 (Memref.isWhole_whole _) cc0_scratch6 cc0_scratch7 cc0_scratch8 cc0_scratch9 cc0_scoped0 cc0_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (X Y : Dev nD → Arr2 F) (hF : (K (F := F)).Facts) : (K (F := F)).TileObl (D (F := F)) 𝒱 (P X Y) v₀ 0 := by
  intro d c i O W hO _ _
  simp only [show (P X Y).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) X Y hF O W hO).trans (wp_mono frame _ _ fun _ => obl_post)

end Cert.Proof.KB

end
-- ==== Proof.KBRun.lean ====
/-
  The kernel's run: every weakly fair execution of @main on the TensorCore, the sequencers and the sixteen tiles ends with the
  arguments unchanged and the result at the mean of the squared differences as the two calls compute it; the frames and the equation
  with the reference's result follow.
-/
import proofs.«210622_g27255862460721_cont_9to1_1214_20_alg».proof.Proof.KBMain
import proofs.«210622_g27255862460721_cont_9to1_1214_20_alg».proof.Proof.KBTile

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- What the run ends at: the arguments as found, the result at the kernel's closed term of them. -/
def QC : PUnit × MemSt nD τ sig (Elt F) → Prop := fun r => ∀ c : Dev nD,
  r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_v10) = kres (X0 m c) (Y0 m c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (X0 m) (Y0 m)) facts v₀
    (fun q hq => match q with | 0 => nomatch hq)
    (fun q _ => match q with | 0 => tileObl (X0 m) (Y0 m) facts)
    (fun q _ => match q with | 0 => SparseCore.Cfg.VecSplit.of_plain (vecSplit (X0 m) (Y0 m)))
    m ρ main (fun d => G d) (FIN m) (u₀ (F := F)) (sep_elim_left.trans (hu₀ (X0 m) (Y0 m))) (hmain m ρ) (fq m) (hfin m) (QC m) (fun _ h => h)

end Cert.Proof.KB

end
-- ==== Proof.SumLaws.lean ====
/-
  Finite-sum laws on a commutative additive monoid for a [16384, 2048] array summed in two parts.

  The first 2048 rows are summed by 16 tiles of 128 rows, each tile keeping 16 lane accumulators: accumulator
  i = 16 w + l (tile w, lane l) sums, over step n = 128 ρ + g (row ρ of the tile, column group g), the entry at row
  128 w + ρ and column 16 g + l. The remaining 14336 rows are summed in 28 blocks of 512 rows. The laws below say that
  the two arrangements together visit every entry of the array exactly once, and count how many entries each visits.
  Nothing here needs subtraction or finiteness: only that addition is commutative and associative.
-/
import Mathlib.Algebra.BigOperators.Fin
import Mathlib.Data.EReal.Basic

noncomputable section

open scoped BigOperators

namespace Cert.Proof.Algebra

variable {M : Type*} [AddCommMonoid M]

/-- (tile, lane) × (row in tile, column group) ≃ (row, column) on the first 2048 rows: accumulator i = 16 w + l at step
    n = 128 ρ + g holds the entry at row 128 w + ρ, column 16 g + l. -/
def laneEquiv : Fin 256 × Fin 16384 ≃ Fin 2048 × Fin 2048 where
  toFun p := (⟨128 * (p.1.val / 16) + p.2.val / 128, by omega⟩, ⟨16 * (p.2.val % 128) + p.1.val % 16, by omega⟩)
  invFun q := (⟨16 * (q.1.val / 128) + q.2.val % 16, by omega⟩, ⟨128 * (q.1.val % 128) + q.2.val / 16, by omega⟩)
  left_inv p := by
    refine Prod.ext (Fin.ext ?_) (Fin.ext ?_)
    · show 16 * ((128 * (p.1.val / 16) + p.2.val / 128) / 128) + (16 * (p.2.val % 128) + p.1.val % 16) % 16 = p.1.val
      omega
    · show 128 * ((128 * (p.1.val / 16) + p.2.val / 128) % 128) + (16 * (p.2.val % 128) + p.1.val % 16) / 16 = p.2.val
      omega
  right_inv q := by
    refine Prod.ext (Fin.ext ?_) (Fin.ext ?_)
    · show 128 * ((16 * (q.1.val / 128) + q.2.val % 16) / 16) + (128 * (q.1.val % 128) + q.2.val / 16) / 128 = q.1.val
      omega
    · show 16 * ((128 * (q.1.val % 128) + q.2.val / 16) % 128) + (16 * (q.1.val / 128) + q.2.val % 16) % 16 = q.2.val
      omega

/-- The 256 lane accumulators, each over its 16384 steps, sum every entry of the first 2048 rows once. -/
theorem sum_lanes (f : Fin 16384 → Fin 2048 → M) :
    ∑ i : Fin 256, ∑ n : Fin 16384,
        f ⟨128 * (i.val / 16) + n.val / 128, by omega⟩ ⟨16 * (n.val % 128) + i.val % 16, by omega⟩
      = ∑ r : Fin 2048, ∑ c : Fin 2048, f ⟨r.val, by omega⟩ c := by
  rw [← Fintype.sum_prod_type', ← Fintype.sum_prod_type']
  exact Fintype.sum_equiv laneEquiv _ _ fun _ => rfl

/-- (block, row in block) ≃ row offset past the first 2048 rows: 28 blocks of 512 rows. -/
def blockEquiv : Fin 28 × Fin 512 ≃ Fin 14336 where
  toFun p := ⟨512 * p.1.val + p.2.val, by omega⟩
  invFun r := (⟨r.val / 512, by omega⟩, ⟨r.val % 512, by omega⟩)
  left_inv p := by
    refine Prod.ext (Fin.ext ?_) (Fin.ext ?_)
    · show (512 * p.1.val + p.2.val) / 512 = p.1.val
      omega
    · show (512 * p.1.val + p.2.val) % 512 = p.2.val
      omega
  right_inv r := by
    refine Fin.ext ?_
    show 512 * (r.val / 512) + r.val % 512 = r.val
    omega

/-- The 28 blocks of 512 rows sum every entry of rows 2048 … 16383 once. -/
theorem sum_blocks (f : Fin 16384 → Fin 2048 → M) :
    ∑ b : Fin 28, ∑ r : Fin 512, ∑ c : Fin 2048, f ⟨2048 + 512 * b.val + r.val, by omega⟩ c
      = ∑ r : Fin 14336, ∑ c : Fin 2048, f ⟨2048 + r.val, by omega⟩ c := by
  rw [← Fintype.sum_prod_type']
  refine Fintype.sum_equiv blockEquiv _ _ fun p => ?_
  refine Finset.sum_congr rfl fun c _ => ?_
  congr 1
  exact Fin.ext (by show 2048 + 512 * p.1.val + p.2.val = 2048 + (512 * p.1.val + p.2.val); omega)

/-- Rows below 2048 and rows from 2048 on are all the rows. -/
theorem sum_rows_split (g : Fin 16384 → M) :
    (∑ r : Fin 2048, g ⟨r.val, by omega⟩) + (∑ r : Fin 14336, g ⟨2048 + r.val, by omega⟩) = ∑ r : Fin 16384, g r :=
  (Fin.sum_univ_add (a := 2048) (b := 14336) g).symm

/-- The three together: the lane accumulators plus the blocks sum the whole array. -/
theorem sum_lanes_add_sum_blocks (f : Fin 16384 → Fin 2048 → M) :
    (∑ i : Fin 256, ∑ n : Fin 16384,
        f ⟨128 * (i.val / 16) + n.val / 128, by omega⟩ ⟨16 * (n.val % 128) + i.val % 16, by omega⟩)
      + (∑ b : Fin 28, ∑ r : Fin 512, ∑ c : Fin 2048, f ⟨2048 + 512 * b.val + r.val, by omega⟩ c)
      = ∑ r : Fin 16384, ∑ c : Fin 2048, f r c := by
  rw [sum_lanes, sum_blocks]
  exact sum_rows_split fun r => ∑ c : Fin 2048, f r c

/-- (slab, position in slab) ≃ (row, column): the [2, 16777216] reading of the array, both row-major — position p of slab a
    is row 8192 a + p / 2048, column p % 2048. -/
def flatEquiv : Fin 2 × Fin 16777216 ≃ Fin 16384 × Fin 2048 where
  toFun p := (⟨8192 * p.1.val + p.2.val / 2048, by omega⟩, ⟨p.2.val % 2048, by omega⟩)
  invFun q := (⟨q.1.val / 8192, by omega⟩, ⟨2048 * (q.1.val % 8192) + q.2.val, by omega⟩)
  left_inv p := by
    refine Prod.ext (Fin.ext ?_) (Fin.ext ?_)
    · show (8192 * p.1.val + p.2.val / 2048) / 8192 = p.1.val
      omega
    · show 2048 * ((8192 * p.1.val + p.2.val / 2048) % 8192) + p.2.val % 2048 = p.2.val
      omega
  right_inv q := by
    refine Prod.ext (Fin.ext ?_) (Fin.ext ?_)
    · show 8192 * (q.1.val / 8192) + (2048 * (q.1.val % 8192) + q.2.val) / 2048 = q.1.val
      omega
    · show (2048 * (q.1.val % 8192) + q.2.val) % 2048 = q.2.val
      omega

/-- The two slabs of 16777216 positions sum every entry of the array once. -/
theorem sum_flat (f : Fin 16384 → Fin 2048 → M) :
    ∑ a : Fin 2, ∑ p : Fin 16777216, f ⟨8192 * a.val + p.val / 2048, by omega⟩ ⟨p.val % 2048, by omega⟩
      = ∑ r : Fin 16384, ∑ c : Fin 2048, f r c := by
  rw [← Fintype.sum_prod_type', ← Fintype.sum_prod_type']
  exact Fintype.sum_equiv flatEquiv _ _ fun _ => rfl

/-! ## Counting entries in the extended reals -/

/-- A sum of ones over a finite type is its cardinality, as an extended real. -/
theorem sum_one_ereal {ι : Type*} [Fintype ι] : ∑ _i : ι, (1 : EReal) = ((Fintype.card ι : ℝ) : EReal) := by
  rw [Finset.sum_const, Finset.card_univ, ← EReal.coe_one, ← EReal.coe_nsmul, nsmul_eq_mul, mul_one]

/-- A sum of one real constant over a finite type, as an extended real. -/
theorem sum_const_ereal {ι : Type*} [Fintype ι] (x : ℝ) :
    ∑ _i : ι, (x : EReal) = ((Fintype.card ι * x : ℝ) : EReal) := by
  rw [Finset.sum_const, Finset.card_univ, ← EReal.coe_nsmul, nsmul_eq_mul]

/-- The lane accumulators visit 256 · 16384 = 4194304 entries. -/
theorem count_lanes : ∑ _i : Fin 256, ∑ _n : Fin 16384, (1 : EReal) = ((4194304 : ℝ) : EReal) := by
  rw [sum_one_ereal (ι := Fin 16384), sum_const_ereal, Fintype.card_fin, Fintype.card_fin]
  norm_num

/-- The blocks visit 28 · 512 · 2048 = 29360128 entries. -/
theorem count_blocks :
    ∑ _b : Fin 28, ∑ _r : Fin 512, ∑ _c : Fin 2048, (1 : EReal) = ((29360128 : ℝ) : EReal) := by
  rw [sum_one_ereal (ι := Fin 2048)]
  simp only [sum_const_ereal, Fintype.card_fin]
  norm_num

/-- Together they visit all 16384 · 2048 = 33554432 entries. -/
theorem count_total : ((4194304 : ℝ) : EReal) + ((29360128 : ℝ) : EReal) = ((33554432 : ℝ) : EReal) := by
  rw [← EReal.coe_add]
  norm_num

end Cert.Proof.Algebra

end
-- ==== Proof.Spec.lean ====
/-
  The specification: the mean of the squared differences of two [16384, 2048] arrays of extended reals, as one
  function of the two arrays. Every entry is counted (at the extended reals no entry is "not a number"), so the mean
  divides the sum of all 16384 · 2048 squared differences by 33554432.
-/
import Idealize.ShloMosaic.PureOps.Ideal
import Idealize.ShloMosaic.Lib.ValueIdx

noncomputable section

open scoped BigOperators

namespace Cert.Proof.Algebra

open Idealize.ShloMosaic Idealize.ShloMosaic.ValueIdx

/-- The squared difference of the two arrays at row `r`, column `c`. -/
def sq (X T : (⟨2, ![16384, 2048]⟩ : Shape).Idx → EReal) (r : Fin 16384) (c : Fin 2048) : EReal :=
  (X (ix2 r c) - T (ix2 r c)) * (X (ix2 r c) - T (ix2 r c))

/-- The sum of all the squared differences. -/
def total (X T : (⟨2, ![16384, 2048]⟩ : Shape).Idx → EReal) : EReal :=
  ∑ r : Fin 16384, ∑ c : Fin 2048, sq X T r c

/-- The mean squared difference, as a rank-0 array. -/
def meanSq (X T : (⟨2, ![16384, 2048]⟩ : Shape).Idx → EReal) : (⟨0, ![]⟩ : Shape).Idx → EReal :=
  fun _ => Ideal.div (total X T) ((33554432 : ℝ) : EReal)

end Cert.Proof.Algebra

end
-- ==== Proof.KernelValue.lean ====
/-
  The kernel's last host operations at the extended reals give the mean squared difference.

  The first part of the kernel leaves 256 partial sums of squared differences and 256 partial counts (one per tile
  and lane), which the host adds up from zero; the second part leaves one sum and one count, as arrays of one element
  read as scalars. The result is (sum of the 256 + the one sum) / (sum of the 256 counts + the one count). The partial
  sums together visit every entry of the [16384, 2048] arrays exactly once, so the numerator is the total and the
  denominator is 4194304 + 29360128 = 33554432.
-/
import proofs.«210622_g27255862460721_cont_9to1_1214_20_alg».proof.Proof.SumLaws
import proofs.«210622_g27255862460721_cont_9to1_1214_20_alg».proof.Proof.Spec
import proofs.«210622_g27255862460721_cont_9to1_1214_20_alg».proof.KernelIdeal
import Idealize.ShloMosaic.PureOps.Ideal.Laws
import Idealize.ShloMosaic.Lib.Pipeline.Value

noncomputable section

open scoped BigOperators

namespace Cert.Proof.Algebra

open Idealize.ShloMosaic Idealize.ShloMosaic.ValueIdx Cert.KernelIdeal

/-- A rank-1 index set is its coordinate range … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of a [256] array from the zero constant is the sum of its 256 entries. -/
theorem host_sum_256 (x : FVec Ideal S256 .f32) (hr : S256.ReducesTo [0] S_) (h0 : 0 < S_.numel) (i : S_.Idx) :
    Host.reduceAdd (F := Ideal) x (constant (F := Ideal) S_ .f32 0x00000000#32) hr h0 i = ∑ k : Fin 256, x (ix1 k) := by
  simp only [Host.reduceAdd, Ideal.hostReduceAdd_def]
  rw [Ideal.hostReduceAdd_total hr (fun b => b.elim0) x _ i, sum_idx1]
  show Ideal.ofBits .f32 0x00000000#32 + _ = _
  rw [Ideal.ofBits_zero_f32, zero_add]

/-- An array of one element read as a scalar is that element. -/
theorem scalar_of_one (x : FVec Ideal S1 .f32) (hc : S1.ShapeCasts S_) (i : S_.Idx) :
    shapeCast S_ x hc i = x (ix1 0) := by
  refine shapeCast_apply x hc i (ix1 0) ?_
  rw [Shape.rowMajor_val_one]
  have h1 : S_.numel = 1 := Shape.numel_eq_one fun a => a.elim0
  have h2 := (S_.rowMajor i).isLt
  show 0 = _
  omega

/-- The kernel's result from its partial sums and counts: the mean squared difference. -/
theorem kernel_value (X T : FVec Ideal S16384x2048 .f32) (scS scC : FVec Ideal S256 .f32) (tcS tcC : FVec Ideal S1 .f32)
    (hr : S256.ReducesTo [0] S_) (h0 : 0 < S_.numel) (hc : S1.ShapeCasts S_)
    (hS : ∀ i : Fin 256, scS (ix1 i) = ∑ n : Fin 16384,
      sq X T ⟨128 * (i.val / 16) + n.val / 128, by omega⟩ ⟨16 * (n.val % 128) + i.val % 16, by omega⟩)
    (hC : ∀ i : Fin 256, scC (ix1 i) = ∑ _n : Fin 16384, (1 : EReal))
    (hT : tcS (ix1 0) = ∑ b : Fin 28, ∑ r : Fin 512, ∑ c : Fin 2048, sq X T ⟨2048 + 512 * b.val + r.val, by omega⟩ c)
    (hTC : tcC (ix1 0) = ∑ _b : Fin 28, ∑ _r : Fin 512, ∑ _c : Fin 2048, (1 : EReal)) :
    Host.divf (F := Ideal)
        (addf (Host.reduceAdd (F := Ideal) scS (constant (F := Ideal) S_ .f32 0x00000000#32) hr h0) (shapeCast S_ tcS hc))
        (addf (Host.reduceAdd (F := Ideal) scC (constant (F := Ideal) S_ .f32 0x00000000#32) hr h0) (shapeCast S_ tcC hc))
      = meanSq X T := by
  funext i
  show Ideal.div
      (Host.reduceAdd (F := Ideal) scS (constant (F := Ideal) S_ .f32 0x00000000#32) hr h0 i + shapeCast S_ tcS hc i)
      (Host.reduceAdd (F := Ideal) scC (constant (F := Ideal) S_ .f32 0x00000000#32) hr h0 i + shapeCast S_ tcC hc i)
    = Ideal.div (total X T) ((33554432 : ℝ) : EReal)
  rw [host_sum_256, host_sum_256, scalar_of_one, scalar_of_one, hT, hTC]
  simp only [hS, hC]
  rw [sum_lanes_add_sum_blocks (sq X T), count_lanes, count_blocks, count_total]
  rfl

end Cert.Proof.Algebra

end
-- ==== Proof.IdealFacts.lean ====
/-
  Small facts about the extended-real float values used on both sides: an extended real always equals itself, so a
  comparison of a value with itself is decided (there is no "not a number" to make it fail) and a select on it keeps
  one branch; and the 32-bit pattern of 1.0 is the extended real 1.
-/
import Idealize.ShloMosaic.PureOps.Ideal.Laws
import Idealize.ShloMosaic.Lib.ValueIdx

noncomputable section

namespace Cert.Proof.Algebra

open Idealize.ShloMosaic Idealize.ShloMosaic.ValueIdx

variable {φ : FTy}

/-- An extended real is never unequal to itself. -/
theorem cmpf_une_self (x : EReal) : FloatOps.cmpf (F := Ideal) (φ := φ) .une x x = 0#1 := by
  show Ideal.cmp .une x x = 0#1
  simp [Ideal.cmp]

/-- An extended real always equals itself. -/
theorem cmpf_oeq_self (x : EReal) : FloatOps.cmpf (F := Ideal) (φ := φ) .oeq x x = 1#1 := by
  show Ideal.cmp .oeq x x = 1#1
  simp [Ideal.cmp]

/-- A select on "x is unequal to itself" keeps its second branch. -/
theorem select_une_self {α : Type} (x : EReal) (a b : α) :
    Scalar.select (FloatOps.cmpf (F := Ideal) (φ := φ) .une x x) a b = b := by
  rw [cmpf_une_self, select_zero]

/-- A select on "x equals itself" keeps its first branch. -/
theorem select_oeq_self {α : Type} (x : EReal) (a b : α) :
    Scalar.select (FloatOps.cmpf (F := Ideal) (φ := φ) .oeq x x) a b = a := by
  rw [cmpf_oeq_self, select_one]

/-- The 32-bit pattern of 1.0 is the extended real 1. -/
theorem ofBits_one_f32 : Ideal.ofBits .f32 0x3F800000#32 = 1 :=
  IdealRules.sign_bit.ideal_onePat .f32

end Cert.Proof.Algebra

end
-- ==== Proof.RefValue.lean ====
/-
  The reference at the extended reals is the mean squared difference.

  The reference flattens both [2, 8192, 2048] arrays to [2, 16777216], replaces by zero the positions where the target
  "is not a number", sums the squared differences and divides by the number of the other positions. At the extended
  reals a value always equals itself, so no position is replaced: the sum is over every position and the count is all
  33554432 of them. Position p of slab a of the flat array is row 8192 a + p / 2048, column p % 2048 of the
  [16384, 2048] reading of the same array (both are row-major).
-/
import proofs.«210622_g27255862460721_cont_9to1_1214_20_alg».proof.Proof.Gen.ReferenceIdeal.Read
import proofs.«210622_g27255862460721_cont_9to1_1214_20_alg».proof.Proof.SumLaws
import proofs.«210622_g27255862460721_cont_9to1_1214_20_alg».proof.Proof.Spec
import proofs.«210622_g27255862460721_cont_9to1_1214_20_alg».proof.Proof.IdealFacts

noncomputable section

open scoped BigOperators

namespace Cert.Proof.Algebra

open Idealize.ShloMosaic Idealize.ShloMosaic.ValueIdx Cert.ReferenceIdeal Cert.ReferenceIdeal.Gen Cert.ReferenceIdeal.Read

/-- The mask is zero at every position. -/
theorem mask_zero (a1 : FVec Ideal S2x8192x2048 .f32) (j : S2x16777216.Idx) : val_main_v2 (F := Ideal) a1 j = 0#1 := by
  rw [val_main_v2_apply]
  exact cmpf_une_self _

/-- The flat array at position p of slab a is the [16384, 2048] reading at row 8192 a + p / 2048, column p % 2048. -/
theorem flat_apply (x : FVec Ideal S2x8192x2048 .f32) (h : S2x8192x2048.ShapeCasts ⟨2, ![16384, 2048]⟩)
    (a : Fin 2) (p : Fin 16777216) :
    x (idx_main_v0 (ix2 a p))
      = shapeCast ⟨2, ![16384, 2048]⟩ x h (ix2 ⟨8192 * a.val + p.val / 2048, by omega⟩ ⟨p.val % 2048, by omega⟩) := by
  refine (shapeCast_apply x h _ (idx_main_v0 (ix2 a p)) ?_).symm
  rw [Shape.rowMajor_val_three, Shape.rowMajor_val_two]
  show ((a.val * 16777216 + p.val) / 16777216 * 8192 + (a.val * 16777216 + p.val) / 2048 % 8192) * 2048
      + (a.val * 16777216 + p.val) % 2048 = (8192 * a.val + p.val / 2048) * 2048 + p.val % 2048
  omega

/-- The masked squared difference at a flat position is the squared difference of the two readings there. -/
theorem flat_sq (a0 a1 : FVec Ideal S2x8192x2048 .f32) (h : S2x8192x2048.ShapeCasts ⟨2, ![16384, 2048]⟩)
    (a : Fin 2) (p : Fin 16777216) :
    val_main_v11 (F := Ideal) a0 a1 (ix2 a p)
      = sq (shapeCast ⟨2, ![16384, 2048]⟩ a0 h) (shapeCast ⟨2, ![16384, 2048]⟩ a1 h)
          ⟨8192 * a.val + p.val / 2048, by omega⟩ ⟨p.val % 2048, by omega⟩ := by
  rw [val_main_v11_apply, mask_zero, select_zero, val_main_v6_apply, val_main_v5_apply, val_main_v4_apply,
    val_main_v3_apply, mask_zero, select_zero, select_zero, val_main_v0_apply, val_main_v1_apply]
  show (a0 (idx_main_v0 (ix2 a p)) - a1 (idx_main_v0 (ix2 a p))) * (a0 (idx_main_v0 (ix2 a p)) - a1 (idx_main_v0 (ix2 a p))) = _
  rw [flat_apply a0 h, flat_apply a1 h]
  rfl

/-! ## The count -/

/-- Adding 1 once per element of a list adds the list's length. -/
theorem foldl_addi_one {ι : Type} (x : ι → BitVec 32) (hx : ∀ i, x i = 1#32) :
    ∀ (l : List ι) (init : BitVec 32),
      l.foldl (fun r i => IntOp.addi r (x i)) init = init + BitVec.ofNat 32 l.length
  | [], init => by simp
  | a :: l, init => by
    rw [List.foldl_cons, foldl_addi_one x hx l, hx a, List.length_cons, Nat.add_comm, BitVec.ofNat_add,
      ← BitVec.add_assoc]
    rfl

/-- Every position is counted once: the negated mask, widened to 32 bits, is 1 everywhere. -/
theorem counted_one (a1 : FVec Ideal S2x8192x2048 .f32) (j : S2x16777216.Idx) : val_main_v8 (F := Ideal) a1 j = 1#32 := by
  rw [val_main_v8_apply, val_main_v7_apply, mask_zero]
  rfl

/-- The flat array has 2 · 16777216 = 33554432 positions. -/
theorem numel_flat : S2x16777216.numel = 33554432 := by
  rw [Shape.numel, Fin.prod_univ_two]
  rfl

/-- The integer count is the number of positions: the fold adds 1 once per position, from 0. -/
theorem count_eq (a1 : FVec Ideal S2x8192x2048 .f32) (i : S_.Idx) : val_main_v9 (F := Ideal) a1 i = 33554432#32 := by
  unfold val_main_v9
  rw [Host.reduce_eq_foldl, foldl_addi_one _ (counted_one a1),
    List.filter_eq_self.2 (fun j _ => decide_eq_true (funext fun b => b.elim0)), List.length_map, List.length_finRange,
    numel_flat, val_main_c_apply]
  exact BitVec.zero_add _

/-- As a float the count is the real number 33554432. -/
theorem count_real : ((((33554432#32 : BitVec 32).toInt : ℤ) : ℝ) : EReal) = ((33554432 : ℝ) : EReal) := by
  have h : (33554432#32 : BitVec 32).toInt = 33554432 := by decide
  rw [h]
  norm_num

/-! ## The reference's result -/

/-- The reference's result, at the extended reals, is the mean squared difference of the [16384, 2048] readings of
    its two arguments. -/
theorem ref_value (a0 a1 : FVec Ideal S2x8192x2048 .f32) (h : S2x8192x2048.ShapeCasts ⟨2, ![16384, 2048]⟩) :
    val_main_v13 (F := Ideal) a0 a1
      = meanSq (shapeCast ⟨2, ![16384, 2048]⟩ a0 h) (shapeCast ⟨2, ![16384, 2048]⟩ a1 h) := by
  funext i
  rw [val_main_v13_apply, val_main_v12_apply, val_main_v10_apply, count_eq, val_main_cst_2_apply,
    sum_idx2 (n0 := 2) (n1 := 16777216)]
  simp only [flat_sq a0 a1 h]
  rw [sum_flat (fun r c => sq (shapeCast ⟨2, ![16384, 2048]⟩ a0 h) (shapeCast ⟨2, ![16384, 2048]⟩ a1 h) r c)]
  show Ideal.div (Ideal.ofBits .f32 0x00000000#32 + total _ _) ((((33554432#32 : BitVec 32).toInt : ℤ) : ℝ) : EReal) = _
  rw [Ideal.ofBits_zero_f32, zero_add, count_real]
  rfl

end Cert.Proof.Algebra

end
-- ==== Proof.TileSpecIdeal.lean ====
/-
  One tile's arithmetic at the extended reals: its results are plain sums.

  At the extended reals d² always equals itself, so every step adds d² to a sum accumulator and 1 to a count
  accumulator. Addition is commutative and associative, so it does not matter which of the two accumulators of a pair
  a step goes to: the pair's total after any number of steps is the pair's total before plus the steps' terms. Followed
  through the trips of a row, the rows of a chunk and the 16 chunks of a tile whose first row is `base`, lane l of the
  tile's sum result is the sum over row offset ρ < 128 and column group m < 128 of the squared difference at row
  base + ρ, column 16 m + l, and lane l of its count result is the number of those terms.
-/
import proofs.«210622_g27255862460721_cont_9to1_1214_20_alg».proof.Proof.TileSpec
import proofs.«210622_g27255862460721_cont_9to1_1214_20_alg».proof.Proof.Spec
import proofs.«210622_g27255862460721_cont_9to1_1214_20_alg».proof.Proof.IdealFacts
import Idealize.ShloMosaic.Lib.Pipeline.Value
import Mathlib.Algebra.BigOperators.Fin
import Mathlib.Tactic.Abel

noncomputable section

open scoped BigOperators

namespace Cert.Proof.TileSpec

open Idealize.ShloMosaic Idealize.ShloMosaic.ValueIdx Cert.KernelIdeal Cert.KernelIdeal.Gen Cert.Proof.Algebra

/-! ## One step at a lane -/

/-- The squared difference at a lane. -/
theorem sqv_apply (xv tv : Vec Ideal S16 .f32) (i : S16.Idx) : sqv xv tv i = (xv i - tv i) * (xv i - tv i) := by
  unfold sqv
  rw [shapeCast_self, shapeCast_self]
  rfl

/-- A sum accumulator gains the squared difference at every lane. -/
theorem accStep_apply (a : FVec Ideal S16 .f32) (xv tv : Vec Ideal S16 .f32) (i : S16.Idx) :
    accStep a xv tv i = a i + sqv xv tv i := by
  show a i + Scalar.select (FloatOps.cmpf (F := Ideal) (φ := .f32) .oeq (sqv xv tv i) (sqv xv tv i)) (sqv xv tv i) _ = _
  rw [select_oeq_self]

/-- A count accumulator gains 1 at every lane. -/
theorem cntStep_apply (c : FVec Ideal S16 .f32) (xv tv : Vec Ideal S16 .f32) (i : S16.Idx) :
    cntStep c xv tv i = c i + 1 := by
  show c i + Scalar.select (FloatOps.cmpf (F := Ideal) (φ := .f32) .oeq (sqv xv tv i) (sqv xv tv i))
    (Ideal.ofBits .f32 0x3F800000#32) _ = _
  rw [select_oeq_self, ofBits_one_f32]

/-! ## The two pair totals -/

/-- The total of the two sum accumulators at a lane. -/
def sumS (a : Acc4 Ideal) (i : S16.Idx) : EReal := a.1 i + a.2.1 i

/-- The total of the two count accumulators at a lane. -/
def sumC (a : Acc4 Ideal) (i : S16.Idx) : EReal := a.2.2.1 i + a.2.2.2 i

theorem outS_apply (a : Acc4 Ideal) (i : S16.Idx) : outS a i = sumS a i := by
  unfold outS k0_pay10
  rw [shapeCast_self]
  rfl

theorem outC_apply (a : Acc4 Ideal) (i : S16.Idx) : outC a i = sumC a i := by
  unfold outC k0_pay11
  rw [shapeCast_self]
  rfl

theorem sumS_init4 (i : S16.Idx) : sumS (init4 (F := Ideal)) i = 0 := by
  show Ideal.ofBits .f32 0x00000000#32 + Ideal.ofBits .f32 0x00000000#32 = 0
  rw [Ideal.ofBits_zero_f32, add_zero]

theorem sumC_init4 (i : S16.Idx) : sumC (init4 (F := Ideal)) i = 0 := by
  show Ideal.ofBits .f32 0x00000000#32 + Ideal.ofBits .f32 0x00000000#32 = 0
  rw [Ideal.ofBits_zero_f32, add_zero]

/-- A trip adds its eight squared differences to the sum pair's total. -/
theorem sumS_trip8 (a : Acc4 Ideal) (xs ts : Fin 8 → Vec Ideal S16 .f32) (i : S16.Idx) :
    sumS (trip8 a xs ts) i = sumS a i + ∑ u : Fin 8, sqv (xs u) (ts u) i := by
  unfold sumS trip8
  simp only [accStep_apply]
  rw [Fin.sum_univ_eight]
  abel

/-- A trip adds eight ones to the count pair's total. -/
theorem sumC_trip8 (a : Acc4 Ideal) (xs ts : Fin 8 → Vec Ideal S16 .f32) (i : S16.Idx) :
    sumC (trip8 a xs ts) i = sumC a i + ∑ _u : Fin 8, (1 : EReal) := by
  unfold sumC trip8
  simp only [cntStep_apply]
  rw [Fin.sum_univ_eight]
  abel

/-! ## Rows, chunks and the tile, for any total that a trip adds to -/

section Measure

variable (μ : Acc4 Ideal → EReal) (w : Vec Ideal S16 .f32 → Vec Ideal S16 .f32 → EReal)
  (hμ : ∀ (a : Acc4 Ideal) (xs ts : Fin 8 → Vec Ideal S16 .f32), μ (trip8 a xs ts) = μ a + ∑ u : Fin 8, w (xs u) (ts u))

include hμ

/-- After j trips along a row the total has gained the terms of the row's first 8 j pieces. -/
theorem rowFold_total (g gt : S8x2048.Idx → EReal) (r : Fin 8) (j : ℕ) (a : Acc4 Ideal) :
    μ (rowFold g gt r j a) = μ a + ∑ m ∈ Finset.range (8 * j), w (ld g r m) (ld gt r m) := by
  induction j with
  | zero => simp [rowFold]
  | succ j ih =>
    rw [rowFold, hμ, ih, Nat.mul_succ, Finset.sum_range_add, add_assoc,
      Fin.sum_univ_eq_sum_range (fun u => w (ld g r (8 * j + u)) (ld gt r (8 * j + u))) 8]

/-- After a chunk the total has gained the terms of all 8 rows' 128 pieces. -/
theorem chunkFold_total (g gt : S8x2048.Idx → EReal) (a : Acc4 Ideal) :
    μ (chunkFold g gt a) = μ a + ∑ r : Fin 8, ∑ m ∈ Finset.range 128, w (ld g r m) (ld gt r m) := by
  unfold chunkFold
  simp only [rowFold_total μ w hμ, Fin.sum_univ_eight, Nat.reduceMul, add_assoc]

/-- After n chunks of a tile the total has gained the terms of the tile's first 8 n rows. -/
theorem tileFold_total (X T : S16384x2048.Idx → EReal) (base n : ℕ) :
    μ (tileFold X T base n) = μ init4 + ∑ q ∈ Finset.range n, ∑ r : Fin 8, ∑ m ∈ Finset.range 128,
      w (ld (rowsOf X (base + 8 * q)) r m) (ld (rowsOf T (base + 8 * q)) r m) := by
  induction n with
  | zero => simp [tileFold]
  | succ n ih => rw [tileFold, chunkFold_total μ w hμ, ih, Finset.sum_range_succ, add_assoc]

end Measure

/-! ## Re-indexing a tile's terms -/

/-- (chunk, row in chunk, column group) ≃ step of the lane: step n = 128 (8 q + r) + m. -/
def stepEquiv : Fin 16 × Fin 8 × Fin 128 ≃ Fin 16384 where
  toFun p := ⟨128 * (8 * p.1.val + p.2.1.val) + p.2.2.val, by omega⟩
  invFun n := (⟨n.val / 1024, by omega⟩, ⟨n.val / 128 % 8, by omega⟩, ⟨n.val % 128, by omega⟩)
  left_inv p := by
    refine Prod.ext (Fin.ext ?_) (Prod.ext (Fin.ext ?_) (Fin.ext ?_))
    · show (128 * (8 * p.1.val + p.2.1.val) + p.2.2.val) / 1024 = p.1.val
      omega
    · show (128 * (8 * p.1.val + p.2.1.val) + p.2.2.val) / 128 % 8 = p.2.1.val
      omega
    · show (128 * (8 * p.1.val + p.2.1.val) + p.2.2.val) % 128 = p.2.2.val
      omega
  right_inv n := by
    refine Fin.ext ?_
    show 128 * (8 * (n.val / 1024) + n.val / 128 % 8) + n.val % 128 = n.val
    omega

/-- The tile's terms over (chunk, row, column group) are its terms over the lane's 16384 steps. -/
theorem sum_steps {M : Type*} [AddCommMonoid M] (f : ℕ → ℕ → M) :
    ∑ q ∈ Finset.range 16, ∑ r : Fin 8, ∑ m ∈ Finset.range 128, f (8 * q + r.val) m
      = ∑ n : Fin 16384, f (n.val / 128) (n.val % 128) := by
  rw [Finset.sum_range]
  simp only [Finset.sum_range (n := 128)]
  rw [← Equiv.sum_comp stepEquiv (fun n : Fin 16384 => f (n.val / 128) (n.val % 128)), Fintype.sum_prod_type]
  refine Finset.sum_congr rfl fun q _ => ?_
  rw [Fintype.sum_prod_type]
  refine Finset.sum_congr rfl fun r _ => Finset.sum_congr rfl fun m _ => ?_
  show f (8 * q.val + r.val) m.val
    = f ((128 * (8 * q.val + r.val) + m.val) / 128) ((128 * (8 * q.val + r.val) + m.val) % 128)
  have h1 : (128 * (8 * q.val + r.val) + m.val) / 128 = 8 * q.val + r.val := by omega
  have h2 : (128 * (8 * q.val + r.val) + m.val) % 128 = m.val := by omega
  rw [h1, h2]

/-! ## The tile's results -/

/-- The squared difference at a row and a column given as natural numbers, each reduced into range. -/
def dsq (X T : FVec Ideal S16384x2048 .f32) (row col : ℕ) : EReal :=
  sq X T ⟨row % 16384, Nat.mod_lt _ (by norm_num)⟩ ⟨col % 2048, Nat.mod_lt _ (by norm_num)⟩

/-- A step's term at lane l: piece m of row r of the chunk of rows b … b + 7 is row b + r, column 16 m + l. -/
theorem sqv_ld (X T : FVec Ideal S16384x2048 .f32) (b : ℕ) (r : Fin 8) (m : ℕ) (l : Fin 16) :
    sqv (F := Ideal) (ld (rowsOf X b) r m) (ld (rowsOf T b) r m) (ix1 l) = dsq X T (b + r.val) (16 * m + l.val) := by
  rw [sqv_apply]
  rfl

/-- Lane l of the tile's sum result: the squared differences at rows base … base + 127, columns ≡ l mod 16, indexed by
    the lane's step n = 128 · (row offset) + (column group). -/
theorem tile_sum (X T : FVec Ideal S16384x2048 .f32) (base : ℕ) (hb : base + 128 ≤ 16384) (l : Fin 16) :
    outS (F := Ideal) (tileFold X T base 16) (ix1 l)
      = ∑ n : Fin 16384, sq X T ⟨base + n.val / 128, by omega⟩ ⟨16 * (n.val % 128) + l.val, by omega⟩ := by
  rw [outS_apply, tileFold_total (fun a => sumS a (ix1 l)) (fun xv tv => sqv xv tv (ix1 l))
    (fun a xs ts => sumS_trip8 a xs ts (ix1 l)), sumS_init4, zero_add]
  simp only [sqv_ld, Nat.add_assoc]
  rw [sum_steps (fun ρ m => dsq X T (base + ρ) (16 * m + l.val))]
  refine Finset.sum_congr rfl fun n _ => ?_
  exact congrArg₂ (sq X T) (Fin.ext (Nat.mod_eq_of_lt (by omega))) (Fin.ext (Nat.mod_eq_of_lt (by omega)))

/-- Lane l of the tile's count result: one per step. -/
theorem tile_count (X T : FVec Ideal S16384x2048 .f32) (base : ℕ) (l : Fin 16) :
    outC (F := Ideal) (tileFold X T base 16) (ix1 l) = ∑ _n : Fin 16384, (1 : EReal) := by
  rw [outC_apply, tileFold_total (fun a => sumC a (ix1 l)) (fun _ _ => (1 : EReal))
    (fun a xs ts => sumC_trip8 a xs ts (ix1 l)), sumC_init4, zero_add]
  exact sum_steps (fun _ _ => (1 : EReal))

end Cert.Proof.TileSpec

end
-- ==== Proof.KernelFinal.lean ====
/-
  The kernel's result is the reference's.

  The sixteen tiles leave, in lane l of tile w (entry 16 w + l of a [256] array), the sum of the squared differences
  at rows 128 w … 128 w + 127 and columns ≡ l mod 16, and the number of those entries; the block loop leaves the sum and
  the number over rows 2048 … 16383. The host adds the 256 sums and the one sum, the 256 counts and the one count, and
  divides. Together the parts visit every entry of the [16384, 2048] arrays once, so the quotient is the mean squared
  difference, which is what the reference computes at the extended reals.
-/
import proofs.«210622_g27255862460721_cont_9to1_1214_20_alg».proof.Proof.KernelValue
import proofs.«210622_g27255862460721_cont_9to1_1214_20_alg».proof.Proof.RefValue
import proofs.«210622_g27255862460721_cont_9to1_1214_20_alg».proof.Proof.TileSpecIdeal
import proofs.«210622_g27255862460721_cont_9to1_1214_20_alg».proof.Proof.TileOut
import proofs.«210622_g27255862460721_cont_9to1_1214_20_alg».proof.Proof.TcRegionData

noncomputable section

open scoped BigOperators

namespace Cert.Proof.Algebra

open Idealize.ShloMosaic Idealize.ShloMosaic.ValueIdx Cert.KernelIdeal Cert.Proof.TileSpec Cert.Proof.TcRegion

/-- Entry i of the tiles' sums: tile i / 16, lane i % 16. -/
theorem scS_apply (X T : FVec Ideal S16384x2048 .f32) (i : Fin 256) :
    scS (F := Ideal) X T (ix1 i) = ∑ n : Fin 16384,
      sq X T ⟨128 * (i.val / 16) + n.val / 128, by omega⟩ ⟨16 * (n.val % 128) + i.val % 16, by omega⟩ :=
  tile_sum X T (128 * (i.val / 16)) (by omega) ⟨i.val % 16, by omega⟩

/-- Entry i of the tiles' counts. -/
theorem scC_apply (X T : FVec Ideal S16384x2048 .f32) (i : Fin 256) :
    scC (F := Ideal) X T (ix1 i) = ∑ _n : Fin 16384, (1 : EReal) :=
  tile_count X T (128 * (i.val / 16)) ⟨i.val % 16, by omega⟩

/-- The kernel's host tail over what its two parts leave is the mean squared difference: `s` and `c` are the block
    loop's sum and count. -/
theorem kernel_mean (X T : FVec Ideal S16384x2048 .f32) (s c : EReal)
    (hr : S256.ReducesTo [0] S_) (h0 : 0 < S_.numel) (hc : S1.ShapeCasts S_)
    (hT : s = ∑ b : Fin 28, ∑ r : Fin 512, ∑ c : Fin 2048, sq X T ⟨2048 + 512 * b.val + r.val, by omega⟩ c)
    (hTC : c = ∑ _b : Fin 28, ∑ _r : Fin 512, ∑ _c : Fin 2048, (1 : EReal)) :
    Host.divf (F := Ideal)
        (addf (Host.reduceAdd (F := Ideal) (scS X T) (constant (F := Ideal) S_ .f32 0x00000000#32) hr h0)
          (shapeCast S_ (fun _ : S1.Idx => s) hc))
        (addf (Host.reduceAdd (F := Ideal) (scC X T) (constant (F := Ideal) S_ .f32 0x00000000#32) hr h0)
          (shapeCast S_ (fun _ : S1.Idx => c) hc))
      = meanSq X T :=
  kernel_value X T (scS X T) (scC X T) (fun _ => s) (fun _ => c) hr h0 hc (scS_apply X T) (scC_apply X T) hT hTC

/-- The kernel's host tail over what its two parts leave is the reference's result. -/
theorem kernel_final (a0 a1 : FVec Ideal S2x8192x2048 .f32) (hs : S2x8192x2048.ShapeCasts S16384x2048)
    (hr : S256.ReducesTo [0] S_) (h0 : 0 < S_.numel) (hc : S1.ShapeCasts S_)
    (hT : tcSum (F := Ideal) (shapeCast S16384x2048 a0 hs) (shapeCast S16384x2048 a1 hs)
      = ∑ b : Fin 28, ∑ r : Fin 512, ∑ c : Fin 2048,
          sq (shapeCast S16384x2048 a0 hs) (shapeCast S16384x2048 a1 hs) ⟨2048 + 512 * b.val + r.val, by omega⟩ c)
    (hTC : tcCnt (F := Ideal) (shapeCast S16384x2048 a1 hs)
      = ∑ _b : Fin 28, ∑ _r : Fin 512, ∑ _c : Fin 2048, (1 : EReal)) :
    Host.divf (F := Ideal)
        (addf (Host.reduceAdd (F := Ideal) (scS (shapeCast S16384x2048 a0 hs) (shapeCast S16384x2048 a1 hs))
            (constant (F := Ideal) S_ .f32 0x00000000#32) hr h0)
          (shapeCast S_ (fun _ : S1.Idx =>
            tcSum (F := Ideal) (shapeCast S16384x2048 a0 hs) (shapeCast S16384x2048 a1 hs)) hc))
        (addf (Host.reduceAdd (F := Ideal) (scC (shapeCast S16384x2048 a0 hs) (shapeCast S16384x2048 a1 hs))
            (constant (F := Ideal) S_ .f32 0x00000000#32) hr h0)
          (shapeCast S_ (fun _ : S1.Idx => tcCnt (F := Ideal) (shapeCast S16384x2048 a1 hs)) hc))
      = Cert.ReferenceIdeal.Read.val_main_v13 (F := Ideal) a0 a1 := by
  rw [ref_value a0 a1 hs]
  exact kernel_mean _ _ _ _ hr h0 hc hT hTC

end Cert.Proof.Algebra

end
-- ==== Proof.TcRegionIdeal.lean ====
/-
  The TensorCore accumulation region read at the ideal values (extended reals, every operation exact): the sum it
  leaves in the first result is the sum, over its twenty-eight blocks of 512 rows and over the 2048 columns, of the
  squared differences of the two operands — a value never differs from itself there, so nothing is masked — and the
  count it leaves in the second result is the sum of as many ones.
-/
import proofs.«210622_g27255862460721_cont_9to1_1214_20_alg».proof.Proof.TcRegionData
import Idealize.ShloMosaic.PureOps.Ideal.Laws
import Idealize.ShloMosaic.Lib.ValueIdx
import Idealize.ShloMosaic.Lib.Pipeline.Value
import Idealize.ShloMosaic.PureOps.IdealRules

noncomputable section

namespace Cert.Proof.TcRegion

open Cert.KernelIdeal Cert.KernelIdeal.Gen Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx
open scoped BigOperators

/-! ## The body's two payloads at the ideal values -/

/-- An ideal value is never different from itself: the mask is nowhere set. -/
theorem cmp_one_self (x : EReal) : Ideal.cmp .one x x = 0#1 := by
  unfold Ideal.cmp; simp

/-- So the masked difference is the difference, -/
theorem diff_ideal (v3 v5 : FVec Ideal S512x2048 .f32) :
    select (cmpf (F := Ideal) .one v3 v3) (broadcast S512x2048 (Scalar.ofBits (F := Ideal) .f32 0x00000000#32)) (subf (F := Ideal) v5 v3)
      = fun k => v5 k - v3 k := funext fun k => by
  show Scalar.select (Ideal.cmp .one (v3 k) (v3 k)) _ (v5 k - v3 k) = _
  rw [cmp_one_self]; rfl

/-- and the masked one is one. -/
theorem one_ideal (v3 : FVec Ideal S512x2048 .f32) :
    select (cmpf (F := Ideal) .one v3 v3) (broadcast S512x2048 (Scalar.ofBits (F := Ideal) .f32 0x00000000#32))
        (broadcast S512x2048 (Scalar.ofBits (F := Ideal) .f32 0x3F800000#32))
      = fun _ => (1 : EReal) := funext fun k => by
  show Scalar.select (Ideal.cmp .one (v3 k) (v3 k)) _ (Ideal.ofBits .f32 0x3F800000#32) = _
  rw [cmp_one_self]
  exact IdealRules.sign_bit.ideal_onePat .f32

/-- The word the body stores into the first result: what was there plus the block's sum of squared differences. -/
theorem k1_pay3_ideal (v3 v5 : FVec Ideal S512x2048 .f32) (v11 : EReal) :
    k1_pay3 (F := Ideal) v3 v5 v11 = v11 + ∑ i : S512x2048.Idx, (v5 i - v3 i) * (v5 i - v3 i) := by
  unfold k1_pay3 k1_pay2 k1_pay1
  simp only [shapeCast_self, diff_ideal]
  unfold extractAt shapeCast
  have ht : ∀ b, S1.size b = 1 := by decide
  refine (congrArg (fun z => Scalar.addf v11 z) (Ideal.multiReduction_add_total _ _ _ ht _ _ _)).trans ?_
  exact congrArg (v11 + ·) (Equiv.sum_comp (Shape.reshapeEquiv shapeCasts_S512x2048_S1x512x2048)
    (fun k : S512x2048.Idx => (v5 k - v3 k) * (v5 k - v3 k)))

/-- The word the body stores into the second result: what was there plus one per element of the block. -/
theorem k1_pay4_ideal (v3 : FVec Ideal S512x2048 .f32) (v19 : EReal) :
    k1_pay4 (F := Ideal) v3 v19 = v19 + ∑ _i : S512x2048.Idx, (1 : EReal) := by
  unfold k1_pay4 k1_pay2 k1_pay1
  simp only [shapeCast_self, one_ideal]
  unfold extractAt shapeCast
  have ht : ∀ b, S1.size b = 1 := by decide
  refine (congrArg (fun z => Scalar.addf v19 z) (Ideal.multiReduction_add_total _ _ _ ht _ _ _)).trans ?_
  exact congrArg (v19 + ·) (Equiv.sum_comp (Shape.reshapeEquiv shapeCasts_S512x2048_S1x512x2048)
    (fun _ : S512x2048.Idx => (1 : EReal)))

/-! ## The blocks, element by element -/

/-- Row `2048 + 512 b + r`, column `c` of a `[16384, 2048]` array. -/
abbrev rowIx (b : Fin 28) (r : Fin 512) (c : Fin 2048) : S16384x2048.Idx :=
  ix2 ⟨2048 + 512 * b.val + r.val, by have := b.isLt; have := r.isLt; omega⟩ c

theorem index1_0 : ∀ t : Fin cfg1.N, win1_0.index t 0 = t.val + 4 ∧ win1_0.index t 1 = 0 :=
  (by decide +kernel : ∀ t : Fin grid1.N, win1_0.index t 0 = t.val + 4 ∧ win1_0.index t 1 = 0)
theorem index1_1 : ∀ t : Fin cfg1.N, win1_1.index t 0 = t.val + 4 ∧ win1_1.index t 1 = 0 :=
  (by decide +kernel : ∀ t : Fin grid1.N, win1_1.index t 0 = t.val + 4 ∧ win1_1.index t 1 = 0)

/-- Point `t`'s block of the first operand holds, at `(r, c)`, the array's row `2048 + 512 t + r` at column `c`. -/
theorem blkX_apply (X : Arr F) (t : Fin cfg1.N) (r : Fin 512) (c : Fin 2048) : blkX X t (ix2 r c) = X (rowIx t r c) := by
  unfold blkX
  show X ((win1_0.rect t).emb (ix2 r c)) = _
  congr 1
  funext a
  apply Fin.ext
  rw [Window.rect_emb_val]
  match a with
  | ⟨0, _⟩ => show win1_0.index t 0 * 512 + r.val = 2048 + 512 * t.val + r.val; rw [(index1_0 t).1]; omega
  | ⟨1, _⟩ => show win1_0.index t 1 * 2048 + c.val = c.val; rw [(index1_0 t).2]; omega

theorem blkY_apply (Y : Arr F) (t : Fin cfg1.N) (r : Fin 512) (c : Fin 2048) : blkY Y t (ix2 r c) = Y (rowIx t r c) := by
  unfold blkY
  show Y ((win1_1.rect t).emb (ix2 r c)) = _
  congr 1
  funext a
  apply Fin.ext
  rw [Window.rect_emb_val]
  match a with
  | ⟨0, _⟩ => show win1_1.index t 0 * 512 + r.val = 2048 + 512 * t.val + r.val; rw [(index1_1 t).1]; omega
  | ⟨1, _⟩ => show win1_1.index t 1 * 2048 + c.val = c.val; rw [(index1_1 t).2]; omega

/-! ## The sum and the count -/

/-- One block's sum of squared differences, over its rows and columns. -/
def blkSq (X Y : Arr Ideal) (b : Fin 28) : EReal :=
  ∑ r : Fin 512, ∑ c : Fin 2048, (X (rowIx b r c) - Y (rowIx b r c)) * (X (rowIx b r c) - Y (rowIx b r c))

set_option maxHeartbeats 1000000 in
/-- One point's step of the running sum. -/
theorem sumUpTo_step (X Y : Arr Ideal) (t : Fin cfg1.N) : sumUpTo X Y (t.val + 1) = sumUpTo X Y t.val + blkSq X Y t :=
  (sumUpTo_succ X Y t).trans <| (k1_pay3_ideal _ _ _).trans <| congrArg (sumUpTo X Y t.val + ·) <|
    (sum_idx2 _).trans <| Finset.sum_congr rfl fun r _ => Finset.sum_congr rfl fun c _ => by
      rw [blkX_apply X t r c, blkY_apply Y t r c]

set_option maxHeartbeats 1000000 in
/-- One point's step of the running count. -/
theorem cntUpTo_step (Y : Arr Ideal) (t : Fin cfg1.N) :
    cntUpTo Y (t.val + 1) = cntUpTo Y t.val + ∑ _r : Fin 512, ∑ _c : Fin 2048, (1 : EReal) :=
  (cntUpTo_succ Y t).trans <| (k1_pay4_ideal _ _).trans <| congrArg (cntUpTo Y t.val + ·) (sum_idx2 _)

theorem sumUpTo_ideal (X Y : Arr Ideal) (n : ℕ) (hn : n ≤ 28) :
    sumUpTo X Y n = ∑ b ∈ Finset.range n, if h : b < 28 then blkSq X Y ⟨b, h⟩ else 0 := by
  induction n with
  | zero => exact Ideal.ofBits_zero_f32
  | succ n ih =>
    have hlt : n < 28 := by omega
    rw [Finset.sum_range_succ, ← ih (by omega), dif_pos hlt]
    exact sumUpTo_step X Y ⟨n, hlt⟩

theorem cntUpTo_ideal (Y : Arr Ideal) (n : ℕ) (hn : n ≤ 28) :
    cntUpTo Y n = ∑ _b ∈ Finset.range n, ∑ _r : Fin 512, ∑ _c : Fin 2048, (1 : EReal) := by
  induction n with
  | zero => exact Ideal.ofBits_zero_f32
  | succ n ih =>
    have hlt : n < 28 := by omega
    rw [Finset.sum_range_succ, ← ih (by omega)]
    exact cntUpTo_step Y ⟨n, hlt⟩

/-- THE SUM at the ideal values: over the twenty-eight blocks, their 512 rows and the 2048 columns, the squared
    difference of the two operands at row `2048 + 512 b + r`, column `c`. -/
theorem tcSum_ideal (X Y : Arr Ideal) :
    tcSum X Y = ∑ b : Fin 28, ∑ r : Fin 512, ∑ c : Fin 2048,
      (X (rowIx b r c) - Y (rowIx b r c)) * (X (rowIx b r c) - Y (rowIx b r c)) := by
  show sumUpTo X Y 28 = _
  rw [sumUpTo_ideal X Y 28 le_rfl, Finset.sum_range]
  refine Finset.sum_congr rfl fun b _ => ?_
  rw [dif_pos b.isLt]
  rfl

/-- THE COUNT at the ideal values: one per element of those blocks. -/
theorem tcCnt_ideal (Y : Arr Ideal) : tcCnt Y = ∑ _b : Fin 28, ∑ _r : Fin 512, ∑ _c : Fin 2048, (1 : EReal) := by
  show cntUpTo Y 28 = _
  rw [cntUpTo_ideal Y 28 le_rfl, Finset.sum_range]

end Cert.Proof.TcRegion

end
-- ==== Proof.KernelEqReference.lean ====
/-
  The kernel's result is the reference's, with the block loop's sum and count read at the extended reals.

  The block loop's running sum, over its 28 blocks of 512 rows, is the sum of the squared differences at rows
  2048 … 16383, and its running count is the number of those entries; with the tiles' sums and counts over rows
  0 … 2047 the host's quotient is the mean squared difference of the whole arrays, the reference's result.
-/
import proofs.«210622_g27255862460721_cont_9to1_1214_20_alg».proof.Proof.KernelFinal
import proofs.«210622_g27255862460721_cont_9to1_1214_20_alg».proof.Proof.TcRegionIdeal

noncomputable section

open scoped BigOperators

namespace Cert.Proof.Algebra

open Idealize.ShloMosaic Idealize.ShloMosaic.ValueIdx Cert.KernelIdeal Cert.Proof.TileSpec Cert.Proof.TcRegion

/-- The block loop's sum in the form the join of the two parts takes. -/
theorem tcSum_sq (X T : FVec Ideal S16384x2048 .f32) :
    tcSum (F := Ideal) X T
      = ∑ b : Fin 28, ∑ r : Fin 512, ∑ c : Fin 2048, sq X T ⟨2048 + 512 * b.val + r.val, by omega⟩ c :=
  tcSum_ideal X T

/-- The kernel's host tail over what its two parts leave is the reference's result. -/
theorem kernel_eq_reference (a0 a1 : FVec Ideal S2x8192x2048 .f32) (hs : S2x8192x2048.ShapeCasts S16384x2048)
    (hr : S256.ReducesTo [0] S_) (h0 : 0 < S_.numel) (hc : S1.ShapeCasts S_) :
    Host.divf (F := Ideal)
        (addf (Host.reduceAdd (F := Ideal) (scS (shapeCast S16384x2048 a0 hs) (shapeCast S16384x2048 a1 hs))
            (constant (F := Ideal) S_ .f32 0x00000000#32) hr h0)
          (shapeCast S_ (fun _ : S1.Idx =>
            tcSum (F := Ideal) (shapeCast S16384x2048 a0 hs) (shapeCast S16384x2048 a1 hs)) hc))
        (addf (Host.reduceAdd (F := Ideal) (scC (shapeCast S16384x2048 a0 hs) (shapeCast S16384x2048 a1 hs))
            (constant (F := Ideal) S_ .f32 0x00000000#32) hr h0)
          (shapeCast S_ (fun _ : S1.Idx => tcCnt (F := Ideal) (shapeCast S16384x2048 a1 hs)) hc))
      = Cert.ReferenceIdeal.Read.val_main_v13 (F := Ideal) a0 a1 :=
  kernel_final a0 a1 hs hr h0 hc (tcSum_sq _ _) (tcCnt_ideal _)

end Cert.Proof.Algebra

end
-- ==== Proof.lean ====
/-
  The claim: the kernel — a SparseCore call in which sixteen vector subcores each sum, lane by lane, the squared differences and the
  counts over 128 rows of the two [16384,2048] arrays, followed by a TensorCore pipeline of 28 blocks of 512 rows accumulating the same
  two sums in two scalar cells, the host adding the parts and dividing — runs to the end on every weakly fair schedule with its
  arguments unchanged, at the word level and idealized; and, idealized, its result is the reference's: over the extended reals a value
  compares equal to itself, so nothing is masked on either side, both numerators are the sum of all 2·8192·2048 squared differences
  (addition of extended reals is commutative and associative: the kernel's lanes, rows, chunks, tiles and blocks only regroup it), and
  both denominators are 33554432, counted as a sum of ones by the kernel and as an integer sum by the reference.
-/
import proofs.«210622_g27255862460721_cont_9to1_1214_20_alg».proof.Defs
import proofs.«210622_g27255862460721_cont_9to1_1214_20_alg».proof.Proof.Gen.Kernel
import proofs.«210622_g27255862460721_cont_9to1_1214_20_alg».proof.Proof.Gen.KernelIdeal
import proofs.«210622_g27255862460721_cont_9to1_1214_20_alg».proof.Proof.Gen.ReferenceIdeal
import proofs.«210622_g27255862460721_cont_9to1_1214_20_alg».proof.Proof.Gen.Pre_finite_inputs
import proofs.«210622_g27255862460721_cont_9to1_1214_20_alg».proof.Proof.Gen.ReferenceIdeal.Run
import proofs.«210622_g27255862460721_cont_9to1_1214_20_alg».proof.Proof.Gen.ReferenceIdeal.Read
import proofs.«210622_g27255862460721_cont_9to1_1214_20_alg».proof.Proof.KIRun
import proofs.«210622_g27255862460721_cont_9to1_1214_20_alg».proof.Proof.KBRun
import proofs.«210622_g27255862460721_cont_9to1_1214_20_alg».proof.Proof.KernelEqReference
import Idealize.ShloMosaic.Adequacy
import Idealize.ShloMosaic.Init

noncomputable section

namespace Cert.Proof

open Idealize.ShloMosaic Idealize.SL.Sem

/-- The word-level kernel runs, its arguments unchanged. -/
theorem frame_K : Cert.frame_Kernel := fun m ρ _ =>
  (θ_run Cert.Kernel.defs _ _).mono (fun _ h c => ⟨(h c).1, (h c).2.1⟩) (Cert.Proof.KB.run_main (F := Bits) m ρ)

/-- The idealized kernel runs, its arguments unchanged. -/
theorem frame_KI : Cert.frame_KernelIdeal := fun m ρ _ =>
  (θ_run Cert.KernelIdeal.defs _ _).mono (fun _ h c => ⟨(h c).1, (h c).2.1⟩) (Cert.Proof.KI.run_main (F := Ideal) m ρ)

/-- The reference runs, its arguments unchanged: its generated run with the result dropped. -/
theorem frame_RI : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Idealized, the kernel's result is the reference's: both are the sum of all squared differences over 33554432. -/
theorem algebraic : Cert.algebraic_KernelIdeal_ReferenceIdeal := by
  intro m ρ m' ρ' _ hagree
  refine ⟨fun c => Cert.Proof.KI.kres (Cert.Proof.KI.X0 m c) (Cert.Proof.KI.Y0 m c),
    (θ_run Cert.KernelIdeal.defs _ _).mono (fun _ h c => ⟨(h c).2.2, (h c).1, (h c).2.1⟩) (Cert.Proof.KI.run_main (F := Ideal) m ρ), ?_⟩
  refine (θ_run Cert.ReferenceIdeal.defs _ _).mono (fun _ h c => ⟨?_, (h c).2⟩) (Cert.ReferenceIdeal.Value.run (F := Ideal) m' ρ')
  show _ = Cert.Proof.KI.kres (Cert.Proof.KI.X0 m c) (Cert.Proof.KI.Y0 m c)
  rw [(h c).1, Cert.ReferenceIdeal.Read.val_main_v13_eq, (hagree c).1, (hagree c).2, Cert.Proof.KI.X0_eq, Cert.Proof.KI.Y0_eq]
  unfold Cert.Proof.KI.kres
  exact (Cert.Proof.Algebra.kernel_eq_reference _ _ _ _ _ _).symm

theorem claim : Cert.Claim :=
  ⟨Cert.Kernel.Gen.facts, Cert.KernelIdeal.Gen.facts, Cert.ReferenceIdeal.Gen.facts, Cert.Pre_finite_inputs.Gen.facts,
    frame_K, frame_KI, frame_RI, preserves, algebraic⟩

end Cert.Proof

end
